-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v133)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S3x32x32 : Shape := ⟨3, ![3, 32, 32]⟩
abbrev S3x32 : Shape := ⟨2, ![3, 32]⟩
abbrev S4x32 : Shape := ⟨2, ![4, 32]⟩
abbrev S32x2 : Shape := ⟨2, ![32, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S3x32x32 : S_.BroadcastsInDim S3x32x32 (![] : Fin 0 → Fin S3x32x32.rank)
  reducesTo_S3x32x32_S_d0_1_2 : S3x32x32.ReducesTo [0, 1, 2] S_
  bcast_S_S3x32 : S_.BroadcastsInDim S3x32 (![] : Fin 0 → Fin S3x32.rank)
  reducesTo_S3x32_S_d0_1 : S3x32.ReducesTo [0, 1] S_
  bcast_S_S4x32 : S_.BroadcastsInDim S4x32 (![] : Fin 0 → Fin S4x32.rank)
  reducesTo_S4x32_S_d0_1 : S4x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S2 .f32) (main_v63 : IVec S_ 1) (main_v67 : IVec S_ 1) : IVec S_ 1 :=
  let main_v68 : IVec S_ 1 := andi main_v63 main_v67
  let main_v69 : FVec F S2 .f32 := Host.absf main_arg16
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg13 : FVec F S32x32 .f32) (main_arg14 : FVec F S32 .f32) (main_arg15 : FVec F S32x2 .f32) (main_arg16 : FVec F S2 .f32) (main_v48 : IVec S_ 1) (main_v49 : FVec F S4x32 .f32) (main_v50 : FVec F S4x32 .f32) : IVec S_ 1 :=
  let main_v51 : IVec S4x32 1 := cmpf .olt main_v49 main_v50
  let main_c_19 : IVec S_ 1 := constantI S_ 1 1#1
  let main_v52 : IVec S_ 1 := (fun x v => Host.reduce IntOp.andi x v reducesTo_S4x32_S_d0_1 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x2 .f32 := Host.absf main_arg15
  let main_cst_24 : FVec F S_ .f32 := constant S_ .f32 0x7F800000#32
  let main_v65 : FVec F S32x2 .f32 := broadcastInDim S32x2 ![] bcast_S_S32x2 main_cst_24
  let main_v66 : IVec S32x2 1 := cmpf .olt main_v64 main_v65
  let main_c_25 : IVec S_ 1 := constantI S_ 1 1#1
  let main_v67 : IVec S_ 1 := (fun x v => Host.reduce IntOp.andi x v reducesTo_S32x2_S_d0_1 h_S_) main_v66 main_c_25
  fn_part4 (F := F) main_arg16 main_v63 main_v67

def fn_part2 {F : FTy → Type} [FloatOps F] (main_arg9 : FVec F S3x32x32 .f32) (main_arg10 : FVec F S3x32 .f32) (main_arg11 : FVec F S4x32 .f32) (main_arg12 : FVec F S4x32 .f32) (main_arg13 : FVec F S32x32 .f32) (main_arg14 : FVec F S32 .f32) (main_arg15 : FVec F S32x2 .f32) (main_arg16 : FVec F S2 .f32) (main_v33 : IVec S_ 1) : IVec S_ 1 :=
  let main_v34 : FVec F S3x32x32 .f32 := Host.absf main_arg9
  let main_cst_12 : FVec F S_ .f32 := constant S_ .f32 0x7F800000#32
  let main_v35 : FVec F S3x32x32 .f32 := broadcastInDim S3x32x32 ![] bcast_S_S3x32x32 main_cst_12
  let main_v36 : IVec S3x32x32 1 := cmpf .olt main_v34 main_v35
  let main_c_13 : IVec S_ 1 := constantI S_ 1 1#1
  let main_v37 : IVec S_ 1 := (fun x v => Host.reduce IntOp.andi x v reducesTo_S3x32x32_S_d0_1_2 h_S_) main_v36 main_c_13
  let main_v38 : IVec S_ 1 := andi main_v33 main_v37
  let main_v39 : FVec F S3x32 .f32 := Host.absf main_arg10
  let main_cst_14 : FVec F S_ .f32 := constant S_ .f32 0x7F800000#32
  let main_v40 : FVec F S3x32 .f32 := broadcastInDim S3x32 ![] bcast_S_S3x32 main_cst_14
  let main_v41 : IVec S3x32 1 := cmpf .olt main_v39 main_v40
  let main_c_15 : IVec S_ 1 := constantI S_ 1 1#1
  let main_v42 : IVec S_ 1 := (fun x v => Host.reduce IntOp.andi x v reducesTo_S3x32_S_d0_1 h_S_) main_v41 main_c_15
  let main_v43 : IVec S_ 1 := andi main_v38 main_v42
  let main_v44 : FVec F S4x32 .f32 := Host.absf main_arg11
  let main_cst_16 : FVec F S_ .f32 := constant S_ .f32 0x7F800000#32
  let main_v45 : FVec F S4x32 .f32 := broadcastInDim S4x32 ![] bcast_S_S4x32 main_cst_16
  let main_v46 : IVec S4x32 1 := cmpf .olt main_v44 main_v45
  let main_c_17 : IVec S_ 1 := constantI S_ 1 1#1
  let main_v47 : IVec S_ 1 := (fun x v => Host.reduce IntOp.andi x v reducesTo_S4x32_S_d0_1 h_S_) main_v46 main_c_17
  let main_v48 : IVec S_ 1 := andi main_v43 main_v47
  let main_v49 : FVec F S4x32 .f32 := Host.absf main_arg12
  let main_cst_18 : FVec F S_ .f32 := constant S_ .f32 0x7F800000#32
  let main_v50 : FVec F S4x32 .f32 := broadcastInDim S4x32 ![] bcast_S_S4x32 main_cst_18
  fn_part3 (F := F) main_arg13 main_arg14 main_arg15 main_arg16 main_v48 main_v49 main_v50

def fn_part1 {F : FTy → Type} [FloatOps F] (main_arg6 : FVec F S32 .f32) (main_arg7 : FVec F S3x32x32 .f32) (main_arg8 : FVec F S3x32 .f32) (main_arg9 : FVec F S3x32x32 .f32) (main_arg10 : FVec F S3x32 .f32) (main_arg11 : FVec F S4x32 .f32) (main_arg12 : FVec F S4x32 .f32) (main_arg13 : FVec F S32x32 .f32) (main_arg14 : FVec F S32 .f32) (main_arg15 : FVec F S32x2 .f32) (main_arg16 : FVec F S2 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S3x32x32 .f32 := Host.absf main_arg7
  let main_cst_8 : FVec F S_ .f32 := constant S_ .f32 0x7F800000#32
  let main_v25 : FVec F S3x32x32 .f32 := broadcastInDim S3x32x32 ![] bcast_S_S3x32x32 main_cst_8
  let main_v26 : IVec S3x32x32 1 := cmpf .olt main_v24 main_v25
  let main_c_9 : IVec S_ 1 := constantI S_ 1 1#1
  let main_v27 : IVec S_ 1 := (fun x v => Host.reduce IntOp.andi x v reducesTo_S3x32x32_S_d0_1_2 h_S_) main_v26 main_c_9
  let main_v28 : IVec S_ 1 := andi main_v23 main_v27
  let main_v29 : FVec F S3x32 .f32 := Host.absf main_arg8
  let main_cst_10 : FVec F S_ .f32 := constant S_ .f32 0x7F800000#32
  let main_v30 : FVec F S3x32 .f32 := broadcastInDim S3x32 ![] bcast_S_S3x32 main_cst_10
  let main_v31 : IVec S3x32 1 := cmpf .olt main_v29 main_v30
  let main_c_11 : IVec S_ 1 := constantI S_ 1 1#1
  let main_v32 : IVec S_ 1 := (fun x v => Host.reduce IntOp.andi x v reducesTo_S3x32_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S2x1600000 32) (main_arg2 : IVec S100000 32) (main_arg3 : FVec F S128x32 .f32) (main_arg4 : FVec F S32 .f32) (main_arg5 : FVec F S32x32 .f32) (main_arg6 : FVec F S32 .f32) (main_arg7 : FVec F S3x32x32 .f32) (main_arg8 : FVec F S3x32 .f32) (main_arg9 : FVec F S3x32x32 .f32) (main_arg10 : FVec F S3x32 .f32) (main_arg11 : FVec F S4x32 .f32) (main_arg12 : FVec F S4x32 .f32) (main_arg13 : FVec F S32x32 .f32) (main_arg14 : FVec F S32 .f32) (main_arg15 : FVec F S32x2 .f32) (main_arg16 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S3x32x32 : Shape := ⟨3, ![3, 32, 32]⟩
abbrev S3x32 : Shape := ⟨2, ![3, 32]⟩
abbrev S4x32 : Shape := ⟨2, ![4, 32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x32 : Shape := ⟨2, ![1, 32]⟩
abbrev S100000x32 : Shape := ⟨2, ![100000, 32]⟩
abbrev S2000x128 : Shape := ⟨2, ![2000, 128]⟩
abbrev S2000x32 : Shape := ⟨2, ![2000, 32]⟩
abbrev S1600000x32 : Shape := ⟨2, ![1600000, 32]⟩
abbrev S1x32x32 : Shape := ⟨3, ![1, 32, 32]⟩
abbrev S256x32 : Shape := ⟨2, ![256, 32]⟩
abbrev S100000x1 : Shape := ⟨2, ![100000, 1]⟩
abbrev S1x2 : Shape := ⟨2, ![1, 2]⟩
abbrev S256x2 : Shape := ⟨2, ![256, 2]⟩
abbrev S256 : Shape := ⟨1, ![256]⟩
abbrev S256x1 : Shape := ⟨2, ![256, 1]⟩

abbrev nBuf : Space → Nat
  | .hbm => 264
  | .vmem => 78
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x32, .f32⟩
  | 4 => ⟨S32, .f32⟩
  | 5 => ⟨S32x32, .f32⟩
  | 6 => ⟨S32, .f32⟩
  | 7 => ⟨S3x32x32, .f32⟩
  | 8 => ⟨S3x32, .f32⟩
  | 9 => ⟨S3x32x32, .f32⟩
  | 10 => ⟨S3x32, .f32⟩
  | 11 => ⟨S4x32, .f32⟩
  | 12 => ⟨S4x32, .f32⟩
  | 13 => ⟨S32x32, .f32⟩
  | 14 => ⟨S32, .f32⟩
  | 15 => ⟨S32x2, .f32⟩
  | 16 => ⟨S2, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S1x32, .f32⟩
  | 35 => ⟨S1x32, .f32⟩
  | 36 => ⟨S100000x32, .f32⟩
  | 37 => ⟨S_, .f32⟩
  | 38 => ⟨S32, .f32⟩
  | 39 => ⟨S1x32, .f32⟩
  | 40 => ⟨S_, .f32⟩
  | 41 => ⟨S1x32, .f32⟩
  | 42 => ⟨S1x32, .f32⟩
  | 43 => ⟨S_, .i32⟩
  | 44 => ⟨S_, .f32⟩
  | 45 => ⟨S32, .f32⟩
  | 46 => ⟨S1x32, .f32⟩
  | 47 => ⟨S_, .f32⟩
  | 48 => ⟨S1x32, .f32⟩
  | 49 => ⟨S1x32, .f32⟩
  | 50 => ⟨S100000x32, .f32⟩
  | 51 => ⟨S100000x32, .f32⟩
  | 52 => ⟨S100000x32, .f32⟩
  | 53 => ⟨S_, .f32⟩
  | 54 => ⟨S_, .f32⟩
  | 55 => ⟨S_, .f32⟩
  | 56 => ⟨S_, .f32⟩
  | 57 => ⟨S32, .f32⟩
  | 58 => ⟨S1x32, .f32⟩
  | 59 => ⟨S1x32, .f32⟩
  | 60 => ⟨S1x32, .f32⟩
  | 61 => ⟨S_, .f32⟩
  | 62 => ⟨S_, .i1⟩
  | 63 => ⟨S_, .f32⟩
  | 64 => ⟨S_, .f32⟩
  | 65 => ⟨S1x32, .f32⟩
  | 66 => ⟨S1x32, .f32⟩
  | 67 => ⟨S1x32, .f32⟩
  | 68 => ⟨S32, .f32⟩
  | 69 => ⟨S1x32, .f32⟩
  | 70 => ⟨S1x32, .f32⟩
  | 71 => ⟨S32, .f32⟩
  | 72 => ⟨S1x32, .f32⟩
  | 73 => ⟨S100000x32, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x32, .f32⟩
  | 83 => ⟨S_, .f32⟩
  | 84 => ⟨S100000x32, .f32⟩
  | 85 => ⟨S1600000x1, .i32⟩
  | 86 => ⟨S100000x32, .f32⟩
  | 87 => ⟨S1x32x32, .f32⟩
  | 88 => ⟨S32x32, .f32⟩
  | 89 => ⟨S1x32, .f32⟩
  | 90 => ⟨S32, .f32⟩
  | 91 => ⟨S1x32, .f32⟩
  | 92 => ⟨S1x32x32, .f32⟩
  | 93 => ⟨S32x32, .f32⟩
  | 94 => ⟨S1x32, .f32⟩
  | 95 => ⟨S32, .f32⟩
  | 96 => ⟨S1x32, .f32⟩
  | 97 => ⟨S100000x32, .f32⟩
  | 98 => ⟨S_, .f32⟩
  | 99 => ⟨S32, .f32⟩
  | 100 => ⟨S1x32, .f32⟩
  | 101 => ⟨S_, .f32⟩
  | 102 => ⟨S1x32, .f32⟩
  | 103 => ⟨S1x32, .f32⟩
  | 104 => ⟨S_, .i32⟩
  | 105 => ⟨S_, .f32⟩
  | 106 => ⟨S32, .f32⟩
  | 107 => ⟨S1x32, .f32⟩
  | 108 => ⟨S_, .f32⟩
  | 109 => ⟨S1x32, .f32⟩
  | 110 => ⟨S1x32, .f32⟩
  | 111 => ⟨S100000x32, .f32⟩
  | 112 => ⟨S100000x32, .f32⟩
  | 113 => ⟨S100000x32, .f32⟩
  | 114 => ⟨S_, .f32⟩
  | 115 => ⟨S_, .f32⟩
  | 116 => ⟨S_, .f32⟩
  | 117 => ⟨S_, .f32⟩
  | 118 => ⟨S32, .f32⟩
  | 119 => ⟨S1x32, .f32⟩
  | 120 => ⟨S1x32, .f32⟩
  | 121 => ⟨S1x32, .f32⟩
  | 122 => ⟨S_, .f32⟩
  | 123 => ⟨S_, .i1⟩
  | 124 => ⟨S_, .f32⟩
  | 125 => ⟨S_, .f32⟩
  | 126 => ⟨S1x32, .f32⟩
  | 127 => ⟨S1x32, .f32⟩
  | _ => ⟨S100000x128, .f32⟩

abbrev hbmTy0_1 (i : Nat) : BufTy := match i % 128 with
  | 0 => ⟨S1x32, .f32⟩
  | 1 => ⟨S32, .f32⟩
  | 2 => ⟨S1x32, .f32⟩
  | 3 => ⟨S1x32, .f32⟩
  | 4 => ⟨S32, .f32⟩
  | 5 => ⟨S1x32, .f32⟩
  | 6 => ⟨S100000x32, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x32, .f32⟩
  | 16 => ⟨S_, .f32⟩
  | 17 => ⟨S100000x32, .f32⟩
  | 18 => ⟨S1600000x1, .i32⟩
  | 19 => ⟨S100000x32, .f32⟩
  | 20 => ⟨S1x32x32, .f32⟩
  | 21 => ⟨S32x32, .f32⟩
  | 22 => ⟨S1x32, .f32⟩
  | 23 => ⟨S32, .f32⟩
  | 24 => ⟨S1x32, .f32⟩
  | 25 => ⟨S1x32x32, .f32⟩
  | 26 => ⟨S32x32, .f32⟩
  | 27 => ⟨S1x32, .f32⟩
  | 28 => ⟨S32, .f32⟩
  | 29 => ⟨S1x32, .f32⟩
  | 30 => ⟨S100000x32, .f32⟩
  | 31 => ⟨S_, .f32⟩
  | 32 => ⟨S32, .f32⟩
  | 33 => ⟨S1x32, .f32⟩
  | 34 => ⟨S_, .f32⟩
  | 35 => ⟨S1x32, .f32⟩
  | 36 => ⟨S1x32, .f32⟩
  | 37 => ⟨S_, .i32⟩
  | 38 => ⟨S_, .f32⟩
  | 39 => ⟨S32, .f32⟩
  | 40 => ⟨S1x32, .f32⟩
  | 41 => ⟨S_, .f32⟩
  | 42 => ⟨S1x32, .f32⟩
  | 43 => ⟨S1x32, .f32⟩
  | 44 => ⟨S100000x32, .f32⟩
  | 45 => ⟨S100000x32, .f32⟩
  | 46 => ⟨S100000x32, .f32⟩
  | 47 => ⟨S_, .f32⟩
  | 48 => ⟨S_, .f32⟩
  | 49 => ⟨S_, .f32⟩
  | 50 => ⟨S_, .f32⟩
  | 51 => ⟨S32, .f32⟩
  | 52 => ⟨S1x32, .f32⟩
  | 53 => ⟨S1x32, .f32⟩
  | 54 => ⟨S1x32, .f32⟩
  | 55 => ⟨S_, .f32⟩
  | 56 => ⟨S_, .i1⟩
  | 57 => ⟨S_, .f32⟩
  | 58 => ⟨S_, .f32⟩
  | 59 => ⟨S1x32, .f32⟩
  | 60 => ⟨S1x32, .f32⟩
  | 61 => ⟨S1x32, .f32⟩
  | 62 => ⟨S32, .f32⟩
  | 63 => ⟨S1x32, .f32⟩
  | 64 => ⟨S1x32, .f32⟩
  | 65 => ⟨S32, .f32⟩
  | 66 => ⟨S1x32, .f32⟩
  | 67 => ⟨S100000x32, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x32, .f32⟩
  | 77 => ⟨S_, .f32⟩
  | 78 => ⟨S100000x32, .f32⟩
  | 79 => ⟨S1600000x1, .i32⟩
  | 80 => ⟨S100000x32, .f32⟩
  | 81 => ⟨S1x32x32, .f32⟩
  | 82 => ⟨S32x32, .f32⟩
  | 83 => ⟨S1x32, .f32⟩
  | 84 => ⟨S32, .f32⟩
  | 85 => ⟨S1x32, .f32⟩
  | 86 => ⟨S1x32x32, .f32⟩
  | 87 => ⟨S32x32, .f32⟩
  | 88 => ⟨S1x32, .f32⟩
  | 89 => ⟨S32, .f32⟩
  | 90 => ⟨S1x32, .f32⟩
  | 91 => ⟨S100000x32, .f32⟩
  | 92 => ⟨S_, .f32⟩
  | 93 => ⟨S32, .f32⟩
  | 94 => ⟨S1x32, .f32⟩
  | 95 => ⟨S_, .f32⟩
  | 96 => ⟨S1x32, .f32⟩
  | 97 => ⟨S1x32, .f32⟩
  | 98 => ⟨S_, .i32⟩
  | 99 => ⟨S_, .f32⟩
  | 100 => ⟨S32, .f32⟩
  | 101 => ⟨S1x32, .f32⟩
  | 102 => ⟨S_, .f32⟩
  | 103 => ⟨S1x32, .f32⟩
  | 104 => ⟨S1x32, .f32⟩
  | 105 => ⟨S100000x32, .f32⟩
  | 106 => ⟨S100000x32, .f32⟩
  | 107 => ⟨S100000x32, .f32⟩
  | 108 => ⟨S_, .f32⟩
  | 109 => ⟨S_, .f32⟩
  | 110 => ⟨S_, .f32⟩
  | 111 => ⟨S_, .f32⟩
  | 112 => ⟨S32, .f32⟩
  | 113 => ⟨S1x32, .f32⟩
  | 114 => ⟨S1x32, .f32⟩
  | 115 => ⟨S1x32, .f32⟩
  | 116 => ⟨S_, .f32⟩
  | 117 => ⟨S_, .i1⟩
  | 118 => ⟨S_, .f32⟩
  | 119 => ⟨S_, .f32⟩
  | 120 => ⟨S1x32, .f32⟩
  | 121 => ⟨S1x32, .f32⟩
  | 122 => ⟨S1x32, .f32⟩
  | 123 => ⟨S32, .f32⟩
  | 124 => ⟨S1x32, .f32⟩
  | 125 => ⟨S1x32, .f32⟩
  | 126 => ⟨S32, .f32⟩
  | 127 => ⟨S1x32, .f32⟩
  | _ => ⟨S100000x128, .f32⟩

abbrev hbmTy0_2 (i : Nat) : BufTy := match i % 128 with
  | 0 => ⟨S100000x32, .f32⟩
  | 1 => ⟨S_, .f32⟩
  | 2 => ⟨S256x32, .f32⟩
  | 3 => ⟨S100000x1, .i32⟩
  | 4 => ⟨S256x32, .f32⟩
  | 5 => ⟨S1x32, .f32⟩
  | 6 => ⟨S1x2, .f32⟩
  | 7 => ⟨S256x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S1x32, .f32⟩
  | .local _ .vmem, ⟨13, _⟩ => ⟨S1x32, .f32⟩
  | .local _ .vmem, ⟨14, _⟩ => ⟨S1x32, .f32⟩
  | .local _ .vmem, ⟨15, _⟩ => ⟨S1x32, .f32⟩
  | .local _ .vmem, ⟨16, _⟩ => ⟨S2000x32, .f32⟩
  | .local _ .vmem, ⟨17, _⟩ => ⟨S2000x32, .f32⟩
  | .local _ .vmem, ⟨18, _⟩ => ⟨S2000x32, .f32⟩
  | .local _ .vmem, ⟨19, _⟩ => ⟨S2000x32, .f32⟩
  | .local _ .vmem, ⟨20, _⟩ => ⟨S2000x32, .f32⟩
  | .local _ .vmem, ⟨21, _⟩ => ⟨S2000x32, .f32⟩
  | .local _ .vmem, ⟨22, _⟩ => ⟨S32x32, .f32⟩
  | .local _ .vmem, ⟨23, _⟩ => ⟨S1x32, .f32⟩
  | .local _ .vmem, ⟨24, _⟩ => ⟨S32x32, .f32⟩
  | .local _ .vmem, ⟨25, _⟩ => ⟨S1x32, .f32⟩
  | .local _ .vmem, ⟨26, _⟩ => ⟨S2000x32, .f32⟩
  | .local _ .vmem, ⟨27, _⟩ => ⟨S2000x32, .f32⟩
  | .local _ .vmem, ⟨28, _⟩ => ⟨S2000x32, .f32⟩
  | .local _ .vmem, ⟨29, _⟩ => ⟨S2000x32, .f32⟩
  | .local _ .vmem, ⟨30, _⟩ => ⟨S1x32, .f32⟩
  | .local _ .vmem, ⟨31, _⟩ => ⟨S1x32, .f32⟩
  | .local _ .vmem, ⟨32, _⟩ => ⟨S1x32, .f32⟩
  | .local _ .vmem, ⟨33, _⟩ => ⟨S1x32, .f32⟩
  | .local _ .vmem, ⟨34, _⟩ => ⟨S2000x32, .f32⟩
  | .local _ .vmem, ⟨35, _⟩ => ⟨S2000x32, .f32⟩
  | .local _ .vmem, ⟨36, _⟩ => ⟨S2000x32, .f32⟩
  | .local _ .vmem, ⟨37, _⟩ => ⟨S2000x32, .f32⟩
  | .local _ .vmem, ⟨38, _⟩ => ⟨S2000x32, .f32⟩
  | .local _ .vmem, ⟨39, _⟩ => ⟨S2000x32, .f32⟩
  | .local _ .vmem, ⟨40, _⟩ => ⟨S32x32, .f32⟩
  | .local _ .vmem, ⟨41, _⟩ => ⟨S1x32, .f32⟩
  | .local _ .vmem, ⟨42, _⟩ => ⟨S32x32, .f32⟩
  | .local _ .vmem, ⟨43, _⟩ => ⟨S1x32, .f32⟩
  | .local _ .vmem, ⟨44, _⟩ => ⟨S2000x32, .f32⟩
  | .local _ .vmem, ⟨45, _⟩ => ⟨S2000x32, .f32⟩
  | .local _ .vmem, ⟨46, _⟩ => ⟨S2000x32, .f32⟩
  | .local _ .vmem, ⟨47, _⟩ => ⟨S2000x32, .f32⟩
  | .local _ .vmem, ⟨48, _⟩ => ⟨S1x32, .f32⟩
  | .local _ .vmem, ⟨49, _⟩ => ⟨S1x32, .f32⟩
  | .local _ .vmem, ⟨50, _⟩ => ⟨S1x32, .f32⟩
  | .local _ .vmem, ⟨51, _⟩ => ⟨S1x32, .f32⟩
  | .local _ .vmem, ⟨52, _⟩ => ⟨S2000x32, .f32⟩
  | .local _ .vmem, ⟨53, _⟩ => ⟨S2000x32, .f32⟩
  | .local _ .vmem, ⟨54, _⟩ => ⟨S2000x32, .f32⟩
  | .local _ .vmem, ⟨55, _⟩ => ⟨S2000x32, .f32⟩
  | .local _ .vmem, ⟨56, _⟩ => ⟨S2000x32, .f32⟩
  | .local _ .vmem, ⟨57, _⟩ => ⟨S2000x32, .f32⟩
  | .local _ .vmem, ⟨58, _⟩ => ⟨S32x32, .f32⟩
  | .local _ .vmem, ⟨59, _⟩ => ⟨S1x32, .f32⟩
  | .local _ .vmem, ⟨60, _⟩ => ⟨S32x32, .f32⟩
  | .local _ .vmem, ⟨61, _⟩ => ⟨S1x32, .f32⟩
  | .local _ .vmem, ⟨62, _⟩ => ⟨S2000x32, .f32⟩
  | .local _ .vmem, ⟨63, _⟩ => ⟨S2000x32, .f32⟩
  | .local _ .vmem, ⟨64, _⟩ => ⟨S2000x32, .f32⟩
  | .local _ .vmem, ⟨65, _⟩ => ⟨S2000x32, .f32⟩
  | .local _ .vmem, ⟨66, _⟩ => ⟨S1x32, .f32⟩
  | .local _ .vmem, ⟨67, _⟩ => ⟨S1x32, .f32⟩
  | .local _ .vmem, ⟨68, _⟩ => ⟨S1x32, .f32⟩
  | .local _ .vmem, ⟨69, _⟩ => ⟨S1x32, .f32⟩
  | .local _ .vmem, ⟨70, _⟩ => ⟨S2000x32, .f32⟩
  | .local _ .vmem, ⟨71, _⟩ => ⟨S2000x32, .f32⟩
  | .local _ .vmem, ⟨72, _⟩ => ⟨S256x32, .f32⟩
  | .local _ .vmem, ⟨73, _⟩ => ⟨S32x32, .f32⟩
  | .local _ .vmem, ⟨74, _⟩ => ⟨S1x32, .f32⟩
  | .local _ .vmem, ⟨75, _⟩ => ⟨S32x2, .f32⟩
  | .local _ .vmem, ⟨76, _⟩ => ⟨S1x2, .f32⟩
  | .local _ .vmem, ⟨77, _⟩ => ⟨S256x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_c_3 : Ref sig .tc := ⟨.hbm, 43, rfl⟩
abbrev main_call0_cst : Ref sig .tc := ⟨.hbm, 44, rfl⟩
abbrev main_call0_v0 : Ref sig .tc := ⟨.hbm, 45, rfl⟩
abbrev main_call0_v1 : Ref sig .tc := ⟨.hbm, 46, rfl⟩
abbrev main_call0_cst_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_cst_1 : Ref sig .tc := ⟨.hbm, 54, rfl⟩
abbrev main_call0_v8 : Ref sig .tc := ⟨.hbm, 55, rfl⟩
abbrev main_call0_cst_2 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_v12 : Ref sig .tc := ⟨.hbm, 60, rfl⟩
abbrev main_call0_cst_3 : Ref sig .tc := ⟨.hbm, 61, rfl⟩
abbrev main_call0_v13 : Ref sig .tc := ⟨.hbm, 62, rfl⟩
abbrev main_call0_cst_4 : Ref sig .tc := ⟨.hbm, 63, rfl⟩
abbrev main_call0_call0_v0 : Ref sig .tc := ⟨.hbm, 64, rfl⟩
abbrev main_call0_call0_v1 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_c_4 : Ref sig .tc := ⟨.hbm, 74, rfl⟩
abbrev main_v29 : Ref sig .tc := ⟨.hbm, 75, rfl⟩
abbrev main_v30 : Ref sig .tc := ⟨.hbm, 76, rfl⟩
abbrev main_c_5 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_6 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_cst_7 : Ref sig .tc := ⟨.hbm, 98, rfl⟩
abbrev main_v50 : Ref sig .tc := ⟨.hbm, 99, rfl⟩
abbrev main_v51 : Ref sig .tc := ⟨.hbm, 100, rfl⟩
abbrev main_cst_8 : Ref sig .tc := ⟨.hbm, 101, rfl⟩
abbrev main_v52 : Ref sig .tc := ⟨.hbm, 102, rfl⟩
abbrev main_v53 : Ref sig .tc := ⟨.hbm, 103, rfl⟩
abbrev main_c_9 : Ref sig .tc := ⟨.hbm, 104, rfl⟩
abbrev main_call1_cst : Ref sig .tc := ⟨.hbm, 105, rfl⟩
abbrev main_call1_v0 : Ref sig .tc := ⟨.hbm, 106, rfl⟩
abbrev main_call1_v1 : Ref sig .tc := ⟨.hbm, 107, rfl⟩
abbrev main_call1_cst_0 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_v7 : Ref sig .tc := ⟨.hbm, 114, rfl⟩
abbrev main_call1_cst_1 : Ref sig .tc := ⟨.hbm, 115, rfl⟩
abbrev main_call1_v8 : Ref sig .tc := ⟨.hbm, 116, rfl⟩
abbrev main_call1_cst_2 : Ref sig .tc := ⟨.hbm, 117, rfl⟩
abbrev main_call1_v9 : Ref sig .tc := ⟨.hbm, 118, rfl⟩
abbrev main_call1_v10 : Ref sig .tc := ⟨.hbm, 119, rfl⟩
abbrev main_call1_v11 : Ref sig .tc := ⟨.hbm, 120, rfl⟩
abbrev main_call1_v12 : Ref sig .tc := ⟨.hbm, 121, rfl⟩
abbrev main_call1_cst_3 : Ref sig .tc := ⟨.hbm, 122, rfl⟩
abbrev main_call1_v13 : Ref sig .tc := ⟨.hbm, 123, rfl⟩
abbrev main_call1_cst_4 : Ref sig .tc := ⟨.hbm, 124, rfl⟩
abbrev main_call1_call0_v0 : Ref sig .tc := ⟨.hbm, 125, rfl⟩
abbrev main_call1_call0_v1 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_c_10 : Ref sig .tc := ⟨.hbm, 135, rfl⟩
abbrev main_v62 : Ref sig .tc := ⟨.hbm, 136, rfl⟩
abbrev main_v63 : Ref sig .tc := ⟨.hbm, 137, rfl⟩
abbrev main_c_11 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_cst_12 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_cst_13 : Ref sig .tc := ⟨.hbm, 159, rfl⟩
abbrev main_v83 : Ref sig .tc := ⟨.hbm, 160, rfl⟩
abbrev main_v84 : Ref sig .tc := ⟨.hbm, 161, rfl⟩
abbrev main_cst_14 : Ref sig .tc := ⟨.hbm, 162, rfl⟩
abbrev main_v85 : Ref sig .tc := ⟨.hbm, 163, rfl⟩
abbrev main_v86 : Ref sig .tc := ⟨.hbm, 164, rfl⟩
abbrev main_c_15 : Ref sig .tc := ⟨.hbm, 165, rfl⟩
abbrev main_call2_cst : Ref sig .tc := ⟨.hbm, 166, rfl⟩
abbrev main_call2_v0 : Ref sig .tc := ⟨.hbm, 167, rfl⟩
abbrev main_call2_v1 : Ref sig .tc := ⟨.hbm, 168, rfl⟩
abbrev main_call2_cst_0 : Ref sig .tc := ⟨.hbm, 169, rfl⟩
abbrev main_call2_v2 : Ref sig .tc := ⟨.hbm, 170, rfl⟩
abbrev main_call2_v3 : Ref sig .tc := ⟨.hbm, 171, rfl⟩
abbrev main_call2_v4 : Ref sig .tc := ⟨.hbm, 172, rfl⟩
abbrev main_call2_v5 : Ref sig .tc := ⟨.hbm, 173, rfl⟩
abbrev main_call2_v6 : Ref sig .tc := ⟨.hbm, 174, rfl⟩
abbrev main_call2_v7 : Ref sig .tc := ⟨.hbm, 175, rfl⟩
abbrev main_call2_cst_1 : Ref sig .tc := ⟨.hbm, 176, rfl⟩
abbrev main_call2_v8 : Ref sig .tc := ⟨.hbm, 177, rfl⟩
abbrev main_call2_cst_2 : Ref sig .tc := ⟨.hbm, 178, rfl⟩
abbrev main_call2_v9 : Ref sig .tc := ⟨.hbm, 179, rfl⟩
abbrev main_call2_v10 : Ref sig .tc := ⟨.hbm, 180, rfl⟩
abbrev main_call2_v11 : Ref sig .tc := ⟨.hbm, 181, rfl⟩
abbrev main_call2_v12 : Ref sig .tc := ⟨.hbm, 182, rfl⟩
abbrev main_call2_cst_3 : Ref sig .tc := ⟨.hbm, 183, rfl⟩
abbrev main_call2_v13 : Ref sig .tc := ⟨.hbm, 184, rfl⟩
abbrev main_call2_cst_4 : Ref sig .tc := ⟨.hbm, 185, rfl⟩
abbrev main_call2_call0_v0 : Ref sig .tc := ⟨.hbm, 186, rfl⟩
abbrev main_call2_call0_v1 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_c_16 : Ref sig .tc := ⟨.hbm, 196, rfl⟩
abbrev main_v95 : Ref sig .tc := ⟨.hbm, 197, rfl⟩
abbrev main_v96 : Ref sig .tc := ⟨.hbm, 198, rfl⟩
abbrev main_c_17 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_cst_18 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_v105 : Ref sig .tc := ⟨.hbm, 209, rfl⟩
abbrev main_v106 : Ref sig .tc := ⟨.hbm, 210, rfl⟩
abbrev main_v107 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_v115 : Ref sig .tc := ⟨.hbm, 219, rfl⟩
abbrev main_cst_19 : Ref sig .tc := ⟨.hbm, 220, rfl⟩
abbrev main_v116 : Ref sig .tc := ⟨.hbm, 221, rfl⟩
abbrev main_v117 : Ref sig .tc := ⟨.hbm, 222, rfl⟩
abbrev main_cst_20 : Ref sig .tc := ⟨.hbm, 223, rfl⟩
abbrev main_v118 : Ref sig .tc := ⟨.hbm, 224, rfl⟩
abbrev main_v119 : Ref sig .tc := ⟨.hbm, 225, rfl⟩
abbrev main_c_21 : Ref sig .tc := ⟨.hbm, 226, rfl⟩
abbrev main_call3_cst : Ref sig .tc := ⟨.hbm, 227, rfl⟩
abbrev main_call3_v0 : Ref sig .tc := ⟨.hbm, 228, rfl⟩
abbrev main_call3_v1 : Ref sig .tc := ⟨.hbm, 229, rfl⟩
abbrev main_call3_cst_0 : Ref sig .tc := ⟨.hbm, 230, rfl⟩
abbrev main_call3_v2 : Ref sig .tc := ⟨.hbm, 231, rfl⟩
abbrev main_call3_v3 : Ref sig .tc := ⟨.hbm, 232, rfl⟩
abbrev main_call3_v4 : Ref sig .tc := ⟨.hbm, 233, rfl⟩
abbrev main_call3_v5 : Ref sig .tc := ⟨.hbm, 234, rfl⟩
abbrev main_call3_v6 : Ref sig .tc := ⟨.hbm, 235, rfl⟩
abbrev main_call3_v7 : Ref sig .tc := ⟨.hbm, 236, rfl⟩
abbrev main_call3_cst_1 : Ref sig .tc := ⟨.hbm, 237, rfl⟩
abbrev main_call3_v8 : Ref sig .tc := ⟨.hbm, 238, rfl⟩
abbrev main_call3_cst_2 : Ref sig .tc := ⟨.hbm, 239, rfl⟩
abbrev main_call3_v9 : Ref sig .tc := ⟨.hbm, 240, rfl⟩
abbrev main_call3_v10 : Ref sig .tc := ⟨.hbm, 241, rfl⟩
abbrev main_call3_v11 : Ref sig .tc := ⟨.hbm, 242, rfl⟩
abbrev main_call3_v12 : Ref sig .tc := ⟨.hbm, 243, rfl⟩
abbrev main_call3_cst_3 : Ref sig .tc := ⟨.hbm, 244, rfl⟩
abbrev main_call3_v13 : Ref sig .tc := ⟨.hbm, 245, rfl⟩
abbrev main_call3_cst_4 : Ref sig .tc := ⟨.hbm, 246, rfl⟩
abbrev main_call3_call0_v0 : Ref sig .tc := ⟨.hbm, 247, rfl⟩
abbrev main_call3_call0_v1 : Ref sig .tc := ⟨.hbm, 248, rfl⟩
abbrev main_v120 : Ref sig .tc := ⟨.hbm, 249, rfl⟩
abbrev main_v121 : Ref sig .tc := ⟨.hbm, 250, rfl⟩
abbrev main_v122 : Ref sig .tc := ⟨.hbm, 251, rfl⟩
abbrev main_v123 : Ref sig .tc := ⟨.hbm, 252, rfl⟩
abbrev main_v124 : Ref sig .tc := ⟨.hbm, 253, rfl⟩
abbrev main_v125 : Ref sig .tc := ⟨.hbm, 254, rfl⟩
abbrev main_v126 : Ref sig .tc := ⟨.hbm, 255, rfl⟩
abbrev main_v127 : Ref sig .tc := ⟨.hbm, 256, rfl⟩
abbrev main_cst_22 : Ref sig .tc := ⟨.hbm, 257, rfl⟩
abbrev main_v128 : Ref sig .tc := ⟨.hbm, 258, rfl⟩
abbrev main_v129 : Ref sig .tc := ⟨.hbm, 259, rfl⟩
abbrev main_v130 : Ref sig .tc := ⟨.hbm, 260, rfl⟩
abbrev main_v131 : Ref sig .tc := ⟨.hbm, 261, rfl⟩
abbrev main_v132 : Ref sig .tc := ⟨.hbm, 262, rfl⟩
abbrev main_v133 : Ref sig .tc := ⟨.hbm, 263, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg1_1 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg6_0 : Ref sig .tc := ⟨.vmem, 62, rfl⟩
abbrev cc6_stg6_1 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg2_0 : Ref sig .tc := ⟨.vmem, 67, rfl⟩
abbrev cc7_stg3_0 : Ref sig .tc := ⟨.vmem, 68, rfl⟩
abbrev cc7_stg4_0 : Ref sig .tc := ⟨.vmem, 69, rfl⟩
abbrev cc7_stg5_0 : Ref sig .tc := ⟨.vmem, 70, rfl⟩
abbrev cc7_stg5_1 : Ref sig .tc := ⟨.vmem, 71, rfl⟩
abbrev cc8_stg0_0 : Ref sig .tc := ⟨.vmem, 72, rfl⟩
abbrev cc8_stg1_0 : Ref sig .tc := ⟨.vmem, 73, rfl⟩
abbrev cc8_stg2_0 : Ref sig .tc := ⟨.vmem, 74, rfl⟩
abbrev cc8_stg3_0 : Ref sig .tc := ⟨.vmem, 75, rfl⟩
abbrev cc8_stg4_0 : Ref sig .tc := ⟨.vmem, 76, rfl⟩
abbrev cc8_stg5_0 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem6_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem6_0 : DmaSem sig := 62
abbrev cc6_sem6_1 : DmaSem sig := 63
abbrev cc7_sem0_0 : DmaSem sig := 64
abbrev cc7_sem0_1 : DmaSem sig := 65
abbrev cc7_sem1_0 : DmaSem sig := 66
abbrev cc7_sem2_0 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem1_0 : DmaSem sig := 73
abbrev cc8_sem2_0 : DmaSem sig := 74
abbrev cc8_sem3_0 : DmaSem sig := 75
abbrev cc8_sem4_0 : DmaSem sig := 76
abbrev cc8_sem5_0 : DmaSem sig := 77

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x32 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x32 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S32x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S32x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x32 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x32 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x32 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x32 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S256x32 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S32x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S32x2 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x2 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S256x2 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S32_S1x32 : S32.ShapeCasts S1x32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x32_S32x32_0_0 : ∀ a, (![0, 0] : Fin 2 → Nat) a + S32x32.size a ≤ S32x32.size a
  h_S32x32 : 0 < S32x32.numel
  inb_S2000x32_S2000x32_0_0 : ∀ a, (![0, 0] : Fin 2 → Nat) a + S2000x32.size a ≤ S2000x32.size a
  h_S2000x32 : 0 < S2000x32.numel
  reducesTo_S100000x32_S32_d0 : S100000x32.ReducesTo [0] S32
  h_S_ : 0 < S_.numel
  bcast_S32_S1x32_1 : S32.BroadcastsInDim S1x32 (![1] : Fin 1 → Fin S1x32.rank)
  bcast_S_S1x32 : S_.BroadcastsInDim S1x32 (![] : Fin 0 → Fin S1x32.rank)
  bcast_S1x32_S100000x32_0_1 : S1x32.BroadcastsInDim S100000x32 (![0, 1] : Fin 2 → Fin S100000x32.rank)
  slices_S4x32_S1x32_0_0 : S4x32.Slices ![0, 0] S1x32
  shapeCasts_S1x32_S32 : S1x32.ShapeCasts S32
  shapeCasts_S2000x32_S2000x32 : S2000x32.ShapeCasts S2000x32
  bcast_S_S100000x32 : S_.BroadcastsInDim S100000x32 (![] : Fin 0 → Fin S100000x32.rank)
  slices_S3x32x32_S1x32x32_0_0_0 : S3x32x32.Slices ![0, 0, 0] S1x32x32
  shapeCasts_S1x32x32_S32x32 : S1x32x32.ShapeCasts S32x32
  slices_S3x32_S1x32_0_0 : S3x32.Slices ![0, 0] S1x32
  shapeCasts_S32x32_S32x32 : S32x32.ShapeCasts S32x32
  slices_S4x32_S1x32_1_0 : S4x32.Slices ![1, 0] S1x32
  slices_S3x32x32_S1x32x32_1_0_0 : S3x32x32.Slices ![1, 0, 0] S1x32x32
  slices_S3x32_S1x32_1_0 : S3x32.Slices ![1, 0] S1x32
  slices_S4x32_S1x32_2_0 : S4x32.Slices ![2, 0] S1x32
  slices_S3x32x32_S1x32x32_2_0_0 : S3x32x32.Slices ![2, 0, 0] S1x32x32
  slices_S3x32_S1x32_2_0 : S3x32.Slices ![2, 0] S1x32
  slices_S4x32_S1x32_3_0 : S4x32.Slices ![3, 0] S1x32
  bcast_S_S256x32 : S_.BroadcastsInDim S256x32 (![] : Fin 0 → Fin S256x32.rank)
  bcast_S100000_S100000x1_0 : S100000.BroadcastsInDim S100000x1 (![0] : Fin 1 → Fin S100000x1.rank)
  shapeCasts_S2_S1x2 : S2.ShapeCasts S1x2
  inb_S256x32_S256x32_0_0 : ∀ a, (![0, 0] : Fin 2 → Nat) a + S256x32.size a ≤ S256x32.size a
  h_S256x32 : 0 < S256x32.numel
  shapeCasts_S256x32_S256x32 : S256x32.ShapeCasts S256x32
  broadcasts_S1x32_S256x32 : S1x32.Broadcasts S256x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  reduces_S256x2_S256 : S256x2.Reduces [1] S256
  shapeCasts_S256_S256x1 : S256.ShapeCasts S256x1
  broadcasts_S256x1_S256x2 : S256x1.Broadcasts S256x2
  inb_S256x2_S256x2_0_0 : ∀ a, (![0, 0] : Fin 2 → Nat) a + S256x2.size a ≤ S256x2.size a
  h_S256x2 : 0 < S256x2.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x32_S2000x32_1_0_0_1_n_n_wf : DotDims.WF S2000x128 S128x32 S2000x32 [1] [0] [0] [1] [] []
  dot_S2000x32_S32x32_S2000x32_1_0_0_1_n_n_wf : DotDims.WF S2000x32 S32x32 S2000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S256x32_S100000x1_S100000x32_1_0_0_1_wf : ScatterDims.WF S256x32 S100000x1 S100000x32 [1] [0] [0] 1
  dot_S256x32_S32x32_S256x32_1_0_0_1_n_n_wf : DotDims.WF S256x32 S32x32 S256x32 [1] [0] [0] [1] [] []
  dot_S256x32_S32x2_S256x2_1_0_0_1_n_n_wf : DotDims.WF S256x32 S32x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x32.size a ≤ S100000x32.size a
  hwx0_6 : ∀ i : grid0.Coords, EltTy.bits .f32 = 32 ∨ (Rect.block (s := S100000x32) S2000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x32.size a ≤ S100000x32.size a
  hwx1_5 : ∀ i : grid1.Coords, EltTy.bits .f32 = 32 ∨ (Rect.block (s := S100000x32) S2000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x32.size a ≤ S100000x32.size a
  hwx2_1 : ∀ i : grid2.Coords, EltTy.bits .f32 = 32 ∨ (Rect.block (s := S100000x32) S2000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x32.size a ≤ S100000x32.size a
  hwx2_6 : ∀ i : grid2.Coords, EltTy.bits .f32 = 32 ∨ (Rect.block (s := S100000x32) S2000x32.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x32.size a ≤ S100000x32.size a
  hwx3_5 : ∀ i : grid3.Coords, EltTy.bits .f32 = 32 ∨ (Rect.block (s := S100000x32) S2000x32.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S100000x32.size a
  hwx4_0 : ∀ i : grid4.Coords, EltTy.bits .f32 = 32 ∨ (Rect.block (s := S100000x32) S2000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x32.size a ≤ S100000x32.size a
  hwx4_1 : ∀ i : grid4.Coords, EltTy.bits .f32 = 32 ∨ (Rect.block (s := S100000x32) S2000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x32.size a ≤ S32x32.size a
  hwx4_2 : ∀ i : grid4.Coords, EltTy.bits .f32 = 32 ∨ (Rect.block (s := S32x32) S32x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32x32.size a ≤ S32x32.size a
  hwx4_4 : ∀ i : grid4.Coords, EltTy.bits .f32 = 32 ∨ (Rect.block (s := S32x32) S32x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x32.size a ≤ S1x32.size a
  hwx4_5 : ∀ i : grid4.Coords, EltTy.bits .f32 = 32 ∨ (Rect.block (s := S1x32) S1x32.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x32.size a ≤ S100000x32.size a
  hwx4_6 : ∀ i : grid4.Coords, EltTy.bits .f32 = 32 ∨ (Rect.block (s := S100000x32) S2000x32.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S100000x32.size a
  hwx5_0 : ∀ i : grid5.Coords, EltTy.bits .f32 = 32 ∨ (Rect.block (s := S100000x32) S2000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x32.size a ≤ S100000x32.size a
  hwx5_5 : ∀ i : grid5.Coords, EltTy.bits .f32 = 32 ∨ (Rect.block (s := S100000x32) S2000x32.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x32.size a ≤ S100000x32.size a
  hwx6_0 : ∀ i : grid6.Coords, EltTy.bits .f32 = 32 ∨ (Rect.block (s := S100000x32) S2000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x32.size a ≤ S100000x32.size a
  hwx6_1 : ∀ i : grid6.Coords, EltTy.bits .f32 = 32 ∨ (Rect.block (s := S100000x32) S2000x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32x32.size a ≤ S32x32.size a
  hwx6_2 : ∀ i : grid6.Coords, EltTy.bits .f32 = 32 ∨ (Rect.block (s := S32x32) S32x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x32.size a ≤ S1x32.size a
  hwx6_3 : ∀ i : grid6.Coords, EltTy.bits .f32 = 32 ∨ (Rect.block (s := S1x32) S1x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S32x32.size a ≤ S32x32.size a
  hwx6_4 : ∀ i : grid6.Coords, EltTy.bits .f32 = 32 ∨ (Rect.block (s := S32x32) S32x32.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x32.size a ≤ S1x32.size a
  hwx6_5 : ∀ i : grid6.Coords, EltTy.bits .f32 = 32 ∨ (Rect.block (s := S1x32) S1x32.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x32.size a ≤ S100000x32.size a
  hwx6_6 : ∀ i : grid6.Coords, EltTy.bits .f32 = 32 ∨ (Rect.block (s := S100000x32) S2000x32.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x32.size a ≤ S100000x32.size a
  hwx7_0 : ∀ i : grid7.Coords, EltTy.bits .f32 = 32 ∨ (Rect.block (s := S100000x32) S2000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x32.size a ≤ S1x32.size a
  hwx7_3 : ∀ i : grid7.Coords, EltTy.bits .f32 = 32 ∨ (Rect.block (s := S1x32) S1x32.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x32.size a ≤ S1x32.size a
  hwx7_4 : ∀ i : grid7.Coords, EltTy.bits .f32 = 32 ∨ (Rect.block (s := S1x32) S1x32.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x32.size a ≤ S100000x32.size a
  hwx7_5 : ∀ i : grid7.Coords, EltTy.bits .f32 = 32 ∨ (Rect.block (s := S100000x32) S2000x32.size (cc7_transform_5 i) (hinb7_5 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S256x32.size a ≤ S256x32.size a
  hwx8_0 : ∀ i : grid8.Coords, EltTy.bits .f32 = 32 ∨ (Rect.block (s := S256x32) S256x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S32x32.size a ≤ S32x32.size a
  hwx8_1 : ∀ i : grid8.Coords, EltTy.bits .f32 = 32 ∨ (Rect.block (s := S32x32) S32x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S32x2.size a ≤ S32x2.size a
  hwx8_3 : ∀ i : grid8.Coords, EltTy.bits .f32 = 32 ∨ (Rect.block (s := S32x2) S32x2.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x2.size a ≤ S1x2.size a
  hwx8_4 : ∀ i : grid8.Coords, EltTy.bits .f32 = 32 ∨ (Rect.block (s := S1x2) S1x2.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S256x2.size a ≤ S256x2.size a
  hwx8_5 : ∀ i : grid8.Coords, EltTy.bits .f32 = 32 ∨ (Rect.block (s := S256x2) S256x2.size (cc8_transform_5 i) (hinb8_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S256x32_S100000x1_S100000x32_1_0_0_1 : ScatterDims S256x32 S100000x1 S100000x32 where
  updateWindowDims := [1]
  insertedWindowDims := [0]
  scatterDimsToOperandDims := [0]
  indexVectorDim := 1
  wf := scatter_S256x32_S100000x1_S100000x32_1_0_0_1_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S256x32_S32x2_S256x2_1_0_0_1_n_n : DotDims S256x32 S32x2 S256x2 where
  lhsContracting := [1]
  rhsContracting := [0]
  lhsNonContracting := [0]
  rhsNonContracting := [1]
  lhsBatch := []
  rhsBatch := []
  wf := dot_S256x32_S32x2_S256x2_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S2000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S2000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49) S2000x32.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v49) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v61) S2000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v71) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S2000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v73) S32x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78) S32x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v81) S1x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v82) S2000x32.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v82) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v90) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v93) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v94) S2000x32.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v104) S2000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v94) S2000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v106) S32x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v109) S1x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v111) S32x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v114) S1x32.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v115) S2000x32.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v115) S2000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v119) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v120) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v123) S1x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v126) S1x32.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v127) S2000x32.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v130) S256x32.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg13) S32x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v131) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg15) S32x2.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v132) S1x2.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v133) S256x2.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S3x32x32 : Shape := ⟨3, ![3, 32, 32]⟩
abbrev S3x32 : Shape := ⟨2, ![3, 32]⟩
abbrev S4x32 : Shape := ⟨2, ![4, 32]⟩
abbrev S32x2 : Shape := ⟨2, ![32, 2]⟩
abbrev S2 : Shape := ⟨1, ![2]⟩
abbrev S1x1600000 : Shape := ⟨2, ![1, 1600000]⟩
abbrev S1600000 : Shape := ⟨1, ![1600000]⟩
abbrev S1x32 : Shape := ⟨2, ![1, 32]⟩
abbrev S_ : Shape := ⟨0, ![]⟩
abbrev S1600000x1 : Shape := ⟨2, ![1600000, 1]⟩
abbrev S1600000x128 : Shape := ⟨2, ![1600000, 128]⟩
abbrev S100000x32 : Shape := ⟨2, ![100000, 32]⟩
abbrev S1x32x32 : Shape := ⟨3, ![1, 32, 32]⟩
abbrev S1600000x32 : Shape := ⟨2, ![1600000, 32]⟩
abbrev S256x32 : Shape := ⟨2, ![256, 32]⟩
abbrev S100000x1 : Shape := ⟨2, ![100000, 1]⟩
abbrev S256x2 : Shape := ⟨2, ![256, 2]⟩
abbrev S1x2 : Shape := ⟨2, ![1, 2]⟩
abbrev S256 : Shape := ⟨1, ![256]⟩
abbrev S256x1 : Shape := ⟨2, ![256, 1]⟩

abbrev nBuf : Space → Nat
  | .hbm => 379
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x32, .f32⟩
  | 4 => ⟨S32, .f32⟩
  | 5 => ⟨S32x32, .f32⟩
  | 6 => ⟨S32, .f32⟩
  | 7 => ⟨S3x32x32, .f32⟩
  | 8 => ⟨S3x32, .f32⟩
  | 9 => ⟨S3x32x32, .f32⟩
  | 10 => ⟨S3x32, .f32⟩
  | 11 => ⟨S4x32, .f32⟩
  | 12 => ⟨S4x32, .f32⟩
  | 13 => ⟨S32x32, .f32⟩
  | 14 => ⟨S32, .f32⟩
  | 15 => ⟨S32x2, .f32⟩
  | 16 => ⟨S2, .f32⟩
  | 17 => ⟨S1x1600000, .i32⟩
  | 18 => ⟨S1600000, .i32⟩
  | 19 => ⟨S1x1600000, .i32⟩
  | 20 => ⟨S1600000, .i32⟩
  | 21 => ⟨S1x32, .f32⟩
  | 22 => ⟨S32, .f32⟩
  | 23 => ⟨S1x32, .f32⟩
  | 24 => ⟨S32, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S100000x128, .f32⟩
  | 39 => ⟨S100000x32, .f32⟩
  | 40 => ⟨S1x32, .f32⟩
  | 41 => ⟨S100000x32, .f32⟩
  | 42 => ⟨S100000x32, .f32⟩
  | 43 => ⟨S_, .f32⟩
  | 44 => ⟨S100000x32, .f32⟩
  | 45 => ⟨S100000x32, .f32⟩
  | 46 => ⟨S100000x32, .f32⟩
  | 47 => ⟨S1x32, .f32⟩
  | 48 => ⟨S100000x32, .f32⟩
  | 49 => ⟨S100000x32, .f32⟩
  | 50 => ⟨S_, .f32⟩
  | 51 => ⟨S100000x32, .f32⟩
  | 52 => ⟨S100000x32, .f32⟩
  | 53 => ⟨S_, .f32⟩
  | 54 => ⟨S32, .f32⟩
  | 55 => ⟨S_, .f32⟩
  | 56 => ⟨S32, .f32⟩
  | 57 => ⟨S32, .f32⟩
  | 58 => ⟨S_, .i32⟩
  | 59 => ⟨S_, .f32⟩
  | 60 => ⟨S32, .f32⟩
  | 61 => ⟨S1x32, .f32⟩
  | 62 => ⟨S_, .f32⟩
  | 63 => ⟨S1x32, .f32⟩
  | 64 => ⟨S1x32, .f32⟩
  | 65 => ⟨S100000x32, .f32⟩
  | 66 => ⟨S100000x32, .f32⟩
  | 67 => ⟨S100000x32, .f32⟩
  | 68 => ⟨S_, .f32⟩
  | 69 => ⟨S_, .f32⟩
  | 70 => ⟨S_, .f32⟩
  | 71 => ⟨S_, .f32⟩
  | 72 => ⟨S32, .f32⟩
  | 73 => ⟨S32, .f32⟩
  | 74 => ⟨S32, .f32⟩
  | 75 => ⟨S_, .f32⟩
  | 76 => ⟨S_, .i1⟩
  | 77 => ⟨S_, .f32⟩
  | 78 => ⟨S_, .f32⟩
  | 79 => ⟨S32, .f32⟩
  | 80 => ⟨S32, .f32⟩
  | 81 => ⟨S1x32, .f32⟩
  | 82 => ⟨S100000x32, .f32⟩
  | 83 => ⟨S100000x32, .f32⟩
  | 84 => ⟨S_, .f32⟩
  | 85 => ⟨S32, .f32⟩
  | 86 => ⟨S32, .f32⟩
  | 87 => ⟨S32, .f32⟩
  | 88 => ⟨S1x32, .f32⟩
  | 89 => ⟨S100000x32, .f32⟩
  | 90 => ⟨S100000x32, .f32⟩
  | 91 => ⟨S1x32, .f32⟩
  | 92 => ⟨S100000x32, .f32⟩
  | 93 => ⟨S100000x32, .f32⟩
  | 94 => ⟨S1x32, .f32⟩
  | 95 => ⟨S100000x32, .f32⟩
  | 96 => ⟨S100000x32, .f32⟩
  | 97 => ⟨S1x32x32, .f32⟩
  | 98 => ⟨S32x32, .f32⟩
  | 99 => ⟨S1x32, .f32⟩
  | 100 => ⟨S32, .f32⟩
  | 101 => ⟨S1x32x32, .f32⟩
  | 102 => ⟨S32x32, .f32⟩
  | 103 => ⟨S1x32, .f32⟩
  | 104 => ⟨S32, .f32⟩
  | 105 => ⟨S1x32, .f32⟩
  | 106 => ⟨S32, .f32⟩
  | 107 => ⟨S1x32, .f32⟩
  | 108 => ⟨S32, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x32, .f32⟩
  | 118 => ⟨S_, .f32⟩
  | 119 => ⟨S100000x32, .f32⟩
  | 120 => ⟨S1600000x1, .i32⟩
  | 121 => ⟨S100000x32, .f32⟩
  | 122 => ⟨S100000x32, .f32⟩
  | 123 => ⟨S100000x32, .f32⟩
  | 124 => ⟨S1x32, .f32⟩
  | 125 => ⟨S100000x32, .f32⟩
  | 126 => ⟨S100000x32, .f32⟩
  | 127 => ⟨S_, .f32⟩
  | _ => ⟨S100000x128, .f32⟩

abbrev hbmTy0_1 (i : Nat) : BufTy := match i % 128 with
  | 0 => ⟨S100000x32, .f32⟩
  | 1 => ⟨S100000x32, .f32⟩
  | 2 => ⟨S100000x32, .f32⟩
  | 3 => ⟨S1x32, .f32⟩
  | 4 => ⟨S100000x32, .f32⟩
  | 5 => ⟨S100000x32, .f32⟩
  | 6 => ⟨S_, .f32⟩
  | 7 => ⟨S100000x32, .f32⟩
  | 8 => ⟨S100000x32, .f32⟩
  | 9 => ⟨S_, .f32⟩
  | 10 => ⟨S32, .f32⟩
  | 11 => ⟨S_, .f32⟩
  | 12 => ⟨S32, .f32⟩
  | 13 => ⟨S32, .f32⟩
  | 14 => ⟨S_, .i32⟩
  | 15 => ⟨S_, .f32⟩
  | 16 => ⟨S32, .f32⟩
  | 17 => ⟨S1x32, .f32⟩
  | 18 => ⟨S_, .f32⟩
  | 19 => ⟨S1x32, .f32⟩
  | 20 => ⟨S1x32, .f32⟩
  | 21 => ⟨S100000x32, .f32⟩
  | 22 => ⟨S100000x32, .f32⟩
  | 23 => ⟨S100000x32, .f32⟩
  | 24 => ⟨S_, .f32⟩
  | 25 => ⟨S_, .f32⟩
  | 26 => ⟨S_, .f32⟩
  | 27 => ⟨S_, .f32⟩
  | 28 => ⟨S32, .f32⟩
  | 29 => ⟨S32, .f32⟩
  | 30 => ⟨S32, .f32⟩
  | 31 => ⟨S_, .f32⟩
  | 32 => ⟨S_, .i1⟩
  | 33 => ⟨S_, .f32⟩
  | 34 => ⟨S_, .f32⟩
  | 35 => ⟨S32, .f32⟩
  | 36 => ⟨S32, .f32⟩
  | 37 => ⟨S1x32, .f32⟩
  | 38 => ⟨S100000x32, .f32⟩
  | 39 => ⟨S100000x32, .f32⟩
  | 40 => ⟨S_, .f32⟩
  | 41 => ⟨S32, .f32⟩
  | 42 => ⟨S32, .f32⟩
  | 43 => ⟨S32, .f32⟩
  | 44 => ⟨S1x32, .f32⟩
  | 45 => ⟨S100000x32, .f32⟩
  | 46 => ⟨S100000x32, .f32⟩
  | 47 => ⟨S1x32, .f32⟩
  | 48 => ⟨S100000x32, .f32⟩
  | 49 => ⟨S100000x32, .f32⟩
  | 50 => ⟨S1x32, .f32⟩
  | 51 => ⟨S100000x32, .f32⟩
  | 52 => ⟨S100000x32, .f32⟩
  | 53 => ⟨S1x32x32, .f32⟩
  | 54 => ⟨S32x32, .f32⟩
  | 55 => ⟨S1x32, .f32⟩
  | 56 => ⟨S32, .f32⟩
  | 57 => ⟨S1x32x32, .f32⟩
  | 58 => ⟨S32x32, .f32⟩
  | 59 => ⟨S1x32, .f32⟩
  | 60 => ⟨S32, .f32⟩
  | 61 => ⟨S1x32, .f32⟩
  | 62 => ⟨S32, .f32⟩
  | 63 => ⟨S1x32, .f32⟩
  | 64 => ⟨S32, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x32, .f32⟩
  | 74 => ⟨S_, .f32⟩
  | 75 => ⟨S100000x32, .f32⟩
  | 76 => ⟨S1600000x1, .i32⟩
  | 77 => ⟨S100000x32, .f32⟩
  | 78 => ⟨S100000x32, .f32⟩
  | 79 => ⟨S100000x32, .f32⟩
  | 80 => ⟨S1x32, .f32⟩
  | 81 => ⟨S100000x32, .f32⟩
  | 82 => ⟨S100000x32, .f32⟩
  | 83 => ⟨S_, .f32⟩
  | 84 => ⟨S100000x32, .f32⟩
  | 85 => ⟨S100000x32, .f32⟩
  | 86 => ⟨S100000x32, .f32⟩
  | 87 => ⟨S1x32, .f32⟩
  | 88 => ⟨S100000x32, .f32⟩
  | 89 => ⟨S100000x32, .f32⟩
  | 90 => ⟨S_, .f32⟩
  | 91 => ⟨S100000x32, .f32⟩
  | 92 => ⟨S100000x32, .f32⟩
  | 93 => ⟨S_, .f32⟩
  | 94 => ⟨S32, .f32⟩
  | 95 => ⟨S_, .f32⟩
  | 96 => ⟨S32, .f32⟩
  | 97 => ⟨S32, .f32⟩
  | 98 => ⟨S_, .i32⟩
  | 99 => ⟨S_, .f32⟩
  | 100 => ⟨S32, .f32⟩
  | 101 => ⟨S1x32, .f32⟩
  | 102 => ⟨S_, .f32⟩
  | 103 => ⟨S1x32, .f32⟩
  | 104 => ⟨S1x32, .f32⟩
  | 105 => ⟨S100000x32, .f32⟩
  | 106 => ⟨S100000x32, .f32⟩
  | 107 => ⟨S100000x32, .f32⟩
  | 108 => ⟨S_, .f32⟩
  | 109 => ⟨S_, .f32⟩
  | 110 => ⟨S_, .f32⟩
  | 111 => ⟨S_, .f32⟩
  | 112 => ⟨S32, .f32⟩
  | 113 => ⟨S32, .f32⟩
  | 114 => ⟨S32, .f32⟩
  | 115 => ⟨S_, .f32⟩
  | 116 => ⟨S_, .i1⟩
  | 117 => ⟨S_, .f32⟩
  | 118 => ⟨S_, .f32⟩
  | 119 => ⟨S32, .f32⟩
  | 120 => ⟨S32, .f32⟩
  | 121 => ⟨S1x32, .f32⟩
  | 122 => ⟨S100000x32, .f32⟩
  | 123 => ⟨S100000x32, .f32⟩
  | 124 => ⟨S_, .f32⟩
  | 125 => ⟨S32, .f32⟩
  | 126 => ⟨S32, .f32⟩
  | 127 => ⟨S32, .f32⟩
  | _ => ⟨S100000x128, .f32⟩

abbrev hbmTy0_2 (i : Nat) : BufTy := match i % 128 with
  | 0 => ⟨S1x32, .f32⟩
  | 1 => ⟨S100000x32, .f32⟩
  | 2 => ⟨S100000x32, .f32⟩
  | 3 => ⟨S1x32, .f32⟩
  | 4 => ⟨S100000x32, .f32⟩
  | 5 => ⟨S100000x32, .f32⟩
  | 6 => ⟨S1x32, .f32⟩
  | 7 => ⟨S100000x32, .f32⟩
  | 8 => ⟨S100000x32, .f32⟩
  | 9 => ⟨S1x32x32, .f32⟩
  | 10 => ⟨S32x32, .f32⟩
  | 11 => ⟨S1x32, .f32⟩
  | 12 => ⟨S32, .f32⟩
  | 13 => ⟨S1x32x32, .f32⟩
  | 14 => ⟨S32x32, .f32⟩
  | 15 => ⟨S1x32, .f32⟩
  | 16 => ⟨S32, .f32⟩
  | 17 => ⟨S1x32, .f32⟩
  | 18 => ⟨S32, .f32⟩
  | 19 => ⟨S1x32, .f32⟩
  | 20 => ⟨S32, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x32, .f32⟩
  | 30 => ⟨S_, .f32⟩
  | 31 => ⟨S100000x32, .f32⟩
  | 32 => ⟨S1600000x1, .i32⟩
  | 33 => ⟨S100000x32, .f32⟩
  | 34 => ⟨S100000x32, .f32⟩
  | 35 => ⟨S100000x32, .f32⟩
  | 36 => ⟨S1x32, .f32⟩
  | 37 => ⟨S100000x32, .f32⟩
  | 38 => ⟨S100000x32, .f32⟩
  | 39 => ⟨S_, .f32⟩
  | 40 => ⟨S100000x32, .f32⟩
  | 41 => ⟨S100000x32, .f32⟩
  | 42 => ⟨S100000x32, .f32⟩
  | 43 => ⟨S1x32, .f32⟩
  | 44 => ⟨S100000x32, .f32⟩
  | 45 => ⟨S100000x32, .f32⟩
  | 46 => ⟨S_, .f32⟩
  | 47 => ⟨S100000x32, .f32⟩
  | 48 => ⟨S100000x32, .f32⟩
  | 49 => ⟨S_, .f32⟩
  | 50 => ⟨S32, .f32⟩
  | 51 => ⟨S_, .f32⟩
  | 52 => ⟨S32, .f32⟩
  | 53 => ⟨S32, .f32⟩
  | 54 => ⟨S_, .i32⟩
  | 55 => ⟨S_, .f32⟩
  | 56 => ⟨S32, .f32⟩
  | 57 => ⟨S1x32, .f32⟩
  | 58 => ⟨S_, .f32⟩
  | 59 => ⟨S1x32, .f32⟩
  | 60 => ⟨S1x32, .f32⟩
  | 61 => ⟨S100000x32, .f32⟩
  | 62 => ⟨S100000x32, .f32⟩
  | 63 => ⟨S100000x32, .f32⟩
  | 64 => ⟨S_, .f32⟩
  | 65 => ⟨S_, .f32⟩
  | 66 => ⟨S_, .f32⟩
  | 67 => ⟨S_, .f32⟩
  | 68 => ⟨S32, .f32⟩
  | 69 => ⟨S32, .f32⟩
  | 70 => ⟨S32, .f32⟩
  | 71 => ⟨S_, .f32⟩
  | 72 => ⟨S_, .i1⟩
  | 73 => ⟨S_, .f32⟩
  | 74 => ⟨S_, .f32⟩
  | 75 => ⟨S32, .f32⟩
  | 76 => ⟨S32, .f32⟩
  | 77 => ⟨S1x32, .f32⟩
  | 78 => ⟨S100000x32, .f32⟩
  | 79 => ⟨S100000x32, .f32⟩
  | 80 => ⟨S_, .f32⟩
  | 81 => ⟨S32, .f32⟩
  | 82 => ⟨S32, .f32⟩
  | 83 => ⟨S32, .f32⟩
  | 84 => ⟨S1x32, .f32⟩
  | 85 => ⟨S100000x32, .f32⟩
  | 86 => ⟨S100000x32, .f32⟩
  | 87 => ⟨S1x32, .f32⟩
  | 88 => ⟨S100000x32, .f32⟩
  | 89 => ⟨S100000x32, .f32⟩
  | 90 => ⟨S1x32, .f32⟩
  | 91 => ⟨S100000x32, .f32⟩
  | 92 => ⟨S100000x32, .f32⟩
  | 93 => ⟨S_, .f32⟩
  | 94 => ⟨S256x32, .f32⟩
  | 95 => ⟨S100000x1, .i32⟩
  | 96 => ⟨S256x32, .f32⟩
  | 97 => ⟨S256x32, .f32⟩
  | 98 => ⟨S1x32, .f32⟩
  | 99 => ⟨S256x32, .f32⟩
  | 100 => ⟨S256x32, .f32⟩
  | 101 => ⟨S_, .f32⟩
  | 102 => ⟨S256x32, .f32⟩
  | 103 => ⟨S256x32, .f32⟩
  | 104 => ⟨S256x2, .f32⟩
  | 105 => ⟨S1x2, .f32⟩
  | 106 => ⟨S256x2, .f32⟩
  | 107 => ⟨S256x2, .f32⟩
  | 108 => ⟨S_, .f32⟩
  | 109 => ⟨S256, .f32⟩
  | 110 => ⟨S_, .f32⟩
  | 111 => ⟨S256, .f32⟩
  | 112 => ⟨S256, .f32⟩
  | 113 => ⟨S256x1, .f32⟩
  | 114 => ⟨S256x2, .f32⟩
  | 115 => ⟨S256x2, .f32⟩
  | 116 => ⟨S256x2, .f32⟩
  | 117 => ⟨S_, .f32⟩
  | 118 => ⟨S256, .f32⟩
  | 119 => ⟨S256x1, .f32⟩
  | 120 => ⟨S256x1, .f32⟩
  | 121 => ⟨S256x2, .f32⟩
  | 122 => ⟨S256x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_2 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_cst_1 : Ref sig .tc := ⟨.hbm, 69, rfl⟩
abbrev main_call0_v8 : Ref sig .tc := ⟨.hbm, 70, rfl⟩
abbrev main_call0_cst_2 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_cst_3 : Ref sig .tc := ⟨.hbm, 75, rfl⟩
abbrev main_call0_v12 : Ref sig .tc := ⟨.hbm, 76, rfl⟩
abbrev main_call0_cst_4 : Ref sig .tc := ⟨.hbm, 77, rfl⟩
abbrev main_call0_call0_v0 : Ref sig .tc := ⟨.hbm, 78, rfl⟩
abbrev main_call0_call0_v1 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_cst_6 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_c_7 : Ref sig .tc := ⟨.hbm, 109, rfl⟩
abbrev main_v62 : Ref sig .tc := ⟨.hbm, 110, rfl⟩
abbrev main_v63 : Ref sig .tc := ⟨.hbm, 111, rfl⟩
abbrev main_c_8 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_9 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_10 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_cst_11 : Ref sig .tc := ⟨.hbm, 134, rfl⟩
abbrev main_v83 : Ref sig .tc := ⟨.hbm, 135, rfl⟩
abbrev main_v84 : Ref sig .tc := ⟨.hbm, 136, rfl⟩
abbrev main_cst_12 : Ref sig .tc := ⟨.hbm, 137, rfl⟩
abbrev main_v85 : Ref sig .tc := ⟨.hbm, 138, rfl⟩
abbrev main_cst_13 : Ref sig .tc := ⟨.hbm, 139, rfl⟩
abbrev main_v86 : Ref sig .tc := ⟨.hbm, 140, rfl⟩
abbrev main_v87 : Ref sig .tc := ⟨.hbm, 141, rfl⟩
abbrev main_c_14 : Ref sig .tc := ⟨.hbm, 142, rfl⟩
abbrev main_call1_cst : Ref sig .tc := ⟨.hbm, 143, rfl⟩
abbrev main_call1_v0 : Ref sig .tc := ⟨.hbm, 144, rfl⟩
abbrev main_call1_v1 : Ref sig .tc := ⟨.hbm, 145, rfl⟩
abbrev main_call1_cst_0 : Ref sig .tc := ⟨.hbm, 146, rfl⟩
abbrev main_call1_v2 : Ref sig .tc := ⟨.hbm, 147, rfl⟩
abbrev main_call1_v3 : Ref sig .tc := ⟨.hbm, 148, rfl⟩
abbrev main_call1_v4 : Ref sig .tc := ⟨.hbm, 149, rfl⟩
abbrev main_call1_v5 : Ref sig .tc := ⟨.hbm, 150, rfl⟩
abbrev main_call1_v6 : Ref sig .tc := ⟨.hbm, 151, rfl⟩
abbrev main_call1_v7 : Ref sig .tc := ⟨.hbm, 152, rfl⟩
abbrev main_call1_cst_1 : Ref sig .tc := ⟨.hbm, 153, rfl⟩
abbrev main_call1_v8 : Ref sig .tc := ⟨.hbm, 154, rfl⟩
abbrev main_call1_cst_2 : Ref sig .tc := ⟨.hbm, 155, rfl⟩
abbrev main_call1_v9 : Ref sig .tc := ⟨.hbm, 156, rfl⟩
abbrev main_call1_v10 : Ref sig .tc := ⟨.hbm, 157, rfl⟩
abbrev main_call1_v11 : Ref sig .tc := ⟨.hbm, 158, rfl⟩
abbrev main_call1_cst_3 : Ref sig .tc := ⟨.hbm, 159, rfl⟩
abbrev main_call1_v12 : Ref sig .tc := ⟨.hbm, 160, rfl⟩
abbrev main_call1_cst_4 : Ref sig .tc := ⟨.hbm, 161, rfl⟩
abbrev main_call1_call0_v0 : Ref sig .tc := ⟨.hbm, 162, rfl⟩
abbrev main_call1_call0_v1 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_cst_15 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_c_16 : Ref sig .tc := ⟨.hbm, 193, rfl⟩
abbrev main_v116 : Ref sig .tc := ⟨.hbm, 194, rfl⟩
abbrev main_v117 : Ref sig .tc := ⟨.hbm, 195, rfl⟩
abbrev main_c_17 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_cst_18 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_cst_19 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_cst_20 : Ref sig .tc := ⟨.hbm, 218, rfl⟩
abbrev main_v137 : Ref sig .tc := ⟨.hbm, 219, rfl⟩
abbrev main_v138 : Ref sig .tc := ⟨.hbm, 220, rfl⟩
abbrev main_cst_21 : Ref sig .tc := ⟨.hbm, 221, rfl⟩
abbrev main_v139 : Ref sig .tc := ⟨.hbm, 222, rfl⟩
abbrev main_cst_22 : Ref sig .tc := ⟨.hbm, 223, rfl⟩
abbrev main_v140 : Ref sig .tc := ⟨.hbm, 224, rfl⟩
abbrev main_v141 : Ref sig .tc := ⟨.hbm, 225, rfl⟩
abbrev main_c_23 : Ref sig .tc := ⟨.hbm, 226, rfl⟩
abbrev main_call2_cst : Ref sig .tc := ⟨.hbm, 227, rfl⟩
abbrev main_call2_v0 : Ref sig .tc := ⟨.hbm, 228, rfl⟩
abbrev main_call2_v1 : Ref sig .tc := ⟨.hbm, 229, rfl⟩
abbrev main_call2_cst_0 : Ref sig .tc := ⟨.hbm, 230, rfl⟩
abbrev main_call2_v2 : Ref sig .tc := ⟨.hbm, 231, rfl⟩
abbrev main_call2_v3 : Ref sig .tc := ⟨.hbm, 232, rfl⟩
abbrev main_call2_v4 : Ref sig .tc := ⟨.hbm, 233, rfl⟩
abbrev main_call2_v5 : Ref sig .tc := ⟨.hbm, 234, rfl⟩
abbrev main_call2_v6 : Ref sig .tc := ⟨.hbm, 235, rfl⟩
abbrev main_call2_v7 : Ref sig .tc := ⟨.hbm, 236, rfl⟩
abbrev main_call2_cst_1 : Ref sig .tc := ⟨.hbm, 237, rfl⟩
abbrev main_call2_v8 : Ref sig .tc := ⟨.hbm, 238, rfl⟩
abbrev main_call2_cst_2 : Ref sig .tc := ⟨.hbm, 239, rfl⟩
abbrev main_call2_v9 : Ref sig .tc := ⟨.hbm, 240, rfl⟩
abbrev main_call2_v10 : Ref sig .tc := ⟨.hbm, 241, rfl⟩
abbrev main_call2_v11 : Ref sig .tc := ⟨.hbm, 242, rfl⟩
abbrev main_call2_cst_3 : Ref sig .tc := ⟨.hbm, 243, rfl⟩
abbrev main_call2_v12 : Ref sig .tc := ⟨.hbm, 244, rfl⟩
abbrev main_call2_cst_4 : Ref sig .tc := ⟨.hbm, 245, rfl⟩
abbrev main_call2_call0_v0 : Ref sig .tc := ⟨.hbm, 246, rfl⟩
abbrev main_call2_call0_v1 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_cst_24 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_v151 : Ref sig .tc := ⟨.hbm, 258, rfl⟩
abbrev main_v152 : Ref sig .tc := ⟨.hbm, 259, rfl⟩
abbrev main_v153 : Ref sig .tc := ⟨.hbm, 260, rfl⟩
abbrev main_v154 : Ref sig .tc := ⟨.hbm, 261, rfl⟩
abbrev main_v155 : Ref sig .tc := ⟨.hbm, 262, rfl⟩
abbrev main_v156 : Ref sig .tc := ⟨.hbm, 263, rfl⟩
abbrev main_v157 : Ref sig .tc := ⟨.hbm, 264, rfl⟩
abbrev main_v158 : Ref sig .tc := ⟨.hbm, 265, rfl⟩
abbrev main_v159 : Ref sig .tc := ⟨.hbm, 266, rfl⟩
abbrev main_v160 : Ref sig .tc := ⟨.hbm, 267, rfl⟩
abbrev main_v161 : Ref sig .tc := ⟨.hbm, 268, rfl⟩
abbrev main_v162 : Ref sig .tc := ⟨.hbm, 269, rfl⟩
abbrev main_v163 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_v167 : Ref sig .tc := ⟨.hbm, 274, rfl⟩
abbrev main_v168 : Ref sig .tc := ⟨.hbm, 275, rfl⟩
abbrev main_v169 : Ref sig .tc := ⟨.hbm, 276, rfl⟩
abbrev main_c_25 : Ref sig .tc := ⟨.hbm, 277, rfl⟩
abbrev main_v170 : Ref sig .tc := ⟨.hbm, 278, rfl⟩
abbrev main_v171 : Ref sig .tc := ⟨.hbm, 279, rfl⟩
abbrev main_c_26 : Ref sig .tc := ⟨.hbm, 280, rfl⟩
abbrev main_v172 : Ref sig .tc := ⟨.hbm, 281, rfl⟩
abbrev main_v173 : Ref sig .tc := ⟨.hbm, 282, rfl⟩
abbrev main_v174 : Ref sig .tc := ⟨.hbm, 283, rfl⟩
abbrev main_v175 : Ref sig .tc := ⟨.hbm, 284, rfl⟩
abbrev main_v176 : Ref sig .tc := ⟨.hbm, 285, rfl⟩
abbrev main_cst_27 : Ref sig .tc := ⟨.hbm, 286, rfl⟩
abbrev main_v177 : Ref sig .tc := ⟨.hbm, 287, rfl⟩
abbrev main_v178 : Ref sig .tc := ⟨.hbm, 288, rfl⟩
abbrev main_v179 : Ref sig .tc := ⟨.hbm, 289, rfl⟩
abbrev main_v180 : Ref sig .tc := ⟨.hbm, 290, rfl⟩
abbrev main_v181 : Ref sig .tc := ⟨.hbm, 291, rfl⟩
abbrev main_v182 : Ref sig .tc := ⟨.hbm, 292, rfl⟩
abbrev main_v183 : Ref sig .tc := ⟨.hbm, 293, rfl⟩
abbrev main_v184 : Ref sig .tc := ⟨.hbm, 294, rfl⟩
abbrev main_cst_28 : Ref sig .tc := ⟨.hbm, 295, rfl⟩
abbrev main_v185 : Ref sig .tc := ⟨.hbm, 296, rfl⟩
abbrev main_v186 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_v190 : Ref sig .tc := ⟨.hbm, 301, rfl⟩
abbrev main_cst_29 : Ref sig .tc := ⟨.hbm, 302, rfl⟩
abbrev main_v191 : Ref sig .tc := ⟨.hbm, 303, rfl⟩
abbrev main_v192 : Ref sig .tc := ⟨.hbm, 304, rfl⟩
abbrev main_cst_30 : Ref sig .tc := ⟨.hbm, 305, rfl⟩
abbrev main_v193 : Ref sig .tc := ⟨.hbm, 306, rfl⟩
abbrev main_cst_31 : Ref sig .tc := ⟨.hbm, 307, rfl⟩
abbrev main_v194 : Ref sig .tc := ⟨.hbm, 308, rfl⟩
abbrev main_v195 : Ref sig .tc := ⟨.hbm, 309, rfl⟩
abbrev main_c_32 : Ref sig .tc := ⟨.hbm, 310, rfl⟩
abbrev main_call3_cst : Ref sig .tc := ⟨.hbm, 311, rfl⟩
abbrev main_call3_v0 : Ref sig .tc := ⟨.hbm, 312, rfl⟩
abbrev main_call3_v1 : Ref sig .tc := ⟨.hbm, 313, rfl⟩
abbrev main_call3_cst_0 : Ref sig .tc := ⟨.hbm, 314, rfl⟩
abbrev main_call3_v2 : Ref sig .tc := ⟨.hbm, 315, rfl⟩
abbrev main_call3_v3 : Ref sig .tc := ⟨.hbm, 316, rfl⟩
abbrev main_call3_v4 : Ref sig .tc := ⟨.hbm, 317, rfl⟩
abbrev main_call3_v5 : Ref sig .tc := ⟨.hbm, 318, rfl⟩
abbrev main_call3_v6 : Ref sig .tc := ⟨.hbm, 319, rfl⟩
abbrev main_call3_v7 : Ref sig .tc := ⟨.hbm, 320, rfl⟩
abbrev main_call3_cst_1 : Ref sig .tc := ⟨.hbm, 321, rfl⟩
abbrev main_call3_v8 : Ref sig .tc := ⟨.hbm, 322, rfl⟩
abbrev main_call3_cst_2 : Ref sig .tc := ⟨.hbm, 323, rfl⟩
abbrev main_call3_v9 : Ref sig .tc := ⟨.hbm, 324, rfl⟩
abbrev main_call3_v10 : Ref sig .tc := ⟨.hbm, 325, rfl⟩
abbrev main_call3_v11 : Ref sig .tc := ⟨.hbm, 326, rfl⟩
abbrev main_call3_cst_3 : Ref sig .tc := ⟨.hbm, 327, rfl⟩
abbrev main_call3_v12 : Ref sig .tc := ⟨.hbm, 328, rfl⟩
abbrev main_call3_cst_4 : Ref sig .tc := ⟨.hbm, 329, rfl⟩
abbrev main_call3_call0_v0 : Ref sig .tc := ⟨.hbm, 330, rfl⟩
abbrev main_call3_call0_v1 : Ref sig .tc := ⟨.hbm, 331, rfl⟩
abbrev main_v196 : Ref sig .tc := ⟨.hbm, 332, rfl⟩
abbrev main_v197 : Ref sig .tc := ⟨.hbm, 333, rfl⟩
abbrev main_v198 : Ref sig .tc := ⟨.hbm, 334, rfl⟩
abbrev main_v199 : Ref sig .tc := ⟨.hbm, 335, rfl⟩
abbrev main_cst_33 : Ref sig .tc := ⟨.hbm, 336, rfl⟩
abbrev main_v200 : Ref sig .tc := ⟨.hbm, 337, rfl⟩
abbrev main_v201 : Ref sig .tc := ⟨.hbm, 338, rfl⟩
abbrev main_v202 : Ref sig .tc := ⟨.hbm, 339, rfl⟩
abbrev main_v203 : Ref sig .tc := ⟨.hbm, 340, rfl⟩
abbrev main_v204 : Ref sig .tc := ⟨.hbm, 341, rfl⟩
abbrev main_v205 : Ref sig .tc := ⟨.hbm, 342, rfl⟩
abbrev main_v206 : Ref sig .tc := ⟨.hbm, 343, rfl⟩
abbrev main_v207 : Ref sig .tc := ⟨.hbm, 344, rfl⟩
abbrev main_v208 : Ref sig .tc := ⟨.hbm, 345, rfl⟩
abbrev main_v209 : Ref sig .tc := ⟨.hbm, 346, rfl⟩
abbrev main_v210 : Ref sig .tc := ⟨.hbm, 347, rfl⟩
abbrev main_v211 : Ref sig .tc := ⟨.hbm, 348, rfl⟩
abbrev main_cst_34 : Ref sig .tc := ⟨.hbm, 349, rfl⟩
abbrev main_v212 : Ref sig .tc := ⟨.hbm, 350, rfl⟩
abbrev main_v213 : Ref sig .tc := ⟨.hbm, 351, rfl⟩
abbrev main_v214 : Ref sig .tc := ⟨.hbm, 352, rfl⟩
abbrev main_v215 : Ref sig .tc := ⟨.hbm, 353, rfl⟩
abbrev main_v216 : Ref sig .tc := ⟨.hbm, 354, rfl⟩
abbrev main_v217 : Ref sig .tc := ⟨.hbm, 355, rfl⟩
abbrev main_v218 : Ref sig .tc := ⟨.hbm, 356, rfl⟩
abbrev main_cst_35 : Ref sig .tc := ⟨.hbm, 357, rfl⟩
abbrev main_v219 : Ref sig .tc := ⟨.hbm, 358, rfl⟩
abbrev main_v220 : Ref sig .tc := ⟨.hbm, 359, rfl⟩
abbrev main_v221 : Ref sig .tc := ⟨.hbm, 360, rfl⟩
abbrev main_v222 : Ref sig .tc := ⟨.hbm, 361, rfl⟩
abbrev main_v223 : Ref sig .tc := ⟨.hbm, 362, rfl⟩
abbrev main_v224 : Ref sig .tc := ⟨.hbm, 363, rfl⟩
abbrev main_call4_cst : Ref sig .tc := ⟨.hbm, 364, rfl⟩
abbrev main_call4_v0 : Ref sig .tc := ⟨.hbm, 365, rfl⟩
abbrev main_call4_cst_0 : Ref sig .tc := ⟨.hbm, 366, rfl⟩
abbrev main_call4_v1 : Ref sig .tc := ⟨.hbm, 367, rfl⟩
abbrev main_call4_v2 : Ref sig .tc := ⟨.hbm, 368, rfl⟩
abbrev main_call4_v3 : Ref sig .tc := ⟨.hbm, 369, rfl⟩
abbrev main_call4_v4 : Ref sig .tc := ⟨.hbm, 370, rfl⟩
abbrev main_call4_v5 : Ref sig .tc := ⟨.hbm, 371, rfl⟩
abbrev main_call4_v6 : Ref sig .tc := ⟨.hbm, 372, rfl⟩
abbrev main_call4_cst_1 : Ref sig .tc := ⟨.hbm, 373, rfl⟩
abbrev main_call4_v7 : Ref sig .tc := ⟨.hbm, 374, rfl⟩
abbrev main_call4_v8 : Ref sig .tc := ⟨.hbm, 375, rfl⟩
abbrev main_call4_v9 : Ref sig .tc := ⟨.hbm, 376, rfl⟩
abbrev main_call4_v10 : Ref sig .tc := ⟨.hbm, 377, rfl⟩
abbrev main_v225 : Ref sig .tc := ⟨.hbm, 378, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S4x32_S1x32_0_0 : S4x32.Slices ![0, 0] S1x32
  shapeCasts_S1x32_S32 : S1x32.ShapeCasts S32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  reducesTo_S100000x32_S32_d0 : S100000x32.ReducesTo [0] S32
  h_S_ : 0 < S_.numel
  bcast_S_S32 : S_.BroadcastsInDim S32 (![] : Fin 0 → Fin S32.rank)
  bcast_S_S1x32 : S_.BroadcastsInDim S1x32 (![] : Fin 0 → Fin S1x32.rank)
  slices_S3x32x32_S1x32x32_0_0_0 : S3x32x32.Slices ![0, 0, 0] S1x32x32
  shapeCasts_S1x32x32_S32x32 : S1x32x32.ShapeCasts S32x32
  slices_S3x32_S1x32_0_0 : S3x32.Slices ![0, 0] S1x32
  slices_S4x32_S1x32_1_0 : S4x32.Slices ![1, 0] S1x32
  slices_S3x32x32_S1x32x32_1_0_0 : S3x32x32.Slices ![1, 0, 0] S1x32x32
  slices_S3x32_S1x32_1_0 : S3x32.Slices ![1, 0] S1x32
  slices_S4x32_S1x32_2_0 : S4x32.Slices ![2, 0] S1x32
  slices_S3x32x32_S1x32x32_2_0_0 : S3x32x32.Slices ![2, 0, 0] S1x32x32
  slices_S3x32_S1x32_2_0 : S3x32.Slices ![2, 0] S1x32
  slices_S4x32_S1x32_3_0 : S4x32.Slices ![3, 0] S1x32
  bcast_S_S256x32 : S_.BroadcastsInDim S256x32 (![] : Fin 0 → Fin S256x32.rank)
  bcast_S100000_S100000x1_0 : S100000.BroadcastsInDim S100000x1 (![0] : Fin 1 → Fin S100000x1.rank)
  bcast_S1x32_S256x32_0_1 : S1x32.BroadcastsInDim S256x32 (![0, 1] : Fin 2 → Fin S256x32.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  reducesTo_S256x2_S256_d1 : S256x2.ReducesTo [1] S256
  bcast_S_S256 : S_.BroadcastsInDim S256 (![] : Fin 0 → Fin S256.rank)
  bcast_S256_S256x1_0 : S256.BroadcastsInDim S256x1 (![0] : Fin 1 → Fin S256x1.rank)
  bcast_S256x1_S256x2_0_1 : S256x1.BroadcastsInDim S256x2 (![0, 1] : Fin 2 → Fin S256x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x32_S100000x32_1_0_0_1_n_n_wf : DotDims.WF S100000x128 S128x32 S100000x32 [1] [0] [0] [1] [] []
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S256x32_S100000x1_S100000x32_1_0_0_1_wf : ScatterDims.WF S256x32 S100000x1 S100000x32 [1] [0] [0] 1
  dot_S256x32_S32x32_S256x32_1_0_0_1_n_n_wf : DotDims.WF S256x32 S32x32 S256x32 [1] [0] [0] [1] [] []
  dot_S256x32_S32x2_S256x2_1_0_0_1_n_n_wf : DotDims.WF S256x32 S32x2 S256x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S256x32_S100000x1_S100000x32_1_0_0_1 : ScatterDims S256x32 S100000x1 S100000x32 where
  updateWindowDims := [1]
  insertedWindowDims := [0]
  scatterDimsToOperandDims := [0]
  indexVectorDim := 1
  wf := scatter_S256x32_S100000x1_S100000x32_1_0_0_1_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S256x32_S32x2_S256x2_1_0_0_1_n_n : DotDims S256x32 S32x2 S256x2 where
  lhsContracting := [1]
  rhsContracting := [0]
  lhsNonContracting := [0]
  rhsNonContracting := [1]
  lhsBatch := []
  rhsBatch := []
  wf := dot_S256x32_S32x2_S256x2_1_0_0_1_n_n_wf

class Facts : Prop extends Facts₀ where

variable [Facts]
-- ==== Proof.Spec.lean ====
/-
  The network as one composition of array functions, written with the host program's own operations.

  A graph-isomorphism layer takes node features h : [100000, d] and the edge list e : [2, 1600000] and returns
      norm (relu (relu ((agg h e + h) · w1 + b1) · w2 + b2))
  where agg h e sums, for every node, the feature rows of the sources of its incoming edges (a row gather by the source
  indices, negative indices wrapped by 100000, then a scatter-add by the destination indices into zeros), and norm
  centres every column by its mean over the 100000 rows, scales it by the reciprocal square root of its (biased) variance
  plus a small constant, then by a per-column weight, and adds a per-column bias.  Four such layers are followed by a
  scatter-add of the node rows into 256 graph rows by the graph index of each node, two dense layers, and a row-wise
  log-softmax.  A per-column vector b : [32] enters the [100000, 32] arithmetic as a row [1, 32] repeated down the rows.
-/
import proofs.«115996_j33088428049205_1_alg».proof.ReferenceIdeal
import Idealize.ShloMosaic.PureOps.Ideal

noncomputable section

namespace Cert.Spec

open Idealize.ShloMosaic Cert.ReferenceIdeal

variable {F : FTy → Type} [FloatOps F] [Cert.ReferenceIdeal.Facts]
open Cert.ReferenceIdeal.Facts₀ Cert.ReferenceIdeal.Facts

/-! ## Edge indices -/

/-- Row r of the edge list, as a vector of 1600000 indices. -/
def srcRow (e : IVec S2x1600000 32) : IVec S1600000 32 :=
  shapeCast S1600000 (extractStridedSlice S1x1600000 ![0, 0] e slices_S2x1600000_S1x1600000_0_0) shapeCasts_S1x1600000_S1600000

def dstRow (e : IVec S2x1600000 32) : IVec S1600000 32 :=
  shapeCast S1600000 (extractStridedSlice S1x1600000 ![1, 0] e slices_S2x1600000_S1x1600000_1_0) shapeCasts_S1x1600000_S1600000

/-- The source indices with negative ones wrapped around by 100000, as a column of one-entry index vectors. -/
def srcIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

def dstIdx (d : IVec S1600000 32) : IVec S1600000x1 32 :=
  broadcastInDim S1600000x1 ![0] bcast_S1600000_S1600000x1_0 d

/-- The neighbour sum of 128-wide rows. -/
def agg128 (x : FVec F S100000x128 .f32) (s d : IVec S1600000 32) : FVec F S100000x128 .f32 :=
  Host.scatterAdd scatter_S100000x128_S1600000x1_S1600000x128_1_0_0_1
    (broadcastInDim S100000x128 ![] bcast_S_S100000x128 (constant S_ .f32 0x00000000#32)) (dstIdx d)
    (Host.gather gather_S100000x128_S1600000x1_S1600000x128_1_0_n_n_0_1_1128 x (srcIdx s))

/-- The neighbour sum of 32-wide rows. -/
def agg32 (h : FVec F S100000x32 .f32) (s d : IVec S1600000 32) : FVec F S100000x32 .f32 :=
  Host.scatterAdd scatter_S100000x32_S1600000x1_S1600000x32_1_0_0_1
    (broadcastInDim S100000x32 ![] bcast_S_S100000x32 (constant S_ .f32 0x00000000#32)) (dstIdx d)
    (Host.gather gather_S100000x32_S1600000x1_S1600000x32_1_0_n_n_0_1_132 h (srcIdx s))

/-! ## Rows and columns -/

/-- A per-column vector as a one-row matrix. -/
def row (b : FVec F S32 .f32) : FVec F S1x32 .f32 := broadcastInDim S1x32 ![1] bcast_S32_S1x32_1 b

/-- A one-row matrix repeated down the 100000 rows. -/
def rows (r : FVec F S1x32 .f32) : FVec F S100000x32 .f32 := broadcastInDim S100000x32 ![0, 1] bcast_S1x32_S100000x32_0_1 r

/-- A two-entry vector as a one-row matrix. -/
def row2 (b : FVec F S2 .f32) : FVec F S1x2 .f32 := broadcastInDim S1x2 ![1] bcast_S2_S1x2_1 b

def zeros32 : FVec F S100000x32 .f32 := broadcastInDim S100000x32 ![] bcast_S_S100000x32 (constant S_ .f32 0x00000000#32)

/-! ## The two-layer perceptron of a layer -/

def mlp128 (a h : FVec F S100000x128 .f32) (w1 : FVec F S128x32 .f32) (b1 : FVec F S1x32 .f32) (w2 : FVec F S32x32 .f32)
    (b2 : FVec F S1x32 .f32) : FVec F S100000x32 .f32 :=
  maximumf (addf (Host.dotGeneral dot_S100000x32_S32x32_S100000x32_1_0_0_1_n_n none
    (maximumf (addf (Host.dotGeneral dot_S100000x128_S128x32_S100000x32_1_0_0_1_n_n none (addf a h) w1) (rows b1)) zeros32) w2) (rows b2)) zeros32

def mlp32 (a h : FVec F S100000x32 .f32) (w1 : FVec F S32x32 .f32) (b1 : FVec F S1x32 .f32) (w2 : FVec F S32x32 .f32)
    (b2 : FVec F S1x32 .f32) : FVec F S100000x32 .f32 :=
  maximumf (addf (Host.dotGeneral dot_S100000x32_S32x32_S100000x32_1_0_0_1_n_n none
    (maximumf (addf (Host.dotGeneral dot_S100000x32_S32x32_S100000x32_1_0_0_1_n_n none (addf a h) w1) (rows b1)) zeros32) w2) (rows b2)) zeros32

/-! ## Column statistics -/

/-- The column sums. -/
def colSum (x : FVec F S100000x32 .f32) : FVec F S32 .f32 :=
  Host.reduceAdd x (constant S_ .f32 0x00000000#32) reducesTo_S100000x32_S32_d0 h_S_

/-- The column means: the column sums over 100000. -/
def mean (x : FVec F S100000x32 .f32) : FVec F S32 .f32 :=
  Host.divf (colSum x) (broadcastInDim S32 ![] bcast_S_S32 (constant S_ .f32 0x47C35000#32))

/-- The squared deviations from the column means (the means taken as a one-row matrix). -/
def centredSq (x : FVec F S100000x32 .f32) : FVec F S100000x32 .f32 :=
  mulf (subf x (rows (Host.divf (row (colSum x)) (broadcastInDim S1x32 ![] bcast_S_S1x32 (constant S_ .f32 0x47C35000#32)))))
    (subf x (rows (Host.divf (row (colSum x)) (broadcastInDim S1x32 ![] bcast_S_S1x32 (constant S_ .f32 0x47C35000#32)))))

/-- The divisor of the variance: 100000 minus the (zero) degrees-of-freedom correction. -/
def count : FVec F S_ .f32 := subf (constant S_ .f32 0x47C35000#32) (sitofp .f32 (constantI S_ 32 0#32))

/-- Whether the divisor is positive. -/
def countPos : IVec S_ 1 := cmpf .ogt (count (F := F)) (constant S_ .f32 0x00000000#32)

/-- The column variances: the column sums of the squared deviations over the divisor, where the divisor is positive
    (elsewhere the not-a-number pattern). -/
def var (x : FVec F S100000x32 .f32) : FVec F S32 .f32 :=
  select (broadcastInDim S32 ![] bcast_S_S32 (countPos (F := F)))
    (Host.divf (colSum (centredSq x)) (broadcastInDim S32 ![] bcast_S_S32 count))
    (broadcastInDim S32 ![] bcast_S_S32 (id (constant S_ .f32 0x7FC00000#32)))

/-! ## The normalisation -/

/-- The normalisation with the statistics and the affine parameters given as vectors. -/
def bn (x : FVec F S100000x32 .f32) (mu v g b : FVec F S32 .f32) : FVec F S100000x32 .f32 :=
  addf (mulf (mulf (subf x (rows (row mu)))
    (rows (row (Host.rsqrt (addf v (broadcastInDim S32 ![] bcast_S_S32 (constant S_ .f32 0x3727C5AC#32))))))) (rows (row g))) (rows (row b))

/-- The normalisation with the statistics and the affine parameters given as one-row matrices. -/
def bnRows (x : FVec F S100000x32 .f32) (mu v g b : FVec F S1x32 .f32) : FVec F S100000x32 .f32 :=
  addf (mulf (mulf (subf x (rows mu))
    (rows (Host.rsqrt (addf v (broadcastInDim S1x32 ![] bcast_S_S1x32 (constant S_ .f32 0x3727C5AC#32)))))) (rows g)) (rows b)

/-! ## Parameter slices -/

def bnParam0 (p : FVec F S4x32 .f32) : FVec F S32 .f32 := shapeCast S32 (extractStridedSlice S1x32 ![0, 0] p slices_S4x32_S1x32_0_0) shapeCasts_S1x32_S32
def bnParam1 (p : FVec F S4x32 .f32) : FVec F S32 .f32 := shapeCast S32 (extractStridedSlice S1x32 ![1, 0] p slices_S4x32_S1x32_1_0) shapeCasts_S1x32_S32
def bnParam2 (p : FVec F S4x32 .f32) : FVec F S32 .f32 := shapeCast S32 (extractStridedSlice S1x32 ![2, 0] p slices_S4x32_S1x32_2_0) shapeCasts_S1x32_S32
def bnParam3 (p : FVec F S4x32 .f32) : FVec F S32 .f32 := shapeCast S32 (extractStridedSlice S1x32 ![3, 0] p slices_S4x32_S1x32_3_0) shapeCasts_S1x32_S32

def weight0 (w : FVec F S3x32x32 .f32) : FVec F S32x32 .f32 := shapeCast S32x32 (extractStridedSlice S1x32x32 ![0, 0, 0] w slices_S3x32x32_S1x32x32_0_0_0) shapeCasts_S1x32x32_S32x32
def weight1 (w : FVec F S3x32x32 .f32) : FVec F S32x32 .f32 := shapeCast S32x32 (extractStridedSlice S1x32x32 ![1, 0, 0] w slices_S3x32x32_S1x32x32_1_0_0) shapeCasts_S1x32x32_S32x32
def weight2 (w : FVec F S3x32x32 .f32) : FVec F S32x32 .f32 := shapeCast S32x32 (extractStridedSlice S1x32x32 ![2, 0, 0] w slices_S3x32x32_S1x32x32_2_0_0) shapeCasts_S1x32x32_S32x32

def bias0 (b : FVec F S3x32 .f32) : FVec F S32 .f32 := shapeCast S32 (extractStridedSlice S1x32 ![0, 0] b slices_S3x32_S1x32_0_0) shapeCasts_S1x32_S32
def bias1 (b : FVec F S3x32 .f32) : FVec F S32 .f32 := shapeCast S32 (extractStridedSlice S1x32 ![1, 0] b slices_S3x32_S1x32_1_0) shapeCasts_S1x32_S32
def bias2 (b : FVec F S3x32 .f32) : FVec F S32 .f32 := shapeCast S32 (extractStridedSlice S1x32 ![2, 0] b slices_S3x32_S1x32_2_0) shapeCasts_S1x32_S32

/-! ## Pooling and the classifier -/

/-- The node rows summed into the row of their graph. -/
def pool (h : FVec F S100000x32 .f32) (g : IVec S100000 32) : FVec F S256x32 .f32 :=
  Host.scatterAdd scatter_S256x32_S100000x1_S100000x32_1_0_0_1
    (broadcastInDim S256x32 ![] bcast_S_S256x32 (constant S_ .f32 0x00000000#32))
    (broadcastInDim S100000x1 ![0] bcast_S100000_S100000x1_0 g) h

/-- The two dense layers of the classifier, the biases given as one-row matrices. -/
def logits (p : FVec F S256x32 .f32) (w1 : FVec F S32x32 .f32) (b1 : FVec F S1x32 .f32) (w2 : FVec F S32x2 .f32) (b2 : FVec F S1x2 .f32) :
    FVec F S256x2 .f32 :=
  addf (Host.dotGeneral dot_S256x32_S32x2_S256x2_1_0_0_1_n_n none
    (maximumf (addf (Host.dotGeneral dot_S256x32_S32x32_S256x32_1_0_0_1_n_n none p w1)
      (broadcastInDim S256x32 ![0, 1] bcast_S1x32_S256x32_0_1 b1))
      (broadcastInDim S256x32 ![] bcast_S_S256x32 (constant S_ .f32 0x00000000#32))) w2)
    (broadcastInDim S256x2 ![0, 1] bcast_S1x2_S256x2_0_1 b2)

/-- A row's entries minus the row maximum (the maximum taken against minus infinity first). -/
def shifted (z : FVec F S256x2 .f32) : FVec F S256x2 .f32 :=
  subf z (broadcastInDim S256x2 ![0, 1] bcast_S256x1_S256x2_0_1 (broadcastInDim S256x1 ![0] bcast_S256_S256x1_0
    (maximumf (broadcastInDim S256 ![] bcast_S_S256 (constant S_ .f32 0xFF800000#32))
      (Host.reduce FloatOps.maximumf z (constant S_ .f32 0xFF800000#32) reducesTo_S256x2_S256_d1 h_S_))))

/-- The row-wise log-softmax. -/
def logSoftmax (z : FVec F S256x2 .f32) : FVec F S256x2 .f32 :=
  subf (shifted z) (broadcastInDim S256x2 ![0, 1] bcast_S256x1_S256x2_0_1 (Host.log (broadcastInDim S256x1 ![0] bcast_S256_S256x1_0
    (Host.reduceAdd (Host.exp (shifted z)) (constant S_ .f32 0x00000000#32) reducesTo_S256x2_S256_d1 h_S_))))

def head (p : FVec F S256x32 .f32) (w1 : FVec F S32x32 .f32) (b1 : FVec F S1x32 .f32) (w2 : FVec F S32x2 .f32) (b2 : FVec F S1x2 .f32) :
    FVec F S256x2 .f32 := logSoftmax (logits p w1 b1 w2 b2)

/-! ## The network -/

/-- A perceptron's output normalised by its own column statistics. -/
def norm (y : FVec F S100000x32 .f32) (g b : FVec F S32 .f32) : FVec F S100000x32 .f32 := bn y (mean y) (var y) g b

/-- The first layer: 128 input features. -/
def layer0 (x : FVec F S100000x128 .f32) (s d : IVec S1600000 32) (w1 : FVec F S128x32 .f32) (b1 : FVec F S32 .f32)
    (w2 : FVec F S32x32 .f32) (b2 g b : FVec F S32 .f32) : FVec F S100000x32 .f32 :=
  norm (mlp128 (agg128 x s d) x w1 (row b1) w2 (row b2)) g b

/-- A later layer: 32 input features. -/
def layer (h : FVec F S100000x32 .f32) (s d : IVec S1600000 32) (w1 : FVec F S32x32 .f32) (b1 : FVec F S32 .f32)
    (w2 : FVec F S32x32 .f32) (b2 g b : FVec F S32 .f32) : FVec F S100000x32 .f32 :=
  norm (mlp32 (agg32 h s d) h w1 (row b1) w2 (row b2)) g b

/-- The node features after the four layers. -/
def features (x : FVec F S100000x128 .f32) (e : IVec S2x1600000 32) (w10 : FVec F S128x32 .f32) (b10 : FVec F S32 .f32)
    (w20 : FVec F S32x32 .f32) (b20 : FVec F S32 .f32) (ws1 : FVec F S3x32x32 .f32) (bs1 : FVec F S3x32 .f32)
    (ws2 : FVec F S3x32x32 .f32) (bs2 : FVec F S3x32 .f32) (gs bs : FVec F S4x32 .f32) : FVec F S100000x32 .f32 :=
  layer (layer (layer (layer0 x (srcRow e) (dstRow e) w10 b10 w20 b20 (bnParam0 gs) (bnParam0 bs))
      (srcRow e) (dstRow e) (weight0 ws1) (bias0 bs1) (weight0 ws2) (bias0 bs2) (bnParam1 gs) (bnParam1 bs))
      (srcRow e) (dstRow e) (weight1 ws1) (bias1 bs1) (weight1 ws2) (bias1 bs2) (bnParam2 gs) (bnParam2 bs))
      (srcRow e) (dstRow e) (weight2 ws1) (bias2 bs1) (weight2 ws2) (bias2 bs2) (bnParam3 gs) (bnParam3 bs)

/-- The whole network: the log-probabilities of the two classes for each of the 256 graphs. -/
def net (x : FVec F S100000x128 .f32) (e : IVec S2x1600000 32) (batch : IVec S100000 32) (w10 : FVec F S128x32 .f32)
    (b10 : FVec F S32 .f32) (w20 : FVec F S32x32 .f32) (b20 : FVec F S32 .f32) (ws1 : FVec F S3x32x32 .f32) (bs1 : FVec F S3x32 .f32)
    (ws2 : FVec F S3x32x32 .f32) (bs2 : FVec F S3x32 .f32) (gs bs : FVec F S4x32 .f32) (fc1w : FVec F S32x32 .f32)
    (fc1b : FVec F S32 .f32) (fc2w : FVec F S32x2 .f32) (fc2b : FVec F S2 .f32) : FVec F S256x2 .f32 :=
  head (pool (features x e w10 b10 w20 b20 ws1 bs1 ws2 bs2 gs bs) batch) fc1w (row fc1b) fc2w (row2 fc2b)

end Cert.Spec

end
-- ==== Proof.KernelRun.lean ====
/-
  The idealized kernel program's run with every buffer named.

  The program is nine pipelined regions among stretches of host operations.  From any launch memory with zero counters
  every weakly fair execution terminates, and every unscoped buffer of a core then holds what the fold of the
  segments leaves there: a stretch of host operations applies its operations in order, a region replaces each of its
  arrays by what its write-backs leave and keeps every other buffer.  The generated frame states the same run and keeps
  only the argument arrays of the final state; here the whole final valuation is kept, so that the result array can
  be read.
-/
import proofs.«115996_j33088428049205_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every
    core at the final boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W26 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h => h)

end Cert.KernelIdeal.Run

end
-- ==== Proof.Rows.lean ====
/-
  A per-column vector enters the [100000, 32] arithmetic as a one-row matrix.  Laying a vector along a row commutes with
  every entrywise operation and sends a splat scalar to the splat scalar, and recasting a vector [32] as a matrix [1, 32]
  is laying it along the row.  Hence the column statistics computed on one-row matrices are the rows of the statistics
  computed on vectors, and the normalisation fed with rows is the normalisation fed with vectors.
-/
import proofs.«115996_j33088428049205_1_alg».proof.Proof.Spec
import Idealize.ShloMosaic.Lib.Pipeline.Value
import Idealize.ShloMosaic.Lib.ValueIdx
import Idealize.ShloMosaic.Lib.IdealHost

noncomputable section

namespace Cert.Spec

open Idealize.ShloMosaic Idealize.ShloMosaic.ValueIdx Cert.ReferenceIdeal

variable {F : FTy → Type} [FloatOps F] [Cert.ReferenceIdeal.Facts]
open Cert.ReferenceIdeal.Facts₀ Cert.ReferenceIdeal.Facts

/-- Laying along the row, for entries of any type. -/
def rowOf {α : Type} (b : S32.Idx → α) : S1x32.Idx → α := broadcastInDim S1x32 ![1] bcast_S32_S1x32_1 b

theorem row_eq_rowOf (b : FVec F S32 .f32) : row b = rowOf b := rfl

/-- The row's entry in column q is the vector's entry q. -/
theorem rowOf_apply {α : Type} (b : S32.Idx → α) (u : Fin 1) (q : Fin 32) : rowOf b (ix2 u q) = b (ix1 q) := by
  unfold rowOf
  exact broadcastInDim_apply ![1] bcast_S32_S1x32_1 b (ix2 u q) (ix1 q) (fun a => by
    match a with
    | ⟨0, _⟩ => show q.val = if (32 : ℕ) = 1 then 0 else q.val; simp)

/-- A vector recast as a one-row matrix is the vector laid along the row. -/
theorem shapeCast_eq_row {α : Type} (b : S32.Idx → α) (h : S32.ShapeCasts S1x32) : shapeCast S1x32 b h = rowOf b := by
  funext i
  obtain ⟨u, q, rfl⟩ : ∃ (u : Fin 1) (q : Fin 32), i = ix2 u q := ⟨i 0, i 1, eq_ix2 i⟩
  have hu : u.val = 0 := by omega
  rw [rowOf_apply]
  exact shapeCast_apply b h (ix2 u q) (ix1 q) (by
    rw [Shape.rowMajor_val_two, Shape.rowMajor_val_one]
    show q.val = u.val * 32 + q.val
    omega)

/-- The same for a two-entry vector. -/
theorem shapeCast_eq_row2 (b : FVec F S2 .f32) (h : S2.ShapeCasts S1x2) : shapeCast S1x2 b h = row2 b := by
  funext i
  obtain ⟨u, q, rfl⟩ : ∃ (u : Fin 1) (q : Fin 2), i = ix2 u q := ⟨i 0, i 1, eq_ix2 i⟩
  have hu : u.val = 0 := by omega
  refine (shapeCast_apply b h (ix2 u q) (ix1 q) (by
    rw [Shape.rowMajor_val_two, Shape.rowMajor_val_one]
    show q.val = u.val * 2 + q.val
    omega)).trans ?_
  unfold row2
  exact (broadcastInDim_apply ![1] bcast_S2_S1x2_1 b (ix2 u q) (ix1 q) (fun a => by
    match a with
    | ⟨0, _⟩ => show q.val = if (2 : ℕ) = 1 then 0 else q.val; simp)).symm

/-- A splat scalar laid along the row is the splat scalar. -/
theorem rowOf_splat {α : Type} (k : S_.Idx → α) :
    rowOf (broadcastInDim S32 ![] bcast_S_S32 k) = broadcastInDim S1x32 ![] bcast_S_S1x32 k := by
  funext i
  obtain ⟨u, q, rfl⟩ : ∃ (u : Fin 1) (q : Fin 32), i = ix2 u q := ⟨i 0, i 1, eq_ix2 i⟩
  rw [rowOf_apply, broadcastInDim_scalar_apply, broadcastInDim_scalar_apply]

/-- The column means as a row: the row of column sums over the splat count. -/
theorem mean_row (x : FVec F S100000x32 .f32) :
    Host.divf (row (colSum x)) (broadcastInDim S1x32 ![] bcast_S_S1x32 (constant S_ .f32 0x47C35000#32)) = row (mean x) := by
  rw [← rowOf_splat]; rfl

/-- The column variances as a row. -/
theorem var_row (x : FVec F S100000x32 .f32) :
    select (broadcastInDim S1x32 ![] bcast_S_S1x32 (countPos (F := F)))
      (Host.divf (row (colSum (centredSq x))) (broadcastInDim S1x32 ![] bcast_S_S1x32 count))
      (broadcastInDim S1x32 ![] bcast_S_S1x32 (id (constant S_ .f32 0x7FC00000#32))) = row (var x) := by
  rw [← rowOf_splat, ← rowOf_splat, ← rowOf_splat]; rfl

/-- The normalisation fed with the rows of vectors is the normalisation fed with the vectors. -/
theorem bnRows_row (x : FVec F S100000x32 .f32) (mu v g b : FVec F S32 .f32) :
    bnRows x (row mu) (row v) (row g) (row b) = bn x mu v g b := by
  unfold bnRows bn
  rw [← rowOf_splat]; rfl

end Cert.Spec

end
-- ==== Proof.LibAfter.lean ====
/-
  General facts about `StableHlo.after` over a line in single-assignment form: a line of host operations each of
  which writes exactly one reference, the written references pairwise distinct. For such a line the contents of a
  written reference after the whole line are the writing operation's result over the contents after the operations
  before it, and a reference written before position `k` (or never written) holds after the whole line what it holds
  after the first `k` operations. Hence the per-operation read equations `read_unary`, `read_binary`, … : the
  final contents of a result are the operation's function of the FINAL contents of its operands.
-/
import Idealize.ShloMosaic.Lib.StableHlo.Run

namespace Cert.LibAfter

open Idealize.ShloMosaic Idealize.ShloMosaic.StableHlo

variable {τ : Topo} {sig : RefSig} {Val : EltTy → Type}

/-- Operation by operation, the line writes exactly the references of the list. -/
abbrev Writes (ops : List (HloOp τ sig Val)) (wr : List (Ref sig .tc)) : Prop :=
  List.Forall₂ (fun op r => op.writes = {Proc.devRef (τ := τ) .tc r}) ops wr

/-- The fold over two lines in a row is the fold over the second from the fold over the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A reference the line never writes keeps its contents. -/
theorem after_of_not_written {ops : List (HloOp τ sig Val)} {wr : List (Ref sig .tc)} (hw : Writes ops wr)
    {r : Ref sig .tc} (hr : r ∉ wr) (V : Valuation τ sig Val) :
    after ops V (Proc.devRef .tc r) = V (Proc.devRef .tc r) := by
  induction hw generalizing V with
  | nil => rfl
  | @cons op r' ops wr hop _ ih =>
    rw [after_cons, ih (fun h => hr (List.mem_cons_of_mem _ h)),
      op.result_of_not_mem V (by
        rw [hop, Finset.mem_singleton]
        exact devRef_ne_of_ne (fun e => hr (e ▸ List.mem_cons_self)))]

theorem writes_drop {ops : List (HloOp τ sig Val)} {wr : List (Ref sig .tc)} (hw : Writes ops wr) (k : Nat) :
    Writes (ops.drop k) (wr.drop k) := List.forall₂_drop k hw

theorem writes_append {o₁ o₂ : List (HloOp τ sig Val)} {w₁ w₂ : List (Ref sig .tc)} (h₁ : Writes o₁ w₁) (h₂ : Writes o₂ w₂) :
    Writes (o₁ ++ o₂) (w₁ ++ w₂) := List.rel_append h₁ h₂

/-- In a list without repetition, the entry at a position is not among the entries from a later position on. -/
theorem not_mem_drop_of_lt {α : Type} {l : List α} (hnd : l.Nodup) {i k : Nat} (hik : i < k) {a : α}
    (ha : l[i]? = some a) : a ∉ l.drop k := by
  intro hmem
  obtain ⟨j, hj⟩ := List.mem_iff_getElem?.mp hmem
  rw [List.getElem?_drop] at hj
  have hlt : k + j < l.length := (List.getElem?_eq_some_iff.mp hj).1
  exact (List.nodup_iff_getElem?_ne_getElem?.mp hnd i (k + j) (by omega) hlt) (ha.trans hj.symm)

theorem not_mem_drop_of_not_mem {α : Type} {l : List α} {a : α} (ha : a ∉ l) (k : Nat) : a ∉ l.drop k :=
  fun h => ha (List.mem_of_mem_drop h)

/-- A reference not written from position `k` on holds after the line what it holds after the first `k` operations. -/
theorem after_keep {ops : List (HloOp τ sig Val)} {wr : List (Ref sig .tc)} (hw : Writes ops wr) (k : Nat)
    {a : Ref sig .tc} (ha : a ∉ wr.drop k) (V : Valuation τ sig Val) :
    after ops V (Proc.devRef .tc a) = after (ops.take k) V (Proc.devRef .tc a) := by
  conv_lhs => rw [← List.take_append_drop k ops]
  rw [after_append, after_of_not_written (writes_drop hw k) ha]

/-- The reference written at position `k` holds after the line the result of that operation over the contents after
    the first `k` operations. -/
theorem after_at {ops : List (HloOp τ sig Val)} {wr : List (Ref sig .tc)} (hw : Writes ops wr) (hnd : wr.Nodup) (k : Nat)
    {op : HloOp τ sig Val} {y : Ref sig .tc} (hop : ops[k]? = some op) (hy : wr[k]? = some y) (V : Valuation τ sig Val) :
    after ops V (Proc.devRef .tc y) = op.result (after (ops.take k) V) (Proc.devRef .tc y) := by
  obtain ⟨hk, hopk⟩ := List.getElem?_eq_some_iff.mp hop
  have e : ops = ops.take k ++ op :: ops.drop (k + 1) := by
    rw [← hopk, ← List.drop_eq_getElem_cons hk, List.take_append_drop]
  conv_lhs => rw [e]
  rw [after_append, after_cons,
    after_of_not_written (writes_drop hw (k + 1)) (not_mem_drop_of_lt hnd (Nat.lt_succ_self k) hy)]

section Reads

variable {ops : List (HloOp τ sig Val)} {wr : List (Ref sig .tc)} (hw : Writes ops wr) (hnd : wr.Nodup) (k : Nat)
include hw hnd

/-- A constant's buffer holds the constant. -/
theorem read_nullary {y : Ref sig .tc} {v : y.ty.Contents Val} {hy}
    (hop : ops[k]? = some (nullary (τ := τ) y v hy)) (hyk : wr[k]? = some y) (V : Valuation τ sig Val) :
    after ops V (Proc.devRef .tc y) = v := by
  rw [after_at hw hnd k hop hyk, nullary_result]

/-- A one-operand operation's result holds its function of the operand's final contents. -/
theorem read_unary {x y : Ref sig .tc} {f : x.ty.Contents Val → y.ty.Contents Val} {hx hy}
    (hop : ops[k]? = some (unary (τ := τ) x y f hx hy)) (hyk : wr[k]? = some y) (hxk : x ∉ wr.drop k)
    (V : Valuation τ sig Val) :
    after ops V (Proc.devRef .tc y) = f (after ops V (Proc.devRef .tc x)) := by
  rw [after_at hw hnd k hop hyk, unary_result, after_keep hw k hxk]

/-- A two-operand operation's result holds its function of the operands' final contents. -/
theorem read_binary {a b y : Ref sig .tc} {f : a.ty.Contents Val → b.ty.Contents Val → y.ty.Contents Val} {ha hb hy}
    (hop : ops[k]? = some (binary (τ := τ) a b y f ha hb hy)) (hyk : wr[k]? = some y)
    (hak : a ∉ wr.drop k) (hbk : b ∉ wr.drop k) (V : Valuation τ sig Val) :
    after ops V (Proc.devRef .tc y) = f (after ops V (Proc.devRef .tc a)) (after ops V (Proc.devRef .tc b)) := by
  rw [after_at hw hnd k hop hyk, binary_result, after_keep hw k hak, after_keep hw k hbk]

/-- A three-operand operation's result holds its function of the operands' final contents. -/
theorem read_ternary {c a b y : Ref sig .tc}
    {f : c.ty.Contents Val → a.ty.Contents Val → b.ty.Contents Val → y.ty.Contents Val} {hc ha hb hy}
    (hop : ops[k]? = some (ternary (τ := τ) c a b y f hc ha hb hy)) (hyk : wr[k]? = some y)
    (hck : c ∉ wr.drop k) (hak : a ∉ wr.drop k) (hbk : b ∉ wr.drop k) (V : Valuation τ sig Val) :
    after ops V (Proc.devRef .tc y)
      = f (after ops V (Proc.devRef .tc c)) (after ops V (Proc.devRef .tc a)) (after ops V (Proc.devRef .tc b)) := by
  rw [after_at hw hnd k hop hyk, ternary_result, after_keep hw k hck, after_keep hw k hak, after_keep hw k hbk]

/-- A reshape's result holds the operand's final contents, re-indexed row-major at the result's shape. -/
theorem read_reshape {x y : Ref sig .tc} {he : x.ty.elt = y.ty.elt} {hn : x.ty.shape.ShapeCasts y.ty.shape} {hx hy}
    (hop : ops[k]? = some (reshape (τ := τ) (Val := Val) x y he hn hx hy)) (hyk : wr[k]? = some y) (hxk : x ∉ wr.drop k)
    (V : Valuation τ sig Val) :
    after ops V (Proc.devRef .tc y) = fun i => he ▸ shapeCast y.ty.shape (after ops V (Proc.devRef .tc x)) hn i := by
  rw [after_at hw hnd k hop hyk, reshape_result, after_keep hw k hxk]

end Reads

end Cert.LibAfter
-- ==== Proof.KernelHost.lean ====
/-
  What the stretches of host operations of the kernel program compute, each as a function of the contents it starts
  from.  A stretch before a perceptron region gathers the neighbour sums (and takes the layer's weight and bias slices,
  the biases recast as one-row matrices); the three stretches before a normalisation region compute the column means
  as a row, the column variances as a row, and the affine parameters as rows; the last stretch pools the node rows by
  graph.  Each is the same composition of operations as the corresponding part of the network's specification.
-/
import proofs.«115996_j33088428049205_1_alg».proof.Proof.Gen.KernelIdeal.Launch
import proofs.«115996_j33088428049205_1_alg».proof.Proof.Gen.ReferenceIdeal
import proofs.«115996_j33088428049205_1_alg».proof.Proof.Spec
import proofs.«115996_j33088428049205_1_alg».proof.Proof.Rows
import proofs.«115996_j33088428049205_1_alg».proof.Proof.LibAfter
import Idealize.ShloMosaic.Lib.StableHlo.Run

set_option maxRecDepth 16384

noncomputable section

namespace Cert.KernelIdeal.HostRead

open Idealize.ShloMosaic Idealize.ShloMosaic.StableHlo Cert.KernelIdeal Cert.KernelIdeal.Gen

variable {F : FTy → Type} [FloatOps F]
variable (W : Valuation τ sig (Elt F))

/-! ## What each stretch writes, and what it keeps -/

abbrev wr0 : List (Ref sig .tc) := [main_v0, main_v1, main_v2, main_v3, main_c, main_v4, main_v5, main_c_0, main_v6, main_v7, main_v8, main_v9, main_v10, main_cst, main_v11, main_v12, main_v13, main_v14, main_v15]
theorem hw0 : Cert.LibAfter.Writes (τ := τ) (hostOps0 (F := F)) wr0 := by
  repeat (first | exact List.Forall₂.nil | refine List.Forall₂.cons rfl ?_)
theorem keep0 (b : Ref sig .tc) (hb : b ∉ wr0) : after hostOps0 W (Proc.devRef .tc b) = W (Proc.devRef .tc b) :=
  Cert.LibAfter.after_of_not_written hw0 hb W

abbrev wr1 : List (Ref sig .tc) := [main_cst_1, main_v17, main_v18, main_cst_2, main_v19, main_v20, main_c_3]
theorem hw1 : Cert.LibAfter.Writes (τ := τ) (hostOps1 (F := F)) wr1 := by
  repeat (first | exact List.Forall₂.nil | refine List.Forall₂.cons rfl ?_)
theorem keep1 (b : Ref sig .tc) (hb : b ∉ wr1) : after hostOps1 W (Proc.devRef .tc b) = W (Proc.devRef .tc b) :=
  Cert.LibAfter.after_of_not_written hw1 hb W

abbrev wr1_1 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v21]
theorem hw1_1 : Cert.LibAfter.Writes (τ := τ) (hostOps1_1 (F := F)) wr1_1 := by
  repeat (first | exact List.Forall₂.nil | refine List.Forall₂.cons rfl ?_)
theorem keep1_1 (b : Ref sig .tc) (hb : b ∉ wr1_1) : after hostOps1_1 W (Proc.devRef .tc b) = W (Proc.devRef .tc b) :=
  Cert.LibAfter.after_of_not_written hw1_1 hb W

abbrev wr1_2 : List (Ref sig .tc) := [main_v22, main_v23, main_v24, main_v25, main_v26, main_v27]
theorem hw1_2 : Cert.LibAfter.Writes (τ := τ) (hostOps1_2 (F := F)) wr1_2 := by
  repeat (first | exact List.Forall₂.nil | refine List.Forall₂.cons rfl ?_)
theorem keep1_2 (b : Ref sig .tc) (hb : b ∉ wr1_2) : after hostOps1_2 W (Proc.devRef .tc b) = W (Proc.devRef .tc b) :=
  Cert.LibAfter.after_of_not_written hw1_2 hb W

abbrev wr2 : List (Ref sig .tc) := [main_c_4, main_v29, main_v30, main_c_5, main_v31, main_v32, main_v33, main_v34, main_v35, main_cst_6, main_v36, main_v37, main_v38, main_v39, main_v40, main_v41, main_v42, main_v43, main_v44, main_v45, main_v46, main_v47, main_v48]
theorem hw2 : Cert.LibAfter.Writes (τ := τ) (hostOps2 (F := F)) wr2 := by
  repeat (first | exact List.Forall₂.nil | refine List.Forall₂.cons rfl ?_)
theorem keep2 (b : Ref sig .tc) (hb : b ∉ wr2) : after hostOps2 W (Proc.devRef .tc b) = W (Proc.devRef .tc b) :=
  Cert.LibAfter.after_of_not_written hw2 hb W

abbrev wr3 : List (Ref sig .tc) := [main_cst_7, main_v50, main_v51, main_cst_8, main_v52, main_v53, main_c_9]
theorem hw3 : Cert.LibAfter.Writes (τ := τ) (hostOps3 (F := F)) wr3 := by
  repeat (first | exact List.Forall₂.nil | refine List.Forall₂.cons rfl ?_)
theorem keep3 (b : Ref sig .tc) (hb : b ∉ wr3) : after hostOps3 W (Proc.devRef .tc b) = W (Proc.devRef .tc b) :=
  Cert.LibAfter.after_of_not_written hw3 hb W

abbrev wr3_1 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v54]
theorem hw3_1 : Cert.LibAfter.Writes (τ := τ) (hostOps3_1 (F := F)) wr3_1 := by
  repeat (first | exact List.Forall₂.nil | refine List.Forall₂.cons rfl ?_)
theorem keep3_1 (b : Ref sig .tc) (hb : b ∉ wr3_1) : after hostOps3_1 W (Proc.devRef .tc b) = W (Proc.devRef .tc b) :=
  Cert.LibAfter.after_of_not_written hw3_1 hb W

abbrev wr3_2 : List (Ref sig .tc) := [main_v55, main_v56, main_v57, main_v58, main_v59, main_v60]
theorem hw3_2 : Cert.LibAfter.Writes (τ := τ) (hostOps3_2 (F := F)) wr3_2 := by
  repeat (first | exact List.Forall₂.nil | refine List.Forall₂.cons rfl ?_)
theorem keep3_2 (b : Ref sig .tc) (hb : b ∉ wr3_2) : after hostOps3_2 W (Proc.devRef .tc b) = W (Proc.devRef .tc b) :=
  Cert.LibAfter.after_of_not_written hw3_2 hb W

abbrev wr4 : List (Ref sig .tc) := [main_c_10, main_v62, main_v63, main_c_11, main_v64, main_v65, main_v66, main_v67, main_v68, main_cst_12, main_v69, main_v70, main_v71, main_v72, main_v73, main_v74, main_v75, main_v76, main_v77, main_v78, main_v79, main_v80, main_v81]
theorem hw4 : Cert.LibAfter.Writes (τ := τ) (hostOps4 (F := F)) wr4 := by
  repeat (first | exact List.Forall₂.nil | refine List.Forall₂.cons rfl ?_)
theorem keep4 (b : Ref sig .tc) (hb : b ∉ wr4) : after hostOps4 W (Proc.devRef .tc b) = W (Proc.devRef .tc b) :=
  Cert.LibAfter.after_of_not_written hw4 hb W

abbrev wr5 : List (Ref sig .tc) := [main_cst_13, main_v83, main_v84, main_cst_14, main_v85, main_v86, main_c_15]
theorem hw5 : Cert.LibAfter.Writes (τ := τ) (hostOps5 (F := F)) wr5 := by
  repeat (first | exact List.Forall₂.nil | refine List.Forall₂.cons rfl ?_)
theorem keep5 (b : Ref sig .tc) (hb : b ∉ wr5) : after hostOps5 W (Proc.devRef .tc b) = W (Proc.devRef .tc b) :=
  Cert.LibAfter.after_of_not_written hw5 hb W

abbrev wr5_1 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v87]
theorem hw5_1 : Cert.LibAfter.Writes (τ := τ) (hostOps5_1 (F := F)) wr5_1 := by
  repeat (first | exact List.Forall₂.nil | refine List.Forall₂.cons rfl ?_)
theorem keep5_1 (b : Ref sig .tc) (hb : b ∉ wr5_1) : after hostOps5_1 W (Proc.devRef .tc b) = W (Proc.devRef .tc b) :=
  Cert.LibAfter.after_of_not_written hw5_1 hb W

abbrev wr5_2 : List (Ref sig .tc) := [main_v88, main_v89, main_v90, main_v91, main_v92, main_v93]
theorem hw5_2 : Cert.LibAfter.Writes (τ := τ) (hostOps5_2 (F := F)) wr5_2 := by
  repeat (first | exact List.Forall₂.nil | refine List.Forall₂.cons rfl ?_)
theorem keep5_2 (b : Ref sig .tc) (hb : b ∉ wr5_2) : after hostOps5_2 W (Proc.devRef .tc b) = W (Proc.devRef .tc b) :=
  Cert.LibAfter.after_of_not_written hw5_2 hb W

abbrev wr6 : List (Ref sig .tc) := [main_c_16, main_v95, main_v96, main_c_17, main_v97, main_v98, main_v99, main_v100, main_v101, main_cst_18, main_v102, main_v103, main_v104, main_v105, main_v106, main_v107, main_v108, main_v109, main_v110, main_v111, main_v112, main_v113, main_v114]
theorem hw6 : Cert.LibAfter.Writes (τ := τ) (hostOps6 (F := F)) wr6 := by
  repeat (first | exact List.Forall₂.nil | refine List.Forall₂.cons rfl ?_)
theorem keep6 (b : Ref sig .tc) (hb : b ∉ wr6) : after hostOps6 W (Proc.devRef .tc b) = W (Proc.devRef .tc b) :=
  Cert.LibAfter.after_of_not_written hw6 hb W

abbrev wr7 : List (Ref sig .tc) := [main_cst_19, main_v116, main_v117, main_cst_20, main_v118, main_v119, main_c_21]
theorem hw7 : Cert.LibAfter.Writes (τ := τ) (hostOps7 (F := F)) wr7 := by
  repeat (first | exact List.Forall₂.nil | refine List.Forall₂.cons rfl ?_)
theorem keep7 (b : Ref sig .tc) (hb : b ∉ wr7) : after hostOps7 W (Proc.devRef .tc b) = W (Proc.devRef .tc b) :=
  Cert.LibAfter.after_of_not_written hw7 hb W

abbrev wr7_1 : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v120]
theorem hw7_1 : Cert.LibAfter.Writes (τ := τ) (hostOps7_1 (F := F)) wr7_1 := by
  repeat (first | exact List.Forall₂.nil | refine List.Forall₂.cons rfl ?_)
theorem keep7_1 (b : Ref sig .tc) (hb : b ∉ wr7_1) : after hostOps7_1 W (Proc.devRef .tc b) = W (Proc.devRef .tc b) :=
  Cert.LibAfter.after_of_not_written hw7_1 hb W

abbrev wr7_2 : List (Ref sig .tc) := [main_v121, main_v122, main_v123, main_v124, main_v125, main_v126]
theorem hw7_2 : Cert.LibAfter.Writes (τ := τ) (hostOps7_2 (F := F)) wr7_2 := by
  repeat (first | exact List.Forall₂.nil | refine List.Forall₂.cons rfl ?_)
theorem keep7_2 (b : Ref sig .tc) (hb : b ∉ wr7_2) : after hostOps7_2 W (Proc.devRef .tc b) = W (Proc.devRef .tc b) :=
  Cert.LibAfter.after_of_not_written hw7_2 hb W

abbrev wr8 : List (Ref sig .tc) := [main_cst_22, main_v128, main_v129, main_v130, main_v131, main_v132]
theorem hw8 : Cert.LibAfter.Writes (τ := τ) (hostOps8 (F := F)) wr8 := by
  repeat (first | exact List.Forall₂.nil | refine List.Forall₂.cons rfl ?_)
theorem keep8 (b : Ref sig .tc) (hb : b ∉ wr8) : after hostOps8 W (Proc.devRef .tc b) = W (Proc.devRef .tc b) :=
  Cert.LibAfter.after_of_not_written hw8 hb W

/-! ## Before the first perceptron region -/

theorem s0_v1 : after hostOps0 W (Proc.devRef .tc main_v1) = Cert.Spec.srcRow (W (Proc.devRef .tc main_arg1)) := by
  after_results; rfl

theorem s0_v3 : after hostOps0 W (Proc.devRef .tc main_v3) = Cert.Spec.dstRow (W (Proc.devRef .tc main_arg1)) := by
  after_results; rfl

set_option maxHeartbeats 1600000 in
theorem s0_v13 : after hostOps0 W (Proc.devRef .tc main_v13)
    = Cert.Spec.agg128 (W (Proc.devRef .tc main_arg0)) (Cert.Spec.srcRow (W (Proc.devRef .tc main_arg1))) (Cert.Spec.dstRow (W (Proc.devRef .tc main_arg1))) := by
  after_results; rfl

theorem s0_v14 : after hostOps0 W (Proc.devRef .tc main_v14) = Cert.Spec.row (W (Proc.devRef .tc main_arg4)) := by
  after_results
  exact Cert.Spec.shapeCast_eq_row _ _

theorem s0_v15 : after hostOps0 W (Proc.devRef .tc main_v15) = Cert.Spec.row (W (Proc.devRef .tc main_arg6)) := by
  after_results
  exact Cert.Spec.shapeCast_eq_row _ _

/-! ## Before normalisation region 1: the column statistics and the affine parameters, as rows -/

theorem s1_mean : after hostOps1 W (Proc.devRef .tc main_v20) = Cert.Spec.row (Cert.Spec.mean (W (Proc.devRef .tc main_v16))) := by
  after_results
  exact Cert.Spec.mean_row _

theorem s1_c : after hostOps1 W (Proc.devRef .tc main_c_3) = constantI S_ 32 0#32 := by
  after_results

theorem s1_1_var (hc : (W (Proc.devRef .tc main_c_3)) = constantI S_ 32 0#32) : after hostOps1_1 W (Proc.devRef .tc main_v21) = Cert.Spec.row (Cert.Spec.var (W (Proc.devRef .tc main_v16))) := by
  after_results_simp
  rw [hc]
  exact Cert.Spec.var_row _

theorem s1_2_scale : after hostOps1_2 W (Proc.devRef .tc main_v24) = Cert.Spec.row (Cert.Spec.bnParam0 (W (Proc.devRef .tc main_arg11))) := by
  after_results
  exact Cert.Spec.shapeCast_eq_row _ _

theorem s1_2_bias : after hostOps1_2 W (Proc.devRef .tc main_v27) = Cert.Spec.row (Cert.Spec.bnParam0 (W (Proc.devRef .tc main_arg12))) := by
  after_results
  exact Cert.Spec.shapeCast_eq_row _ _

/-! ## Before normalisation region 3: the column statistics and the affine parameters, as rows -/

theorem s3_mean : after hostOps3 W (Proc.devRef .tc main_v53) = Cert.Spec.row (Cert.Spec.mean (W (Proc.devRef .tc main_v49))) := by
  after_results
  exact Cert.Spec.mean_row _

theorem s3_c : after hostOps3 W (Proc.devRef .tc main_c_9) = constantI S_ 32 0#32 := by
  after_results

theorem s3_1_var (hc : (W (Proc.devRef .tc main_c_9)) = constantI S_ 32 0#32) : after hostOps3_1 W (Proc.devRef .tc main_v54) = Cert.Spec.row (Cert.Spec.var (W (Proc.devRef .tc main_v49))) := by
  after_results_simp
  rw [hc]
  exact Cert.Spec.var_row _

theorem s3_2_scale : after hostOps3_2 W (Proc.devRef .tc main_v57) = Cert.Spec.row (Cert.Spec.bnParam1 (W (Proc.devRef .tc main_arg11))) := by
  after_results
  exact Cert.Spec.shapeCast_eq_row _ _

theorem s3_2_bias : after hostOps3_2 W (Proc.devRef .tc main_v60) = Cert.Spec.row (Cert.Spec.bnParam1 (W (Proc.devRef .tc main_arg12))) := by
  after_results
  exact Cert.Spec.shapeCast_eq_row _ _

/-! ## Before normalisation region 5: the column statistics and the affine parameters, as rows -/

theorem s5_mean : after hostOps5 W (Proc.devRef .tc main_v86) = Cert.Spec.row (Cert.Spec.mean (W (Proc.devRef .tc main_v82))) := by
  after_results
  exact Cert.Spec.mean_row _

theorem s5_c : after hostOps5 W (Proc.devRef .tc main_c_15) = constantI S_ 32 0#32 := by
  after_results

theorem s5_1_var (hc : (W (Proc.devRef .tc main_c_15)) = constantI S_ 32 0#32) : after hostOps5_1 W (Proc.devRef .tc main_v87) = Cert.Spec.row (Cert.Spec.var (W (Proc.devRef .tc main_v82))) := by
  after_results_simp
  rw [hc]
  exact Cert.Spec.var_row _

theorem s5_2_scale : after hostOps5_2 W (Proc.devRef .tc main_v90) = Cert.Spec.row (Cert.Spec.bnParam2 (W (Proc.devRef .tc main_arg11))) := by
  after_results
  exact Cert.Spec.shapeCast_eq_row _ _

theorem s5_2_bias : after hostOps5_2 W (Proc.devRef .tc main_v93) = Cert.Spec.row (Cert.Spec.bnParam2 (W (Proc.devRef .tc main_arg12))) := by
  after_results
  exact Cert.Spec.shapeCast_eq_row _ _

/-! ## Before normalisation region 7: the column statistics and the affine parameters, as rows -/

theorem s7_mean : after hostOps7 W (Proc.devRef .tc main_v119) = Cert.Spec.row (Cert.Spec.mean (W (Proc.devRef .tc main_v115))) := by
  after_results
  exact Cert.Spec.mean_row _

theorem s7_c : after hostOps7 W (Proc.devRef .tc main_c_21) = constantI S_ 32 0#32 := by
  after_results

theorem s7_1_var (hc : (W (Proc.devRef .tc main_c_21)) = constantI S_ 32 0#32) : after hostOps7_1 W (Proc.devRef .tc main_v120) = Cert.Spec.row (Cert.Spec.var (W (Proc.devRef .tc main_v115))) := by
  after_results_simp
  rw [hc]
  exact Cert.Spec.var_row _

theorem s7_2_scale : after hostOps7_2 W (Proc.devRef .tc main_v123) = Cert.Spec.row (Cert.Spec.bnParam3 (W (Proc.devRef .tc main_arg11))) := by
  after_results
  exact Cert.Spec.shapeCast_eq_row _ _

theorem s7_2_bias : after hostOps7_2 W (Proc.devRef .tc main_v126) = Cert.Spec.row (Cert.Spec.bnParam3 (W (Proc.devRef .tc main_arg12))) := by
  after_results
  exact Cert.Spec.shapeCast_eq_row _ _

/-! ## Before perceptron region 2: the neighbour sums and the layer's parameter slices -/

set_option maxHeartbeats 1600000 in
theorem s2_agg : after hostOps2 W (Proc.devRef .tc main_v38) = Cert.Spec.agg32 (W (Proc.devRef .tc main_v28)) (W (Proc.devRef .tc main_v1)) (W (Proc.devRef .tc main_v3)) := by
  after_results; rfl

theorem s2_w1 : after hostOps2 W (Proc.devRef .tc main_v40) = Cert.Spec.weight0 (W (Proc.devRef .tc main_arg7)) := by
  after_results; rfl

theorem s2_b1 : after hostOps2 W (Proc.devRef .tc main_v43) = Cert.Spec.row (Cert.Spec.bias0 (W (Proc.devRef .tc main_arg8))) := by
  after_results
  exact Cert.Spec.shapeCast_eq_row _ _

theorem s2_w2 : after hostOps2 W (Proc.devRef .tc main_v45) = Cert.Spec.weight0 (W (Proc.devRef .tc main_arg9)) := by
  after_results; rfl

theorem s2_b2 : after hostOps2 W (Proc.devRef .tc main_v48) = Cert.Spec.row (Cert.Spec.bias0 (W (Proc.devRef .tc main_arg10))) := by
  after_results
  exact Cert.Spec.shapeCast_eq_row _ _

/-! ## Before perceptron region 4: the neighbour sums and the layer's parameter slices -/

set_option maxHeartbeats 1600000 in
theorem s4_agg : after hostOps4 W (Proc.devRef .tc main_v71) = Cert.Spec.agg32 (W (Proc.devRef .tc main_v61)) (W (Proc.devRef .tc main_v1)) (W (Proc.devRef .tc main_v3)) := by
  after_results; rfl

theorem s4_w1 : after hostOps4 W (Proc.devRef .tc main_v73) = Cert.Spec.weight1 (W (Proc.devRef .tc main_arg7)) := by
  after_results; rfl

theorem s4_b1 : after hostOps4 W (Proc.devRef .tc main_v76) = Cert.Spec.row (Cert.Spec.bias1 (W (Proc.devRef .tc main_arg8))) := by
  after_results
  exact Cert.Spec.shapeCast_eq_row _ _

theorem s4_w2 : after hostOps4 W (Proc.devRef .tc main_v78) = Cert.Spec.weight1 (W (Proc.devRef .tc main_arg9)) := by
  after_results; rfl

theorem s4_b2 : after hostOps4 W (Proc.devRef .tc main_v81) = Cert.Spec.row (Cert.Spec.bias1 (W (Proc.devRef .tc main_arg10))) := by
  after_results
  exact Cert.Spec.shapeCast_eq_row _ _

/-! ## Before perceptron region 6: the neighbour sums and the layer's parameter slices -/

set_option maxHeartbeats 1600000 in
theorem s6_agg : after hostOps6 W (Proc.devRef .tc main_v104) = Cert.Spec.agg32 (W (Proc.devRef .tc main_v94)) (W (Proc.devRef .tc main_v1)) (W (Proc.devRef .tc main_v3)) := by
  after_results; rfl

theorem s6_w1 : after hostOps6 W (Proc.devRef .tc main_v106) = Cert.Spec.weight2 (W (Proc.devRef .tc main_arg7)) := by
  after_results; rfl

theorem s6_b1 : after hostOps6 W (Proc.devRef .tc main_v109) = Cert.Spec.row (Cert.Spec.bias2 (W (Proc.devRef .tc main_arg8))) := by
  after_results
  exact Cert.Spec.shapeCast_eq_row _ _

theorem s6_w2 : after hostOps6 W (Proc.devRef .tc main_v111) = Cert.Spec.weight2 (W (Proc.devRef .tc main_arg9)) := by
  after_results; rfl

theorem s6_b2 : after hostOps6 W (Proc.devRef .tc main_v114) = Cert.Spec.row (Cert.Spec.bias2 (W (Proc.devRef .tc main_arg10))) := by
  after_results
  exact Cert.Spec.shapeCast_eq_row _ _

/-! ## Before the classifier region: the pooled rows and the two biases as rows -/

set_option maxHeartbeats 1600000 in
theorem s8_pool : after hostOps8 W (Proc.devRef .tc main_v130) = Cert.Spec.pool (W (Proc.devRef .tc main_v127)) (W (Proc.devRef .tc main_arg2)) := by
  after_results; rfl

theorem s8_b1 : after hostOps8 W (Proc.devRef .tc main_v131) = Cert.Spec.row (W (Proc.devRef .tc main_arg14)) := by
  after_results
  exact Cert.Spec.shapeCast_eq_row _ _

theorem s8_b2 : after hostOps8 W (Proc.devRef .tc main_v132) = Cert.Spec.row2 (W (Proc.devRef .tc main_arg16)) := by
  after_results
  exact Cert.Spec.shapeCast_eq_row2 _ _

end Cert.KernelIdeal.HostRead

end
-- ==== Proof.LibPlainDot.lean ====
/-
  A plain matrix product read at an index, at the ideal instance.

  For a rank-2 contraction [a, K] · [K, b] → [a, b] (the left operand's axis 1 against the right operand's axis 0, no batch
  axis), the accumulate-into-zero matrix product and the host's dot_general are both, at the result index (p, q), the sum
  over k < K of lhs (p, k) · rhs (k, q): the contracted shape has one axis of extent K, so the sum over its indices is a
  sum over Fin K, and the operand indices the contraction names at (p, q) and k are (p, k) and (k, q). The four coordinate
  facts about a given dimension record (hl0, hl1, hr0, hr1) are taken as hypotheses: for a literal record each is a
  computation.
-/
import Idealize.ShloMosaic.PureOps.Ideal.Laws
import Idealize.ShloMosaic.Lib.ValueIdx

noncomputable section

namespace Cert.Lib.PlainDot

open Idealize.ShloMosaic Idealize.ShloMosaic.ValueIdx

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The sum over the contracted shape's indices of the products of the operands at the contraction's indices is the
    sum over k < K of lhs (p, k) · rhs (k, q). -/
theorem sum_contr (lhs : (⟨2, ![a, K]⟩ : Shape).Idx → EReal) (rhs : (⟨2, ![K, b]⟩ : Shape).Idx → EReal) (p : Fin a) (q : Fin b) :
    ∑ k : D.contr.Idx, lhs (D.lhsIdx (ix2 p q) k) * rhs (D.rhsIdx (ix2 p q) k) = ∑ k : Fin K, lhs (ix2 p k) * rhs (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D K hr hs).symm k) = ix2 k q := funext fun ax => Fin.ext (by
    match ax with
    | ⟨0, _⟩ => exact (hr0 _ _).trans hk
    | ⟨1, _⟩ => exact hr1 _ _)
  rw [el, er]

/-- The matrix product accumulated into the zero splat, at (p, q). -/
theorem matmul_zero_apply (prec : Option ContractPrecision) (lhs : FVec Ideal (⟨2, ![a, K]⟩ : Shape) .f32) (rhs : FVec Ideal (⟨2, ![K, b]⟩ : Shape) .f32)
    (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans (sum_contr D hr hs hl0 hl1 hr0 hr1 lhs rhs p q)

/-- The host's dot_general, at (p, q). -/
theorem dotGeneral_apply (prec : Option ContractPrecision) (lhs : FVec Ideal (⟨2, ![a, K]⟩ : Shape) .f32) (rhs : FVec Ideal (⟨2, ![K, b]⟩ : Shape) .f32)
    (p : Fin a) (q : Fin b) :
    Host.dotGeneral D prec lhs rhs (ix2 p q) = ∑ k : Fin K, lhs (ix2 p k) * rhs (ix2 k q) :=
  (Ideal.dotGeneral_apply D prec .single lhs rhs (ix2 p q)).trans (sum_contr D hr hs hl0 hl1 hr0 hr1 lhs rhs p q)

end Cert.Lib.PlainDot

end
-- ==== Proof.LibRowRead.lean ====
/-
  Vector operations read at an index, at the ideal instance, for the shapes of a row-blocked kernel: a column
  [a, 1] broadcast along the lanes, a vector [a] cast to a column [a, 1], the sum of a row of an [a, b] block,
  four [a, 32] pieces joined along the lanes into [a, 128], and the matrix product into the zero splat for
  operands of any float format (a change of format is the identity on extended reals).
-/
import Idealize.ShloMosaic.PureOps.Ideal.Laws
import Idealize.ShloMosaic.Lib.ValueIdx
import Idealize.ShloMosaic.Lib.ValueLayout
import Idealize.ShloMosaic.Lib.Pipeline.Value
import proofs.«115996_j33088428049205_1_alg».proof.Proof.LibPlainDot

noncomputable section

namespace Cert.Lib.RowRead

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced index p with lane k put back is (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The lane sum of an [a, b] block, at row p, is the sum over the b lanes of the block's row p. -/
theorem rowSum_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ) (hacc : acc = FKind.add.neutral φ hφ) (p : Fin a) :
    multiReduction .add [1] (⟨1, ![a]⟩ : Shape) src acc h hφ hacc (ix1 p) = ∑ k : Fin b, src (ix2 p k) := by
  rw [Ideal.multiReduction_add_single]
  exact Finset.sum_congr rfl fun k _ => by rw [lift_row]; rfl

/-- Four [a, 32] pieces joined along the lanes: lane 32 k + c of the result is lane c of piece k. -/
theorem concat4_apply {a : ℕ} (x0 x1 x2 x3 : (⟨2, ![a, 32]⟩ : Shape).Idx → α)
    (h : Shape.Concatenates (([⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] :
      List ((s : Shape) × (s.Idx → α))).map (·.1)) (⟨2, ![a, 128]⟩ : Shape) 1)
    (p : Fin a) (c : Fin 32) (k : Fin 4) (q : Fin 128) (hq : q.val = 32 * k.val + c.val) :
    concatenate (⟨2, ![a, 128]⟩ : Shape) 1 [⟨(⟨2, ![a, 32]⟩ : Shape), x0⟩, ⟨(⟨2, ![a, 32]⟩ : Shape), x1⟩, ⟨(⟨2, ![a, 32]⟩ : Shape), x2⟩, ⟨(⟨2, ![a, 32]⟩ : Shape), x3⟩] h (ix2 p q)
      = (![x0, x1, x2, x3] k) (ix2 p c) := by
  have hi : ∀ b : Fin (⟨2, ![a, 32]⟩ : Shape).rank, b.cast (rfl : (⟨2, ![a, 32]⟩ : Shape).rank = (⟨2, ![a, 128]⟩ : Shape).rank) ≠ (1 : Fin 2) →
      ((ix2 p c : (⟨2, ![a, 32]⟩ : Shape).Idx) b).val = ((ix2 p q : (⟨2, ![a, 128]⟩ : Shape).Idx) (b.cast rfl)).val := by
    intro b hb
    match b with
    | ⟨0, _⟩ => rfl
    | ⟨1, _⟩ => exact absurd rfl hb
  fin_cases k
  · exact concatenate_apply_piece 1 _ h _ 0 (by simp) _ x0 rfl rfl 0 rfl (ix2 p c) hi (by show 0 + c.val = q.val; simp at hq; omega)
  · exact concatenate_apply_piece 1 _ h _ 1 (by simp) _ x1 rfl rfl 32 rfl (ix2 p c) hi (by show 32 + c.val = q.val; simp at hq; omega)
  · exact concatenate_apply_piece 1 _ h _ 2 (by simp) _ x2 rfl rfl 64 rfl (ix2 p c) hi (by show 64 + c.val = q.val; simp at hq; omega)
  · exact concatenate_apply_piece 1 _ h _ 3 (by simp) _ x3 rfl rfl 96 rfl (ix2 p c) hi (by show 96 + c.val = q.val; simp at hq; omega)

section Dot

variable {a K b : Nat} (D : DotDims (⟨2, ![a, K]⟩ : Shape) (⟨2, ![K, b]⟩ : Shape) (⟨2, ![a, b]⟩ : Shape))
  (hr : D.contr.rank = 1) (hs : D.contr.size ⟨0, by omega⟩ = K)
  (hl0 : ∀ (i : (⟨2, ![a, b]⟩ : Shape).Idx) (q : D.contr.Idx), (D.lhsIdx i q 0).val = (i 0).val)
  (hl1 : ∀ (i : (⟨2, ![a, b]⟩ : Shape).Idx) (q : D.contr.Idx), (D.lhsIdx i q 1).val = (q ⟨0, by omega⟩).val)
  (hr0 : ∀ (i : (⟨2, ![a, b]⟩ : Shape).Idx) (q : D.contr.Idx), (D.rhsIdx i q 0).val = (q ⟨0, by omega⟩).val)
  (hr1 : ∀ (i : (⟨2, ![a, b]⟩ : Shape).Idx) (q : D.contr.Idx), (D.rhsIdx i q 1).val = (i 1).val)

include hr hs hl0 hl1 hr0 hr1

/-- The matrix product into the zero splat, at (p, q), for operands of any float formats: the sum over k < K of
    lhs (p, k) · rhs (k, q). -/
theorem matmul_zero_apply {φ₁ φ₂ : FTy} (prec : Option ContractPrecision) (lhs : FVec Ideal (⟨2, ![a, K]⟩ : Shape) φ₁)
    (rhs : FVec Ideal (⟨2, ![K, b]⟩ : Shape) φ₂) (p : Fin a) (q : Fin b) :
    matmul D prec lhs rhs (constant (⟨2, ![a, b]⟩ : Shape) .f32 0x00000000#32) (ix2 p q) = ∑ k : Fin K, lhs (ix2 p k) * rhs (ix2 k q) :=
  (Ideal.matmul_constant_zero_apply D prec lhs rhs (ix2 p q)).trans
    (Cert.Lib.PlainDot.sum_contr D hr hs hl0 hl1 hr0 hr1 (fun i => lhs i) (fun i => rhs i) p q)

end Dot

end Cert.Lib.RowRead

end
-- ==== Proof.MlpAt.lean ====
/-
  The two-layer perceptron of a graph-isomorphism layer, one output entry at a time.

  Both programs compute, for a row r of the node features and an output column q,

      max ((∑ j < 32, max ((∑ k < K, (a r k + h r k) · w1 k j) + b1 j) 0 · w2 j q) + b2 q) 0

  where a is the neighbour sum, h the features, w1 : [K, 32], w2 : [32, 32] the weights and b1, b2 the biases, each
  bias held as a one-row matrix [1, 32]. The kernel computes it on a block of 2000 rows: it narrows the operands of
  each product to bf16 (at the extended reals a change of format is the identity), multiplies into a zero accumulator
  (the plain sum of products), and broadcasts each bias row down the rows. The host computes it on all 100000 rows with
  dot_general (the same sum of products) and broadcast_in_dim of the bias rows. The zero both compare against is the
  float the all-zero word denotes; it is the same word on both sides and is never evaluated.

  mlpEntry is that entry as a function of the row's a and h, the weights, the biases and column q of w2;
  pay32_apply and pay128_apply read the kernel's block arithmetic at an entry as mlpEntry of the block's row, and
  mlp32_apply and mlp128_apply read the host composition at an entry as mlpEntry of the array's row.
-/
import proofs.«115996_j33088428049205_1_alg».proof.Proof.Gen.KernelIdeal.Skeleton
import proofs.«115996_j33088428049205_1_alg».proof.Proof.Spec
import proofs.«115996_j33088428049205_1_alg».proof.Proof.Gen.ReferenceIdeal
import proofs.«115996_j33088428049205_1_alg».proof.Proof.LibPlainDot
import proofs.«115996_j33088428049205_1_alg».proof.Proof.LibRowRead
import Idealize.ShloMosaic.Lib.KernelVsHost
import Idealize.ShloMosaic.Lib.IdealHost
import Idealize.ShloMosaic.Lib.ValueLayout

noncomputable section

namespace Cert.KernelIdeal.RegionValue

open Idealize.ShloMosaic Idealize.ShloMosaic.ValueIdx

/-- One entry of the perceptron's output: from the row's neighbour sum A and features H, the first weights W1 and bias
    B1, column q of the second weights (W2) and entry q of the second bias (B2). -/
def mlpEntry {K : ℕ} (A H : Fin K → EReal) (W1 : Fin K → Fin 32 → EReal) (B1 : Fin 32 → EReal) (W2 : Fin 32 → EReal)
    (B2 : EReal) : EReal :=
  max ((∑ j : Fin 32, max ((∑ k : Fin K, (A k + H k) * W1 k j) + B1 j) (Ideal.ofBits .f32 0x00000000#32) * W2 j) + B2)
    (Ideal.ofBits .f32 0x00000000#32)

/-! ## The four products, at an entry -/

/-- The kernel's [2000, 32] · [32, 32] product into zero, at (p, q). -/
theorem mm32_apply {φ₁ φ₂ : FTy} (l : FVec Ideal Cert.KernelIdeal.S2000x32 φ₁) (r : FVec Ideal Cert.KernelIdeal.S32x32 φ₂)
    (p : Fin 2000) (q : Fin 32) :
    matmul Cert.KernelIdeal.dot_S2000x32_S32x32_S2000x32_1_0_0_1_n_n none l r
        (constant Cert.KernelIdeal.S2000x32 .f32 0x00000000#32) (ix2 p q)
      = ∑ k : Fin 32, l (ix2 p k) * r (ix2 k q) :=
  Cert.Lib.RowRead.matmul_zero_apply Cert.KernelIdeal.dot_S2000x32_S32x32_S2000x32_1_0_0_1_n_n rfl rfl
    (fun _ _ => rfl) (fun _ _ => rfl) (fun _ _ => rfl) (fun _ _ => rfl) none l r p q

/-- The kernel's [2000, 128] · [128, 32] product into zero, at (p, q). -/
theorem mm128_apply {φ₁ φ₂ : FTy} (l : FVec Ideal Cert.KernelIdeal.S2000x128 φ₁) (r : FVec Ideal Cert.KernelIdeal.S128x32 φ₂)
    (p : Fin 2000) (q : Fin 32) :
    matmul Cert.KernelIdeal.dot_S2000x128_S128x32_S2000x32_1_0_0_1_n_n none l r
        (constant Cert.KernelIdeal.S2000x32 .f32 0x00000000#32) (ix2 p q)
      = ∑ k : Fin 128, l (ix2 p k) * r (ix2 k q) :=
  Cert.Lib.RowRead.matmul_zero_apply Cert.KernelIdeal.dot_S2000x128_S128x32_S2000x32_1_0_0_1_n_n rfl rfl
    (fun _ _ => rfl) (fun _ _ => rfl) (fun _ _ => rfl) (fun _ _ => rfl) none l r p q

/-- The host's [100000, 32] · [32, 32] product, at (r, q). -/
theorem dd32_apply (l : FVec Ideal Cert.ReferenceIdeal.S100000x32 .f32) (w : FVec Ideal Cert.ReferenceIdeal.S32x32 .f32)
    (r : Fin 100000) (q : Fin 32) :
    Host.dotGeneral Cert.ReferenceIdeal.dot_S100000x32_S32x32_S100000x32_1_0_0_1_n_n none l w (ix2 r q)
      = ∑ k : Fin 32, l (ix2 r k) * w (ix2 k q) :=
  Cert.Lib.PlainDot.dotGeneral_apply Cert.ReferenceIdeal.dot_S100000x32_S32x32_S100000x32_1_0_0_1_n_n rfl rfl
    (fun _ _ => rfl) (fun _ _ => rfl) (fun _ _ => rfl) (fun _ _ => rfl) none l w r q

/-- The host's [100000, 128] · [128, 32] product, at (r, q). -/
theorem dd128_apply (l : FVec Ideal Cert.ReferenceIdeal.S100000x128 .f32) (w : FVec Ideal Cert.ReferenceIdeal.S128x32 .f32)
    (r : Fin 100000) (q : Fin 32) :
    Host.dotGeneral Cert.ReferenceIdeal.dot_S100000x128_S128x32_S100000x32_1_0_0_1_n_n none l w (ix2 r q)
      = ∑ k : Fin 128, l (ix2 r k) * w (ix2 k q) :=
  Cert.Lib.PlainDot.dotGeneral_apply Cert.ReferenceIdeal.dot_S100000x128_S128x32_S100000x32_1_0_0_1_n_n rfl rfl
    (fun _ _ => rfl) (fun _ _ => rfl) (fun _ _ => rfl) (fun _ _ => rfl) none l w r q

/-! ## The kernel's block arithmetic, at an entry -/

/-- The 32-wide perceptron block (the shape three regions share), at (p, q). -/
theorem pay32_apply (x0 x1 : FVec Ideal Cert.KernelIdeal.S2000x32 .f32) (x2 : FVec Ideal Cert.KernelIdeal.S32x32 .f32)
    (x3 : FVec Ideal Cert.KernelIdeal.S1x32 .f32) (x4 : FVec Ideal Cert.KernelIdeal.S32x32 .f32)
    (x5 : FVec Ideal Cert.KernelIdeal.S1x32 .f32) (p : Fin 2000) (q : Fin 32) :
    Cert.KernelIdeal.Gen.k2_pay1 (F := Ideal) x0 x1 x2 x3 x4 x5 (ix2 p q)
      = mlpEntry (fun k => x0 (ix2 p k)) (fun k => x1 (ix2 p k)) (fun k j => x2 (ix2 k j)) (fun j => x3 (ix2 (0 : Fin 1) j))
          (fun j => x4 (ix2 j q)) (x5 (ix2 (0 : Fin 1) q)) := by
  unfold Cert.KernelIdeal.Gen.k2_pay1 mlpEntry
  simp only [shapeCast_self, maximumf_apply, addf_apply, truncf_apply, broadcast_apply, mm32_apply, broadcastTo_1b_ab_apply]
  rfl

/-- The second and third 32-wide perceptron regions run the same block arithmetic as the first. -/
theorem k4_pay1_eq (x0 x1 : FVec Ideal Cert.KernelIdeal.S2000x32 .f32) (x2 : FVec Ideal Cert.KernelIdeal.S32x32 .f32)
    (x3 : FVec Ideal Cert.KernelIdeal.S1x32 .f32) (x4 : FVec Ideal Cert.KernelIdeal.S32x32 .f32)
    (x5 : FVec Ideal Cert.KernelIdeal.S1x32 .f32) :
    Cert.KernelIdeal.Gen.k4_pay1 (F := Ideal) x0 x1 x2 x3 x4 x5 = Cert.KernelIdeal.Gen.k2_pay1 (F := Ideal) x0 x1 x2 x3 x4 x5 := rfl

theorem k6_pay1_eq (x0 x1 : FVec Ideal Cert.KernelIdeal.S2000x32 .f32) (x2 : FVec Ideal Cert.KernelIdeal.S32x32 .f32)
    (x3 : FVec Ideal Cert.KernelIdeal.S1x32 .f32) (x4 : FVec Ideal Cert.KernelIdeal.S32x32 .f32)
    (x5 : FVec Ideal Cert.KernelIdeal.S1x32 .f32) :
    Cert.KernelIdeal.Gen.k6_pay1 (F := Ideal) x0 x1 x2 x3 x4 x5 = Cert.KernelIdeal.Gen.k2_pay1 (F := Ideal) x0 x1 x2 x3 x4 x5 := rfl

/-- The 128-wide perceptron block (the first layer), at (p, q). -/
theorem pay128_apply (x0 x1 : FVec Ideal Cert.KernelIdeal.S2000x128 .f32) (x2 : FVec Ideal Cert.KernelIdeal.S128x32 .f32)
    (x3 : FVec Ideal Cert.KernelIdeal.S1x32 .f32) (x4 : FVec Ideal Cert.KernelIdeal.S32x32 .f32)
    (x5 : FVec Ideal Cert.KernelIdeal.S1x32 .f32) (p : Fin 2000) (q : Fin 32) :
    Cert.KernelIdeal.Gen.k0_pay1 (F := Ideal) x0 x1 x2 x3 x4 x5 (ix2 p q)
      = mlpEntry (fun k => x0 (ix2 p k)) (fun k => x1 (ix2 p k)) (fun k j => x2 (ix2 k j)) (fun j => x3 (ix2 (0 : Fin 1) j))
          (fun j => x4 (ix2 j q)) (x5 (ix2 (0 : Fin 1) q)) := by
  unfold Cert.KernelIdeal.Gen.k0_pay1 mlpEntry
  simp only [shapeCast_self, maximumf_apply, addf_apply, truncf_apply, broadcast_apply, mm32_apply, mm128_apply,
    broadcastTo_1b_ab_apply]
  rfl

/-! ## The host composition, at an entry -/

/-- A bias row repeated down the 100000 rows, at (r, q), is the row's entry q. -/
theorem rows_apply (b : FVec Ideal Cert.ReferenceIdeal.S1x32 .f32) (r : Fin 100000) (q : Fin 32) :
    Cert.Spec.rows (F := Ideal) b (ix2 r q) = b (ix2 (0 : Fin 1) q) :=
  broadcastInDim_oneRow_apply _ b r q

/-- The host's zero array, at any entry, is the float the all-zero word denotes. -/
theorem zeros32_apply (r : Fin 100000) (q : Fin 32) :
    Cert.Spec.zeros32 (F := Ideal) (ix2 r q) = Ideal.ofBits .f32 0x00000000#32 :=
  (broadcastInDim_scalar_apply _ _ (ix2 r q)).trans rfl

/-- The 32-wide perceptron of the whole array, at (r, q). -/
theorem mlp32_apply (a h : FVec Ideal Cert.ReferenceIdeal.S100000x32 .f32) (w1 : FVec Ideal Cert.ReferenceIdeal.S32x32 .f32)
    (b1 : FVec Ideal Cert.ReferenceIdeal.S1x32 .f32) (w2 : FVec Ideal Cert.ReferenceIdeal.S32x32 .f32)
    (b2 : FVec Ideal Cert.ReferenceIdeal.S1x32 .f32) (r : Fin 100000) (q : Fin 32) :
    Cert.Spec.mlp32 (F := Ideal) a h w1 b1 w2 b2 (ix2 r q)
      = mlpEntry (fun k => a (ix2 r k)) (fun k => h (ix2 r k)) (fun k j => w1 (ix2 k j)) (fun j => b1 (ix2 (0 : Fin 1) j))
          (fun j => w2 (ix2 j q)) (b2 (ix2 (0 : Fin 1) q)) := by
  unfold Cert.Spec.mlp32 mlpEntry
  simp only [maximumf_apply, addf_apply, dd32_apply, rows_apply, zeros32_apply]

/-- The 128-wide perceptron of the whole array, at (r, q). -/
theorem mlp128_apply (a h : FVec Ideal Cert.ReferenceIdeal.S100000x128 .f32) (w1 : FVec Ideal Cert.ReferenceIdeal.S128x32 .f32)
    (b1 : FVec Ideal Cert.ReferenceIdeal.S1x32 .f32) (w2 : FVec Ideal Cert.ReferenceIdeal.S32x32 .f32)
    (b2 : FVec Ideal Cert.ReferenceIdeal.S1x32 .f32) (r : Fin 100000) (q : Fin 32) :
    Cert.Spec.mlp128 (F := Ideal) a h w1 b1 w2 b2 (ix2 r q)
      = mlpEntry (fun k => a (ix2 r k)) (fun k => h (ix2 r k)) (fun k j => w1 (ix2 k j)) (fun j => b1 (ix2 (0 : Fin 1) j))
          (fun j => w2 (ix2 j q)) (b2 (ix2 (0 : Fin 1) q)) := by
  unfold Cert.Spec.mlp128 mlpEntry
  simp only [maximumf_apply, addf_apply, dd32_apply, dd128_apply, rows_apply, zeros32_apply]

/-! ## A block's entry against the array's entry -/

/-- Where row p of the two row blocks is row r of the two arrays and the parameter blocks are the parameter arrays, the
    32-wide block arithmetic at (p, q) is the host composition at (r, q). -/
theorem pay32_eq_mlp32 (x0 x1 : FVec Ideal Cert.KernelIdeal.S2000x32 .f32) (x2 : FVec Ideal Cert.KernelIdeal.S32x32 .f32)
    (x3 : FVec Ideal Cert.KernelIdeal.S1x32 .f32) (x4 : FVec Ideal Cert.KernelIdeal.S32x32 .f32)
    (x5 : FVec Ideal Cert.KernelIdeal.S1x32 .f32)
    (a h : FVec Ideal Cert.ReferenceIdeal.S100000x32 .f32) (w1 : FVec Ideal Cert.ReferenceIdeal.S32x32 .f32)
    (b1 : FVec Ideal Cert.ReferenceIdeal.S1x32 .f32) (w2 : FVec Ideal Cert.ReferenceIdeal.S32x32 .f32)
    (b2 : FVec Ideal Cert.ReferenceIdeal.S1x32 .f32) (p : Fin 2000) (q : Fin 32) (r : Fin 100000)
    (h0 : ∀ k : Fin 32, x0 (ix2 p k) = a (ix2 r k)) (h1 : ∀ k : Fin 32, x1 (ix2 p k) = h (ix2 r k))
    (h2 : ∀ k j : Fin 32, x2 (ix2 k j) = w1 (ix2 k j)) (h3 : ∀ j : Fin 32, x3 (ix2 (0 : Fin 1) j) = b1 (ix2 (0 : Fin 1) j))
    (h4 : ∀ k j : Fin 32, x4 (ix2 k j) = w2 (ix2 k j)) (h5 : ∀ j : Fin 32, x5 (ix2 (0 : Fin 1) j) = b2 (ix2 (0 : Fin 1) j)) :
    Cert.KernelIdeal.Gen.k2_pay1 (F := Ideal) x0 x1 x2 x3 x4 x5 (ix2 p q) = Cert.Spec.mlp32 (F := Ideal) a h w1 b1 w2 b2 (ix2 r q) := by
  rw [pay32_apply, mlp32_apply]
  simp only [h0, h1, h2, h3, h4, h5]

/-- The same for the 128-wide first layer. -/
theorem pay128_eq_mlp128 (x0 x1 : FVec Ideal Cert.KernelIdeal.S2000x128 .f32) (x2 : FVec Ideal Cert.KernelIdeal.S128x32 .f32)
    (x3 : FVec Ideal Cert.KernelIdeal.S1x32 .f32) (x4 : FVec Ideal Cert.KernelIdeal.S32x32 .f32)
    (x5 : FVec Ideal Cert.KernelIdeal.S1x32 .f32)
    (a h : FVec Ideal Cert.ReferenceIdeal.S100000x128 .f32) (w1 : FVec Ideal Cert.ReferenceIdeal.S128x32 .f32)
    (b1 : FVec Ideal Cert.ReferenceIdeal.S1x32 .f32) (w2 : FVec Ideal Cert.ReferenceIdeal.S32x32 .f32)
    (b2 : FVec Ideal Cert.ReferenceIdeal.S1x32 .f32) (p : Fin 2000) (q : Fin 32) (r : Fin 100000)
    (h0 : ∀ k : Fin 128, x0 (ix2 p k) = a (ix2 r k)) (h1 : ∀ k : Fin 128, x1 (ix2 p k) = h (ix2 r k))
    (h2 : ∀ (k : Fin 128) (j : Fin 32), x2 (ix2 k j) = w1 (ix2 k j))
    (h3 : ∀ j : Fin 32, x3 (ix2 (0 : Fin 1) j) = b1 (ix2 (0 : Fin 1) j))
    (h4 : ∀ k j : Fin 32, x4 (ix2 k j) = w2 (ix2 k j)) (h5 : ∀ j : Fin 32, x5 (ix2 (0 : Fin 1) j) = b2 (ix2 (0 : Fin 1) j)) :
    Cert.KernelIdeal.Gen.k0_pay1 (F := Ideal) x0 x1 x2 x3 x4 x5 (ix2 p q) = Cert.Spec.mlp128 (F := Ideal) a h w1 b1 w2 b2 (ix2 r q) := by
  rw [pay128_apply, mlp128_apply]
  simp only [h0, h1, h2, h3, h4, h5]

end Cert.KernelIdeal.RegionValue

end
-- ==== Proof.MlpValue0.lean ====
/-
  The first perceptron region: the array its output window ends with is the specification's 128-wide perceptron of the
  region's input arrays.

  The grid has 50 points; point t reads rows 2000 t … 2000 t + 1999 of the neighbour sums and of the features
  ([100000, 128] each), reads the two weight matrices and the two bias rows whole, and writes rows 2000 t … 2000 t + 1999
  of the [100000, 32] output.  So what point t writes back is block t of the specification's array (the body's
  arithmetic and the specification's agree entry by entry), and the 50 blocks cover the array.
-/
import proofs.«115996_j33088428049205_1_alg».proof.Proof.Gen.KernelIdeal.Frame
import proofs.«115996_j33088428049205_1_alg».proof.Proof.MlpAt
import Idealize.ShloMosaic.Lib.Pipeline.Value

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

namespace Mlp0

/-- The offsets of a whole-block access are zero on both axes. -/
theorem hz : (![0, 0] : Fin 2 → Nat) = fun _ => 0 := funext fun a => by fin_cases a <;> rfl

/-- The block index maps over the grid: the two row-blocked inputs and the output are at row block t, column block 0;
    the weights and the bias rows are at block (0, 0). -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The grid has 50 points. -/
theorem lt (t : Fin cfg0.N) : t.val < 50 := lt_of_lt_of_eq t.isLt N_0

/-- Entry (p, k) of the neighbour sums' block at point t is the array's entry (2000 t + p, k). -/
theorem blk_a (t : Fin cfg0.N) (p : Fin 2000) (k : Fin 128) (r : Fin 100000) (hr : r.val = t.val * 2000 + p.val) :
    iblk0 V c 0 t (ix2 p k) = V c main_v13 (ix2 r k) := by
  obtain ⟨e0, e1, -⟩ := idx t
  unfold iblk0
  show V c main_v13 (((cfg0.win 0).blk t).view.emb (ix2 p k)) = V c main_v13 (ix2 r k)
  congr 1
  funext a; apply Fin.ext
  match a with
  | ⟨0, _⟩ => show win0_0.index t (0 : Fin 2) * 2000 + 1 * p.val = r.val; omega
  | ⟨1, _⟩ => show win0_0.index t (1 : Fin 2) * 128 + 1 * k.val = k.val; omega

/-- Entry (p, k) of the features' block at point t is the array's entry (2000 t + p, k). -/
theorem blk_h (t : Fin cfg0.N) (p : Fin 2000) (k : Fin 128) (r : Fin 100000) (hr : r.val = t.val * 2000 + p.val) :
    iblk0 V c 1 t (ix2 p k) = V c main_arg0 (ix2 r k) := by
  obtain ⟨-, -, e0, e1, -⟩ := idx t
  unfold iblk0
  show V c main_arg0 (((cfg0.win 1).blk t).view.emb (ix2 p k)) = V c main_arg0 (ix2 r k)
  congr 1
  funext a; apply Fin.ext
  match a with
  | ⟨0, _⟩ => show win0_1.index t (0 : Fin 2) * 2000 + 1 * p.val = r.val; omega
  | ⟨1, _⟩ => show win0_1.index t (1 : Fin 2) * 128 + 1 * k.val = k.val; omega

/-- The first weights' block at any point is the whole matrix. -/
theorem blk_w1 (t : Fin cfg0.N) (k : Fin 128) (j : Fin 32) :
    iblk0 V c 2 t (ix2 k j) = V c main_arg3 (ix2 k j) := by
  obtain ⟨-, -, -, -, e0, e1, -⟩ := idx t
  unfold iblk0
  show V c main_arg3 (((cfg0.win 2).blk t).view.emb (ix2 k j)) = V c main_arg3 (ix2 k j)
  congr 1
  funext a; apply Fin.ext
  match a with
  | ⟨0, _⟩ => show win0_2.index t (0 : Fin 2) * 128 + 1 * k.val = k.val; omega
  | ⟨1, _⟩ => show win0_2.index t (1 : Fin 2) * 32 + 1 * j.val = j.val; omega

/-- The first bias row's block at any point is the whole row. -/
theorem blk_b1 (t : Fin cfg0.N) (j : Fin 32) :
    iblk0 V c 3 t (ix2 (0 : Fin 1) j) = V c main_v14 (ix2 (0 : Fin 1) j) := by
  obtain ⟨-, -, -, -, -, -, e0, e1, -⟩ := idx t
  unfold iblk0
  show V c main_v14 (((cfg0.win 3).blk t).view.emb (ix2 (0 : Fin 1) j)) = V c main_v14 (ix2 (0 : Fin 1) j)
  congr 1
  funext a; apply Fin.ext
  match a with
  | ⟨0, _⟩ => show win0_3.index t (0 : Fin 2) * 1 + 1 * 0 = 0; omega
  | ⟨1, _⟩ => show win0_3.index t (1 : Fin 2) * 32 + 1 * j.val = j.val; omega

/-- The second weights' block at any point is the whole matrix. -/
theorem blk_w2 (t : Fin cfg0.N) (k j : Fin 32) :
    iblk0 V c 4 t (ix2 k j) = V c main_arg5 (ix2 k j) := by
  obtain ⟨-, -, -, -, -, -, -, -, e0, e1, -⟩ := idx t
  unfold iblk0
  show V c main_arg5 (((cfg0.win 4).blk t).view.emb (ix2 k j)) = V c main_arg5 (ix2 k j)
  congr 1
  funext a; apply Fin.ext
  match a with
  | ⟨0, _⟩ => show win0_4.index t (0 : Fin 2) * 32 + 1 * k.val = k.val; omega
  | ⟨1, _⟩ => show win0_4.index t (1 : Fin 2) * 32 + 1 * j.val = j.val; omega

/-- The second bias row's block at any point is the whole row. -/
theorem blk_b2 (t : Fin cfg0.N) (j : Fin 32) :
    iblk0 V c 5 t (ix2 (0 : Fin 1) j) = V c main_v15 (ix2 (0 : Fin 1) j) := by
  obtain ⟨-, -, -, -, -, -, -, -, -, -, e0, e1, -⟩ := idx t
  unfold iblk0
  show V c main_v15 (((cfg0.win 5).blk t).view.emb (ix2 (0 : Fin 1) j)) = V c main_v15 (ix2 (0 : Fin 1) j)
  congr 1
  funext a; apply Fin.ext
  match a with
  | ⟨0, _⟩ => show win0_5.index t (0 : Fin 2) * 1 + 1 * 0 = 0; omega
  | ⟨1, _⟩ => show win0_5.index t (1 : Fin 2) * 32 + 1 * j.val = j.val; omega

/-- Entry (p, q) of the output's block at point t sits at the array's entry (2000 t + p, q). -/
theorem emb (t : Fin cfg0.N) (p : Fin 2000) (q : Fin 32) (r : Fin 100000) (hr : r.val = t.val * 2000 + p.val) :
    ((cfg0.win 6).blk t).view.emb (ix2 p q) = ix2 r q := by
  obtain ⟨-, -, -, -, -, -, -, -, -, -, -, -, e0, e1⟩ := idx t
  funext a; apply Fin.ext
  match a with
  | ⟨0, _⟩ => show win0_6.index t (0 : Fin 2) * 2000 + 1 * p.val = r.val; omega
  | ⟨1, _⟩ => show win0_6.index t (1 : Fin 2) * 32 + 1 * q.val = q.val; omega

/-- What point t writes back is block t of the specification's array. -/
theorem flushed (t : Fin cfg0.N) :
    (dat0 (F := Ideal) V c).flushed 6 t = ((cfg0.win 6).blk t).view.read (Elt Ideal)
      (Cert.Spec.mlp128 (F := Ideal) (V c main_v13) (V c main_arg0) (V c main_arg3) (V c main_v14) (V c main_arg5) (V c main_v15)) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x32) hz, View.ld_unit_zero (S := S1x32) hz,
    View.ld_unit_zero (S := S32x32) hz]
  funext j
  obtain ⟨p, q, rfl⟩ : ∃ (p : Fin 2000) (q : Fin 32), j = ix2 p q := ⟨j 0, j 1, eq_ix2 j⟩
  have ht := lt t
  have hp := p.isLt
  have hr : t.val * 2000 + p.val < 100000 := by omega
  show k0_pay1 (iblk0 V c 0 t) (iblk0 V c 1 t) (iblk0 V c 2 t) (iblk0 V c 3 t) (iblk0 V c 4 t) (iblk0 V c 5 t) (ix2 p q)
    = Cert.Spec.mlp128 (F := Ideal) (V c main_v13) (V c main_arg0) (V c main_arg3) (V c main_v14) (V c main_arg5) (V c main_v15)
        (((cfg0.win 6).blk t).view.emb (ix2 p q))
  rw [emb t p q ⟨_, hr⟩ rfl]
  exact pay128_eq_mlp128 (iblk0 V c 0 t) (iblk0 V c 1 t) (iblk0 V c 2 t) (iblk0 V c 3 t) (iblk0 V c 4 t) (iblk0 V c 5 t)
    (V c main_v13) (V c main_arg0) (V c main_arg3) (V c main_v14) (V c main_arg5) (V c main_v15) p q ⟨_, hr⟩
    (fun k => blk_a V c t p k ⟨_, hr⟩ rfl) (fun k => blk_h V c t p k ⟨_, hr⟩ rfl) (fun k j => blk_w1 V c t k j)
    (fun j => blk_b1 V c t j) (fun k j => blk_w2 V c t k j) (fun j => blk_b2 V c t j)

/-- An index of the output array is in point t's block when its row is among rows 2000 t … 2000 t + 1999. -/
theorem mem_blk (t : Fin cfg0.N) (i : S100000x32.Idx) :
    i ∈ ((cfg0.win 6).blk t).view.set ↔ ∀ a : Fin 2, win0_6.index t a * S2000x32.size a ≤ (i a).val
      ∧ (i a).val < win0_6.index t a * S2000x32.size a + S2000x32.size a := by
  show i ∈ ((View.whole main_v16).slice (win0_6.rect t)).set ↔ _
  rw [View.set_slice_whole, Rect.mem_set_unit]
  exact Iff.rfl

/-- Every index of the output array is in the block of the point its row falls in. -/
theorem cover (i : S100000x32.Idx) :
    ∃ t : Fin cfg0.N, (cfg0.win 6).flush t = true ∧ i ∈ ((cfg0.win 6).blk t).view.set := by
  have hi0 : (i 0).val < 100000 := (i 0).isLt
  have hi1 : (i 1).val < 32 := (i 1).isLt
  obtain ⟨t, ht⟩ : ∃ t : Fin cfg0.N, t.val = (i 0).val / 2000 :=
    ⟨⟨(i 0).val / 2000, lt_of_lt_of_eq (by omega : (i 0).val / 2000 < 50) N_0.symm⟩, rfl⟩
  obtain ⟨-, -, -, -, -, -, -, -, -, -, -, -, e0, e1⟩ := idx t
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 32 ≤ (i 1).val ∧ (i 1).val < win0_6.index t (1 : Fin 2) * 32 + 32
    omega

end Mlp0

/-- The output array of the first perceptron region after the run is the specification's 128-wide perceptron of the
    region's input arrays. -/
theorem mlp0 : (dat0 (F := Ideal) V c).arrAt 6 cfg0.N
    = Cert.Spec.mlp128 (F := Ideal) (V c main_v13) (V c main_arg0) (V c main_arg3) (V c main_v14) (V c main_arg5) (V c main_v15) :=
  (dat0 (F := Ideal) V c).arrAt_eq_of_cover 6
    (Cert.Spec.mlp128 (F := Ideal) (V c main_v13) (V c main_arg0) (V c main_arg3) (V c main_v14) (V c main_arg5) (V c main_v15))
    (fun t _ => Mlp0.flushed V c t) (Mlp0.cover)

end Cert.KernelIdeal.RegionValue

end
-- ==== Proof.MlpValue32.lean ====
/-
  The first 32-wide perceptron region: the array its output window ends with is the host composition of the region's
  input arrays.

  The region runs over 50 row blocks of 2000 rows. At grid point t the body reads block t of the neighbour sum and of
  the features, the whole of the two weight matrices and of the two bias rows, and stores the perceptron of those blocks
  into block t of the output. Entry (p, q) of that block is the perceptron's entry for row 2000 t + p of the arrays
  (MlpAt: the block arithmetic and the host composition are the same expression of the row); the 50 blocks tile the
  100000 rows, so the array ends holding the host composition everywhere.
-/
import proofs.«115996_j33088428049205_1_alg».proof.Proof.Gen.KernelIdeal.Frame
import proofs.«115996_j33088428049205_1_alg».proof.Proof.MlpAt
import Idealize.ShloMosaic.Lib.Pipeline.Value

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

/-- The zero offsets of a whole-block load or store, as the constant function. -/
theorem hz : (![0, 0] : Fin 2 → Nat) = fun _ => 0 := funext fun a => by fin_cases a <;> rfl

/-! ## Region 2 -/

section Region2

/-- The printed index maps of region 2, decided over its 50 grid points: the two row-blocked inputs move with the output's
    row block, the four parameter windows stay at block (0, 0), and the output's row block index is below 50. -/
theorem idx2 : ∀ t : Fin cfg2.N,
      win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 49 ∧ win2_6.index t (1 : Fin 2) = 0 :=
  (by decide +kernel : ∀ t : Fin grid2.N, _)

/-- Every row block of the output is some grid point's. -/
theorem onto2 : ∀ (q0 : Fin 50) (q1 : Fin 1), ∃ t : Fin cfg2.N, win2_6.index t = ![q0.val, q1.val] :=
  (by decide +kernel : ∀ (q0 : Fin 50) (q1 : Fin 1), ∃ t : Fin grid2.N, win2_6.index t = ![q0.val, q1.val])

/-- Row p of the neighbour sum's block t is row 2000 · (the output's row block) + p of its array. -/
theorem emb2_0 (t : Fin cfg2.N) (p : Fin 2000) (k : Fin 32) (r : Fin 100000)
    (hr : r.val = win2_6.index t (0 : Fin 2) * 2000 + p.val) :
    ((cfg2.win 0).blk t).view.emb (ix2 p k) = ix2 r k := by
  obtain ⟨e00, e01, e10, e11, e20, e21, e30, e31, e40, e41, e50, e51, e60, e61⟩ := idx2 t
  funext a; apply Fin.ext
  match a with
  | ⟨0, _⟩ => show win2_0.index t (0 : Fin 2) * 2000 + 1 * p.val = r.val; omega
  | ⟨1, _⟩ => show win2_0.index t (1 : Fin 2) * 32 + 1 * k.val = k.val; omega

/-- The same for the features' block. -/
theorem emb2_1 (t : Fin cfg2.N) (p : Fin 2000) (k : Fin 32) (r : Fin 100000)
    (hr : r.val = win2_6.index t (0 : Fin 2) * 2000 + p.val) :
    ((cfg2.win 1).blk t).view.emb (ix2 p k) = ix2 r k := by
  obtain ⟨e00, e01, e10, e11, e20, e21, e30, e31, e40, e41, e50, e51, e60, e61⟩ := idx2 t
  funext a; apply Fin.ext
  match a with
  | ⟨0, _⟩ => show win2_1.index t (0 : Fin 2) * 2000 + 1 * p.val = r.val; omega
  | ⟨1, _⟩ => show win2_1.index t (1 : Fin 2) * 32 + 1 * k.val = k.val; omega

/-- The first weights' block is the whole matrix. -/
theorem emb2_2 (t : Fin cfg2.N) (k : Fin 32) (j : Fin 32) :
    ((cfg2.win 2).blk t).view.emb (ix2 k j) = ix2 k j := by
  obtain ⟨e00, e01, e10, e11, e20, e21, e30, e31, e40, e41, e50, e51, e60, e61⟩ := idx2 t
  funext a; apply Fin.ext
  match a with
  | ⟨0, _⟩ => show win2_2.index t (0 : Fin 2) * 32 + 1 * k.val = k.val; omega
  | ⟨1, _⟩ => show win2_2.index t (1 : Fin 2) * 32 + 1 * j.val = j.val; omega

/-- The first bias row's block is the whole row. -/
theorem emb2_3 (t : Fin cfg2.N) (k : Fin 1) (j : Fin 32) :
    ((cfg2.win 3).blk t).view.emb (ix2 k j) = ix2 k j := by
  obtain ⟨e00, e01, e10, e11, e20, e21, e30, e31, e40, e41, e50, e51, e60, e61⟩ := idx2 t
  funext a; apply Fin.ext
  match a with
  | ⟨0, _⟩ => show win2_3.index t (0 : Fin 2) * 1 + 1 * k.val = k.val; omega
  | ⟨1, _⟩ => show win2_3.index t (1 : Fin 2) * 32 + 1 * j.val = j.val; omega

/-- The second weights' block is the whole matrix. -/
theorem emb2_4 (t : Fin cfg2.N) (k : Fin 32) (j : Fin 32) :
    ((cfg2.win 4).blk t).view.emb (ix2 k j) = ix2 k j := by
  obtain ⟨e00, e01, e10, e11, e20, e21, e30, e31, e40, e41, e50, e51, e60, e61⟩ := idx2 t
  funext a; apply Fin.ext
  match a with
  | ⟨0, _⟩ => show win2_4.index t (0 : Fin 2) * 32 + 1 * k.val = k.val; omega
  | ⟨1, _⟩ => show win2_4.index t (1 : Fin 2) * 32 + 1 * j.val = j.val; omega

/-- The second bias row's block is the whole row. -/
theorem emb2_5 (t : Fin cfg2.N) (k : Fin 1) (j : Fin 32) :
    ((cfg2.win 5).blk t).view.emb (ix2 k j) = ix2 k j := by
  obtain ⟨e00, e01, e10, e11, e20, e21, e30, e31, e40, e41, e50, e51, e60, e61⟩ := idx2 t
  funext a; apply Fin.ext
  match a with
  | ⟨0, _⟩ => show win2_5.index t (0 : Fin 2) * 1 + 1 * k.val = k.val; omega
  | ⟨1, _⟩ => show win2_5.index t (1 : Fin 2) * 32 + 1 * j.val = j.val; omega

/-- Row p of the output's block t is row 2000 · (its row block) + p of the output array. -/
theorem emb2_6 (t : Fin cfg2.N) (p : Fin 2000) (k : Fin 32) (r : Fin 100000)
    (hr : r.val = win2_6.index t (0 : Fin 2) * 2000 + p.val) :
    ((cfg2.win 6).blk t).view.emb (ix2 p k) = ix2 r k := by
  obtain ⟨e00, e01, e10, e11, e20, e21, e30, e31, e40, e41, e50, e51, e60, e61⟩ := idx2 t
  funext a; apply Fin.ext
  match a with
  | ⟨0, _⟩ => show win2_6.index t (0 : Fin 2) * 2000 + 1 * p.val = r.val; omega
  | ⟨1, _⟩ => show win2_6.index t (1 : Fin 2) * 32 + 1 * k.val = k.val; omega

/-- What grid point t writes back is block t of the host composition of the region's input arrays. -/
theorem flushed2 (t : Fin cfg2.N) :
    (dat2 (F := Ideal) V c).flushed 6 t = ((cfg2.win 6).blk t).view.read (Elt Ideal)
      (Cert.Spec.mlp32 (F := Ideal) (V c main_v38) (V c main_v28) (V c main_v40) (V c main_v43) (V c main_v45) (V c main_v48)) := by
  show (cfg2.win 6).cut (grid2.coords t) ((dat2 V c).after 6 t) = _
  rw [after2_6]
  unfold out2_6
  rw [View.canon_unit_zero hz]
  simp only [View.ld_unit_zero (S := S2000x32) hz, View.ld_unit_zero (S := S32x32) hz, View.ld_unit_zero (S := S1x32) hz]
  funext j
  obtain ⟨p, q, rfl⟩ : ∃ (p : Fin 2000) (q : Fin 32), j = ix2 p q := ⟨j 0, j 1, eq_ix2 j⟩
  have hr : win2_6.index t (0 : Fin 2) * 2000 + p.val < 100000 := by
    have hp : p.val < 2000 := p.isLt
    have h6 := (idx2 t).2.2.2.2.2.2.2.2.2.2.2.2.1
    omega
  show k2_pay1 (iblk2 V c 0 t) (iblk2 V c 1 t) (iblk2 V c 2 t) (iblk2 V c 3 t) (iblk2 V c 4 t) (iblk2 V c 5 t) (ix2 p q)
    = Cert.Spec.mlp32 (F := Ideal) (V c main_v38) (V c main_v28) (V c main_v40) (V c main_v43) (V c main_v45) (V c main_v48) (((cfg2.win 6).blk t).view.emb (ix2 p q))
  rw [emb2_6 t p q ⟨_, hr⟩ rfl]
  exact pay32_eq_mlp32 _ _ _ _ _ _ _ _ _ _ _ _ p q _
    (fun k => congrArg (V c main_v38) (emb2_0 t p k ⟨_, hr⟩ rfl))
    (fun k => congrArg (V c main_v28) (emb2_1 t p k ⟨_, hr⟩ rfl))
    (fun k j => congrArg (V c main_v40) (emb2_2 t k j))
    (fun j => congrArg (V c main_v43) (emb2_3 t 0 j))
    (fun k j => congrArg (V c main_v45) (emb2_4 t k j))
    (fun j => congrArg (V c main_v48) (emb2_5 t 0 j))

/-- An index of the output array is in point t's block iff each coordinate is in the block's range on its axis. -/
theorem mem_blk2 (t : Fin cfg2.N) (i : S100000x32.Idx) :
    i ∈ ((cfg2.win 6).blk t).view.set ↔ ∀ a : Fin 2, win2_6.index t a * S2000x32.size a ≤ (i a).val
      ∧ (i a).val < win2_6.index t a * S2000x32.size a + S2000x32.size a := by
  show i ∈ ((View.whole main_v49).slice (win2_6.rect t)).set ↔ _
  rw [View.set_slice_whole, Rect.mem_set_unit]
  exact Iff.rfl

/-- The 50 row blocks tile the output array: row r lies in the block of index r / 2000. -/
theorem cover2 (i : S100000x32.Idx) :
    ∃ t : Fin cfg2.N, (cfg2.win 6).flush t = true ∧ i ∈ ((cfg2.win 6).blk t).view.set := by
  have hi0 : (i 0).val < 100000 := (i 0).isLt
  have hi1 : (i 1).val < 32 := (i 1).isLt
  obtain ⟨t, ht⟩ := onto2 ⟨(i 0).val / 2000, by omega⟩ ⟨(i 1).val / 32, by omega⟩
  have q0 : win2_6.index t (0 : Fin 2) = (i 0).val / 2000 := congrFun ht 0
  have q1 : win2_6.index t (1 : Fin 2) = (i 1).val / 32 := congrFun ht 1
  refine ⟨t, flush2_6 t, ?_⟩
  rw [mem_blk2]
  intro a
  match a with
  | ⟨0, _⟩ =>
    show win2_6.index t (0 : Fin 2) * 2000 ≤ (i 0).val ∧ (i 0).val < win2_6.index t (0 : Fin 2) * 2000 + 2000
    omega
  | ⟨1, _⟩ =>
    show win2_6.index t (1 : Fin 2) * 32 ≤ (i 1).val ∧ (i 1).val < win2_6.index t (1 : Fin 2) * 32 + 32
    omega

/-- The array the output window of region 2 ends with is the host composition of the region's input arrays. -/
theorem mlp2 : (dat2 (F := Ideal) V c).arrAt 6 cfg2.N
    = Cert.Spec.mlp32 (F := Ideal) (V c main_v38) (V c main_v28) (V c main_v40) (V c main_v43) (V c main_v45) (V c main_v48) :=
  (dat2 (F := Ideal) V c).arrAt_eq_of_cover 6 _ (fun t _ => flushed2 V c t) cover2

end Region2

end Cert.KernelIdeal.RegionValue

end
-- ==== Proof.MlpValue4.lean ====
/-
  The third perceptron region: the array its output window ends with is the specification's 32-wide perceptron of the
  region's input arrays.

  The grid has 50 points; point t reads rows 2000 t … 2000 t + 1999 of the neighbour sums and of the features
  ([100000, 32] each), reads the two weight matrices and the two bias rows whole, and writes rows 2000 t … 2000 t + 1999
  of the [100000, 32] output.  So what point t writes back is block t of the specification's array (the body's
  arithmetic and the specification's agree entry by entry), and the 50 blocks cover the array.
-/
import proofs.«115996_j33088428049205_1_alg».proof.Proof.Gen.KernelIdeal.Frame
import proofs.«115996_j33088428049205_1_alg».proof.Proof.MlpAt
import Idealize.ShloMosaic.Lib.Pipeline.Value

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

namespace Mlp4

/-- The offsets of a whole-block access are zero on both axes. -/
theorem hz : (![0, 0] : Fin 2 → Nat) = fun _ => 0 := funext fun a => by fin_cases a <;> rfl

/-- The block index maps over the grid: the two row-blocked inputs and the output are at row block t, column block 0;
    the weights and the bias rows are at block (0, 0). -/
theorem idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- The grid has 50 points. -/
theorem lt (t : Fin cfg4.N) : t.val < 50 := lt_of_lt_of_eq t.isLt N_4

/-- Entry (p, k) of the neighbour sums' block at point t is the array's entry (2000 t + p, k). -/
theorem blk_a (t : Fin cfg4.N) (p : Fin 2000) (k : Fin 32) (r : Fin 100000) (hr : r.val = t.val * 2000 + p.val) :
    iblk4 V c 0 t (ix2 p k) = V c main_v71 (ix2 r k) := by
  obtain ⟨e0, e1, -⟩ := idx t
  unfold iblk4
  show V c main_v71 (((cfg4.win 0).blk t).view.emb (ix2 p k)) = V c main_v71 (ix2 r k)
  congr 1
  funext a; apply Fin.ext
  match a with
  | ⟨0, _⟩ => show win4_0.index t (0 : Fin 2) * 2000 + 1 * p.val = r.val; omega
  | ⟨1, _⟩ => show win4_0.index t (1 : Fin 2) * 32 + 1 * k.val = k.val; omega

/-- Entry (p, k) of the features' block at point t is the array's entry (2000 t + p, k). -/
theorem blk_h (t : Fin cfg4.N) (p : Fin 2000) (k : Fin 32) (r : Fin 100000) (hr : r.val = t.val * 2000 + p.val) :
    iblk4 V c 1 t (ix2 p k) = V c main_v61 (ix2 r k) := by
  obtain ⟨-, -, e0, e1, -⟩ := idx t
  unfold iblk4
  show V c main_v61 (((cfg4.win 1).blk t).view.emb (ix2 p k)) = V c main_v61 (ix2 r k)
  congr 1
  funext a; apply Fin.ext
  match a with
  | ⟨0, _⟩ => show win4_1.index t (0 : Fin 2) * 2000 + 1 * p.val = r.val; omega
  | ⟨1, _⟩ => show win4_1.index t (1 : Fin 2) * 32 + 1 * k.val = k.val; omega

/-- The first weights' block at any point is the whole matrix. -/
theorem blk_w1 (t : Fin cfg4.N) (k j : Fin 32) :
    iblk4 V c 2 t (ix2 k j) = V c main_v73 (ix2 k j) := by
  obtain ⟨-, -, -, -, e0, e1, -⟩ := idx t
  unfold iblk4
  show V c main_v73 (((cfg4.win 2).blk t).view.emb (ix2 k j)) = V c main_v73 (ix2 k j)
  congr 1
  funext a; apply Fin.ext
  match a with
  | ⟨0, _⟩ => show win4_2.index t (0 : Fin 2) * 32 + 1 * k.val = k.val; omega
  | ⟨1, _⟩ => show win4_2.index t (1 : Fin 2) * 32 + 1 * j.val = j.val; omega

/-- The first bias row's block at any point is the whole row. -/
theorem blk_b1 (t : Fin cfg4.N) (j : Fin 32) :
    iblk4 V c 3 t (ix2 (0 : Fin 1) j) = V c main_v76 (ix2 (0 : Fin 1) j) := by
  obtain ⟨-, -, -, -, -, -, e0, e1, -⟩ := idx t
  unfold iblk4
  show V c main_v76 (((cfg4.win 3).blk t).view.emb (ix2 (0 : Fin 1) j)) = V c main_v76 (ix2 (0 : Fin 1) j)
  congr 1
  funext a; apply Fin.ext
  match a with
  | ⟨0, _⟩ => show win4_3.index t (0 : Fin 2) * 1 + 1 * 0 = 0; omega
  | ⟨1, _⟩ => show win4_3.index t (1 : Fin 2) * 32 + 1 * j.val = j.val; omega

/-- The second weights' block at any point is the whole matrix. -/
theorem blk_w2 (t : Fin cfg4.N) (k j : Fin 32) :
    iblk4 V c 4 t (ix2 k j) = V c main_v78 (ix2 k j) := by
  obtain ⟨-, -, -, -, -, -, -, -, e0, e1, -⟩ := idx t
  unfold iblk4
  show V c main_v78 (((cfg4.win 4).blk t).view.emb (ix2 k j)) = V c main_v78 (ix2 k j)
  congr 1
  funext a; apply Fin.ext
  match a with
  | ⟨0, _⟩ => show win4_4.index t (0 : Fin 2) * 32 + 1 * k.val = k.val; omega
  | ⟨1, _⟩ => show win4_4.index t (1 : Fin 2) * 32 + 1 * j.val = j.val; omega

/-- The second bias row's block at any point is the whole row. -/
theorem blk_b2 (t : Fin cfg4.N) (j : Fin 32) :
    iblk4 V c 5 t (ix2 (0 : Fin 1) j) = V c main_v81 (ix2 (0 : Fin 1) j) := by
  obtain ⟨-, -, -, -, -, -, -, -, -, -, e0, e1, -⟩ := idx t
  unfold iblk4
  show V c main_v81 (((cfg4.win 5).blk t).view.emb (ix2 (0 : Fin 1) j)) = V c main_v81 (ix2 (0 : Fin 1) j)
  congr 1
  funext a; apply Fin.ext
  match a with
  | ⟨0, _⟩ => show win4_5.index t (0 : Fin 2) * 1 + 1 * 0 = 0; omega
  | ⟨1, _⟩ => show win4_5.index t (1 : Fin 2) * 32 + 1 * j.val = j.val; omega

/-- Entry (p, q) of the output's block at point t sits at the array's entry (2000 t + p, q). -/
theorem emb (t : Fin cfg4.N) (p : Fin 2000) (q : Fin 32) (r : Fin 100000) (hr : r.val = t.val * 2000 + p.val) :
    ((cfg4.win 6).blk t).view.emb (ix2 p q) = ix2 r q := by
  obtain ⟨-, -, -, -, -, -, -, -, -, -, -, -, e0, e1⟩ := idx t
  funext a; apply Fin.ext
  match a with
  | ⟨0, _⟩ => show win4_6.index t (0 : Fin 2) * 2000 + 1 * p.val = r.val; omega
  | ⟨1, _⟩ => show win4_6.index t (1 : Fin 2) * 32 + 1 * q.val = q.val; omega

/-- What point t writes back is block t of the specification's array. -/
theorem flushed (t : Fin cfg4.N) :
    (dat4 (F := Ideal) V c).flushed 6 t = ((cfg4.win 6).blk t).view.read (Elt Ideal)
      (Cert.Spec.mlp32 (F := Ideal) (V c main_v71) (V c main_v61) (V c main_v73) (V c main_v76) (V c main_v78) (V c main_v81)) := by
  show (cfg4.win 6).cut (grid4.coords t) ((dat4 V c).after 6 t) = _
  rw [after4_6]
  unfold out4_6
  rw [View.canon_unit_zero hz]
  simp only [View.ld_unit_zero (S := S2000x32) hz, View.ld_unit_zero (S := S32x32) hz, View.ld_unit_zero (S := S1x32) hz]
  funext j
  obtain ⟨p, q, rfl⟩ : ∃ (p : Fin 2000) (q : Fin 32), j = ix2 p q := ⟨j 0, j 1, eq_ix2 j⟩
  have ht := lt t
  have hp := p.isLt
  have hr : t.val * 2000 + p.val < 100000 := by omega
  show k4_pay1 (iblk4 V c 0 t) (iblk4 V c 1 t) (iblk4 V c 2 t) (iblk4 V c 3 t) (iblk4 V c 4 t) (iblk4 V c 5 t) (ix2 p q)
    = Cert.Spec.mlp32 (F := Ideal) (V c main_v71) (V c main_v61) (V c main_v73) (V c main_v76) (V c main_v78) (V c main_v81)
        (((cfg4.win 6).blk t).view.emb (ix2 p q))
  rw [emb t p q ⟨_, hr⟩ rfl]
  refine (congrFun (k4_pay1_eq (iblk4 V c 0 t) (iblk4 V c 1 t) (iblk4 V c 2 t) (iblk4 V c 3 t) (iblk4 V c 4 t) (iblk4 V c 5 t)) (ix2 p q)).trans ?_
  exact pay32_eq_mlp32 (iblk4 V c 0 t) (iblk4 V c 1 t) (iblk4 V c 2 t) (iblk4 V c 3 t) (iblk4 V c 4 t) (iblk4 V c 5 t)
    (V c main_v71) (V c main_v61) (V c main_v73) (V c main_v76) (V c main_v78) (V c main_v81) p q ⟨_, hr⟩
    (fun k => blk_a V c t p k ⟨_, hr⟩ rfl) (fun k => blk_h V c t p k ⟨_, hr⟩ rfl) (fun k j => blk_w1 V c t k j)
    (fun j => blk_b1 V c t j) (fun k j => blk_w2 V c t k j) (fun j => blk_b2 V c t j)

/-- An index of the output array is in point t's block when its row is among rows 2000 t … 2000 t + 1999. -/
theorem mem_blk (t : Fin cfg4.N) (i : S100000x32.Idx) :
    i ∈ ((cfg4.win 6).blk t).view.set ↔ ∀ a : Fin 2, win4_6.index t a * S2000x32.size a ≤ (i a).val
      ∧ (i a).val < win4_6.index t a * S2000x32.size a + S2000x32.size a := by
  show i ∈ ((View.whole main_v82).slice (win4_6.rect t)).set ↔ _
  rw [View.set_slice_whole, Rect.mem_set_unit]
  exact Iff.rfl

/-- Every index of the output array is in the block of the point its row falls in. -/
theorem cover (i : S100000x32.Idx) :
    ∃ t : Fin cfg4.N, (cfg4.win 6).flush t = true ∧ i ∈ ((cfg4.win 6).blk t).view.set := by
  have hi0 : (i 0).val < 100000 := (i 0).isLt
  have hi1 : (i 1).val < 32 := (i 1).isLt
  obtain ⟨t, ht⟩ : ∃ t : Fin cfg4.N, t.val = (i 0).val / 2000 :=
    ⟨⟨(i 0).val / 2000, lt_of_lt_of_eq (by omega : (i 0).val / 2000 < 50) N_4.symm⟩, rfl⟩
  obtain ⟨-, -, -, -, -, -, -, -, -, -, -, -, e0, e1⟩ := idx t
  refine ⟨t, flush4_6 t, ?_⟩
  rw [mem_blk]
  intro a
  match a with
  | ⟨0, _⟩ =>
    show win4_6.index t (0 : Fin 2) * 2000 ≤ (i 0).val ∧ (i 0).val < win4_6.index t (0 : Fin 2) * 2000 + 2000
    omega
  | ⟨1, _⟩ =>
    show win4_6.index t (1 : Fin 2) * 32 ≤ (i 1).val ∧ (i 1).val < win4_6.index t (1 : Fin 2) * 32 + 32
    omega

end Mlp4

/-- The output array of the third perceptron region after the run is the specification's 32-wide perceptron of the
    region's input arrays. -/
theorem mlp4 : (dat4 (F := Ideal) V c).arrAt 6 cfg4.N
    = Cert.Spec.mlp32 (F := Ideal) (V c main_v71) (V c main_v61) (V c main_v73) (V c main_v76) (V c main_v78) (V c main_v81) :=
  (dat4 (F := Ideal) V c).arrAt_eq_of_cover 6
    (Cert.Spec.mlp32 (F := Ideal) (V c main_v71) (V c main_v61) (V c main_v73) (V c main_v76) (V c main_v78) (V c main_v81))
    (fun t _ => Mlp4.flushed V c t) (Mlp4.cover)

end Cert.KernelIdeal.RegionValue

end
-- ==== Proof.MlpValue6.lean ====
/-
  The fourth perceptron region: the array its output window ends with is the specification's 32-wide perceptron of the
  region's input arrays.

  The grid has 50 points; point t reads rows 2000 t … 2000 t + 1999 of the neighbour sums and of the features
  ([100000, 32] each), reads the two weight matrices and the two bias rows whole, and writes rows 2000 t … 2000 t + 1999
  of the [100000, 32] output.  So what point t writes back is block t of the specification's array (the body's
  arithmetic and the specification's agree entry by entry), and the 50 blocks cover the array.
-/
import proofs.«115996_j33088428049205_1_alg».proof.Proof.Gen.KernelIdeal.Frame
import proofs.«115996_j33088428049205_1_alg».proof.Proof.MlpAt
import Idealize.ShloMosaic.Lib.Pipeline.Value

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

namespace Mlp6

/-- The offsets of a whole-block access are zero on both axes. -/
theorem hz : (![0, 0] : Fin 2 → Nat) = fun _ => 0 := funext fun a => by fin_cases a <;> rfl

/-- The block index maps over the grid: the two row-blocked inputs and the output are at row block t, column block 0;
    the weights and the bias rows are at block (0, 0). -/
theorem idx : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- The grid has 50 points. -/
theorem lt (t : Fin cfg6.N) : t.val < 50 := lt_of_lt_of_eq t.isLt N_6

/-- Entry (p, k) of the neighbour sums' block at point t is the array's entry (2000 t + p, k). -/
theorem blk_a (t : Fin cfg6.N) (p : Fin 2000) (k : Fin 32) (r : Fin 100000) (hr : r.val = t.val * 2000 + p.val) :
    iblk6 V c 0 t (ix2 p k) = V c main_v104 (ix2 r k) := by
  obtain ⟨e0, e1, -⟩ := idx t
  unfold iblk6
  show V c main_v104 (((cfg6.win 0).blk t).view.emb (ix2 p k)) = V c main_v104 (ix2 r k)
  congr 1
  funext a; apply Fin.ext
  match a with
  | ⟨0, _⟩ => show win6_0.index t (0 : Fin 2) * 2000 + 1 * p.val = r.val; omega
  | ⟨1, _⟩ => show win6_0.index t (1 : Fin 2) * 32 + 1 * k.val = k.val; omega

/-- Entry (p, k) of the features' block at point t is the array's entry (2000 t + p, k). -/
theorem blk_h (t : Fin cfg6.N) (p : Fin 2000) (k : Fin 32) (r : Fin 100000) (hr : r.val = t.val * 2000 + p.val) :
    iblk6 V c 1 t (ix2 p k) = V c main_v94 (ix2 r k) := by
  obtain ⟨-, -, e0, e1, -⟩ := idx t
  unfold iblk6
  show V c main_v94 (((cfg6.win 1).blk t).view.emb (ix2 p k)) = V c main_v94 (ix2 r k)
  congr 1
  funext a; apply Fin.ext
  match a with
  | ⟨0, _⟩ => show win6_1.index t (0 : Fin 2) * 2000 + 1 * p.val = r.val; omega
  | ⟨1, _⟩ => show win6_1.index t (1 : Fin 2) * 32 + 1 * k.val = k.val; omega

/-- The first weights' block at any point is the whole matrix. -/
theorem blk_w1 (t : Fin cfg6.N) (k j : Fin 32) :
    iblk6 V c 2 t (ix2 k j) = V c main_v106 (ix2 k j) := by
  obtain ⟨-, -, -, -, e0, e1, -⟩ := idx t
  unfold iblk6
  show V c main_v106 (((cfg6.win 2).blk t).view.emb (ix2 k j)) = V c main_v106 (ix2 k j)
  congr 1
  funext a; apply Fin.ext
  match a with
  | ⟨0, _⟩ => show win6_2.index t (0 : Fin 2) * 32 + 1 * k.val = k.val; omega
  | ⟨1, _⟩ => show win6_2.index t (1 : Fin 2) * 32 + 1 * j.val = j.val; omega

/-- The first bias row's block at any point is the whole row. -/
theorem blk_b1 (t : Fin cfg6.N) (j : Fin 32) :
    iblk6 V c 3 t (ix2 (0 : Fin 1) j) = V c main_v109 (ix2 (0 : Fin 1) j) := by
  obtain ⟨-, -, -, -, -, -, e0, e1, -⟩ := idx t
  unfold iblk6
  show V c main_v109 (((cfg6.win 3).blk t).view.emb (ix2 (0 : Fin 1) j)) = V c main_v109 (ix2 (0 : Fin 1) j)
  congr 1
  funext a; apply Fin.ext
  match a with
  | ⟨0, _⟩ => show win6_3.index t (0 : Fin 2) * 1 + 1 * 0 = 0; omega
  | ⟨1, _⟩ => show win6_3.index t (1 : Fin 2) * 32 + 1 * j.val = j.val; omega

/-- The second weights' block at any point is the whole matrix. -/
theorem blk_w2 (t : Fin cfg6.N) (k j : Fin 32) :
    iblk6 V c 4 t (ix2 k j) = V c main_v111 (ix2 k j) := by
  obtain ⟨-, -, -, -, -, -, -, -, e0, e1, -⟩ := idx t
  unfold iblk6
  show V c main_v111 (((cfg6.win 4).blk t).view.emb (ix2 k j)) = V c main_v111 (ix2 k j)
  congr 1
  funext a; apply Fin.ext
  match a with
  | ⟨0, _⟩ => show win6_4.index t (0 : Fin 2) * 32 + 1 * k.val = k.val; omega
  | ⟨1, _⟩ => show win6_4.index t (1 : Fin 2) * 32 + 1 * j.val = j.val; omega

/-- The second bias row's block at any point is the whole row. -/
theorem blk_b2 (t : Fin cfg6.N) (j : Fin 32) :
    iblk6 V c 5 t (ix2 (0 : Fin 1) j) = V c main_v114 (ix2 (0 : Fin 1) j) := by
  obtain ⟨-, -, -, -, -, -, -, -, -, -, e0, e1, -⟩ := idx t
  unfold iblk6
  show V c main_v114 (((cfg6.win 5).blk t).view.emb (ix2 (0 : Fin 1) j)) = V c main_v114 (ix2 (0 : Fin 1) j)
  congr 1
  funext a; apply Fin.ext
  match a with
  | ⟨0, _⟩ => show win6_5.index t (0 : Fin 2) * 1 + 1 * 0 = 0; omega
  | ⟨1, _⟩ => show win6_5.index t (1 : Fin 2) * 32 + 1 * j.val = j.val; omega

/-- Entry (p, q) of the output's block at point t sits at the array's entry (2000 t + p, q). -/
theorem emb (t : Fin cfg6.N) (p : Fin 2000) (q : Fin 32) (r : Fin 100000) (hr : r.val = t.val * 2000 + p.val) :
    ((cfg6.win 6).blk t).view.emb (ix2 p q) = ix2 r q := by
  obtain ⟨-, -, -, -, -, -, -, -, -, -, -, -, e0, e1⟩ := idx t
  funext a; apply Fin.ext
  match a with
  | ⟨0, _⟩ => show win6_6.index t (0 : Fin 2) * 2000 + 1 * p.val = r.val; omega
  | ⟨1, _⟩ => show win6_6.index t (1 : Fin 2) * 32 + 1 * q.val = q.val; omega

/-- What point t writes back is block t of the specification's array. -/
theorem flushed (t : Fin cfg6.N) :
    (dat6 (F := Ideal) V c).flushed 6 t = ((cfg6.win 6).blk t).view.read (Elt Ideal)
      (Cert.Spec.mlp32 (F := Ideal) (V c main_v104) (V c main_v94) (V c main_v106) (V c main_v109) (V c main_v111) (V c main_v114)) := by
  show (cfg6.win 6).cut (grid6.coords t) ((dat6 V c).after 6 t) = _
  rw [after6_6]
  unfold out6_6
  rw [View.canon_unit_zero hz]
  simp only [View.ld_unit_zero (S := S2000x32) hz, View.ld_unit_zero (S := S32x32) hz, View.ld_unit_zero (S := S1x32) hz]
  funext j
  obtain ⟨p, q, rfl⟩ : ∃ (p : Fin 2000) (q : Fin 32), j = ix2 p q := ⟨j 0, j 1, eq_ix2 j⟩
  have ht := lt t
  have hp := p.isLt
  have hr : t.val * 2000 + p.val < 100000 := by omega
  show k6_pay1 (iblk6 V c 0 t) (iblk6 V c 1 t) (iblk6 V c 2 t) (iblk6 V c 3 t) (iblk6 V c 4 t) (iblk6 V c 5 t) (ix2 p q)
    = Cert.Spec.mlp32 (F := Ideal) (V c main_v104) (V c main_v94) (V c main_v106) (V c main_v109) (V c main_v111) (V c main_v114)
        (((cfg6.win 6).blk t).view.emb (ix2 p q))
  rw [emb t p q ⟨_, hr⟩ rfl]
  refine (congrFun (k6_pay1_eq (iblk6 V c 0 t) (iblk6 V c 1 t) (iblk6 V c 2 t) (iblk6 V c 3 t) (iblk6 V c 4 t) (iblk6 V c 5 t)) (ix2 p q)).trans ?_
  exact pay32_eq_mlp32 (iblk6 V c 0 t) (iblk6 V c 1 t) (iblk6 V c 2 t) (iblk6 V c 3 t) (iblk6 V c 4 t) (iblk6 V c 5 t)
    (V c main_v104) (V c main_v94) (V c main_v106) (V c main_v109) (V c main_v111) (V c main_v114) p q ⟨_, hr⟩
    (fun k => blk_a V c t p k ⟨_, hr⟩ rfl) (fun k => blk_h V c t p k ⟨_, hr⟩ rfl) (fun k j => blk_w1 V c t k j)
    (fun j => blk_b1 V c t j) (fun k j => blk_w2 V c t k j) (fun j => blk_b2 V c t j)

/-- An index of the output array is in point t's block when its row is among rows 2000 t … 2000 t + 1999. -/
theorem mem_blk (t : Fin cfg6.N) (i : S100000x32.Idx) :
    i ∈ ((cfg6.win 6).blk t).view.set ↔ ∀ a : Fin 2, win6_6.index t a * S2000x32.size a ≤ (i a).val
      ∧ (i a).val < win6_6.index t a * S2000x32.size a + S2000x32.size a := by
  show i ∈ ((View.whole main_v115).slice (win6_6.rect t)).set ↔ _
  rw [View.set_slice_whole, Rect.mem_set_unit]
  exact Iff.rfl

/-- Every index of the output array is in the block of the point its row falls in. -/
theorem cover (i : S100000x32.Idx) :
    ∃ t : Fin cfg6.N, (cfg6.win 6).flush t = true ∧ i ∈ ((cfg6.win 6).blk t).view.set := by
  have hi0 : (i 0).val < 100000 := (i 0).isLt
  have hi1 : (i 1).val < 32 := (i 1).isLt
  obtain ⟨t, ht⟩ : ∃ t : Fin cfg6.N, t.val = (i 0).val / 2000 :=
    ⟨⟨(i 0).val / 2000, lt_of_lt_of_eq (by omega : (i 0).val / 2000 < 50) N_6.symm⟩, rfl⟩
  obtain ⟨-, -, -, -, -, -, -, -, -, -, -, -, e0, e1⟩ := idx t
  refine ⟨t, flush6_6 t, ?_⟩
  rw [mem_blk]
  intro a
  match a with
  | ⟨0, _⟩ =>
    show win6_6.index t (0 : Fin 2) * 2000 ≤ (i 0).val ∧ (i 0).val < win6_6.index t (0 : Fin 2) * 2000 + 2000
    omega
  | ⟨1, _⟩ =>
    show win6_6.index t (1 : Fin 2) * 32 ≤ (i 1).val ∧ (i 1).val < win6_6.index t (1 : Fin 2) * 32 + 32
    omega

end Mlp6

/-- The output array of the fourth perceptron region after the run is the specification's 32-wide perceptron of the
    region's input arrays. -/
theorem mlp6 : (dat6 (F := Ideal) V c).arrAt 6 cfg6.N
    = Cert.Spec.mlp32 (F := Ideal) (V c main_v104) (V c main_v94) (V c main_v106) (V c main_v109) (V c main_v111) (V c main_v114) :=
  (dat6 (F := Ideal) V c).arrAt_eq_of_cover 6
    (Cert.Spec.mlp32 (F := Ideal) (V c main_v104) (V c main_v94) (V c main_v106) (V c main_v109) (V c main_v111) (V c main_v114))
    (fun t _ => Mlp6.flushed V c t) (Mlp6.cover)

end Cert.KernelIdeal.RegionValue

end
-- ==== Proof.BnAt.lean ====
/-
  The normalisation of a row block, read entry by entry on both sides.

  The kernel's body computes, for a block x of 2000 rows of 32 columns and four one-row matrices (the column means mu, the
  column variances v, the column weights g and the column biases b),
      (x - mu) * rsqrt (v + eps) * g + b
  with every row repeated down the block, and the specification computes the same expression on all 100000 rows with the
  rows repeated by the host's broadcast.  At the ideal values both reciprocal square roots are one function, so at the
  entry (p, q) both sides are the scalar expression `bnAt` of the entry of x at (p, q) and of the entries of the four rows
  at (0, q).  The four normalisation bodies of the network are the same term.
-/
import proofs.«115996_j33088428049205_1_alg».proof.Proof.Gen.KernelIdeal.Skeleton
import proofs.«115996_j33088428049205_1_alg».proof.Proof.Spec
import proofs.«115996_j33088428049205_1_alg».proof.Proof.Gen.ReferenceIdeal
import Idealize.ShloMosaic.Lib.ValueIdx
import Idealize.ShloMosaic.Lib.ValueLayout
import Idealize.ShloMosaic.Lib.KernelVsHost

noncomputable section

namespace Cert.KernelIdeal.RegionValue

open Idealize.ShloMosaic Idealize.ShloMosaic.ValueIdx Cert.KernelIdeal Cert.KernelIdeal.Gen

/-- The offsets of a whole-block access are zero on both axes. -/
theorem bn_hz : (![0, 0] : Fin 2 → Nat) = fun _ => 0 := funext fun a => by fin_cases a <;> rfl

/-- The normalisation of one entry: the entry minus its column's mean, times the reciprocal square root of the column's
    variance plus the small constant, times the column's weight, plus the column's bias. -/
def bnAt (x mu v g b : Ideal .f32) : Ideal .f32 :=
  (x - mu) * Ideal.rsqrt (v + Ideal.ofBits .f32 0x3727C5AC#32) * g + b

/-- The body's arithmetic at the entry (p, q) of the block: the casts are identities, a one-row matrix repeated down the
    block reads its row at the column q, and the other operations act entry by entry. -/
theorem k1_pay1_at (x0 : Vec Ideal S2000x32 .f32) (vv mu g b : Vec Ideal S1x32 .f32) (p : Fin 2000) (q : Fin 32) :
    k1_pay1 (F := Ideal) x0 vv mu g b (ix2 p q)
      = bnAt (x0 (ix2 p q)) (mu (ix2 (0 : Fin 1) q)) (vv (ix2 (0 : Fin 1) q)) (g (ix2 (0 : Fin 1) q)) (b (ix2 (0 : Fin 1) q)) := by
  unfold k1_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-- The later normalisation bodies are the first one's term. -/
theorem k3_pay1_eq : k3_pay1 (F := Ideal) = k1_pay1 (F := Ideal) := rfl
theorem k5_pay1_eq : k5_pay1 (F := Ideal) = k1_pay1 (F := Ideal) := rfl
theorem k7_pay1_eq : k7_pay1 (F := Ideal) = k1_pay1 (F := Ideal) := rfl

/-- The specification's normalisation at the entry (r, q) of the array: a one-row matrix repeated down the 100000 rows
    reads its row at the column q, the host's reciprocal square root is the kernel's, and the other operations act entry by
    entry. -/
theorem bnRows_at (X : FVec Ideal S100000x32 .f32) (mu vv g b : FVec Ideal S1x32 .f32) (r : Fin 100000) (q : Fin 32) :
    Cert.Spec.bnRows (F := Ideal) X mu vv g b (ix2 r q)
      = bnAt (X (ix2 r q)) (mu (ix2 (0 : Fin 1) q)) (vv (ix2 (0 : Fin 1) q)) (g (ix2 (0 : Fin 1) q)) (b (ix2 (0 : Fin 1) q)) := by
  unfold Cert.Spec.bnRows Cert.Spec.rows
  rw [addf_apply, mulf_apply, mulf_apply, subf_apply]
  rw [broadcastInDim_oneRow_apply, broadcastInDim_oneRow_apply, broadcastInDim_oneRow_apply, broadcastInDim_oneRow_apply]
  rfl

end Cert.KernelIdeal.RegionValue

end
-- ==== Proof.BnValue1.lean ====
/-
  Normalisation region 1: the array its output window ends with is the specification's normalisation of the region's
  input arrays.

  The grid has 50 points; point t reads rows 2000 t … 2000 t + 1999 of the [100000, 32] input, reads the four one-row
  matrices whole, and writes rows 2000 t … 2000 t + 1999 of the output.  So what point t writes back is block t of the
  specification's array (the body's arithmetic and the specification's agree entry by entry), and the 50 blocks cover
  the array.
-/
import proofs.«115996_j33088428049205_1_alg».proof.Proof.Gen.KernelIdeal.Frame
import proofs.«115996_j33088428049205_1_alg».proof.Proof.BnAt
import Idealize.ShloMosaic.Lib.Pipeline.Value

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

/-- The block index maps over the grid: the input and the output blocks are at row block t, column block 0; the four
    one-row matrices are at block (0, 0). -/
theorem bn1_idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The grid has 50 points. -/
theorem bn1_lt (t : Fin cfg1.N) : t.val < 50 := lt_of_lt_of_eq t.isLt N_1

/-- Entry (p, q) of the input's block at point t is the array's entry (2000 t + p, q). -/
theorem bn1_blk_x (t : Fin cfg1.N) (p : Fin 2000) (q : Fin 32) (r : Fin 100000) (hr : r.val = t.val * 2000 + p.val) :
    iblk1 V c 0 t (ix2 p q) = V c main_v16 (ix2 r q) := by
  obtain ⟨e0, e1, -⟩ := bn1_idx t
  unfold iblk1
  show V c main_v16 (((cfg1.win 0).blk t).view.emb (ix2 p q)) = V c main_v16 (ix2 r q)
  congr 1
  funext a; apply Fin.ext
  match a with
  | ⟨0, _⟩ => show win1_0.index t (0 : Fin 2) * 2000 + 1 * p.val = r.val; omega
  | ⟨1, _⟩ => show win1_0.index t (1 : Fin 2) * 32 + 1 * q.val = q.val; omega

/-- Entry (0, q) of a one-row matrix's block at any point is the matrix's entry (0, q). -/
theorem bn1_blk_mu (t : Fin cfg1.N) (q : Fin 32) :
    iblk1 V c 1 t (ix2 (0 : Fin 1) q) = V c main_v20 (ix2 (0 : Fin 1) q) := by
  obtain ⟨-, -, e0, e1, -⟩ := bn1_idx t
  unfold iblk1
  show V c main_v20 (((cfg1.win 1).blk t).view.emb (ix2 (0 : Fin 1) q)) = V c main_v20 (ix2 (0 : Fin 1) q)
  congr 1
  funext a; apply Fin.ext
  match a with
  | ⟨0, _⟩ => show win1_1.index t (0 : Fin 2) * 1 + 1 * 0 = 0; omega
  | ⟨1, _⟩ => show win1_1.index t (1 : Fin 2) * 32 + 1 * q.val = q.val; omega

theorem bn1_blk_var (t : Fin cfg1.N) (q : Fin 32) :
    iblk1 V c 2 t (ix2 (0 : Fin 1) q) = V c main_v21 (ix2 (0 : Fin 1) q) := by
  obtain ⟨-, -, -, -, e0, e1, -⟩ := bn1_idx t
  unfold iblk1
  show V c main_v21 (((cfg1.win 2).blk t).view.emb (ix2 (0 : Fin 1) q)) = V c main_v21 (ix2 (0 : Fin 1) q)
  congr 1
  funext a; apply Fin.ext
  match a with
  | ⟨0, _⟩ => show win1_2.index t (0 : Fin 2) * 1 + 1 * 0 = 0; omega
  | ⟨1, _⟩ => show win1_2.index t (1 : Fin 2) * 32 + 1 * q.val = q.val; omega

theorem bn1_blk_g (t : Fin cfg1.N) (q : Fin 32) :
    iblk1 V c 3 t (ix2 (0 : Fin 1) q) = V c main_v24 (ix2 (0 : Fin 1) q) := by
  obtain ⟨-, -, -, -, -, -, e0, e1, -⟩ := bn1_idx t
  unfold iblk1
  show V c main_v24 (((cfg1.win 3).blk t).view.emb (ix2 (0 : Fin 1) q)) = V c main_v24 (ix2 (0 : Fin 1) q)
  congr 1
  funext a; apply Fin.ext
  match a with
  | ⟨0, _⟩ => show win1_3.index t (0 : Fin 2) * 1 + 1 * 0 = 0; omega
  | ⟨1, _⟩ => show win1_3.index t (1 : Fin 2) * 32 + 1 * q.val = q.val; omega

theorem bn1_blk_b (t : Fin cfg1.N) (q : Fin 32) :
    iblk1 V c 4 t (ix2 (0 : Fin 1) q) = V c main_v27 (ix2 (0 : Fin 1) q) := by
  obtain ⟨-, -, -, -, -, -, -, -, e0, e1, -⟩ := bn1_idx t
  unfold iblk1
  show V c main_v27 (((cfg1.win 4).blk t).view.emb (ix2 (0 : Fin 1) q)) = V c main_v27 (ix2 (0 : Fin 1) q)
  congr 1
  funext a; apply Fin.ext
  match a with
  | ⟨0, _⟩ => show win1_4.index t (0 : Fin 2) * 1 + 1 * 0 = 0; omega
  | ⟨1, _⟩ => show win1_4.index t (1 : Fin 2) * 32 + 1 * q.val = q.val; omega

/-- Entry (p, q) of the output's block at point t sits at the array's entry (2000 t + p, q). -/
theorem bn1_emb (t : Fin cfg1.N) (p : Fin 2000) (q : Fin 32) (r : Fin 100000) (hr : r.val = t.val * 2000 + p.val) :
    ((cfg1.win 5).blk t).view.emb (ix2 p q) = ix2 r q := by
  obtain ⟨-, -, -, -, -, -, -, -, -, -, e0, e1⟩ := bn1_idx t
  funext a; apply Fin.ext
  match a with
  | ⟨0, _⟩ => show win1_5.index t (0 : Fin 2) * 2000 + 1 * p.val = r.val; omega
  | ⟨1, _⟩ => show win1_5.index t (1 : Fin 2) * 32 + 1 * q.val = q.val; omega

/-- What point t writes back is block t of the specification's array. -/
theorem bn1_flushed (t : Fin cfg1.N) :
    (dat1 (F := Ideal) V c).flushed 5 t = ((cfg1.win 5).blk t).view.read (Elt Ideal)
      (Cert.Spec.bnRows (F := Ideal) (V c main_v16) (V c main_v20) (V c main_v21) (V c main_v24) (V c main_v27)) := by
  show (cfg1.win 5).cut (grid1.coords t) ((dat1 V c).after 5 t) = _
  rw [after1_5]
  unfold out1_5
  rw [View.canon_unit_zero bn_hz]
  simp only [View.ld_unit_zero (S := S2000x32) bn_hz, View.ld_unit_zero (S := S1x32) bn_hz]
  funext j
  obtain ⟨p, q, rfl⟩ : ∃ (p : Fin 2000) (q : Fin 32), j = ix2 p q := ⟨j 0, j 1, eq_ix2 j⟩
  have ht := bn1_lt t
  have hp := p.isLt
  have hr : t.val * 2000 + p.val < 100000 := by omega
  show k1_pay1 (iblk1 V c 0 t) (iblk1 V c 2 t) (iblk1 V c 1 t) (iblk1 V c 3 t) (iblk1 V c 4 t) (ix2 p q)
    = Cert.Spec.bnRows (F := Ideal) (V c main_v16) (V c main_v20) (V c main_v21) (V c main_v24) (V c main_v27)
        (((cfg1.win 5).blk t).view.emb (ix2 p q))
  rw [bn1_emb t p q ⟨_, hr⟩ rfl]
  refine (k1_pay1_at _ _ _ _ _ p q).trans ?_
  refine Eq.trans ?_ (bnRows_at _ _ _ _ _ ⟨_, hr⟩ q).symm
  rw [bn1_blk_x V c t p q ⟨_, hr⟩ rfl, bn1_blk_mu V c t q, bn1_blk_var V c t q, bn1_blk_g V c t q, bn1_blk_b V c t q]

/-- An index of the output array is in point t's block when its row is among rows 2000 t … 2000 t + 1999. -/
theorem bn1_mem_blk (t : Fin cfg1.N) (i : S100000x32.Idx) :
    i ∈ ((cfg1.win 5).blk t).view.set ↔ ∀ a : Fin 2, win1_5.index t a * S2000x32.size a ≤ (i a).val
      ∧ (i a).val < win1_5.index t a * S2000x32.size a + S2000x32.size a := by
  show i ∈ ((View.whole main_v28).slice (win1_5.rect t)).set ↔ _
  rw [View.set_slice_whole, Rect.mem_set_unit]
  exact Iff.rfl

/-- Every index of the output array is in the block of the point its row falls in. -/
theorem bn1_cover (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, ht⟩ : ∃ t : Fin cfg1.N, t.val = (i 0).val / 2000 :=
    ⟨⟨(i 0).val / 2000, lt_of_lt_of_eq (by omega : (i 0).val / 2000 < 50) N_1.symm⟩, rfl⟩
  obtain ⟨-, -, -, -, -, -, -, -, -, -, e0, e1⟩ := bn1_idx t
  refine ⟨t, flush1_5 t, ?_⟩
  rw [bn1_mem_blk]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 32 ≤ (i 1).val ∧ (i 1).val < win1_5.index t (1 : Fin 2) * 32 + 32
    omega

/-- The output array of normalisation region 1 after the run is the specification's normalisation of the region's
    input arrays. -/
theorem bn1 : (dat1 (F := Ideal) V c).arrAt 5 cfg1.N
    = Cert.Spec.bnRows (F := Ideal) (V c main_v16) (V c main_v20) (V c main_v21) (V c main_v24) (V c main_v27) :=
  (dat1 (F := Ideal) V c).arrAt_eq_of_cover 5
    (Cert.Spec.bnRows (F := Ideal) (V c main_v16) (V c main_v20) (V c main_v21) (V c main_v24) (V c main_v27))
    (fun t _ => bn1_flushed V c t) (bn1_cover)

end Cert.KernelIdeal.RegionValue

end
-- ==== Proof.BnValue3.lean ====
/-
  Normalisation region 3: the array its output window ends with is the specification's normalisation of the region's
  input arrays.

  The grid has 50 points; point t reads rows 2000 t … 2000 t + 1999 of the [100000, 32] input, reads the four one-row
  matrices whole, and writes rows 2000 t … 2000 t + 1999 of the output.  So what point t writes back is block t of the
  specification's array (the body's arithmetic and the specification's agree entry by entry), and the 50 blocks cover
  the array.
-/
import proofs.«115996_j33088428049205_1_alg».proof.Proof.Gen.KernelIdeal.Frame
import proofs.«115996_j33088428049205_1_alg».proof.Proof.BnAt
import Idealize.ShloMosaic.Lib.Pipeline.Value

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

/-- The block index maps over the grid: the input and the output blocks are at row block t, column block 0; the four
    one-row matrices are at block (0, 0). -/
theorem bn3_idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The grid has 50 points. -/
theorem bn3_lt (t : Fin cfg3.N) : t.val < 50 := lt_of_lt_of_eq t.isLt N_3

/-- Entry (p, q) of the input's block at point t is the array's entry (2000 t + p, q). -/
theorem bn3_blk_x (t : Fin cfg3.N) (p : Fin 2000) (q : Fin 32) (r : Fin 100000) (hr : r.val = t.val * 2000 + p.val) :
    iblk3 V c 0 t (ix2 p q) = V c main_v49 (ix2 r q) := by
  obtain ⟨e0, e1, -⟩ := bn3_idx t
  unfold iblk3
  show V c main_v49 (((cfg3.win 0).blk t).view.emb (ix2 p q)) = V c main_v49 (ix2 r q)
  congr 1
  funext a; apply Fin.ext
  match a with
  | ⟨0, _⟩ => show win3_0.index t (0 : Fin 2) * 2000 + 1 * p.val = r.val; omega
  | ⟨1, _⟩ => show win3_0.index t (1 : Fin 2) * 32 + 1 * q.val = q.val; omega

/-- Entry (0, q) of a one-row matrix's block at any point is the matrix's entry (0, q). -/
theorem bn3_blk_mu (t : Fin cfg3.N) (q : Fin 32) :
    iblk3 V c 1 t (ix2 (0 : Fin 1) q) = V c main_v53 (ix2 (0 : Fin 1) q) := by
  obtain ⟨-, -, e0, e1, -⟩ := bn3_idx t
  unfold iblk3
  show V c main_v53 (((cfg3.win 1).blk t).view.emb (ix2 (0 : Fin 1) q)) = V c main_v53 (ix2 (0 : Fin 1) q)
  congr 1
  funext a; apply Fin.ext
  match a with
  | ⟨0, _⟩ => show win3_1.index t (0 : Fin 2) * 1 + 1 * 0 = 0; omega
  | ⟨1, _⟩ => show win3_1.index t (1 : Fin 2) * 32 + 1 * q.val = q.val; omega

theorem bn3_blk_var (t : Fin cfg3.N) (q : Fin 32) :
    iblk3 V c 2 t (ix2 (0 : Fin 1) q) = V c main_v54 (ix2 (0 : Fin 1) q) := by
  obtain ⟨-, -, -, -, e0, e1, -⟩ := bn3_idx t
  unfold iblk3
  show V c main_v54 (((cfg3.win 2).blk t).view.emb (ix2 (0 : Fin 1) q)) = V c main_v54 (ix2 (0 : Fin 1) q)
  congr 1
  funext a; apply Fin.ext
  match a with
  | ⟨0, _⟩ => show win3_2.index t (0 : Fin 2) * 1 + 1 * 0 = 0; omega
  | ⟨1, _⟩ => show win3_2.index t (1 : Fin 2) * 32 + 1 * q.val = q.val; omega

theorem bn3_blk_g (t : Fin cfg3.N) (q : Fin 32) :
    iblk3 V c 3 t (ix2 (0 : Fin 1) q) = V c main_v57 (ix2 (0 : Fin 1) q) := by
  obtain ⟨-, -, -, -, -, -, e0, e1, -⟩ := bn3_idx t
  unfold iblk3
  show V c main_v57 (((cfg3.win 3).blk t).view.emb (ix2 (0 : Fin 1) q)) = V c main_v57 (ix2 (0 : Fin 1) q)
  congr 1
  funext a; apply Fin.ext
  match a with
  | ⟨0, _⟩ => show win3_3.index t (0 : Fin 2) * 1 + 1 * 0 = 0; omega
  | ⟨1, _⟩ => show win3_3.index t (1 : Fin 2) * 32 + 1 * q.val = q.val; omega

theorem bn3_blk_b (t : Fin cfg3.N) (q : Fin 32) :
    iblk3 V c 4 t (ix2 (0 : Fin 1) q) = V c main_v60 (ix2 (0 : Fin 1) q) := by
  obtain ⟨-, -, -, -, -, -, -, -, e0, e1, -⟩ := bn3_idx t
  unfold iblk3
  show V c main_v60 (((cfg3.win 4).blk t).view.emb (ix2 (0 : Fin 1) q)) = V c main_v60 (ix2 (0 : Fin 1) q)
  congr 1
  funext a; apply Fin.ext
  match a with
  | ⟨0, _⟩ => show win3_4.index t (0 : Fin 2) * 1 + 1 * 0 = 0; omega
  | ⟨1, _⟩ => show win3_4.index t (1 : Fin 2) * 32 + 1 * q.val = q.val; omega

/-- Entry (p, q) of the output's block at point t sits at the array's entry (2000 t + p, q). -/
theorem bn3_emb (t : Fin cfg3.N) (p : Fin 2000) (q : Fin 32) (r : Fin 100000) (hr : r.val = t.val * 2000 + p.val) :
    ((cfg3.win 5).blk t).view.emb (ix2 p q) = ix2 r q := by
  obtain ⟨-, -, -, -, -, -, -, -, -, -, e0, e1⟩ := bn3_idx t
  funext a; apply Fin.ext
  match a with
  | ⟨0, _⟩ => show win3_5.index t (0 : Fin 2) * 2000 + 1 * p.val = r.val; omega
  | ⟨1, _⟩ => show win3_5.index t (1 : Fin 2) * 32 + 1 * q.val = q.val; omega

/-- What point t writes back is block t of the specification's array. -/
theorem bn3_flushed (t : Fin cfg3.N) :
    (dat3 (F := Ideal) V c).flushed 5 t = ((cfg3.win 5).blk t).view.read (Elt Ideal)
      (Cert.Spec.bnRows (F := Ideal) (V c main_v49) (V c main_v53) (V c main_v54) (V c main_v57) (V c main_v60)) := by
  show (cfg3.win 5).cut (grid3.coords t) ((dat3 V c).after 5 t) = _
  rw [after3_5]
  unfold out3_5
  rw [View.canon_unit_zero bn_hz]
  simp only [View.ld_unit_zero (S := S2000x32) bn_hz, View.ld_unit_zero (S := S1x32) bn_hz]
  funext j
  obtain ⟨p, q, rfl⟩ : ∃ (p : Fin 2000) (q : Fin 32), j = ix2 p q := ⟨j 0, j 1, eq_ix2 j⟩
  have ht := bn3_lt t
  have hp := p.isLt
  have hr : t.val * 2000 + p.val < 100000 := by omega
  show k3_pay1 (iblk3 V c 0 t) (iblk3 V c 2 t) (iblk3 V c 1 t) (iblk3 V c 3 t) (iblk3 V c 4 t) (ix2 p q)
    = Cert.Spec.bnRows (F := Ideal) (V c main_v49) (V c main_v53) (V c main_v54) (V c main_v57) (V c main_v60)
        (((cfg3.win 5).blk t).view.emb (ix2 p q))
  rw [bn3_emb t p q ⟨_, hr⟩ rfl, k3_pay1_eq]
  refine (k1_pay1_at _ _ _ _ _ p q).trans ?_
  refine Eq.trans ?_ (bnRows_at _ _ _ _ _ ⟨_, hr⟩ q).symm
  rw [bn3_blk_x V c t p q ⟨_, hr⟩ rfl, bn3_blk_mu V c t q, bn3_blk_var V c t q, bn3_blk_g V c t q, bn3_blk_b V c t q]

/-- An index of the output array is in point t's block when its row is among rows 2000 t … 2000 t + 1999. -/
theorem bn3_mem_blk (t : Fin cfg3.N) (i : S100000x32.Idx) :
    i ∈ ((cfg3.win 5).blk t).view.set ↔ ∀ a : Fin 2, win3_5.index t a * S2000x32.size a ≤ (i a).val
      ∧ (i a).val < win3_5.index t a * S2000x32.size a + S2000x32.size a := by
  show i ∈ ((View.whole main_v61).slice (win3_5.rect t)).set ↔ _
  rw [View.set_slice_whole, Rect.mem_set_unit]
  exact Iff.rfl

/-- Every index of the output array is in the block of the point its row falls in. -/
theorem bn3_cover (i : S100000x32.Idx) :
    ∃ t : Fin cfg3.N, (cfg3.win 5).flush t = true ∧ i ∈ ((cfg3.win 5).blk t).view.set := by
  have hi0 : (i 0).val < 100000 := (i 0).isLt
  have hi1 : (i 1).val < 32 := (i 1).isLt
  obtain ⟨t, ht⟩ : ∃ t : Fin cfg3.N, t.val = (i 0).val / 2000 :=
    ⟨⟨(i 0).val / 2000, lt_of_lt_of_eq (by omega : (i 0).val / 2000 < 50) N_3.symm⟩, rfl⟩
  obtain ⟨-, -, -, -, -, -, -, -, -, -, e0, e1⟩ := bn3_idx t
  refine ⟨t, flush3_5 t, ?_⟩
  rw [bn3_mem_blk]
  intro a
  match a with
  | ⟨0, _⟩ =>
    show win3_5.index t (0 : Fin 2) * 2000 ≤ (i 0).val ∧ (i 0).val < win3_5.index t (0 : Fin 2) * 2000 + 2000
    omega
  | ⟨1, _⟩ =>
    show win3_5.index t (1 : Fin 2) * 32 ≤ (i 1).val ∧ (i 1).val < win3_5.index t (1 : Fin 2) * 32 + 32
    omega

/-- The output array of normalisation region 3 after the run is the specification's normalisation of the region's
    input arrays. -/
theorem bn3 : (dat3 (F := Ideal) V c).arrAt 5 cfg3.N
    = Cert.Spec.bnRows (F := Ideal) (V c main_v49) (V c main_v53) (V c main_v54) (V c main_v57) (V c main_v60) :=
  (dat3 (F := Ideal) V c).arrAt_eq_of_cover 5
    (Cert.Spec.bnRows (F := Ideal) (V c main_v49) (V c main_v53) (V c main_v54) (V c main_v57) (V c main_v60))
    (fun t _ => bn3_flushed V c t) (bn3_cover)

end Cert.KernelIdeal.RegionValue

end
-- ==== Proof.BnValue5.lean ====
/-
  Normalisation region 5: the array its output window ends with is the specification's normalisation of the region's
  input arrays.

  The grid has 50 points; point t reads rows 2000 t … 2000 t + 1999 of the [100000, 32] input, reads the four one-row
  matrices whole, and writes rows 2000 t … 2000 t + 1999 of the output.  So what point t writes back is block t of the
  specification's array (the body's arithmetic and the specification's agree entry by entry), and the 50 blocks cover
  the array.
-/
import proofs.«115996_j33088428049205_1_alg».proof.Proof.Gen.KernelIdeal.Frame
import proofs.«115996_j33088428049205_1_alg».proof.Proof.BnAt
import Idealize.ShloMosaic.Lib.Pipeline.Value

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

/-- The block index maps over the grid: the input and the output blocks are at row block t, column block 0; the four
    one-row matrices are at block (0, 0). -/
theorem bn5_idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The grid has 50 points. -/
theorem bn5_lt (t : Fin cfg5.N) : t.val < 50 := lt_of_lt_of_eq t.isLt N_5

/-- Entry (p, q) of the input's block at point t is the array's entry (2000 t + p, q). -/
theorem bn5_blk_x (t : Fin cfg5.N) (p : Fin 2000) (q : Fin 32) (r : Fin 100000) (hr : r.val = t.val * 2000 + p.val) :
    iblk5 V c 0 t (ix2 p q) = V c main_v82 (ix2 r q) := by
  obtain ⟨e0, e1, -⟩ := bn5_idx t
  unfold iblk5
  show V c main_v82 (((cfg5.win 0).blk t).view.emb (ix2 p q)) = V c main_v82 (ix2 r q)
  congr 1
  funext a; apply Fin.ext
  match a with
  | ⟨0, _⟩ => show win5_0.index t (0 : Fin 2) * 2000 + 1 * p.val = r.val; omega
  | ⟨1, _⟩ => show win5_0.index t (1 : Fin 2) * 32 + 1 * q.val = q.val; omega

/-- Entry (0, q) of a one-row matrix's block at any point is the matrix's entry (0, q). -/
theorem bn5_blk_mu (t : Fin cfg5.N) (q : Fin 32) :
    iblk5 V c 1 t (ix2 (0 : Fin 1) q) = V c main_v86 (ix2 (0 : Fin 1) q) := by
  obtain ⟨-, -, e0, e1, -⟩ := bn5_idx t
  unfold iblk5
  show V c main_v86 (((cfg5.win 1).blk t).view.emb (ix2 (0 : Fin 1) q)) = V c main_v86 (ix2 (0 : Fin 1) q)
  congr 1
  funext a; apply Fin.ext
  match a with
  | ⟨0, _⟩ => show win5_1.index t (0 : Fin 2) * 1 + 1 * 0 = 0; omega
  | ⟨1, _⟩ => show win5_1.index t (1 : Fin 2) * 32 + 1 * q.val = q.val; omega

theorem bn5_blk_var (t : Fin cfg5.N) (q : Fin 32) :
    iblk5 V c 2 t (ix2 (0 : Fin 1) q) = V c main_v87 (ix2 (0 : Fin 1) q) := by
  obtain ⟨-, -, -, -, e0, e1, -⟩ := bn5_idx t
  unfold iblk5
  show V c main_v87 (((cfg5.win 2).blk t).view.emb (ix2 (0 : Fin 1) q)) = V c main_v87 (ix2 (0 : Fin 1) q)
  congr 1
  funext a; apply Fin.ext
  match a with
  | ⟨0, _⟩ => show win5_2.index t (0 : Fin 2) * 1 + 1 * 0 = 0; omega
  | ⟨1, _⟩ => show win5_2.index t (1 : Fin 2) * 32 + 1 * q.val = q.val; omega

theorem bn5_blk_g (t : Fin cfg5.N) (q : Fin 32) :
    iblk5 V c 3 t (ix2 (0 : Fin 1) q) = V c main_v90 (ix2 (0 : Fin 1) q) := by
  obtain ⟨-, -, -, -, -, -, e0, e1, -⟩ := bn5_idx t
  unfold iblk5
  show V c main_v90 (((cfg5.win 3).blk t).view.emb (ix2 (0 : Fin 1) q)) = V c main_v90 (ix2 (0 : Fin 1) q)
  congr 1
  funext a; apply Fin.ext
  match a with
  | ⟨0, _⟩ => show win5_3.index t (0 : Fin 2) * 1 + 1 * 0 = 0; omega
  | ⟨1, _⟩ => show win5_3.index t (1 : Fin 2) * 32 + 1 * q.val = q.val; omega

theorem bn5_blk_b (t : Fin cfg5.N) (q : Fin 32) :
    iblk5 V c 4 t (ix2 (0 : Fin 1) q) = V c main_v93 (ix2 (0 : Fin 1) q) := by
  obtain ⟨-, -, -, -, -, -, -, -, e0, e1, -⟩ := bn5_idx t
  unfold iblk5
  show V c main_v93 (((cfg5.win 4).blk t).view.emb (ix2 (0 : Fin 1) q)) = V c main_v93 (ix2 (0 : Fin 1) q)
  congr 1
  funext a; apply Fin.ext
  match a with
  | ⟨0, _⟩ => show win5_4.index t (0 : Fin 2) * 1 + 1 * 0 = 0; omega
  | ⟨1, _⟩ => show win5_4.index t (1 : Fin 2) * 32 + 1 * q.val = q.val; omega

/-- Entry (p, q) of the output's block at point t sits at the array's entry (2000 t + p, q). -/
theorem bn5_emb (t : Fin cfg5.N) (p : Fin 2000) (q : Fin 32) (r : Fin 100000) (hr : r.val = t.val * 2000 + p.val) :
    ((cfg5.win 5).blk t).view.emb (ix2 p q) = ix2 r q := by
  obtain ⟨-, -, -, -, -, -, -, -, -, -, e0, e1⟩ := bn5_idx t
  funext a; apply Fin.ext
  match a with
  | ⟨0, _⟩ => show win5_5.index t (0 : Fin 2) * 2000 + 1 * p.val = r.val; omega
  | ⟨1, _⟩ => show win5_5.index t (1 : Fin 2) * 32 + 1 * q.val = q.val; omega

/-- What point t writes back is block t of the specification's array. -/
theorem bn5_flushed (t : Fin cfg5.N) :
    (dat5 (F := Ideal) V c).flushed 5 t = ((cfg5.win 5).blk t).view.read (Elt Ideal)
      (Cert.Spec.bnRows (F := Ideal) (V c main_v82) (V c main_v86) (V c main_v87) (V c main_v90) (V c main_v93)) := by
  show (cfg5.win 5).cut (grid5.coords t) ((dat5 V c).after 5 t) = _
  rw [after5_5]
  unfold out5_5
  rw [View.canon_unit_zero bn_hz]
  simp only [View.ld_unit_zero (S := S2000x32) bn_hz, View.ld_unit_zero (S := S1x32) bn_hz]
  funext j
  obtain ⟨p, q, rfl⟩ : ∃ (p : Fin 2000) (q : Fin 32), j = ix2 p q := ⟨j 0, j 1, eq_ix2 j⟩
  have ht := bn5_lt t
  have hp := p.isLt
  have hr : t.val * 2000 + p.val < 100000 := by omega
  show k5_pay1 (iblk5 V c 0 t) (iblk5 V c 2 t) (iblk5 V c 1 t) (iblk5 V c 3 t) (iblk5 V c 4 t) (ix2 p q)
    = Cert.Spec.bnRows (F := Ideal) (V c main_v82) (V c main_v86) (V c main_v87) (V c main_v90) (V c main_v93)
        (((cfg5.win 5).blk t).view.emb (ix2 p q))
  rw [bn5_emb t p q ⟨_, hr⟩ rfl, k5_pay1_eq]
  refine (k1_pay1_at _ _ _ _ _ p q).trans ?_
  refine Eq.trans ?_ (bnRows_at _ _ _ _ _ ⟨_, hr⟩ q).symm
  rw [bn5_blk_x V c t p q ⟨_, hr⟩ rfl, bn5_blk_mu V c t q, bn5_blk_var V c t q, bn5_blk_g V c t q, bn5_blk_b V c t q]

/-- An index of the output array is in point t's block when its row is among rows 2000 t … 2000 t + 1999. -/
theorem bn5_mem_blk (t : Fin cfg5.N) (i : S100000x32.Idx) :
    i ∈ ((cfg5.win 5).blk t).view.set ↔ ∀ a : Fin 2, win5_5.index t a * S2000x32.size a ≤ (i a).val
      ∧ (i a).val < win5_5.index t a * S2000x32.size a + S2000x32.size a := by
  show i ∈ ((View.whole main_v94).slice (win5_5.rect t)).set ↔ _
  rw [View.set_slice_whole, Rect.mem_set_unit]
  exact Iff.rfl

/-- Every index of the output array is in the block of the point its row falls in. -/
theorem bn5_cover (i : S100000x32.Idx) :
    ∃ t : Fin cfg5.N, (cfg5.win 5).flush t = true ∧ i ∈ ((cfg5.win 5).blk t).view.set := by
  have hi0 : (i 0).val < 100000 := (i 0).isLt
  have hi1 : (i 1).val < 32 := (i 1).isLt
  obtain ⟨t, ht⟩ : ∃ t : Fin cfg5.N, t.val = (i 0).val / 2000 :=
    ⟨⟨(i 0).val / 2000, lt_of_lt_of_eq (by omega : (i 0).val / 2000 < 50) N_5.symm⟩, rfl⟩
  obtain ⟨-, -, -, -, -, -, -, -, -, -, e0, e1⟩ := bn5_idx t
  refine ⟨t, flush5_5 t, ?_⟩
  rw [bn5_mem_blk]
  intro a
  match a with
  | ⟨0, _⟩ =>
    show win5_5.index t (0 : Fin 2) * 2000 ≤ (i 0).val ∧ (i 0).val < win5_5.index t (0 : Fin 2) * 2000 + 2000
    omega
  | ⟨1, _⟩ =>
    show win5_5.index t (1 : Fin 2) * 32 ≤ (i 1).val ∧ (i 1).val < win5_5.index t (1 : Fin 2) * 32 + 32
    omega

/-- The output array of normalisation region 5 after the run is the specification's normalisation of the region's
    input arrays. -/
theorem bn5 : (dat5 (F := Ideal) V c).arrAt 5 cfg5.N
    = Cert.Spec.bnRows (F := Ideal) (V c main_v82) (V c main_v86) (V c main_v87) (V c main_v90) (V c main_v93) :=
  (dat5 (F := Ideal) V c).arrAt_eq_of_cover 5
    (Cert.Spec.bnRows (F := Ideal) (V c main_v82) (V c main_v86) (V c main_v87) (V c main_v90) (V c main_v93))
    (fun t _ => bn5_flushed V c t) (bn5_cover)

end Cert.KernelIdeal.RegionValue

end
-- ==== Proof.BnValue7.lean ====
/-
  Normalisation region 7: the array its output window ends with is the specification's normalisation of the region's
  input arrays.

  The grid has 50 points; point t reads rows 2000 t … 2000 t + 1999 of the [100000, 32] input, reads the four one-row
  matrices whole, and writes rows 2000 t … 2000 t + 1999 of the output.  So what point t writes back is block t of the
  specification's array (the body's arithmetic and the specification's agree entry by entry), and the 50 blocks cover
  the array.
-/
import proofs.«115996_j33088428049205_1_alg».proof.Proof.Gen.KernelIdeal.Frame
import proofs.«115996_j33088428049205_1_alg».proof.Proof.BnAt
import Idealize.ShloMosaic.Lib.Pipeline.Value

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

/-- The block index maps over the grid: the input and the output blocks are at row block t, column block 0; the four
    one-row matrices are at block (0, 0). -/
theorem bn7_idx : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- The grid has 50 points. -/
theorem bn7_lt (t : Fin cfg7.N) : t.val < 50 := lt_of_lt_of_eq t.isLt N_7

/-- Entry (p, q) of the input's block at point t is the array's entry (2000 t + p, q). -/
theorem bn7_blk_x (t : Fin cfg7.N) (p : Fin 2000) (q : Fin 32) (r : Fin 100000) (hr : r.val = t.val * 2000 + p.val) :
    iblk7 V c 0 t (ix2 p q) = V c main_v115 (ix2 r q) := by
  obtain ⟨e0, e1, -⟩ := bn7_idx t
  unfold iblk7
  show V c main_v115 (((cfg7.win 0).blk t).view.emb (ix2 p q)) = V c main_v115 (ix2 r q)
  congr 1
  funext a; apply Fin.ext
  match a with
  | ⟨0, _⟩ => show win7_0.index t (0 : Fin 2) * 2000 + 1 * p.val = r.val; omega
  | ⟨1, _⟩ => show win7_0.index t (1 : Fin 2) * 32 + 1 * q.val = q.val; omega

/-- Entry (0, q) of a one-row matrix's block at any point is the matrix's entry (0, q). -/
theorem bn7_blk_mu (t : Fin cfg7.N) (q : Fin 32) :
    iblk7 V c 1 t (ix2 (0 : Fin 1) q) = V c main_v119 (ix2 (0 : Fin 1) q) := by
  obtain ⟨-, -, e0, e1, -⟩ := bn7_idx t
  unfold iblk7
  show V c main_v119 (((cfg7.win 1).blk t).view.emb (ix2 (0 : Fin 1) q)) = V c main_v119 (ix2 (0 : Fin 1) q)
  congr 1
  funext a; apply Fin.ext
  match a with
  | ⟨0, _⟩ => show win7_1.index t (0 : Fin 2) * 1 + 1 * 0 = 0; omega
  | ⟨1, _⟩ => show win7_1.index t (1 : Fin 2) * 32 + 1 * q.val = q.val; omega

theorem bn7_blk_var (t : Fin cfg7.N) (q : Fin 32) :
    iblk7 V c 2 t (ix2 (0 : Fin 1) q) = V c main_v120 (ix2 (0 : Fin 1) q) := by
  obtain ⟨-, -, -, -, e0, e1, -⟩ := bn7_idx t
  unfold iblk7
  show V c main_v120 (((cfg7.win 2).blk t).view.emb (ix2 (0 : Fin 1) q)) = V c main_v120 (ix2 (0 : Fin 1) q)
  congr 1
  funext a; apply Fin.ext
  match a with
  | ⟨0, _⟩ => show win7_2.index t (0 : Fin 2) * 1 + 1 * 0 = 0; omega
  | ⟨1, _⟩ => show win7_2.index t (1 : Fin 2) * 32 + 1 * q.val = q.val; omega

theorem bn7_blk_g (t : Fin cfg7.N) (q : Fin 32) :
    iblk7 V c 3 t (ix2 (0 : Fin 1) q) = V c main_v123 (ix2 (0 : Fin 1) q) := by
  obtain ⟨-, -, -, -, -, -, e0, e1, -⟩ := bn7_idx t
  unfold iblk7
  show V c main_v123 (((cfg7.win 3).blk t).view.emb (ix2 (0 : Fin 1) q)) = V c main_v123 (ix2 (0 : Fin 1) q)
  congr 1
  funext a; apply Fin.ext
  match a with
  | ⟨0, _⟩ => show win7_3.index t (0 : Fin 2) * 1 + 1 * 0 = 0; omega
  | ⟨1, _⟩ => show win7_3.index t (1 : Fin 2) * 32 + 1 * q.val = q.val; omega

theorem bn7_blk_b (t : Fin cfg7.N) (q : Fin 32) :
    iblk7 V c 4 t (ix2 (0 : Fin 1) q) = V c main_v126 (ix2 (0 : Fin 1) q) := by
  obtain ⟨-, -, -, -, -, -, -, -, e0, e1, -⟩ := bn7_idx t
  unfold iblk7
  show V c main_v126 (((cfg7.win 4).blk t).view.emb (ix2 (0 : Fin 1) q)) = V c main_v126 (ix2 (0 : Fin 1) q)
  congr 1
  funext a; apply Fin.ext
  match a with
  | ⟨0, _⟩ => show win7_4.index t (0 : Fin 2) * 1 + 1 * 0 = 0; omega
  | ⟨1, _⟩ => show win7_4.index t (1 : Fin 2) * 32 + 1 * q.val = q.val; omega

/-- Entry (p, q) of the output's block at point t sits at the array's entry (2000 t + p, q). -/
theorem bn7_emb (t : Fin cfg7.N) (p : Fin 2000) (q : Fin 32) (r : Fin 100000) (hr : r.val = t.val * 2000 + p.val) :
    ((cfg7.win 5).blk t).view.emb (ix2 p q) = ix2 r q := by
  obtain ⟨-, -, -, -, -, -, -, -, -, -, e0, e1⟩ := bn7_idx t
  funext a; apply Fin.ext
  match a with
  | ⟨0, _⟩ => show win7_5.index t (0 : Fin 2) * 2000 + 1 * p.val = r.val; omega
  | ⟨1, _⟩ => show win7_5.index t (1 : Fin 2) * 32 + 1 * q.val = q.val; omega

/-- What point t writes back is block t of the specification's array. -/
theorem bn7_flushed (t : Fin cfg7.N) :
    (dat7 (F := Ideal) V c).flushed 5 t = ((cfg7.win 5).blk t).view.read (Elt Ideal)
      (Cert.Spec.bnRows (F := Ideal) (V c main_v115) (V c main_v119) (V c main_v120) (V c main_v123) (V c main_v126)) := by
  show (cfg7.win 5).cut (grid7.coords t) ((dat7 V c).after 5 t) = _
  rw [after7_5]
  unfold out7_5
  rw [View.canon_unit_zero bn_hz]
  simp only [View.ld_unit_zero (S := S2000x32) bn_hz, View.ld_unit_zero (S := S1x32) bn_hz]
  funext j
  obtain ⟨p, q, rfl⟩ : ∃ (p : Fin 2000) (q : Fin 32), j = ix2 p q := ⟨j 0, j 1, eq_ix2 j⟩
  have ht := bn7_lt t
  have hp := p.isLt
  have hr : t.val * 2000 + p.val < 100000 := by omega
  show k7_pay1 (iblk7 V c 0 t) (iblk7 V c 2 t) (iblk7 V c 1 t) (iblk7 V c 3 t) (iblk7 V c 4 t) (ix2 p q)
    = Cert.Spec.bnRows (F := Ideal) (V c main_v115) (V c main_v119) (V c main_v120) (V c main_v123) (V c main_v126)
        (((cfg7.win 5).blk t).view.emb (ix2 p q))
  rw [bn7_emb t p q ⟨_, hr⟩ rfl, k7_pay1_eq]
  refine (k1_pay1_at _ _ _ _ _ p q).trans ?_
  refine Eq.trans ?_ (bnRows_at _ _ _ _ _ ⟨_, hr⟩ q).symm
  rw [bn7_blk_x V c t p q ⟨_, hr⟩ rfl, bn7_blk_mu V c t q, bn7_blk_var V c t q, bn7_blk_g V c t q, bn7_blk_b V c t q]

/-- An index of the output array is in point t's block when its row is among rows 2000 t … 2000 t + 1999. -/
theorem bn7_mem_blk (t : Fin cfg7.N) (i : S100000x32.Idx) :
    i ∈ ((cfg7.win 5).blk t).view.set ↔ ∀ a : Fin 2, win7_5.index t a * S2000x32.size a ≤ (i a).val
      ∧ (i a).val < win7_5.index t a * S2000x32.size a + S2000x32.size a := by
  show i ∈ ((View.whole main_v127).slice (win7_5.rect t)).set ↔ _
  rw [View.set_slice_whole, Rect.mem_set_unit]
  exact Iff.rfl

/-- Every index of the output array is in the block of the point its row falls in. -/
theorem bn7_cover (i : S100000x32.Idx) :
    ∃ t : Fin cfg7.N, (cfg7.win 5).flush t = true ∧ i ∈ ((cfg7.win 5).blk t).view.set := by
  have hi0 : (i 0).val < 100000 := (i 0).isLt
  have hi1 : (i 1).val < 32 := (i 1).isLt
  obtain ⟨t, ht⟩ : ∃ t : Fin cfg7.N, t.val = (i 0).val / 2000 :=
    ⟨⟨(i 0).val / 2000, lt_of_lt_of_eq (by omega : (i 0).val / 2000 < 50) N_7.symm⟩, rfl⟩
  obtain ⟨-, -, -, -, -, -, -, -, -, -, e0, e1⟩ := bn7_idx t
  refine ⟨t, flush7_5 t, ?_⟩
  rw [bn7_mem_blk]
  intro a
  match a with
  | ⟨0, _⟩ =>
    show win7_5.index t (0 : Fin 2) * 2000 ≤ (i 0).val ∧ (i 0).val < win7_5.index t (0 : Fin 2) * 2000 + 2000
    omega
  | ⟨1, _⟩ =>
    show win7_5.index t (1 : Fin 2) * 32 ≤ (i 1).val ∧ (i 1).val < win7_5.index t (1 : Fin 2) * 32 + 32
    omega

/-- The output array of normalisation region 7 after the run is the specification's normalisation of the region's
    input arrays. -/
theorem bn7 : (dat7 (F := Ideal) V c).arrAt 5 cfg7.N
    = Cert.Spec.bnRows (F := Ideal) (V c main_v115) (V c main_v119) (V c main_v120) (V c main_v123) (V c main_v126) :=
  (dat7 (F := Ideal) V c).arrAt_eq_of_cover 5
    (Cert.Spec.bnRows (F := Ideal) (V c main_v115) (V c main_v119) (V c main_v120) (V c main_v123) (V c main_v126))
    (fun t _ => bn7_flushed V c t) (bn7_cover)

end Cert.KernelIdeal.RegionValue

end
-- ==== Proof.HeadRead.lean ====
/-
  The row-wise log-softmax of an [a, b] block, written two ways, at the ideal instance.

  With m the row maxima (each taken against minus infinity once more) and z' = z − m, the result is z' − log (Σ_lanes exp z').
  A vector program takes the maximum and the sum by lane reductions into a vector [a], casts it to a column [a, 1] and
  broadcasts the column along the lanes; a host program reduces over axis 1 and broadcasts the vector [a] first into a
  column and then along axis 1. Both reductions run over the same lanes of the same row, so the two maxima are the same
  fold and the two sums the same sum (the host's starts from a zero initial value); a column read at (p, q) is, either
  way, the vector at p; and the exponential and the logarithm are the same functions in both programs.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost

noncomputable section

namespace Cert.HeadRead

open Idealize.ShloMosaic Idealize.ShloMosaic.ValueIdx

/-! ## Columns read at an index -/

section Columns

variable {α : Type}

/-- A column [a, 1] broadcast to [a, b] by the vector program reads, at (p, c), the column's entry of row p. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the vector at i. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] by the host program (axes 0 and 1 kept) reads, at (p, c), the column's entry of
    row p. -/
theorem broadcastInDim_col_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] broadcast into a column [a, 1] by the host program (axis 0 kept) reads, at (i, u), the vector at i. -/
theorem broadcastInDim_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The vector program's column of a vector [a] along the lanes is the host program's. -/
theorem col_eq {a b : ℕ} (m : (⟨1, ![a]⟩ : Shape).Idx → α) (hc : (⟨1, ![a]⟩ : Shape).ShapeCasts ⟨2, ![a, 1]⟩)
    (hb : (⟨2, ![a, 1]⟩ : Shape).Broadcasts ⟨2, ![a, b]⟩) (h1 : (⟨1, ![a]⟩ : Shape).BroadcastsInDim ⟨2, ![a, 1]⟩ ![0])
    (h2 : (⟨2, ![a, 1]⟩ : Shape).BroadcastsInDim ⟨2, ![a, b]⟩ ![0, 1]) :
    broadcastTo ⟨2, ![a, b]⟩ (shapeCast ⟨2, ![a, 1]⟩ m hc) hb
      = broadcastInDim ⟨2, ![a, b]⟩ ![0, 1] h2 (broadcastInDim ⟨2, ![a, 1]⟩ ![0] h1 m) := by
  funext j
  obtain ⟨p, q, rfl⟩ : ∃ (p : Fin a) (q : Fin b), j = ix2 p q := ⟨j 0, j 1, eq_ix2 j⟩
  rw [broadcastTo_col_apply, shapeCast_col_apply, broadcastInDim_col_apply, broadcastInDim_vec_col_apply]

end Columns

/-! ## The two row maxima and the two row sums -/

/-- The lane maximum of the vector program is the host program's maximum over axis 1 from the same initial pattern: both
    are the fold of max over the lanes of the row, from that pattern's value. -/
theorem rowMax_eq {a b : ℕ} (z : FVec Ideal (⟨2, ![a, b]⟩ : Shape) .f32) (c : BitVec 32)
    (h : (⟨2, ![a, b]⟩ : Shape).Reduces [1] (⟨1, ![a]⟩ : Shape)) (hφ : FKind.Formats .f32) (hacc : c = FKind.maximumf.neutral .f32 hφ)
    (h' : (⟨2, ![a, b]⟩ : Shape).ReducesTo [1] (⟨1, ![a]⟩ : Shape)) (hu : 0 < (⟨0, ![]⟩ : Shape).numel) :
    multiReduction .maximumf [1] (⟨1, ![a]⟩ : Shape) z c h hφ hacc
      = Host.reduce FloatOps.maximumf z (constant (F := Ideal) (⟨0, ![]⟩ : Shape) .f32 c) h' hu := by
  funext j
  exact (Ideal.multiReduction_maximumf_single z c h hφ hacc j).trans
    (Host.reduce_eq_fold_single FloatOps.maximumf z (constant (F := Ideal) (⟨0, ![]⟩ : Shape) .f32 c) h' h hu j).symm

/-- The exponential of the vector program is the host program's. -/
theorem exp_eq {s : Shape} (x : FVec Ideal s .f32) : exp x = Host.exp x := rfl

/-- The logarithm of the vector program is the host program's. -/
theorem log_eq {s : Shape} (x : FVec Ideal s .f32) : log x = Host.log x := rfl

/-! ## The log-softmax -/

section LogSoftmax

variable {a b : ℕ}
  (h : (⟨2, ![a, b]⟩ : Shape).Reduces [1] (⟨1, ![a]⟩ : Shape)) (hφ : FKind.Formats .f32)
  (hm : (0xFF800000#32 : BitVec 32) = FKind.maximumf.neutral .f32 hφ) (hz : (0x00000000#32 : BitVec 32) = FKind.add.neutral .f32 hφ)
  (hc : (⟨1, ![a]⟩ : Shape).ShapeCasts ⟨2, ![a, 1]⟩) (hb : (⟨2, ![a, 1]⟩ : Shape).Broadcasts ⟨2, ![a, b]⟩)
  (h' : (⟨2, ![a, b]⟩ : Shape).ReducesTo [1] (⟨1, ![a]⟩ : Shape)) (hu : 0 < (⟨0, ![]⟩ : Shape).numel)
  (h0 : (⟨0, ![]⟩ : Shape).BroadcastsInDim (⟨1, ![a]⟩ : Shape) ![])
  (h1 : (⟨1, ![a]⟩ : Shape).BroadcastsInDim ⟨2, ![a, 1]⟩ ![0]) (h2 : (⟨2, ![a, 1]⟩ : Shape).BroadcastsInDim ⟨2, ![a, b]⟩ ![0, 1])

/-- The rows minus their maxima, as the vector program computes them. -/
def shiftedV (z : FVec Ideal (⟨2, ![a, b]⟩ : Shape) .f32) : FVec Ideal (⟨2, ![a, b]⟩ : Shape) .f32 :=
  subf z (broadcastTo ⟨2, ![a, b]⟩ (shapeCast ⟨2, ![a, 1]⟩
    (maximumf (broadcast (⟨1, ![a]⟩ : Shape) (Scalar.ofBits (F := Ideal) .f32 0xFF800000#32))
      (multiReduction .maximumf [1] (⟨1, ![a]⟩ : Shape) z 0xFF800000#32 h hφ hm)) hc) hb)

/-- The rows minus their maxima, as the host program computes them. -/
def shiftedH (z : FVec Ideal (⟨2, ![a, b]⟩ : Shape) .f32) : FVec Ideal (⟨2, ![a, b]⟩ : Shape) .f32 :=
  subf z (broadcastInDim ⟨2, ![a, b]⟩ ![0, 1] h2 (broadcastInDim ⟨2, ![a, 1]⟩ ![0] h1
    (maximumf (broadcastInDim (⟨1, ![a]⟩ : Shape) ![] h0 (constant (F := Ideal) (⟨0, ![]⟩ : Shape) .f32 0xFF800000#32))
      (Host.reduce FloatOps.maximumf z (constant (F := Ideal) (⟨0, ![]⟩ : Shape) .f32 0xFF800000#32) h' hu))))

theorem shifted_eq (z : FVec Ideal (⟨2, ![a, b]⟩ : Shape) .f32) :
    shiftedV h hφ hm hc hb z = shiftedH h' hu h0 h1 h2 z := by
  unfold shiftedV shiftedH
  rw [col_eq _ hc hb h1 h2, rowMax_eq z _ h hφ hm h' hu, broadcastInDim_constant]

/-- A shifted block minus the logarithm of its row sums of exponentials, as the vector program computes it. -/
def lseV (s : FVec Ideal (⟨2, ![a, b]⟩ : Shape) .f32) : FVec Ideal (⟨2, ![a, b]⟩ : Shape) .f32 :=
  subf s (broadcastTo ⟨2, ![a, b]⟩ (log (shapeCast ⟨2, ![a, 1]⟩
    (multiReduction .add [1] (⟨1, ![a]⟩ : Shape) (exp s) 0x00000000#32 h hφ hz) hc)) hb)

/-- The same, as the host program computes it. -/
def lseH (s : FVec Ideal (⟨2, ![a, b]⟩ : Shape) .f32) : FVec Ideal (⟨2, ![a, b]⟩ : Shape) .f32 :=
  subf s (broadcastInDim ⟨2, ![a, b]⟩ ![0, 1] h2 (Host.log (broadcastInDim ⟨2, ![a, 1]⟩ ![0] h1
    (Host.reduceAdd (Host.exp s) (constant (F := Ideal) (⟨0, ![]⟩ : Shape) .f32 0x00000000#32) h' hu))))

theorem lse_eq (s : FVec Ideal (⟨2, ![a, b]⟩ : Shape) .f32) :
    lseV h hφ hz hc hb s = lseH h' hu h1 h2 s := by
  unfold lseV lseH
  rw [multiReduction_add_eq_hostReduceAdd (exp s) 0x00000000#32 h hφ hz
      (constant (F := Ideal) (⟨0, ![]⟩ : Shape) .f32 0x00000000#32) h' hu Ideal.ofBits_zero_f32]
  show subf s (broadcastTo ⟨2, ![a, b]⟩ (shapeCast ⟨2, ![a, 1]⟩ (log _) hc) hb) = _
  rw [col_eq _ hc hb h1 h2]
  rfl

end LogSoftmax

end Cert.HeadRead

end
-- ==== Proof.HeadValue.lean ====
/-
  The classifier region's output array is the specification's classifier of the region's input arrays.

  The region has one grid point, and every window's block is its whole array.  The body's one store writes
      z' − log (Σ_lanes exp z'),   z' = z − max (−∞, rowmax z),   z = relu (p · w1 + b1) · w2 + b2,
  the two products taken of operands narrowed to bf16 (the identity on extended reals) into zero accumulators, the
  biases as one-row matrices broadcast down the rows.  The specification states the same arithmetic with the host
  program's operations.  Read at an index (p, q), both logits are
      Σ_k max (Σ_j p(p,j) · w1(j,k) + b1(0,k), 0) · w2(k,q) + b2(0,q);
  the log-softmax of the vector program and of the host program agree on any one array of logits (module HeadRead).
  The block the point writes back is then the whole array, and the one block covers every index.
-/
import proofs.«115996_j33088428049205_1_alg».proof.Proof.Gen.KernelIdeal.Frame
import proofs.«115996_j33088428049205_1_alg».proof.Proof.Gen.ReferenceIdeal
import proofs.«115996_j33088428049205_1_alg».proof.Proof.Spec
import proofs.«115996_j33088428049205_1_alg».proof.Proof.LibRowRead
import proofs.«115996_j33088428049205_1_alg».proof.Proof.HeadRead
import Idealize.ShloMosaic.Lib.KernelVsHost
import Idealize.ShloMosaic.Lib.IdealHost

noncomputable section

namespace Cert.KernelIdeal.RegionValue.Head

open Idealize.ShloMosaic Idealize.ShloMosaic.ValueIdx Idealize.SL.Sem Cert.KernelIdeal Cert.KernelIdeal.Gen

/-! ## The classifier's payload is the specification's function of the loaded blocks -/

section Payload

/-- The hidden layer at (p, k): the relu of the first product plus its bias. -/
def hid (x0 : Vec Ideal S256x32 .f32) (x1 : Vec Ideal S32x32 .f32) (x2 : Vec Ideal S1x32 .f32) (p : Fin 256) (k : Fin 32) : EReal :=
  max ((∑ j : Fin 32, x0 (ix2 p j) * x1 (ix2 j k)) + x2 (ix2 (0 : Fin 1) k)) (Ideal.ofBits .f32 0x00000000#32)

/-- The logits at (p, q): the second product of the hidden layer plus its bias. -/
def lgt (x0 : Vec Ideal S256x32 .f32) (x1 : Vec Ideal S32x32 .f32) (x2 : Vec Ideal S1x32 .f32) (x3 : Vec Ideal S32x2 .f32)
    (x4 : Vec Ideal S1x2 .f32) (p : Fin 256) (q : Fin 2) : EReal :=
  (∑ k : Fin 32, hid x0 x1 x2 p k * x3 (ix2 k q)) + x4 (ix2 (0 : Fin 1) q)

/-- The logits as the vector program computes them: two matrix products of operands narrowed to bf16 into zero
    accumulators, each followed by its bias row broadcast down the rows, a relu between them. -/
def klogits (x0 : Vec Ideal S256x32 .f32) (x1 : Vec Ideal S32x32 .f32) (x2 : Vec Ideal S1x32 .f32) (x3 : Vec Ideal S32x2 .f32)
    (x4 : Vec Ideal S1x2 .f32) : FVec Ideal S256x2 .f32 :=
  addf (matmul dot_S256x32_S32x2_S256x2_1_0_0_1_n_n none
      (truncf .bf16 (maximumf (addf (matmul dot_S256x32_S32x32_S256x32_1_0_0_1_n_n none
          (truncf .bf16 (shapeCast S256x32 x0 shapeCasts_S256x32_S256x32 : FVec Ideal S256x32 .f32) bitsLt_bf16_f32)
          (truncf .bf16 (x1 : FVec Ideal S32x32 .f32) bitsLt_bf16_f32) (constant S256x32 .f32 0x00000000#32))
        (broadcastTo S256x32 (shapeCast S1x32 x2 shapeCasts_S1x32_S1x32 : FVec Ideal S1x32 .f32) broadcasts_S1x32_S256x32))
        (broadcast S256x32 (Scalar.ofBits (F := Ideal) .f32 0x00000000#32))) bitsLt_bf16_f32)
      (truncf .bf16 (x3 : FVec Ideal S32x2 .f32) bitsLt_bf16_f32) (constant S256x2 .f32 0x00000000#32))
    (broadcastTo S256x2 (shapeCast S1x2 x4 shapeCasts_S1x2_S1x2 : FVec Ideal S1x2 .f32) broadcasts_S1x2_S256x2)

variable (x0 : Vec Ideal S256x32 .f32) (x1 : Vec Ideal S32x32 .f32) (x2 : Vec Ideal S1x32 .f32) (x3 : Vec Ideal S32x2 .f32)
  (x4 : Vec Ideal S1x2 .f32)

/-- The vector program's hidden layer, read at (p, k). -/
theorem khid_apply (p : Fin 256) (k : Fin 32) :
    (maximumf (addf (matmul dot_S256x32_S32x32_S256x32_1_0_0_1_n_n none
          (truncf .bf16 (shapeCast S256x32 x0 shapeCasts_S256x32_S256x32 : FVec Ideal S256x32 .f32) bitsLt_bf16_f32)
          (truncf .bf16 (x1 : FVec Ideal S32x32 .f32) bitsLt_bf16_f32) (constant S256x32 .f32 0x00000000#32))
        (broadcastTo S256x32 (shapeCast S1x32 x2 shapeCasts_S1x32_S1x32 : FVec Ideal S1x32 .f32) broadcasts_S1x32_S256x32))
        (broadcast S256x32 (Scalar.ofBits (F := Ideal) .f32 0x00000000#32)) : FVec Ideal S256x32 .f32) (ix2 p k) = hid x0 x1 x2 p k := by
  rw [maximumf_apply, addf_apply, shapeCast_self, shapeCast_self,
    Cert.Lib.RowRead.matmul_zero_apply dot_S256x32_S32x32_S256x32_1_0_0_1_n_n rfl rfl (fun _ _ => rfl) (fun _ _ => rfl)
      (fun _ _ => rfl) (fun _ _ => rfl),
    broadcastTo_1b_ab_apply]
  rfl

/-- The vector program's logits, read at (p, q). -/
theorem klogits_apply (p : Fin 256) (q : Fin 2) : klogits x0 x1 x2 x3 x4 (ix2 p q) = lgt x0 x1 x2 x3 x4 p q := by
  unfold klogits lgt
  rw [addf_apply, shapeCast_self x4,
    Cert.Lib.RowRead.matmul_zero_apply dot_S256x32_S32x2_S256x2_1_0_0_1_n_n rfl rfl (fun _ _ => rfl) (fun _ _ => rfl)
      (fun _ _ => rfl) (fun _ _ => rfl),
    broadcastTo_1b_ab_apply]
  refine congrArg (· + x4 (ix2 (0 : Fin 1) q)) (Finset.sum_congr rfl fun k _ => ?_)
  exact congrArg (· * x3 (ix2 k q)) (khid_apply x0 x1 x2 p k)

/-- The specification's logits, read at (p, q). -/
theorem logits_apply (p : Fin 256) (q : Fin 2) :
    Cert.Spec.logits (F := Ideal) x0 x1 x2 x3 x4 (ix2 p q) = lgt x0 x1 x2 x3 x4 p q := by
  unfold Cert.Spec.logits lgt
  rw [addf_apply,
    Cert.Lib.PlainDot.dotGeneral_apply Cert.ReferenceIdeal.dot_S256x32_S32x2_S256x2_1_0_0_1_n_n rfl rfl (fun _ _ => rfl) (fun _ _ => rfl)
      (fun _ _ => rfl) (fun _ _ => rfl),
    broadcastInDim_oneRow_apply]
  refine congrArg (· + x4 (ix2 (0 : Fin 1) q)) (Finset.sum_congr rfl fun k _ => ?_)
  refine congrArg (· * x3 (ix2 k q)) ?_
  rw [maximumf_apply, addf_apply,
    Cert.Lib.PlainDot.dotGeneral_apply Cert.ReferenceIdeal.dot_S256x32_S32x32_S256x32_1_0_0_1_n_n rfl rfl (fun _ _ => rfl) (fun _ _ => rfl)
      (fun _ _ => rfl) (fun _ _ => rfl),
    broadcastInDim_oneRow_apply, broadcastInDim_scalar_apply]
  rfl

/-- The two logits are one array. -/
theorem klogits_eq : klogits x0 x1 x2 x3 x4 = Cert.Spec.logits (F := Ideal) x0 x1 x2 x3 x4 := by
  funext j
  obtain ⟨p, q, rfl⟩ : ∃ (p : Fin 256) (q : Fin 2), j = ix2 p q := ⟨j 0, j 1, eq_ix2 j⟩
  rw [klogits_apply, logits_apply]

/-- The reduction's accumulator patterns are the ones the format's maximum and sum start from. -/
theorem hfmt : FKind.Formats .f32 := .inl rfl
theorem hmax : (0xFF800000#32 : BitVec 32) = FKind.maximumf.neutral .f32 hfmt := rfl
theorem hadd : (0x00000000#32 : BitVec 32) = FKind.add.neutral .f32 hfmt := rfl

/-- The payload is the vector program's log-softmax of its logits. -/
theorem pay_split : k8_pay1 x0 x1 x2 x3 x4
    = Cert.HeadRead.lseV reduces_S256x2_S256 hfmt hadd shapeCasts_S256_S256x1 broadcasts_S256x1_S256x2
        (Cert.HeadRead.shiftedV reduces_S256x2_S256 hfmt hmax shapeCasts_S256_S256x1 broadcasts_S256x1_S256x2
          (klogits x0 x1 x2 x3 x4)) := rfl

/-- The specification's classifier is the host program's log-softmax of its logits. -/
theorem head_split : Cert.Spec.head (F := Ideal) x0 x1 x2 x3 x4
    = Cert.HeadRead.lseH Cert.ReferenceIdeal.Facts₀.reducesTo_S256x2_S256_d1 Cert.ReferenceIdeal.Facts₀.h_S_
        Cert.ReferenceIdeal.Facts₀.bcast_S256_S256x1_0 Cert.ReferenceIdeal.Facts₀.bcast_S256x1_S256x2_0_1
        (Cert.HeadRead.shiftedH Cert.ReferenceIdeal.Facts₀.reducesTo_S256x2_S256_d1 Cert.ReferenceIdeal.Facts₀.h_S_
          Cert.ReferenceIdeal.Facts₀.bcast_S_S256 Cert.ReferenceIdeal.Facts₀.bcast_S256_S256x1_0
          Cert.ReferenceIdeal.Facts₀.bcast_S256x1_S256x2_0_1 (Cert.Spec.logits (F := Ideal) x0 x1 x2 x3 x4)) := rfl

/-- THE PAYLOAD is the specification's classifier of the loaded blocks. -/
theorem pay_eq : k8_pay1 x0 x1 x2 x3 x4 = Cert.Spec.head (F := Ideal) x0 x1 x2 x3 x4 := by
  rw [pay_split, head_split, klogits_eq, Cert.HeadRead.shifted_eq, Cert.HeadRead.lse_eq]

end Payload

end Cert.KernelIdeal.RegionValue.Head

namespace Cert.KernelIdeal.RegionValue.Head

open Idealize.ShloMosaic Idealize.ShloMosaic.TcCoe Idealize.ShloMosaic.ValueIdx Idealize.SL.Sem Cert.KernelIdeal Cert.KernelIdeal.Gen
open Idealize.ShloMosaic.Pipeline (Dat)

/-! ## From the one block to the array -/

section Array

variable (V : (c : Dev nD) → (b : Ref sig .tc) → Buf (Elt Ideal) ((c : Thread nD τ).loc b)) (c : Dev nD)

theorem hz8 : (![0, 0] : Fin 2 → Nat) = fun _ => 0 := funext fun a => by fin_cases a <;> rfl

/-- The printed index maps, decided over the grid: every window sits at block (0, 0) at every point. -/
theorem idx_facts8 : ∀ t : Fin cfg8.N,
    win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0 :=
  (by decide +kernel : ∀ t : Fin grid8.N, _)

/-- Each input window's block is its whole array: an element of the block sits in the array at block index times
    block size plus its own coordinate, and every block index is zero. -/
theorem iblk8_0 (t : Fin cfg8.N) : iblk8 (F := Ideal) V c 0 t = V c main_v130 := by
  funext y
  show V c main_v130 (((cfg8.win 0).blk t).view.emb y) = V c main_v130 y
  obtain ⟨e0, e1, -⟩ := idx_facts8 t
  refine congrArg _ (funext fun a => Fin.ext ?_)
  match a with
  | ⟨0, _⟩ => show win8_0.index t (0 : Fin 2) * 256 + 1 * (y 0).val = (y 0).val; omega
  | ⟨1, _⟩ => show win8_0.index t (1 : Fin 2) * 32 + 1 * (y 1).val = (y 1).val; omega

theorem iblk8_1 (t : Fin cfg8.N) : iblk8 (F := Ideal) V c 1 t = V c main_arg13 := by
  funext y
  show V c main_arg13 (((cfg8.win 1).blk t).view.emb y) = V c main_arg13 y
  obtain ⟨-, -, e0, e1, -⟩ := idx_facts8 t
  refine congrArg _ (funext fun a => Fin.ext ?_)
  match a with
  | ⟨0, _⟩ => show win8_1.index t (0 : Fin 2) * 32 + 1 * (y 0).val = (y 0).val; omega
  | ⟨1, _⟩ => show win8_1.index t (1 : Fin 2) * 32 + 1 * (y 1).val = (y 1).val; omega

theorem iblk8_2 (t : Fin cfg8.N) : iblk8 (F := Ideal) V c 2 t = V c main_v131 := by
  funext y
  show V c main_v131 (((cfg8.win 2).blk t).view.emb y) = V c main_v131 y
  obtain ⟨-, -, -, -, e0, e1, -⟩ := idx_facts8 t
  refine congrArg _ (funext fun a => Fin.ext ?_)
  match a with
  | ⟨0, _⟩ => show win8_2.index t (0 : Fin 2) * 1 + 1 * (y 0).val = (y 0).val; omega
  | ⟨1, _⟩ => show win8_2.index t (1 : Fin 2) * 32 + 1 * (y 1).val = (y 1).val; omega

theorem iblk8_3 (t : Fin cfg8.N) : iblk8 (F := Ideal) V c 3 t = V c main_arg15 := by
  funext y
  show V c main_arg15 (((cfg8.win 3).blk t).view.emb y) = V c main_arg15 y
  obtain ⟨-, -, -, -, -, -, e0, e1, -⟩ := idx_facts8 t
  refine congrArg _ (funext fun a => Fin.ext ?_)
  match a with
  | ⟨0, _⟩ => show win8_3.index t (0 : Fin 2) * 32 + 1 * (y 0).val = (y 0).val; omega
  | ⟨1, _⟩ => show win8_3.index t (1 : Fin 2) * 2 + 1 * (y 1).val = (y 1).val; omega

theorem iblk8_4 (t : Fin cfg8.N) : iblk8 (F := Ideal) V c 4 t = V c main_v132 := by
  funext y
  show V c main_v132 (((cfg8.win 4).blk t).view.emb y) = V c main_v132 y
  obtain ⟨-, -, -, -, -, -, -, -, e0, e1, -⟩ := idx_facts8 t
  refine congrArg _ (funext fun a => Fin.ext ?_)
  match a with
  | ⟨0, _⟩ => show win8_4.index t (0 : Fin 2) * 1 + 1 * (y 0).val = (y 0).val; omega
  | ⟨1, _⟩ => show win8_4.index t (1 : Fin 2) * 2 + 1 * (y 1).val = (y 1).val; omega

/-- WHAT THE POINT WRITES BACK is the block of the specification's classifier of the arrays as the region finds them. -/
theorem flushed8_eq (t : Fin cfg8.N) :
    (dat8 (F := Ideal) V c).flushed 5 t = ((cfg8.win 5).blk t).view.read (Elt Ideal)
      (Cert.Spec.head (F := Ideal) (V c main_v130) (V c main_arg13) (V c main_v131) (V c main_arg15) (V c main_v132)) := by
  show (cfg8.win 5).cut (grid8.coords t) ((dat8 V c).after 5 t) = _
  rw [after8_5]
  unfold out8_5
  rw [View.canon_unit_zero hz8]
  simp only [View.ld_unit_zero (S := S256x32) hz8, View.ld_unit_zero (S := S32x32) hz8, View.ld_unit_zero (S := S1x32) hz8,
    View.ld_unit_zero (S := S32x2) hz8, View.ld_unit_zero (S := S1x2) hz8]
  rw [pay_eq (iblk8 V c 0 t) (iblk8 V c 1 t) (iblk8 V c 2 t) (iblk8 V c 3 t) (iblk8 V c 4 t),
    iblk8_0 V c t, iblk8_1 V c t, iblk8_2 V c t, iblk8_3 V c t, iblk8_4 V c t]
  obtain ⟨-, -, -, -, -, -, -, -, -, -, e0, e1⟩ := idx_facts8 t
  funext j
  show Cert.Spec.head (F := Ideal) (V c main_v130) (V c main_arg13) (V c main_v131) (V c main_arg15) (V c main_v132) j
    = Cert.Spec.head (F := Ideal) (V c main_v130) (V c main_arg13) (V c main_v131) (V c main_arg15) (V c main_v132)
        (((cfg8.win 5).blk t).view.emb j)
  refine congrArg _ (funext fun a => Fin.ext ?_)
  match a with
  | ⟨0, _⟩ => show (j 0).val = win8_5.index t (0 : Fin 2) * 256 + 1 * (j 0).val; omega
  | ⟨1, _⟩ => show (j 1).val = win8_5.index t (1 : Fin 2) * 2 + 1 * (j 1).val; omega

/-- An index of the array is in the point's block iff each coordinate is in the block's range on its axis. -/
theorem mem_blk8 (t : Fin cfg8.N) (i : S256x2.Idx) :
    i ∈ ((cfg8.win 5).blk t).view.set ↔ ∀ a : Fin 2, win8_5.index t a * S256x2.size a ≤ (i a).val ∧ (i a).val < win8_5.index t a * S256x2.size a + S256x2.size a := by
  show i ∈ ((View.whole main_v133).slice (win8_5.rect t)).set ↔ _
  rw [View.set_slice_whole, Rect.mem_set_unit]
  exact Iff.rfl

/-- Every index of the array is in the one point's block. -/
theorem cover8 (i : S256x2.Idx) : ∃ t : Fin cfg8.N, (cfg8.win 5).flush t = true ∧ i ∈ ((cfg8.win 5).blk t).view.set := by
  refine ⟨t8_0, flush8_5 t8_0, ?_⟩
  rw [mem_blk8]
  obtain ⟨-, -, -, -, -, -, -, -, -, -, e0, e1⟩ := idx_facts8 t8_0
  intro a
  match a with
  | ⟨0, _⟩ =>
    have hi : (i 0).val < 256 := (i 0).isLt
    show win8_5.index t8_0 (0 : Fin 2) * 256 ≤ (i 0).val ∧ (i 0).val < win8_5.index t8_0 (0 : Fin 2) * 256 + 256
    omega
  | ⟨1, _⟩ =>
    have hi : (i 1).val < 2 := (i 1).isLt
    show win8_5.index t8_0 (1 : Fin 2) * 2 ≤ (i 1).val ∧ (i 1).val < win8_5.index t8_0 (1 : Fin 2) * 2 + 2
    omega

end Array

end Cert.KernelIdeal.RegionValue.Head

namespace Cert.KernelIdeal.RegionValue

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

/-- THE ARRAY the classifier's output window ends with is the specification's classifier of the region's input arrays. -/
theorem head8 : (dat8 (F := Ideal) V c).arrAt 5 cfg8.N
    = Cert.Spec.head (F := Ideal) (V c main_v130) (V c main_arg13) (V c main_v131) (V c main_arg15) (V c main_v132) :=
  (dat8 (F := Ideal) V c).arrAt_eq_of_cover 5
    (Cert.Spec.head (F := Ideal) (V c main_v130) (V c main_arg13) (V c main_v131) (V c main_arg15) (V c main_v132))
    (fun t _ => Head.flushed8_eq V c t) Head.cover8

end Cert.KernelIdeal.RegionValue

end
-- ==== Proof.KernelValue.lean ====
/-
  The value of the idealized kernel program's result array.

  Boundary by boundary through the program — a stretch of host operations, a region, a stretch, … — the buffers that
  matter are read as functions of the launch memory: the perceptron region of a layer leaves the layer's perceptron of
  the neighbour sums and the incoming features; the three stretches after it leave the column means, the column
  variances and the affine parameters as one-row matrices; the normalisation region leaves the layer's output; the
  last stretch pools the node rows by graph and the classifier region leaves the log-probabilities.  A buffer that a
  segment does not write is carried across it unchanged.  Composed, the result array is the network of the specification
  applied to the argument arrays.
-/
import proofs.«115996_j33088428049205_1_alg».proof.Proof.Gen.KernelIdeal.Frame
import proofs.«115996_j33088428049205_1_alg».proof.Proof.KernelHost
import proofs.«115996_j33088428049205_1_alg».proof.Proof.Rows
import proofs.«115996_j33088428049205_1_alg».proof.Proof.MlpValue0
import proofs.«115996_j33088428049205_1_alg».proof.Proof.MlpValue32
import proofs.«115996_j33088428049205_1_alg».proof.Proof.MlpValue4
import proofs.«115996_j33088428049205_1_alg».proof.Proof.MlpValue6
import proofs.«115996_j33088428049205_1_alg».proof.Proof.BnValue1
import proofs.«115996_j33088428049205_1_alg».proof.Proof.BnValue3
import proofs.«115996_j33088428049205_1_alg».proof.Proof.BnValue5
import proofs.«115996_j33088428049205_1_alg».proof.Proof.BnValue7
import proofs.«115996_j33088428049205_1_alg».proof.Proof.HeadValue

set_option maxRecDepth 16384

noncomputable section

namespace Cert.KernelIdeal.Net

open Idealize.ShloMosaic Idealize.ShloMosaic.TcCoe Idealize.ShloMosaic.StableHlo Idealize.SL.Sem Cert.KernelIdeal Cert.KernelIdeal.Gen Cert.KernelIdeal.RegionValue

variable (m : (ℓ : Loc nD τ sig) → Buf (Elt Ideal) ℓ) (ρ : Dev nD → PrngReg) (c : Dev nD)

/-! ## The layer outputs as functions of the launch memory -/

/-- The source and destination index rows of the edge list. -/
abbrev sIdx := Cert.Spec.srcRow (m ((c : Thread nD τ).loc main_arg1))
abbrev dIdx := Cert.Spec.dstRow (m ((c : Thread nD τ).loc main_arg1))

/-- The first layer's perceptron output. -/
abbrev y0 := Cert.Spec.mlp128 (F := Ideal) (Cert.Spec.agg128 (F := Ideal) (m ((c : Thread nD τ).loc main_arg0)) (sIdx m c) (dIdx m c)) (m ((c : Thread nD τ).loc main_arg0)) (m ((c : Thread nD τ).loc main_arg3)) (Cert.Spec.row (F := Ideal) (m ((c : Thread nD τ).loc main_arg4))) (m ((c : Thread nD τ).loc main_arg5)) (Cert.Spec.row (F := Ideal) (m ((c : Thread nD τ).loc main_arg6)))
/-- The first layer's output. -/
abbrev h1 := Cert.Spec.norm (F := Ideal) (y0 m c) (Cert.Spec.bnParam0 (F := Ideal) (m ((c : Thread nD τ).loc main_arg11))) (Cert.Spec.bnParam0 (F := Ideal) (m ((c : Thread nD τ).loc main_arg12)))
/-- Layer 2's perceptron output and output. -/
abbrev y1 := Cert.Spec.mlp32 (F := Ideal) (Cert.Spec.agg32 (F := Ideal) (h1 m c) (sIdx m c) (dIdx m c)) (h1 m c) (Cert.Spec.weight0 (F := Ideal) (m ((c : Thread nD τ).loc main_arg7))) (Cert.Spec.row (F := Ideal) (Cert.Spec.bias0 (F := Ideal) (m ((c : Thread nD τ).loc main_arg8)))) (Cert.Spec.weight0 (F := Ideal) (m ((c : Thread nD τ).loc main_arg9))) (Cert.Spec.row (F := Ideal) (Cert.Spec.bias0 (F := Ideal) (m ((c : Thread nD τ).loc main_arg10))))
abbrev h2 := Cert.Spec.norm (F := Ideal) (y1 m c) (Cert.Spec.bnParam1 (F := Ideal) (m ((c : Thread nD τ).loc main_arg11))) (Cert.Spec.bnParam1 (F := Ideal) (m ((c : Thread nD τ).loc main_arg12)))
/-- Layer 3's perceptron output and output. -/
abbrev y2 := Cert.Spec.mlp32 (F := Ideal) (Cert.Spec.agg32 (F := Ideal) (h2 m c) (sIdx m c) (dIdx m c)) (h2 m c) (Cert.Spec.weight1 (F := Ideal) (m ((c : Thread nD τ).loc main_arg7))) (Cert.Spec.row (F := Ideal) (Cert.Spec.bias1 (F := Ideal) (m ((c : Thread nD τ).loc main_arg8)))) (Cert.Spec.weight1 (F := Ideal) (m ((c : Thread nD τ).loc main_arg9))) (Cert.Spec.row (F := Ideal) (Cert.Spec.bias1 (F := Ideal) (m ((c : Thread nD τ).loc main_arg10))))
abbrev h3 := Cert.Spec.norm (F := Ideal) (y2 m c) (Cert.Spec.bnParam2 (F := Ideal) (m ((c : Thread nD τ).loc main_arg11))) (Cert.Spec.bnParam2 (F := Ideal) (m ((c : Thread nD τ).loc main_arg12)))
/-- Layer 4's perceptron output and output. -/
abbrev y3 := Cert.Spec.mlp32 (F := Ideal) (Cert.Spec.agg32 (F := Ideal) (h3 m c) (sIdx m c) (dIdx m c)) (h3 m c) (Cert.Spec.weight2 (F := Ideal) (m ((c : Thread nD τ).loc main_arg7))) (Cert.Spec.row (F := Ideal) (Cert.Spec.bias2 (F := Ideal) (m ((c : Thread nD τ).loc main_arg8)))) (Cert.Spec.weight2 (F := Ideal) (m ((c : Thread nD τ).loc main_arg9))) (Cert.Spec.row (F := Ideal) (Cert.Spec.bias2 (F := Ideal) (m ((c : Thread nD τ).loc main_arg10))))
abbrev h4 := Cert.Spec.norm (F := Ideal) (y3 m c) (Cert.Spec.bnParam3 (F := Ideal) (m ((c : Thread nD τ).loc main_arg11))) (Cert.Spec.bnParam3 (F := Ideal) (m ((c : Thread nD τ).loc main_arg12)))

/-! ## The index rows, written once before the first region and carried to every later stretch that reads them -/

theorem W1_v1 : W1 m ρ c (Proc.devRef .tc main_v1) = sIdx m c := HostRead.s0_v1 (W0 m ρ c)
theorem W1_v3 : W1 m ρ c (Proc.devRef .tc main_v3) = dIdx m c := HostRead.s0_v3 (W0 m ρ c)

/-! ## Layer 1 -/

/-- After the first perceptron region. -/
theorem pre0 : W2 m ρ c (Proc.devRef .tc main_v16) = y0 m c := by
  refine (W2_arr m ρ c 6).trans ((mlp0 (V1 m ρ) c).trans ?_)
  have e13 : V1 m ρ c main_v13 = Cert.Spec.agg128 (F := Ideal) (m ((c : Thread nD τ).loc main_arg0)) (sIdx m c) (dIdx m c) := HostRead.s0_v13 (W0 m ρ c)
  have e0 : V1 m ρ c main_arg0 = (m ((c : Thread nD τ).loc main_arg0)) := (HostRead.keep0 (W0 m ρ c) main_arg0 (by decide))
  have e3 : V1 m ρ c main_arg3 = (m ((c : Thread nD τ).loc main_arg3)) := (HostRead.keep0 (W0 m ρ c) main_arg3 (by decide))
  have e14 : V1 m ρ c main_v14 = Cert.Spec.row (F := Ideal) (m ((c : Thread nD τ).loc main_arg4)) := HostRead.s0_v14 (W0 m ρ c)
  have e5 : V1 m ρ c main_arg5 = (m ((c : Thread nD τ).loc main_arg5)) := (HostRead.keep0 (W0 m ρ c) main_arg5 (by decide))
  have e15 : V1 m ρ c main_v15 = Cert.Spec.row (F := Ideal) (m ((c : Thread nD τ).loc main_arg6)) := HostRead.s0_v15 (W0 m ρ c)
  rw [e13, e0, e3, e14, e5, e15]

/-- After normalisation region 1: the layer's output. -/
theorem out0 : W6 m ρ c (Proc.devRef .tc main_v28) = h1 m c := by
  refine (W6_arr m ρ c 5).trans ((bn1 (V5 m ρ) c).trans ?_)
  have ey : W2 m ρ c (Proc.devRef .tc main_v16) = y0 m c := pre0 m ρ c
  have ey1 : W3 m ρ c (Proc.devRef .tc main_v16) = y0 m c := (HostRead.keep1 (W2 m ρ c) main_v16 (by decide)).trans ey
  have e16 : V5 m ρ c main_v16 = y0 m c := ((HostRead.keep1_2 (W4 m ρ c) main_v16 (by decide)).trans ((HostRead.keep1_1 (W3 m ρ c) main_v16 (by decide)).trans (HostRead.keep1 (W2 m ρ c) main_v16 (by decide)))).trans ey
  have e20 : V5 m ρ c main_v20 = Cert.Spec.row (F := Ideal) (Cert.Spec.mean (F := Ideal) (y0 m c)) :=
    ((HostRead.keep1_2 (W4 m ρ c) main_v20 (by decide)).trans (HostRead.keep1_1 (W3 m ρ c) main_v20 (by decide))).trans ((HostRead.s1_mean (W2 m ρ c)).trans (by rw [ey]))
  have e21 : V5 m ρ c main_v21 = Cert.Spec.row (F := Ideal) (Cert.Spec.var (F := Ideal) (y0 m c)) :=
    (HostRead.keep1_2 (W4 m ρ c) main_v21 (by decide)).trans ((HostRead.s1_1_var (W3 m ρ c) (HostRead.s1_c (W2 m ρ c))).trans (by rw [ey1]))
  have a11 : W4 m ρ c (Proc.devRef .tc main_arg11) = (m ((c : Thread nD τ).loc main_arg11)) := ((HostRead.keep1_1 (W3 m ρ c) main_arg11 (by decide)).trans ((HostRead.keep1 (W2 m ρ c) main_arg11 (by decide)).trans ((W2_of_ne m ρ c main_arg11 (by decide)).trans (HostRead.keep0 (W0 m ρ c) main_arg11 (by decide)))))
  have a12 : W4 m ρ c (Proc.devRef .tc main_arg12) = (m ((c : Thread nD τ).loc main_arg12)) := ((HostRead.keep1_1 (W3 m ρ c) main_arg12 (by decide)).trans ((HostRead.keep1 (W2 m ρ c) main_arg12 (by decide)).trans ((W2_of_ne m ρ c main_arg12 (by decide)).trans (HostRead.keep0 (W0 m ρ c) main_arg12 (by decide)))))
  have e24 : V5 m ρ c main_v24 = Cert.Spec.row (F := Ideal) (Cert.Spec.bnParam0 (F := Ideal) (m ((c : Thread nD τ).loc main_arg11))) := (HostRead.s1_2_scale (W4 m ρ c)).trans (by rw [a11])
  have e27 : V5 m ρ c main_v27 = Cert.Spec.row (F := Ideal) (Cert.Spec.bnParam0 (F := Ideal) (m ((c : Thread nD τ).loc main_arg12))) := (HostRead.s1_2_bias (W4 m ρ c)).trans (by rw [a12])
  rw [e16, e20, e21, e24, e27]
  exact Cert.Spec.bnRows_row _ _ _ _ _

/-! ## Layer 2 -/

/-- After perceptron region 2. -/
theorem pre1 : W8 m ρ c (Proc.devRef .tc main_v49) = y1 m c := by
  refine (W8_arr m ρ c 6).trans ((mlp2 (V7 m ρ) c).trans ?_)
  have eh : W6 m ρ c (Proc.devRef .tc main_v28) = h1 m c := out0 m ρ c
  have es : W6 m ρ c (Proc.devRef .tc main_v1) = sIdx m c := ((W6_of_ne m ρ c main_v1 (by decide)).trans ((HostRead.keep1_2 (W4 m ρ c) main_v1 (by decide)).trans ((HostRead.keep1_1 (W3 m ρ c) main_v1 (by decide)).trans ((HostRead.keep1 (W2 m ρ c) main_v1 (by decide)).trans (W2_of_ne m ρ c main_v1 (by decide)))))).trans (W1_v1 m ρ c)
  have ed : W6 m ρ c (Proc.devRef .tc main_v3) = dIdx m c := ((W6_of_ne m ρ c main_v3 (by decide)).trans ((HostRead.keep1_2 (W4 m ρ c) main_v3 (by decide)).trans ((HostRead.keep1_1 (W3 m ρ c) main_v3 (by decide)).trans ((HostRead.keep1 (W2 m ρ c) main_v3 (by decide)).trans (W2_of_ne m ρ c main_v3 (by decide)))))).trans (W1_v3 m ρ c)
  have a7 : W6 m ρ c (Proc.devRef .tc main_arg7) = (m ((c : Thread nD τ).loc main_arg7)) := ((W6_of_ne m ρ c main_arg7 (by decide)).trans ((HostRead.keep1_2 (W4 m ρ c) main_arg7 (by decide)).trans ((HostRead.keep1_1 (W3 m ρ c) main_arg7 (by decide)).trans ((HostRead.keep1 (W2 m ρ c) main_arg7 (by decide)).trans ((W2_of_ne m ρ c main_arg7 (by decide)).trans (HostRead.keep0 (W0 m ρ c) main_arg7 (by decide)))))))
  have a8 : W6 m ρ c (Proc.devRef .tc main_arg8) = (m ((c : Thread nD τ).loc main_arg8)) := ((W6_of_ne m ρ c main_arg8 (by decide)).trans ((HostRead.keep1_2 (W4 m ρ c) main_arg8 (by decide)).trans ((HostRead.keep1_1 (W3 m ρ c) main_arg8 (by decide)).trans ((HostRead.keep1 (W2 m ρ c) main_arg8 (by decide)).trans ((W2_of_ne m ρ c main_arg8 (by decide)).trans (HostRead.keep0 (W0 m ρ c) main_arg8 (by decide)))))))
  have a9 : W6 m ρ c (Proc.devRef .tc main_arg9) = (m ((c : Thread nD τ).loc main_arg9)) := ((W6_of_ne m ρ c main_arg9 (by decide)).trans ((HostRead.keep1_2 (W4 m ρ c) main_arg9 (by decide)).trans ((HostRead.keep1_1 (W3 m ρ c) main_arg9 (by decide)).trans ((HostRead.keep1 (W2 m ρ c) main_arg9 (by decide)).trans ((W2_of_ne m ρ c main_arg9 (by decide)).trans (HostRead.keep0 (W0 m ρ c) main_arg9 (by decide)))))))
  have a10 : W6 m ρ c (Proc.devRef .tc main_arg10) = (m ((c : Thread nD τ).loc main_arg10)) := ((W6_of_ne m ρ c main_arg10 (by decide)).trans ((HostRead.keep1_2 (W4 m ρ c) main_arg10 (by decide)).trans ((HostRead.keep1_1 (W3 m ρ c) main_arg10 (by decide)).trans ((HostRead.keep1 (W2 m ρ c) main_arg10 (by decide)).trans ((W2_of_ne m ρ c main_arg10 (by decide)).trans (HostRead.keep0 (W0 m ρ c) main_arg10 (by decide)))))))
  have eAgg : V7 m ρ c main_v38 = Cert.Spec.agg32 (F := Ideal) (h1 m c) (sIdx m c) (dIdx m c) :=
    (HostRead.s2_agg (W6 m ρ c)).trans (by rw [eh, es, ed])
  have eH : V7 m ρ c main_v28 = h1 m c := (HostRead.keep2 (W6 m ρ c) main_v28 (by decide)).trans eh
  have eW1 : V7 m ρ c main_v40 = Cert.Spec.weight0 (F := Ideal) (m ((c : Thread nD τ).loc main_arg7)) := (HostRead.s2_w1 (W6 m ρ c)).trans (by rw [a7])
  have eB1 : V7 m ρ c main_v43 = Cert.Spec.row (F := Ideal) (Cert.Spec.bias0 (F := Ideal) (m ((c : Thread nD τ).loc main_arg8))) := (HostRead.s2_b1 (W6 m ρ c)).trans (by rw [a8])
  have eW2 : V7 m ρ c main_v45 = Cert.Spec.weight0 (F := Ideal) (m ((c : Thread nD τ).loc main_arg9)) := (HostRead.s2_w2 (W6 m ρ c)).trans (by rw [a9])
  have eB2 : V7 m ρ c main_v48 = Cert.Spec.row (F := Ideal) (Cert.Spec.bias0 (F := Ideal) (m ((c : Thread nD τ).loc main_arg10))) := (HostRead.s2_b2 (W6 m ρ c)).trans (by rw [a10])
  rw [eAgg, eH, eW1, eB1, eW2, eB2]

/-- After normalisation region 3: the layer's output. -/
theorem out1 : W12 m ρ c (Proc.devRef .tc main_v61) = h2 m c := by
  refine (W12_arr m ρ c 5).trans ((bn3 (V11 m ρ) c).trans ?_)
  have ey : W8 m ρ c (Proc.devRef .tc main_v49) = y1 m c := pre1 m ρ c
  have ey1 : W9 m ρ c (Proc.devRef .tc main_v49) = y1 m c := (HostRead.keep3 (W8 m ρ c) main_v49 (by decide)).trans ey
  have e16 : V11 m ρ c main_v49 = y1 m c := ((HostRead.keep3_2 (W10 m ρ c) main_v49 (by decide)).trans ((HostRead.keep3_1 (W9 m ρ c) main_v49 (by decide)).trans (HostRead.keep3 (W8 m ρ c) main_v49 (by decide)))).trans ey
  have e20 : V11 m ρ c main_v53 = Cert.Spec.row (F := Ideal) (Cert.Spec.mean (F := Ideal) (y1 m c)) :=
    ((HostRead.keep3_2 (W10 m ρ c) main_v53 (by decide)).trans (HostRead.keep3_1 (W9 m ρ c) main_v53 (by decide))).trans ((HostRead.s3_mean (W8 m ρ c)).trans (by rw [ey]))
  have e21 : V11 m ρ c main_v54 = Cert.Spec.row (F := Ideal) (Cert.Spec.var (F := Ideal) (y1 m c)) :=
    (HostRead.keep3_2 (W10 m ρ c) main_v54 (by decide)).trans ((HostRead.s3_1_var (W9 m ρ c) (HostRead.s3_c (W8 m ρ c))).trans (by rw [ey1]))
  have a11 : W10 m ρ c (Proc.devRef .tc main_arg11) = (m ((c : Thread nD τ).loc main_arg11)) := ((HostRead.keep3_1 (W9 m ρ c) main_arg11 (by decide)).trans ((HostRead.keep3 (W8 m ρ c) main_arg11 (by decide)).trans ((W8_of_ne m ρ c main_arg11 (by decide)).trans ((HostRead.keep2 (W6 m ρ c) main_arg11 (by decide)).trans ((W6_of_ne m ρ c main_arg11 (by decide)).trans ((HostRead.keep1_2 (W4 m ρ c) main_arg11 (by decide)).trans ((HostRead.keep1_1 (W3 m ρ c) main_arg11 (by decide)).trans ((HostRead.keep1 (W2 m ρ c) main_arg11 (by decide)).trans ((W2_of_ne m ρ c main_arg11 (by decide)).trans (HostRead.keep0 (W0 m ρ c) main_arg11 (by decide)))))))))))
  have a12 : W10 m ρ c (Proc.devRef .tc main_arg12) = (m ((c : Thread nD τ).loc main_arg12)) := ((HostRead.keep3_1 (W9 m ρ c) main_arg12 (by decide)).trans ((HostRead.keep3 (W8 m ρ c) main_arg12 (by decide)).trans ((W8_of_ne m ρ c main_arg12 (by decide)).trans ((HostRead.keep2 (W6 m ρ c) main_arg12 (by decide)).trans ((W6_of_ne m ρ c main_arg12 (by decide)).trans ((HostRead.keep1_2 (W4 m ρ c) main_arg12 (by decide)).trans ((HostRead.keep1_1 (W3 m ρ c) main_arg12 (by decide)).trans ((HostRead.keep1 (W2 m ρ c) main_arg12 (by decide)).trans ((W2_of_ne m ρ c main_arg12 (by decide)).trans (HostRead.keep0 (W0 m ρ c) main_arg12 (by decide)))))))))))
  have e24 : V11 m ρ c main_v57 = Cert.Spec.row (F := Ideal) (Cert.Spec.bnParam1 (F := Ideal) (m ((c : Thread nD τ).loc main_arg11))) := (HostRead.s3_2_scale (W10 m ρ c)).trans (by rw [a11])
  have e27 : V11 m ρ c main_v60 = Cert.Spec.row (F := Ideal) (Cert.Spec.bnParam1 (F := Ideal) (m ((c : Thread nD τ).loc main_arg12))) := (HostRead.s3_2_bias (W10 m ρ c)).trans (by rw [a12])
  rw [e16, e20, e21, e24, e27]
  exact Cert.Spec.bnRows_row _ _ _ _ _

/-! ## Layer 3 -/

/-- After perceptron region 4. -/
theorem pre2 : W14 m ρ c (Proc.devRef .tc main_v82) = y2 m c := by
  refine (W14_arr m ρ c 6).trans ((mlp4 (V13 m ρ) c).trans ?_)
  have eh : W12 m ρ c (Proc.devRef .tc main_v61) = h2 m c := out1 m ρ c
  have es : W12 m ρ c (Proc.devRef .tc main_v1) = sIdx m c := ((W12_of_ne m ρ c main_v1 (by decide)).trans ((HostRead.keep3_2 (W10 m ρ c) main_v1 (by decide)).trans ((HostRead.keep3_1 (W9 m ρ c) main_v1 (by decide)).trans ((HostRead.keep3 (W8 m ρ c) main_v1 (by decide)).trans ((W8_of_ne m ρ c main_v1 (by decide)).trans ((HostRead.keep2 (W6 m ρ c) main_v1 (by decide)).trans ((W6_of_ne m ρ c main_v1 (by decide)).trans ((HostRead.keep1_2 (W4 m ρ c) main_v1 (by decide)).trans ((HostRead.keep1_1 (W3 m ρ c) main_v1 (by decide)).trans ((HostRead.keep1 (W2 m ρ c) main_v1 (by decide)).trans (W2_of_ne m ρ c main_v1 (by decide)))))))))))).trans (W1_v1 m ρ c)
  have ed : W12 m ρ c (Proc.devRef .tc main_v3) = dIdx m c := ((W12_of_ne m ρ c main_v3 (by decide)).trans ((HostRead.keep3_2 (W10 m ρ c) main_v3 (by decide)).trans ((HostRead.keep3_1 (W9 m ρ c) main_v3 (by decide)).trans ((HostRead.keep3 (W8 m ρ c) main_v3 (by decide)).trans ((W8_of_ne m ρ c main_v3 (by decide)).trans ((HostRead.keep2 (W6 m ρ c) main_v3 (by decide)).trans ((W6_of_ne m ρ c main_v3 (by decide)).trans ((HostRead.keep1_2 (W4 m ρ c) main_v3 (by decide)).trans ((HostRead.keep1_1 (W3 m ρ c) main_v3 (by decide)).trans ((HostRead.keep1 (W2 m ρ c) main_v3 (by decide)).trans (W2_of_ne m ρ c main_v3 (by decide)))))))))))).trans (W1_v3 m ρ c)
  have a7 : W12 m ρ c (Proc.devRef .tc main_arg7) = (m ((c : Thread nD τ).loc main_arg7)) := ((W12_of_ne m ρ c main_arg7 (by decide)).trans ((HostRead.keep3_2 (W10 m ρ c) main_arg7 (by decide)).trans ((HostRead.keep3_1 (W9 m ρ c) main_arg7 (by decide)).trans ((HostRead.keep3 (W8 m ρ c) main_arg7 (by decide)).trans ((W8_of_ne m ρ c main_arg7 (by decide)).trans ((HostRead.keep2 (W6 m ρ c) main_arg7 (by decide)).trans ((W6_of_ne m ρ c main_arg7 (by decide)).trans ((HostRead.keep1_2 (W4 m ρ c) main_arg7 (by decide)).trans ((HostRead.keep1_1 (W3 m ρ c) main_arg7 (by decide)).trans ((HostRead.keep1 (W2 m ρ c) main_arg7 (by decide)).trans ((W2_of_ne m ρ c main_arg7 (by decide)).trans (HostRead.keep0 (W0 m ρ c) main_arg7 (by decide)))))))))))))
  have a8 : W12 m ρ c (Proc.devRef .tc main_arg8) = (m ((c : Thread nD τ).loc main_arg8)) := ((W12_of_ne m ρ c main_arg8 (by decide)).trans ((HostRead.keep3_2 (W10 m ρ c) main_arg8 (by decide)).trans ((HostRead.keep3_1 (W9 m ρ c) main_arg8 (by decide)).trans ((HostRead.keep3 (W8 m ρ c) main_arg8 (by decide)).trans ((W8_of_ne m ρ c main_arg8 (by decide)).trans ((HostRead.keep2 (W6 m ρ c) main_arg8 (by decide)).trans ((W6_of_ne m ρ c main_arg8 (by decide)).trans ((HostRead.keep1_2 (W4 m ρ c) main_arg8 (by decide)).trans ((HostRead.keep1_1 (W3 m ρ c) main_arg8 (by decide)).trans ((HostRead.keep1 (W2 m ρ c) main_arg8 (by decide)).trans ((W2_of_ne m ρ c main_arg8 (by decide)).trans (HostRead.keep0 (W0 m ρ c) main_arg8 (by decide)))))))))))))
  have a9 : W12 m ρ c (Proc.devRef .tc main_arg9) = (m ((c : Thread nD τ).loc main_arg9)) := ((W12_of_ne m ρ c main_arg9 (by decide)).trans ((HostRead.keep3_2 (W10 m ρ c) main_arg9 (by decide)).trans ((HostRead.keep3_1 (W9 m ρ c) main_arg9 (by decide)).trans ((HostRead.keep3 (W8 m ρ c) main_arg9 (by decide)).trans ((W8_of_ne m ρ c main_arg9 (by decide)).trans ((HostRead.keep2 (W6 m ρ c) main_arg9 (by decide)).trans ((W6_of_ne m ρ c main_arg9 (by decide)).trans ((HostRead.keep1_2 (W4 m ρ c) main_arg9 (by decide)).trans ((HostRead.keep1_1 (W3 m ρ c) main_arg9 (by decide)).trans ((HostRead.keep1 (W2 m ρ c) main_arg9 (by decide)).trans ((W2_of_ne m ρ c main_arg9 (by decide)).trans (HostRead.keep0 (W0 m ρ c) main_arg9 (by decide)))))))))))))
  have a10 : W12 m ρ c (Proc.devRef .tc main_arg10) = (m ((c : Thread nD τ).loc main_arg10)) := ((W12_of_ne m ρ c main_arg10 (by decide)).trans ((HostRead.keep3_2 (W10 m ρ c) main_arg10 (by decide)).trans ((HostRead.keep3_1 (W9 m ρ c) main_arg10 (by decide)).trans ((HostRead.keep3 (W8 m ρ c) main_arg10 (by decide)).trans ((W8_of_ne m ρ c main_arg10 (by decide)).trans ((HostRead.keep2 (W6 m ρ c) main_arg10 (by decide)).trans ((W6_of_ne m ρ c main_arg10 (by decide)).trans ((HostRead.keep1_2 (W4 m ρ c) main_arg10 (by decide)).trans ((HostRead.keep1_1 (W3 m ρ c) main_arg10 (by decide)).trans ((HostRead.keep1 (W2 m ρ c) main_arg10 (by decide)).trans ((W2_of_ne m ρ c main_arg10 (by decide)).trans (HostRead.keep0 (W0 m ρ c) main_arg10 (by decide)))))))))))))
  have eAgg : V13 m ρ c main_v71 = Cert.Spec.agg32 (F := Ideal) (h2 m c) (sIdx m c) (dIdx m c) :=
    (HostRead.s4_agg (W12 m ρ c)).trans (by rw [eh, es, ed])
  have eH : V13 m ρ c main_v61 = h2 m c := (HostRead.keep4 (W12 m ρ c) main_v61 (by decide)).trans eh
  have eW1 : V13 m ρ c main_v73 = Cert.Spec.weight1 (F := Ideal) (m ((c : Thread nD τ).loc main_arg7)) := (HostRead.s4_w1 (W12 m ρ c)).trans (by rw [a7])
  have eB1 : V13 m ρ c main_v76 = Cert.Spec.row (F := Ideal) (Cert.Spec.bias1 (F := Ideal) (m ((c : Thread nD τ).loc main_arg8))) := (HostRead.s4_b1 (W12 m ρ c)).trans (by rw [a8])
  have eW2 : V13 m ρ c main_v78 = Cert.Spec.weight1 (F := Ideal) (m ((c : Thread nD τ).loc main_arg9)) := (HostRead.s4_w2 (W12 m ρ c)).trans (by rw [a9])
  have eB2 : V13 m ρ c main_v81 = Cert.Spec.row (F := Ideal) (Cert.Spec.bias1 (F := Ideal) (m ((c : Thread nD τ).loc main_arg10))) := (HostRead.s4_b2 (W12 m ρ c)).trans (by rw [a10])
  rw [eAgg, eH, eW1, eB1, eW2, eB2]

/-- After normalisation region 5: the layer's output. -/
theorem out2 : W18 m ρ c (Proc.devRef .tc main_v94) = h3 m c := by
  refine (W18_arr m ρ c 5).trans ((bn5 (V17 m ρ) c).trans ?_)
  have ey : W14 m ρ c (Proc.devRef .tc main_v82) = y2 m c := pre2 m ρ c
  have ey1 : W15 m ρ c (Proc.devRef .tc main_v82) = y2 m c := (HostRead.keep5 (W14 m ρ c) main_v82 (by decide)).trans ey
  have e16 : V17 m ρ c main_v82 = y2 m c := ((HostRead.keep5_2 (W16 m ρ c) main_v82 (by decide)).trans ((HostRead.keep5_1 (W15 m ρ c) main_v82 (by decide)).trans (HostRead.keep5 (W14 m ρ c) main_v82 (by decide)))).trans ey
  have e20 : V17 m ρ c main_v86 = Cert.Spec.row (F := Ideal) (Cert.Spec.mean (F := Ideal) (y2 m c)) :=
    ((HostRead.keep5_2 (W16 m ρ c) main_v86 (by decide)).trans (HostRead.keep5_1 (W15 m ρ c) main_v86 (by decide))).trans ((HostRead.s5_mean (W14 m ρ c)).trans (by rw [ey]))
  have e21 : V17 m ρ c main_v87 = Cert.Spec.row (F := Ideal) (Cert.Spec.var (F := Ideal) (y2 m c)) :=
    (HostRead.keep5_2 (W16 m ρ c) main_v87 (by decide)).trans ((HostRead.s5_1_var (W15 m ρ c) (HostRead.s5_c (W14 m ρ c))).trans (by rw [ey1]))
  have a11 : W16 m ρ c (Proc.devRef .tc main_arg11) = (m ((c : Thread nD τ).loc main_arg11)) := ((HostRead.keep5_1 (W15 m ρ c) main_arg11 (by decide)).trans ((HostRead.keep5 (W14 m ρ c) main_arg11 (by decide)).trans ((W14_of_ne m ρ c main_arg11 (by decide)).trans ((HostRead.keep4 (W12 m ρ c) main_arg11 (by decide)).trans ((W12_of_ne m ρ c main_arg11 (by decide)).trans ((HostRead.keep3_2 (W10 m ρ c) main_arg11 (by decide)).trans ((HostRead.keep3_1 (W9 m ρ c) main_arg11 (by decide)).trans ((HostRead.keep3 (W8 m ρ c) main_arg11 (by decide)).trans ((W8_of_ne m ρ c main_arg11 (by decide)).trans ((HostRead.keep2 (W6 m ρ c) main_arg11 (by decide)).trans ((W6_of_ne m ρ c main_arg11 (by decide)).trans ((HostRead.keep1_2 (W4 m ρ c) main_arg11 (by decide)).trans ((HostRead.keep1_1 (W3 m ρ c) main_arg11 (by decide)).trans ((HostRead.keep1 (W2 m ρ c) main_arg11 (by decide)).trans ((W2_of_ne m ρ c main_arg11 (by decide)).trans (HostRead.keep0 (W0 m ρ c) main_arg11 (by decide)))))))))))))))))
  have a12 : W16 m ρ c (Proc.devRef .tc main_arg12) = (m ((c : Thread nD τ).loc main_arg12)) := ((HostRead.keep5_1 (W15 m ρ c) main_arg12 (by decide)).trans ((HostRead.keep5 (W14 m ρ c) main_arg12 (by decide)).trans ((W14_of_ne m ρ c main_arg12 (by decide)).trans ((HostRead.keep4 (W12 m ρ c) main_arg12 (by decide)).trans ((W12_of_ne m ρ c main_arg12 (by decide)).trans ((HostRead.keep3_2 (W10 m ρ c) main_arg12 (by decide)).trans ((HostRead.keep3_1 (W9 m ρ c) main_arg12 (by decide)).trans ((HostRead.keep3 (W8 m ρ c) main_arg12 (by decide)).trans ((W8_of_ne m ρ c main_arg12 (by decide)).trans ((HostRead.keep2 (W6 m ρ c) main_arg12 (by decide)).trans ((W6_of_ne m ρ c main_arg12 (by decide)).trans ((HostRead.keep1_2 (W4 m ρ c) main_arg12 (by decide)).trans ((HostRead.keep1_1 (W3 m ρ c) main_arg12 (by decide)).trans ((HostRead.keep1 (W2 m ρ c) main_arg12 (by decide)).trans ((W2_of_ne m ρ c main_arg12 (by decide)).trans (HostRead.keep0 (W0 m ρ c) main_arg12 (by decide)))))))))))))))))
  have e24 : V17 m ρ c main_v90 = Cert.Spec.row (F := Ideal) (Cert.Spec.bnParam2 (F := Ideal) (m ((c : Thread nD τ).loc main_arg11))) := (HostRead.s5_2_scale (W16 m ρ c)).trans (by rw [a11])
  have e27 : V17 m ρ c main_v93 = Cert.Spec.row (F := Ideal) (Cert.Spec.bnParam2 (F := Ideal) (m ((c : Thread nD τ).loc main_arg12))) := (HostRead.s5_2_bias (W16 m ρ c)).trans (by rw [a12])
  rw [e16, e20, e21, e24, e27]
  exact Cert.Spec.bnRows_row _ _ _ _ _

/-! ## Layer 4 -/

/-- After perceptron region 6. -/
theorem pre3 : W20 m ρ c (Proc.devRef .tc main_v115) = y3 m c := by
  refine (W20_arr m ρ c 6).trans ((mlp6 (V19 m ρ) c).trans ?_)
  have eh : W18 m ρ c (Proc.devRef .tc main_v94) = h3 m c := out2 m ρ c
  have es : W18 m ρ c (Proc.devRef .tc main_v1) = sIdx m c := ((W18_of_ne m ρ c main_v1 (by decide)).trans ((HostRead.keep5_2 (W16 m ρ c) main_v1 (by decide)).trans ((HostRead.keep5_1 (W15 m ρ c) main_v1 (by decide)).trans ((HostRead.keep5 (W14 m ρ c) main_v1 (by decide)).trans ((W14_of_ne m ρ c main_v1 (by decide)).trans ((HostRead.keep4 (W12 m ρ c) main_v1 (by decide)).trans ((W12_of_ne m ρ c main_v1 (by decide)).trans ((HostRead.keep3_2 (W10 m ρ c) main_v1 (by decide)).trans ((HostRead.keep3_1 (W9 m ρ c) main_v1 (by decide)).trans ((HostRead.keep3 (W8 m ρ c) main_v1 (by decide)).trans ((W8_of_ne m ρ c main_v1 (by decide)).trans ((HostRead.keep2 (W6 m ρ c) main_v1 (by decide)).trans ((W6_of_ne m ρ c main_v1 (by decide)).trans ((HostRead.keep1_2 (W4 m ρ c) main_v1 (by decide)).trans ((HostRead.keep1_1 (W3 m ρ c) main_v1 (by decide)).trans ((HostRead.keep1 (W2 m ρ c) main_v1 (by decide)).trans (W2_of_ne m ρ c main_v1 (by decide)))))))))))))))))).trans (W1_v1 m ρ c)
  have ed : W18 m ρ c (Proc.devRef .tc main_v3) = dIdx m c := ((W18_of_ne m ρ c main_v3 (by decide)).trans ((HostRead.keep5_2 (W16 m ρ c) main_v3 (by decide)).trans ((HostRead.keep5_1 (W15 m ρ c) main_v3 (by decide)).trans ((HostRead.keep5 (W14 m ρ c) main_v3 (by decide)).trans ((W14_of_ne m ρ c main_v3 (by decide)).trans ((HostRead.keep4 (W12 m ρ c) main_v3 (by decide)).trans ((W12_of_ne m ρ c main_v3 (by decide)).trans ((HostRead.keep3_2 (W10 m ρ c) main_v3 (by decide)).trans ((HostRead.keep3_1 (W9 m ρ c) main_v3 (by decide)).trans ((HostRead.keep3 (W8 m ρ c) main_v3 (by decide)).trans ((W8_of_ne m ρ c main_v3 (by decide)).trans ((HostRead.keep2 (W6 m ρ c) main_v3 (by decide)).trans ((W6_of_ne m ρ c main_v3 (by decide)).trans ((HostRead.keep1_2 (W4 m ρ c) main_v3 (by decide)).trans ((HostRead.keep1_1 (W3 m ρ c) main_v3 (by decide)).trans ((HostRead.keep1 (W2 m ρ c) main_v3 (by decide)).trans (W2_of_ne m ρ c main_v3 (by decide)))))))))))))))))).trans (W1_v3 m ρ c)
  have a7 : W18 m ρ c (Proc.devRef .tc main_arg7) = (m ((c : Thread nD τ).loc main_arg7)) := ((W18_of_ne m ρ c main_arg7 (by decide)).trans ((HostRead.keep5_2 (W16 m ρ c) main_arg7 (by decide)).trans ((HostRead.keep5_1 (W15 m ρ c) main_arg7 (by decide)).trans ((HostRead.keep5 (W14 m ρ c) main_arg7 (by decide)).trans ((W14_of_ne m ρ c main_arg7 (by decide)).trans ((HostRead.keep4 (W12 m ρ c) main_arg7 (by decide)).trans ((W12_of_ne m ρ c main_arg7 (by decide)).trans ((HostRead.keep3_2 (W10 m ρ c) main_arg7 (by decide)).trans ((HostRead.keep3_1 (W9 m ρ c) main_arg7 (by decide)).trans ((HostRead.keep3 (W8 m ρ c) main_arg7 (by decide)).trans ((W8_of_ne m ρ c main_arg7 (by decide)).trans ((HostRead.keep2 (W6 m ρ c) main_arg7 (by decide)).trans ((W6_of_ne m ρ c main_arg7 (by decide)).trans ((HostRead.keep1_2 (W4 m ρ c) main_arg7 (by decide)).trans ((HostRead.keep1_1 (W3 m ρ c) main_arg7 (by decide)).trans ((HostRead.keep1 (W2 m ρ c) main_arg7 (by decide)).trans ((W2_of_ne m ρ c main_arg7 (by decide)).trans (HostRead.keep0 (W0 m ρ c) main_arg7 (by decide)))))))))))))))))))
  have a8 : W18 m ρ c (Proc.devRef .tc main_arg8) = (m ((c : Thread nD τ).loc main_arg8)) := ((W18_of_ne m ρ c main_arg8 (by decide)).trans ((HostRead.keep5_2 (W16 m ρ c) main_arg8 (by decide)).trans ((HostRead.keep5_1 (W15 m ρ c) main_arg8 (by decide)).trans ((HostRead.keep5 (W14 m ρ c) main_arg8 (by decide)).trans ((W14_of_ne m ρ c main_arg8 (by decide)).trans ((HostRead.keep4 (W12 m ρ c) main_arg8 (by decide)).trans ((W12_of_ne m ρ c main_arg8 (by decide)).trans ((HostRead.keep3_2 (W10 m ρ c) main_arg8 (by decide)).trans ((HostRead.keep3_1 (W9 m ρ c) main_arg8 (by decide)).trans ((HostRead.keep3 (W8 m ρ c) main_arg8 (by decide)).trans ((W8_of_ne m ρ c main_arg8 (by decide)).trans ((HostRead.keep2 (W6 m ρ c) main_arg8 (by decide)).trans ((W6_of_ne m ρ c main_arg8 (by decide)).trans ((HostRead.keep1_2 (W4 m ρ c) main_arg8 (by decide)).trans ((HostRead.keep1_1 (W3 m ρ c) main_arg8 (by decide)).trans ((HostRead.keep1 (W2 m ρ c) main_arg8 (by decide)).trans ((W2_of_ne m ρ c main_arg8 (by decide)).trans (HostRead.keep0 (W0 m ρ c) main_arg8 (by decide)))))))))))))))))))
  have a9 : W18 m ρ c (Proc.devRef .tc main_arg9) = (m ((c : Thread nD τ).loc main_arg9)) := ((W18_of_ne m ρ c main_arg9 (by decide)).trans ((HostRead.keep5_2 (W16 m ρ c) main_arg9 (by decide)).trans ((HostRead.keep5_1 (W15 m ρ c) main_arg9 (by decide)).trans ((HostRead.keep5 (W14 m ρ c) main_arg9 (by decide)).trans ((W14_of_ne m ρ c main_arg9 (by decide)).trans ((HostRead.keep4 (W12 m ρ c) main_arg9 (by decide)).trans ((W12_of_ne m ρ c main_arg9 (by decide)).trans ((HostRead.keep3_2 (W10 m ρ c) main_arg9 (by decide)).trans ((HostRead.keep3_1 (W9 m ρ c) main_arg9 (by decide)).trans ((HostRead.keep3 (W8 m ρ c) main_arg9 (by decide)).trans ((W8_of_ne m ρ c main_arg9 (by decide)).trans ((HostRead.keep2 (W6 m ρ c) main_arg9 (by decide)).trans ((W6_of_ne m ρ c main_arg9 (by decide)).trans ((HostRead.keep1_2 (W4 m ρ c) main_arg9 (by decide)).trans ((HostRead.keep1_1 (W3 m ρ c) main_arg9 (by decide)).trans ((HostRead.keep1 (W2 m ρ c) main_arg9 (by decide)).trans ((W2_of_ne m ρ c main_arg9 (by decide)).trans (HostRead.keep0 (W0 m ρ c) main_arg9 (by decide)))))))))))))))))))
  have a10 : W18 m ρ c (Proc.devRef .tc main_arg10) = (m ((c : Thread nD τ).loc main_arg10)) := ((W18_of_ne m ρ c main_arg10 (by decide)).trans ((HostRead.keep5_2 (W16 m ρ c) main_arg10 (by decide)).trans ((HostRead.keep5_1 (W15 m ρ c) main_arg10 (by decide)).trans ((HostRead.keep5 (W14 m ρ c) main_arg10 (by decide)).trans ((W14_of_ne m ρ c main_arg10 (by decide)).trans ((HostRead.keep4 (W12 m ρ c) main_arg10 (by decide)).trans ((W12_of_ne m ρ c main_arg10 (by decide)).trans ((HostRead.keep3_2 (W10 m ρ c) main_arg10 (by decide)).trans ((HostRead.keep3_1 (W9 m ρ c) main_arg10 (by decide)).trans ((HostRead.keep3 (W8 m ρ c) main_arg10 (by decide)).trans ((W8_of_ne m ρ c main_arg10 (by decide)).trans ((HostRead.keep2 (W6 m ρ c) main_arg10 (by decide)).trans ((W6_of_ne m ρ c main_arg10 (by decide)).trans ((HostRead.keep1_2 (W4 m ρ c) main_arg10 (by decide)).trans ((HostRead.keep1_1 (W3 m ρ c) main_arg10 (by decide)).trans ((HostRead.keep1 (W2 m ρ c) main_arg10 (by decide)).trans ((W2_of_ne m ρ c main_arg10 (by decide)).trans (HostRead.keep0 (W0 m ρ c) main_arg10 (by decide)))))))))))))))))))
  have eAgg : V19 m ρ c main_v104 = Cert.Spec.agg32 (F := Ideal) (h3 m c) (sIdx m c) (dIdx m c) :=
    (HostRead.s6_agg (W18 m ρ c)).trans (by rw [eh, es, ed])
  have eH : V19 m ρ c main_v94 = h3 m c := (HostRead.keep6 (W18 m ρ c) main_v94 (by decide)).trans eh
  have eW1 : V19 m ρ c main_v106 = Cert.Spec.weight2 (F := Ideal) (m ((c : Thread nD τ).loc main_arg7)) := (HostRead.s6_w1 (W18 m ρ c)).trans (by rw [a7])
  have eB1 : V19 m ρ c main_v109 = Cert.Spec.row (F := Ideal) (Cert.Spec.bias2 (F := Ideal) (m ((c : Thread nD τ).loc main_arg8))) := (HostRead.s6_b1 (W18 m ρ c)).trans (by rw [a8])
  have eW2 : V19 m ρ c main_v111 = Cert.Spec.weight2 (F := Ideal) (m ((c : Thread nD τ).loc main_arg9)) := (HostRead.s6_w2 (W18 m ρ c)).trans (by rw [a9])
  have eB2 : V19 m ρ c main_v114 = Cert.Spec.row (F := Ideal) (Cert.Spec.bias2 (F := Ideal) (m ((c : Thread nD τ).loc main_arg10))) := (HostRead.s6_b2 (W18 m ρ c)).trans (by rw [a10])
  rw [eAgg, eH, eW1, eB1, eW2, eB2]

/-- After normalisation region 7: the layer's output. -/
theorem out3 : W24 m ρ c (Proc.devRef .tc main_v127) = h4 m c := by
  refine (W24_arr m ρ c 5).trans ((bn7 (V23 m ρ) c).trans ?_)
  have ey : W20 m ρ c (Proc.devRef .tc main_v115) = y3 m c := pre3 m ρ c
  have ey1 : W21 m ρ c (Proc.devRef .tc main_v115) = y3 m c := (HostRead.keep7 (W20 m ρ c) main_v115 (by decide)).trans ey
  have e16 : V23 m ρ c main_v115 = y3 m c := ((HostRead.keep7_2 (W22 m ρ c) main_v115 (by decide)).trans ((HostRead.keep7_1 (W21 m ρ c) main_v115 (by decide)).trans (HostRead.keep7 (W20 m ρ c) main_v115 (by decide)))).trans ey
  have e20 : V23 m ρ c main_v119 = Cert.Spec.row (F := Ideal) (Cert.Spec.mean (F := Ideal) (y3 m c)) :=
    ((HostRead.keep7_2 (W22 m ρ c) main_v119 (by decide)).trans (HostRead.keep7_1 (W21 m ρ c) main_v119 (by decide))).trans ((HostRead.s7_mean (W20 m ρ c)).trans (by rw [ey]))
  have e21 : V23 m ρ c main_v120 = Cert.Spec.row (F := Ideal) (Cert.Spec.var (F := Ideal) (y3 m c)) :=
    (HostRead.keep7_2 (W22 m ρ c) main_v120 (by decide)).trans ((HostRead.s7_1_var (W21 m ρ c) (HostRead.s7_c (W20 m ρ c))).trans (by rw [ey1]))
  have a11 : W22 m ρ c (Proc.devRef .tc main_arg11) = (m ((c : Thread nD τ).loc main_arg11)) := ((HostRead.keep7_1 (W21 m ρ c) main_arg11 (by decide)).trans ((HostRead.keep7 (W20 m ρ c) main_arg11 (by decide)).trans ((W20_of_ne m ρ c main_arg11 (by decide)).trans ((HostRead.keep6 (W18 m ρ c) main_arg11 (by decide)).trans ((W18_of_ne m ρ c main_arg11 (by decide)).trans ((HostRead.keep5_2 (W16 m ρ c) main_arg11 (by decide)).trans ((HostRead.keep5_1 (W15 m ρ c) main_arg11 (by decide)).trans ((HostRead.keep5 (W14 m ρ c) main_arg11 (by decide)).trans ((W14_of_ne m ρ c main_arg11 (by decide)).trans ((HostRead.keep4 (W12 m ρ c) main_arg11 (by decide)).trans ((W12_of_ne m ρ c main_arg11 (by decide)).trans ((HostRead.keep3_2 (W10 m ρ c) main_arg11 (by decide)).trans ((HostRead.keep3_1 (W9 m ρ c) main_arg11 (by decide)).trans ((HostRead.keep3 (W8 m ρ c) main_arg11 (by decide)).trans ((W8_of_ne m ρ c main_arg11 (by decide)).trans ((HostRead.keep2 (W6 m ρ c) main_arg11 (by decide)).trans ((W6_of_ne m ρ c main_arg11 (by decide)).trans ((HostRead.keep1_2 (W4 m ρ c) main_arg11 (by decide)).trans ((HostRead.keep1_1 (W3 m ρ c) main_arg11 (by decide)).trans ((HostRead.keep1 (W2 m ρ c) main_arg11 (by decide)).trans ((W2_of_ne m ρ c main_arg11 (by decide)).trans (HostRead.keep0 (W0 m ρ c) main_arg11 (by decide)))))))))))))))))))))))
  have a12 : W22 m ρ c (Proc.devRef .tc main_arg12) = (m ((c : Thread nD τ).loc main_arg12)) := ((HostRead.keep7_1 (W21 m ρ c) main_arg12 (by decide)).trans ((HostRead.keep7 (W20 m ρ c) main_arg12 (by decide)).trans ((W20_of_ne m ρ c main_arg12 (by decide)).trans ((HostRead.keep6 (W18 m ρ c) main_arg12 (by decide)).trans ((W18_of_ne m ρ c main_arg12 (by decide)).trans ((HostRead.keep5_2 (W16 m ρ c) main_arg12 (by decide)).trans ((HostRead.keep5_1 (W15 m ρ c) main_arg12 (by decide)).trans ((HostRead.keep5 (W14 m ρ c) main_arg12 (by decide)).trans ((W14_of_ne m ρ c main_arg12 (by decide)).trans ((HostRead.keep4 (W12 m ρ c) main_arg12 (by decide)).trans ((W12_of_ne m ρ c main_arg12 (by decide)).trans ((HostRead.keep3_2 (W10 m ρ c) main_arg12 (by decide)).trans ((HostRead.keep3_1 (W9 m ρ c) main_arg12 (by decide)).trans ((HostRead.keep3 (W8 m ρ c) main_arg12 (by decide)).trans ((W8_of_ne m ρ c main_arg12 (by decide)).trans ((HostRead.keep2 (W6 m ρ c) main_arg12 (by decide)).trans ((W6_of_ne m ρ c main_arg12 (by decide)).trans ((HostRead.keep1_2 (W4 m ρ c) main_arg12 (by decide)).trans ((HostRead.keep1_1 (W3 m ρ c) main_arg12 (by decide)).trans ((HostRead.keep1 (W2 m ρ c) main_arg12 (by decide)).trans ((W2_of_ne m ρ c main_arg12 (by decide)).trans (HostRead.keep0 (W0 m ρ c) main_arg12 (by decide)))))))))))))))))))))))
  have e24 : V23 m ρ c main_v123 = Cert.Spec.row (F := Ideal) (Cert.Spec.bnParam3 (F := Ideal) (m ((c : Thread nD τ).loc main_arg11))) := (HostRead.s7_2_scale (W22 m ρ c)).trans (by rw [a11])
  have e27 : V23 m ρ c main_v126 = Cert.Spec.row (F := Ideal) (Cert.Spec.bnParam3 (F := Ideal) (m ((c : Thread nD τ).loc main_arg12))) := (HostRead.s7_2_bias (W22 m ρ c)).trans (by rw [a12])
  rw [e16, e20, e21, e24, e27]
  exact Cert.Spec.bnRows_row _ _ _ _ _

/-! ## The classifier -/

/-- The result array after the last region: the network of the specification applied to the argument arrays. -/
theorem result : W26 m ρ c (Proc.devRef .tc main_v133)
    = Cert.Spec.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W26_arr m ρ c 5).trans ((head8 (V25 m ρ) c).trans ?_)
  have eh : W24 m ρ c (Proc.devRef .tc main_v127) = h4 m c := out3 m ρ c
  have a2 : W24 m ρ c (Proc.devRef .tc main_arg2) = (m ((c : Thread nD τ).loc main_arg2)) := ((W24_of_ne m ρ c main_arg2 (by decide)).trans ((HostRead.keep7_2 (W22 m ρ c) main_arg2 (by decide)).trans ((HostRead.keep7_1 (W21 m ρ c) main_arg2 (by decide)).trans ((HostRead.keep7 (W20 m ρ c) main_arg2 (by decide)).trans ((W20_of_ne m ρ c main_arg2 (by decide)).trans ((HostRead.keep6 (W18 m ρ c) main_arg2 (by decide)).trans ((W18_of_ne m ρ c main_arg2 (by decide)).trans ((HostRead.keep5_2 (W16 m ρ c) main_arg2 (by decide)).trans ((HostRead.keep5_1 (W15 m ρ c) main_arg2 (by decide)).trans ((HostRead.keep5 (W14 m ρ c) main_arg2 (by decide)).trans ((W14_of_ne m ρ c main_arg2 (by decide)).trans ((HostRead.keep4 (W12 m ρ c) main_arg2 (by decide)).trans ((W12_of_ne m ρ c main_arg2 (by decide)).trans ((HostRead.keep3_2 (W10 m ρ c) main_arg2 (by decide)).trans ((HostRead.keep3_1 (W9 m ρ c) main_arg2 (by decide)).trans ((HostRead.keep3 (W8 m ρ c) main_arg2 (by decide)).trans ((W8_of_ne m ρ c main_arg2 (by decide)).trans ((HostRead.keep2 (W6 m ρ c) main_arg2 (by decide)).trans ((W6_of_ne m ρ c main_arg2 (by decide)).trans ((HostRead.keep1_2 (W4 m ρ c) main_arg2 (by decide)).trans ((HostRead.keep1_1 (W3 m ρ c) main_arg2 (by decide)).trans ((HostRead.keep1 (W2 m ρ c) main_arg2 (by decide)).trans ((W2_of_ne m ρ c main_arg2 (by decide)).trans (HostRead.keep0 (W0 m ρ c) main_arg2 (by decide)))))))))))))))))))))))))
  have a14 : W24 m ρ c (Proc.devRef .tc main_arg14) = (m ((c : Thread nD τ).loc main_arg14)) := ((W24_of_ne m ρ c main_arg14 (by decide)).trans ((HostRead.keep7_2 (W22 m ρ c) main_arg14 (by decide)).trans ((HostRead.keep7_1 (W21 m ρ c) main_arg14 (by decide)).trans ((HostRead.keep7 (W20 m ρ c) main_arg14 (by decide)).trans ((W20_of_ne m ρ c main_arg14 (by decide)).trans ((HostRead.keep6 (W18 m ρ c) main_arg14 (by decide)).trans ((W18_of_ne m ρ c main_arg14 (by decide)).trans ((HostRead.keep5_2 (W16 m ρ c) main_arg14 (by decide)).trans ((HostRead.keep5_1 (W15 m ρ c) main_arg14 (by decide)).trans ((HostRead.keep5 (W14 m ρ c) main_arg14 (by decide)).trans ((W14_of_ne m ρ c main_arg14 (by decide)).trans ((HostRead.keep4 (W12 m ρ c) main_arg14 (by decide)).trans ((W12_of_ne m ρ c main_arg14 (by decide)).trans ((HostRead.keep3_2 (W10 m ρ c) main_arg14 (by decide)).trans ((HostRead.keep3_1 (W9 m ρ c) main_arg14 (by decide)).trans ((HostRead.keep3 (W8 m ρ c) main_arg14 (by decide)).trans ((W8_of_ne m ρ c main_arg14 (by decide)).trans ((HostRead.keep2 (W6 m ρ c) main_arg14 (by decide)).trans ((W6_of_ne m ρ c main_arg14 (by decide)).trans ((HostRead.keep1_2 (W4 m ρ c) main_arg14 (by decide)).trans ((HostRead.keep1_1 (W3 m ρ c) main_arg14 (by decide)).trans ((HostRead.keep1 (W2 m ρ c) main_arg14 (by decide)).trans ((W2_of_ne m ρ c main_arg14 (by decide)).trans (HostRead.keep0 (W0 m ρ c) main_arg14 (by decide)))))))))))))))))))))))))
  have a16 : W24 m ρ c (Proc.devRef .tc main_arg16) = (m ((c : Thread nD τ).loc main_arg16)) := ((W24_of_ne m ρ c main_arg16 (by decide)).trans ((HostRead.keep7_2 (W22 m ρ c) main_arg16 (by decide)).trans ((HostRead.keep7_1 (W21 m ρ c) main_arg16 (by decide)).trans ((HostRead.keep7 (W20 m ρ c) main_arg16 (by decide)).trans ((W20_of_ne m ρ c main_arg16 (by decide)).trans ((HostRead.keep6 (W18 m ρ c) main_arg16 (by decide)).trans ((W18_of_ne m ρ c main_arg16 (by decide)).trans ((HostRead.keep5_2 (W16 m ρ c) main_arg16 (by decide)).trans ((HostRead.keep5_1 (W15 m ρ c) main_arg16 (by decide)).trans ((HostRead.keep5 (W14 m ρ c) main_arg16 (by decide)).trans ((W14_of_ne m ρ c main_arg16 (by decide)).trans ((HostRead.keep4 (W12 m ρ c) main_arg16 (by decide)).trans ((W12_of_ne m ρ c main_arg16 (by decide)).trans ((HostRead.keep3_2 (W10 m ρ c) main_arg16 (by decide)).trans ((HostRead.keep3_1 (W9 m ρ c) main_arg16 (by decide)).trans ((HostRead.keep3 (W8 m ρ c) main_arg16 (by decide)).trans ((W8_of_ne m ρ c main_arg16 (by decide)).trans ((HostRead.keep2 (W6 m ρ c) main_arg16 (by decide)).trans ((W6_of_ne m ρ c main_arg16 (by decide)).trans ((HostRead.keep1_2 (W4 m ρ c) main_arg16 (by decide)).trans ((HostRead.keep1_1 (W3 m ρ c) main_arg16 (by decide)).trans ((HostRead.keep1 (W2 m ρ c) main_arg16 (by decide)).trans ((W2_of_ne m ρ c main_arg16 (by decide)).trans (HostRead.keep0 (W0 m ρ c) main_arg16 (by decide)))))))))))))))))))))))))
  have e130 : V25 m ρ c main_v130 = Cert.Spec.pool (F := Ideal) (h4 m c) (m ((c : Thread nD τ).loc main_arg2)) := (HostRead.s8_pool (W24 m ρ c)).trans (by rw [eh, a2])
  have e13 : V25 m ρ c main_arg13 = (m ((c : Thread nD τ).loc main_arg13)) := ((HostRead.keep8 (W24 m ρ c) main_arg13 (by decide)).trans ((W24_of_ne m ρ c main_arg13 (by decide)).trans ((HostRead.keep7_2 (W22 m ρ c) main_arg13 (by decide)).trans ((HostRead.keep7_1 (W21 m ρ c) main_arg13 (by decide)).trans ((HostRead.keep7 (W20 m ρ c) main_arg13 (by decide)).trans ((W20_of_ne m ρ c main_arg13 (by decide)).trans ((HostRead.keep6 (W18 m ρ c) main_arg13 (by decide)).trans ((W18_of_ne m ρ c main_arg13 (by decide)).trans ((HostRead.keep5_2 (W16 m ρ c) main_arg13 (by decide)).trans ((HostRead.keep5_1 (W15 m ρ c) main_arg13 (by decide)).trans ((HostRead.keep5 (W14 m ρ c) main_arg13 (by decide)).trans ((W14_of_ne m ρ c main_arg13 (by decide)).trans ((HostRead.keep4 (W12 m ρ c) main_arg13 (by decide)).trans ((W12_of_ne m ρ c main_arg13 (by decide)).trans ((HostRead.keep3_2 (W10 m ρ c) main_arg13 (by decide)).trans ((HostRead.keep3_1 (W9 m ρ c) main_arg13 (by decide)).trans ((HostRead.keep3 (W8 m ρ c) main_arg13 (by decide)).trans ((W8_of_ne m ρ c main_arg13 (by decide)).trans ((HostRead.keep2 (W6 m ρ c) main_arg13 (by decide)).trans ((W6_of_ne m ρ c main_arg13 (by decide)).trans ((HostRead.keep1_2 (W4 m ρ c) main_arg13 (by decide)).trans ((HostRead.keep1_1 (W3 m ρ c) main_arg13 (by decide)).trans ((HostRead.keep1 (W2 m ρ c) main_arg13 (by decide)).trans ((W2_of_ne m ρ c main_arg13 (by decide)).trans (HostRead.keep0 (W0 m ρ c) main_arg13 (by decide))))))))))))))))))))))))))
  have e131 : V25 m ρ c main_v131 = Cert.Spec.row (F := Ideal) (m ((c : Thread nD τ).loc main_arg14)) := (HostRead.s8_b1 (W24 m ρ c)).trans (by rw [a14])
  have e15 : V25 m ρ c main_arg15 = (m ((c : Thread nD τ).loc main_arg15)) := ((HostRead.keep8 (W24 m ρ c) main_arg15 (by decide)).trans ((W24_of_ne m ρ c main_arg15 (by decide)).trans ((HostRead.keep7_2 (W22 m ρ c) main_arg15 (by decide)).trans ((HostRead.keep7_1 (W21 m ρ c) main_arg15 (by decide)).trans ((HostRead.keep7 (W20 m ρ c) main_arg15 (by decide)).trans ((W20_of_ne m ρ c main_arg15 (by decide)).trans ((HostRead.keep6 (W18 m ρ c) main_arg15 (by decide)).trans ((W18_of_ne m ρ c main_arg15 (by decide)).trans ((HostRead.keep5_2 (W16 m ρ c) main_arg15 (by decide)).trans ((HostRead.keep5_1 (W15 m ρ c) main_arg15 (by decide)).trans ((HostRead.keep5 (W14 m ρ c) main_arg15 (by decide)).trans ((W14_of_ne m ρ c main_arg15 (by decide)).trans ((HostRead.keep4 (W12 m ρ c) main_arg15 (by decide)).trans ((W12_of_ne m ρ c main_arg15 (by decide)).trans ((HostRead.keep3_2 (W10 m ρ c) main_arg15 (by decide)).trans ((HostRead.keep3_1 (W9 m ρ c) main_arg15 (by decide)).trans ((HostRead.keep3 (W8 m ρ c) main_arg15 (by decide)).trans ((W8_of_ne m ρ c main_arg15 (by decide)).trans ((HostRead.keep2 (W6 m ρ c) main_arg15 (by decide)).trans ((W6_of_ne m ρ c main_arg15 (by decide)).trans ((HostRead.keep1_2 (W4 m ρ c) main_arg15 (by decide)).trans ((HostRead.keep1_1 (W3 m ρ c) main_arg15 (by decide)).trans ((HostRead.keep1 (W2 m ρ c) main_arg15 (by decide)).trans ((W2_of_ne m ρ c main_arg15 (by decide)).trans (HostRead.keep0 (W0 m ρ c) main_arg15 (by decide))))))))))))))))))))))))))
  have e132 : V25 m ρ c main_v132 = Cert.Spec.row2 (F := Ideal) (m ((c : Thread nD τ).loc main_arg16)) := (HostRead.s8_b2 (W24 m ρ c)).trans (by rw [a16])
  rw [e130, e13, e131, e15, e132]
  rfl

end Cert.KernelIdeal.Net

end
-- ==== Proof.RefOps.lean ====
/-
  The reference program's host operations as lists, in program order: every statement of the main function,
  and at each call of an outlined function the callee's operations in the call's place, over the buffers the
  call names (a callee's own call likewise, over the nested record). Nothing but the table, cut by the five
  stages of the network: the first layer, three further layers, then pooling and the classifier; and, stage by
  stage, the list of the buffers the operations write.
-/
import proofs.«115996_j33088428049205_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The first layer: the two index rows, the first normalisation parameters, the neighbour sum of the 128-wide rows, the perceptron, the column statistics (the variance through the outlined function) and the normalisation; 80 operations. -/
abbrev opsL0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    unary main_arg11 main_v4 ((extractStridedSlice S1x32 ![0, 0] · slices_S4x32_S1x32_0_0) : (⟨S4x32, .f32⟩ : BufTy).Contents (Elt F) → (⟨S1x32, .f32⟩ : BufTy).Contents (Elt F)),
    reshape main_v4 main_v5 rfl shapeCasts_S1x32_S32,
    unary main_arg12 main_v6 ((extractStridedSlice S1x32 ![0, 0] · slices_S4x32_S1x32_0_0) : (⟨S4x32, .f32⟩ : BufTy).Contents (Elt F) → (⟨S1x32, .f32⟩ : BufTy).Contents (Elt F)),
    reshape main_v6 main_v7 rfl shapeCasts_S1x32_S32,
    nullary main_c (constantI S_ 32 0#32),
    unary main_c main_v8 (broadcastInDim S1600000 ![] bcast_S_S1600000 : (⟨S_, .i32⟩ : BufTy).Contents (Elt F) → (⟨S1600000, .i32⟩ : BufTy).Contents (Elt F)),
    binary main_v1 main_v8 main_v9 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v10 (broadcastInDim S1600000 ![] bcast_S_S1600000 : (⟨S_, .i32⟩ : BufTy).Contents (Elt F) → (⟨S1600000, .i32⟩ : BufTy).Contents (Elt F)),
    binary main_v1 main_v10 main_v11 (addi : (⟨S1600000, .i32⟩ : BufTy).Contents (Elt F) → (⟨S1600000, .i32⟩ : BufTy).Contents (Elt F) → (⟨S1600000, .i32⟩ : BufTy).Contents (Elt F)),
    ternary main_v9 main_v11 main_v1 main_v12 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v12 main_v13 (broadcastInDim S1600000x1 ![0] bcast_S1600000_S1600000x1_0 : (⟨S1600000, .i32⟩ : BufTy).Contents (Elt F) → (⟨S1600000x1, .i32⟩ : BufTy).Contents (Elt F)),
    binary main_arg0 main_v13 main_v14 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v15 (broadcastInDim S100000x128 ![] bcast_S_S100000x128 : (⟨S_, .f32⟩ : BufTy).Contents (Elt F) → (⟨S100000x128, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v17 main_arg0 main_v18 (addf : (⟨S100000x128, .f32⟩ : BufTy).Contents (Elt F) → (⟨S100000x128, .f32⟩ : BufTy).Contents (Elt F) → (⟨S100000x128, .f32⟩ : BufTy).Contents (Elt F)),
    binary main_v18 main_arg3 main_v19 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    unary main_arg4 main_v20 (broadcastInDim S1x32 ![1] bcast_S32_S1x32_1 : (⟨S32, .f32⟩ : BufTy).Contents (Elt F) → (⟨S1x32, .f32⟩ : BufTy).Contents (Elt F)),
    unary main_v20 main_v21 (broadcastInDim S100000x32 ![0, 1] bcast_S1x32_S100000x32_0_1 : (⟨S1x32, .f32⟩ : BufTy).Contents (Elt F) → (⟨S100000x32, .f32⟩ : BufTy).Contents (Elt F)),
    binary main_v19 main_v21 main_v22 (addf : (⟨S100000x32, .f32⟩ : BufTy).Contents (Elt F) → (⟨S100000x32, .f32⟩ : BufTy).Contents (Elt F) → (⟨S100000x32, .f32⟩ : BufTy).Contents (Elt F)),
    nullary main_cst_1 (constant S_ .f32 0x00000000#32),
    unary main_cst_1 main_v23 (broadcastInDim S100000x32 ![] bcast_S_S100000x32 : (⟨S_, .f32⟩ : BufTy).Contents (Elt F) → (⟨S100000x32, .f32⟩ : BufTy).Contents (Elt F)),
    binary main_v22 main_v23 main_v24 (maximumf : (⟨S100000x32, .f32⟩ : BufTy).Contents (Elt F) → (⟨S100000x32, .f32⟩ : BufTy).Contents (Elt F) → (⟨S100000x32, .f32⟩ : BufTy).Contents (Elt F)),
    binary main_v24 main_arg5 main_v25 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    unary main_arg6 main_v26 (broadcastInDim S1x32 ![1] bcast_S32_S1x32_1 : (⟨S32, .f32⟩ : BufTy).Contents (Elt F) → (⟨S1x32, .f32⟩ : BufTy).Contents (Elt F)),
    unary main_v26 main_v27 (broadcastInDim S100000x32 ![0, 1] bcast_S1x32_S100000x32_0_1 : (⟨S1x32, .f32⟩ : BufTy).Contents (Elt F) → (⟨S100000x32, .f32⟩ : BufTy).Contents (Elt F)),
    binary main_v25 main_v27 main_v28 (addf : (⟨S100000x32, .f32⟩ : BufTy).Contents (Elt F) → (⟨S100000x32, .f32⟩ : BufTy).Contents (Elt F) → (⟨S100000x32, .f32⟩ : BufTy).Contents (Elt F)),
    nullary main_cst_2 (constant S_ .f32 0x00000000#32),
    unary main_cst_2 main_v29 (broadcastInDim S100000x32 ![] bcast_S_S100000x32 : (⟨S_, .f32⟩ : BufTy).Contents (Elt F) → (⟨S100000x32, .f32⟩ : BufTy).Contents (Elt F)),
    binary main_v28 main_v29 main_v30 (maximumf : (⟨S100000x32, .f32⟩ : BufTy).Contents (Elt F) → (⟨S100000x32, .f32⟩ : BufTy).Contents (Elt F) → (⟨S100000x32, .f32⟩ : BufTy).Contents (Elt F)),
    nullary main_cst_3 (constant S_ .f32 0x00000000#32),
    binary main_v30 main_cst_3 main_v31 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    nullary main_cst_4 (constant S_ .f32 0x47C35000#32),
    unary main_cst_4 main_v32 (broadcastInDim S32 ![] bcast_S_S32 : (⟨S_, .f32⟩ : BufTy).Contents (Elt F) → (⟨S32, .f32⟩ : BufTy).Contents (Elt F)),
    binary main_v31 main_v32 main_v33 (Host.divf : (⟨S32, .f32⟩ : BufTy).Contents (Elt F) → (⟨S32, .f32⟩ : BufTy).Contents (Elt F) → (⟨S32, .f32⟩ : BufTy).Contents (Elt F)),
    nullary main_c_5 (constantI S_ 32 0#32),
    TRef.nullary main_call0.cst (constant S_ .f32 0x00000000#32),
    TRef.binary (.of main_v30 : TRef sig ⟨S100000x32, .f32⟩) main_call0.cst main_call0.v0 (fun x v => Host.reduceAdd x v reducesTo_S100000x32_S32_d0 h_S_),
    TRef.unary main_call0.v0 main_call0.v1 (broadcastInDim S1x32 ![1] bcast_S32_S1x32_1),
    TRef.nullary main_call0.cst_0 (constant S_ .f32 0x47C35000#32),
    TRef.unary main_call0.cst_0 main_call0.v2 (broadcastInDim S1x32 ![] bcast_S_S1x32),
    TRef.binary main_call0.v1 main_call0.v2 main_call0.v3 Host.divf,
    TRef.unary main_call0.v3 main_call0.v4 (broadcastInDim S100000x32 ![0, 1] bcast_S1x32_S100000x32_0_1),
    TRef.binary (.of main_v30 : TRef sig ⟨S100000x32, .f32⟩) main_call0.v4 main_call0.v5 subf,
    TRef.binary main_call0.v5 main_call0.v5 main_call0.v6 mulf,
    TRef.unary (.of main_c_5 : TRef sig ⟨S_, .i32⟩) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x32_S32_d0 h_S_),
    TRef.unary main_call0.v8 main_call0.v10 (broadcastInDim S32 ![] bcast_S_S32),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S32 ![] bcast_S_S32),
    TRef.ternary main_call0.v12 main_call0.v11 main_call0.call0.v1 main_call0.call0.v2 (fun p a b => select (broadcastInDim S32 ![] bcast_S_S32 p) a b),
    unary main_v33 main_v35 (broadcastInDim S1x32 ![1] bcast_S32_S1x32_1 : (⟨S32, .f32⟩ : BufTy).Contents (Elt F) → (⟨S1x32, .f32⟩ : BufTy).Contents (Elt F)),
    unary main_v35 main_v36 (broadcastInDim S100000x32 ![0, 1] bcast_S1x32_S100000x32_0_1 : (⟨S1x32, .f32⟩ : BufTy).Contents (Elt F) → (⟨S100000x32, .f32⟩ : BufTy).Contents (Elt F)),
    binary main_v30 main_v36 main_v37 (subf : (⟨S100000x32, .f32⟩ : BufTy).Contents (Elt F) → (⟨S100000x32, .f32⟩ : BufTy).Contents (Elt F) → (⟨S100000x32, .f32⟩ : BufTy).Contents (Elt F)),
    nullary main_cst_6 (constant S_ .f32 0x3727C5AC#32),
    unary main_cst_6 main_v38 (broadcastInDim S32 ![] bcast_S_S32 : (⟨S_, .f32⟩ : BufTy).Contents (Elt F) → (⟨S32, .f32⟩ : BufTy).Contents (Elt F)),
    binary main_v34 main_v38 main_v39 (addf : (⟨S32, .f32⟩ : BufTy).Contents (Elt F) → (⟨S32, .f32⟩ : BufTy).Contents (Elt F) → (⟨S32, .f32⟩ : BufTy).Contents (Elt F)),
    unary main_v39 main_v40 (Host.rsqrt : (⟨S32, .f32⟩ : BufTy).Contents (Elt F) → (⟨S32, .f32⟩ : BufTy).Contents (Elt F)),
    unary main_v40 main_v41 (broadcastInDim S1x32 ![1] bcast_S32_S1x32_1 : (⟨S32, .f32⟩ : BufTy).Contents (Elt F) → (⟨S1x32, .f32⟩ : BufTy).Contents (Elt F)),
    unary main_v41 main_v42 (broadcastInDim S100000x32 ![0, 1] bcast_S1x32_S100000x32_0_1 : (⟨S1x32, .f32⟩ : BufTy).Contents (Elt F) → (⟨S100000x32, .f32⟩ : BufTy).Contents (Elt F)),
    binary main_v37 main_v42 main_v43 (mulf : (⟨S100000x32, .f32⟩ : BufTy).Contents (Elt F) → (⟨S100000x32, .f32⟩ : BufTy).Contents (Elt F) → (⟨S100000x32, .f32⟩ : BufTy).Contents (Elt F)),
    unary main_v5 main_v44 (broadcastInDim S1x32 ![1] bcast_S32_S1x32_1 : (⟨S32, .f32⟩ : BufTy).Contents (Elt F) → (⟨S1x32, .f32⟩ : BufTy).Contents (Elt F)),
    unary main_v44 main_v45 (broadcastInDim S100000x32 ![0, 1] bcast_S1x32_S100000x32_0_1 : (⟨S1x32, .f32⟩ : BufTy).Contents (Elt F) → (⟨S100000x32, .f32⟩ : BufTy).Contents (Elt F)),
    binary main_v43 main_v45 main_v46 (mulf : (⟨S100000x32, .f32⟩ : BufTy).Contents (Elt F) → (⟨S100000x32, .f32⟩ : BufTy).Contents (Elt F) → (⟨S100000x32, .f32⟩ : BufTy).Contents (Elt F)),
    unary main_v7 main_v47 (broadcastInDim S1x32 ![1] bcast_S32_S1x32_1 : (⟨S32, .f32⟩ : BufTy).Contents (Elt F) → (⟨S1x32, .f32⟩ : BufTy).Contents (Elt F)),
    unary main_v47 main_v48 (broadcastInDim S100000x32 ![0, 1] bcast_S1x32_S100000x32_0_1 : (⟨S1x32, .f32⟩ : BufTy).Contents (Elt F) → (⟨S100000x32, .f32⟩ : BufTy).Contents (Elt F)),
    binary main_v46 main_v48 main_v49 (addf : (⟨S100000x32, .f32⟩ : BufTy).Contents (Elt F) → (⟨S100000x32, .f32⟩ : BufTy).Contents (Elt F) → (⟨S100000x32, .f32⟩ : BufTy).Contents (Elt F)) ]

set_option maxRecDepth 8192 in
/-- The second layer: its parameter slices, the neighbour sum of the 32-wide rows, the perceptron, the statistics and the normalisation; 84 operations. -/
abbrev opsL1 : List (HloOp τ sig (Elt F)) :=
  [ unary main_arg7 main_v50 ((extractStridedSlice S1x32x32 ![0, 0, 0] · slices_S3x32x32_S1x32x32_0_0_0) : (⟨S3x32x32, .f32⟩ : BufTy).Contents (Elt F) → (⟨S1x32x32, .f32⟩ : BufTy).Contents (Elt F)),
    reshape main_v50 main_v51 rfl shapeCasts_S1x32x32_S32x32,
    unary main_arg8 main_v52 ((extractStridedSlice S1x32 ![0, 0] · slices_S3x32_S1x32_0_0) : (⟨S3x32, .f32⟩ : BufTy).Contents (Elt F) → (⟨S1x32, .f32⟩ : BufTy).Contents (Elt F)),
    reshape main_v52 main_v53 rfl shapeCasts_S1x32_S32,
    unary main_arg9 main_v54 ((extractStridedSlice S1x32x32 ![0, 0, 0] · slices_S3x32x32_S1x32x32_0_0_0) : (⟨S3x32x32, .f32⟩ : BufTy).Contents (Elt F) → (⟨S1x32x32, .f32⟩ : BufTy).Contents (Elt F)),
    reshape main_v54 main_v55 rfl shapeCasts_S1x32x32_S32x32,
    unary main_arg10 main_v56 ((extractStridedSlice S1x32 ![0, 0] · slices_S3x32_S1x32_0_0) : (⟨S3x32, .f32⟩ : BufTy).Contents (Elt F) → (⟨S1x32, .f32⟩ : BufTy).Contents (Elt F)),
    reshape main_v56 main_v57 rfl shapeCasts_S1x32_S32,
    unary main_arg11 main_v58 ((extractStridedSlice S1x32 ![1, 0] · slices_S4x32_S1x32_1_0) : (⟨S4x32, .f32⟩ : BufTy).Contents (Elt F) → (⟨S1x32, .f32⟩ : BufTy).Contents (Elt F)),
    reshape main_v58 main_v59 rfl shapeCasts_S1x32_S32,
    unary main_arg12 main_v60 ((extractStridedSlice S1x32 ![1, 0] · slices_S4x32_S1x32_1_0) : (⟨S4x32, .f32⟩ : BufTy).Contents (Elt F) → (⟨S1x32, .f32⟩ : BufTy).Contents (Elt F)),
    reshape main_v60 main_v61 rfl shapeCasts_S1x32_S32,
    nullary main_c_7 (constantI S_ 32 0#32),
    unary main_c_7 main_v62 (broadcastInDim S1600000 ![] bcast_S_S1600000 : (⟨S_, .i32⟩ : BufTy).Contents (Elt F) → (⟨S1600000, .i32⟩ : BufTy).Contents (Elt F)),
    binary main_v1 main_v62 main_v63 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v64 (broadcastInDim S1600000 ![] bcast_S_S1600000 : (⟨S_, .i32⟩ : BufTy).Contents (Elt F) → (⟨S1600000, .i32⟩ : BufTy).Contents (Elt F)),
    binary main_v1 main_v64 main_v65 (addi : (⟨S1600000, .i32⟩ : BufTy).Contents (Elt F) → (⟨S1600000, .i32⟩ : BufTy).Contents (Elt F) → (⟨S1600000, .i32⟩ : BufTy).Contents (Elt F)),
    ternary main_v63 main_v65 main_v1 main_v66 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v66 main_v67 (broadcastInDim S1600000x1 ![0] bcast_S1600000_S1600000x1_0 : (⟨S1600000, .i32⟩ : BufTy).Contents (Elt F) → (⟨S1600000x1, .i32⟩ : BufTy).Contents (Elt F)),
    binary main_v49 main_v67 main_v68 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst_9 (constant S_ .f32 0x00000000#32),
    unary main_cst_9 main_v69 (broadcastInDim S100000x32 ![] bcast_S_S100000x32 : (⟨S_, .f32⟩ : BufTy).Contents (Elt F) → (⟨S100000x32, .f32⟩ : BufTy).Contents (Elt F)),
    unary main_v3 main_v70 (broadcastInDim S1600000x1 ![0] bcast_S1600000_S1600000x1_0 : (⟨S1600000, .i32⟩ : BufTy).Contents (Elt F) → (⟨S1600000x1, .i32⟩ : BufTy).Contents (Elt F)),
    ternary main_v69 main_v70 main_v68 main_v71 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    binary main_v71 main_v49 main_v72 (addf : (⟨S100000x32, .f32⟩ : BufTy).Contents (Elt F) → (⟨S100000x32, .f32⟩ : BufTy).Contents (Elt F) → (⟨S100000x32, .f32⟩ : BufTy).Contents (Elt F)),
    binary main_v72 main_v51 main_v73 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    unary main_v53 main_v74 (broadcastInDim S1x32 ![1] bcast_S32_S1x32_1 : (⟨S32, .f32⟩ : BufTy).Contents (Elt F) → (⟨S1x32, .f32⟩ : BufTy).Contents (Elt F)),
    unary main_v74 main_v75 (broadcastInDim S100000x32 ![0, 1] bcast_S1x32_S100000x32_0_1 : (⟨S1x32, .f32⟩ : BufTy).Contents (Elt F) → (⟨S100000x32, .f32⟩ : BufTy).Contents (Elt F)),
    binary main_v73 main_v75 main_v76 (addf : (⟨S100000x32, .f32⟩ : BufTy).Contents (Elt F) → (⟨S100000x32, .f32⟩ : BufTy).Contents (Elt F) → (⟨S100000x32, .f32⟩ : BufTy).Contents (Elt F)),
    nullary main_cst_10 (constant S_ .f32 0x00000000#32),
    unary main_cst_10 main_v77 (broadcastInDim S100000x32 ![] bcast_S_S100000x32 : (⟨S_, .f32⟩ : BufTy).Contents (Elt F) → (⟨S100000x32, .f32⟩ : BufTy).Contents (Elt F)),
    binary main_v76 main_v77 main_v78 (maximumf : (⟨S100000x32, .f32⟩ : BufTy).Contents (Elt F) → (⟨S100000x32, .f32⟩ : BufTy).Contents (Elt F) → (⟨S100000x32, .f32⟩ : BufTy).Contents (Elt F)),
    binary main_v78 main_v55 main_v79 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    unary main_v57 main_v80 (broadcastInDim S1x32 ![1] bcast_S32_S1x32_1 : (⟨S32, .f32⟩ : BufTy).Contents (Elt F) → (⟨S1x32, .f32⟩ : BufTy).Contents (Elt F)),
    unary main_v80 main_v81 (broadcastInDim S100000x32 ![0, 1] bcast_S1x32_S100000x32_0_1 : (⟨S1x32, .f32⟩ : BufTy).Contents (Elt F) → (⟨S100000x32, .f32⟩ : BufTy).Contents (Elt F)),
    binary main_v79 main_v81 main_v82 (addf : (⟨S100000x32, .f32⟩ : BufTy).Contents (Elt F) → (⟨S100000x32, .f32⟩ : BufTy).Contents (Elt F) → (⟨S100000x32, .f32⟩ : BufTy).Contents (Elt F)),
    nullary main_cst_11 (constant S_ .f32 0x00000000#32),
    unary main_cst_11 main_v83 (broadcastInDim S100000x32 ![] bcast_S_S100000x32 : (⟨S_, .f32⟩ : BufTy).Contents (Elt F) → (⟨S100000x32, .f32⟩ : BufTy).Contents (Elt F)),
    binary main_v82 main_v83 main_v84 (maximumf : (⟨S100000x32, .f32⟩ : BufTy).Contents (Elt F) → (⟨S100000x32, .f32⟩ : BufTy).Contents (Elt F) → (⟨S100000x32, .f32⟩ : BufTy).Contents (Elt F)),
    nullary main_cst_12 (constant S_ .f32 0x00000000#32),
    binary main_v84 main_cst_12 main_v85 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    nullary main_cst_13 (constant S_ .f32 0x47C35000#32),
    unary main_cst_13 main_v86 (broadcastInDim S32 ![] bcast_S_S32 : (⟨S_, .f32⟩ : BufTy).Contents (Elt F) → (⟨S32, .f32⟩ : BufTy).Contents (Elt F)),
    binary main_v85 main_v86 main_v87 (Host.divf : (⟨S32, .f32⟩ : BufTy).Contents (Elt F) → (⟨S32, .f32⟩ : BufTy).Contents (Elt F) → (⟨S32, .f32⟩ : BufTy).Contents (Elt F)),
    nullary main_c_14 (constantI S_ 32 0#32),
    TRef.nullary main_call1.cst (constant S_ .f32 0x00000000#32),
    TRef.binary (.of main_v84 : TRef sig ⟨S100000x32, .f32⟩) main_call1.cst main_call1.v0 (fun x v => Host.reduceAdd x v reducesTo_S100000x32_S32_d0 h_S_),
    TRef.unary main_call1.v0 main_call1.v1 (broadcastInDim S1x32 ![1] bcast_S32_S1x32_1),
    TRef.nullary main_call1.cst_0 (constant S_ .f32 0x47C35000#32),
    TRef.unary main_call1.cst_0 main_call1.v2 (broadcastInDim S1x32 ![] bcast_S_S1x32),
    TRef.binary main_call1.v1 main_call1.v2 main_call1.v3 Host.divf,
    TRef.unary main_call1.v3 main_call1.v4 (broadcastInDim S100000x32 ![0, 1] bcast_S1x32_S100000x32_0_1),
    TRef.binary (.of main_v84 : TRef sig ⟨S100000x32, .f32⟩) main_call1.v4 main_call1.v5 subf,
    TRef.binary main_call1.v5 main_call1.v5 main_call1.v6 mulf,
    TRef.unary (.of main_c_14 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x32_S32_d0 h_S_),
    TRef.unary main_call1.v8 main_call1.v10 (broadcastInDim S32 ![] bcast_S_S32),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S32 ![] bcast_S_S32),
    TRef.ternary main_call1.v12 main_call1.v11 main_call1.call0.v1 main_call1.call0.v2 (fun p a b => select (broadcastInDim S32 ![] bcast_S_S32 p) a b),
    unary main_v87 main_v89 (broadcastInDim S1x32 ![1] bcast_S32_S1x32_1 : (⟨S32, .f32⟩ : BufTy).Contents (Elt F) → (⟨S1x32, .f32⟩ : BufTy).Contents (Elt F)),
    unary main_v89 main_v90 (broadcastInDim S100000x32 ![0, 1] bcast_S1x32_S100000x32_0_1 : (⟨S1x32, .f32⟩ : BufTy).Contents (Elt F) → (⟨S100000x32, .f32⟩ : BufTy).Contents (Elt F)),
    binary main_v84 main_v90 main_v91 (subf : (⟨S100000x32, .f32⟩ : BufTy).Contents (Elt F) → (⟨S100000x32, .f32⟩ : BufTy).Contents (Elt F) → (⟨S100000x32, .f32⟩ : BufTy).Contents (Elt F)),
    nullary main_cst_15 (constant S_ .f32 0x3727C5AC#32),
    unary main_cst_15 main_v92 (broadcastInDim S32 ![] bcast_S_S32 : (⟨S_, .f32⟩ : BufTy).Contents (Elt F) → (⟨S32, .f32⟩ : BufTy).Contents (Elt F)),
    binary main_v88 main_v92 main_v93 (addf : (⟨S32, .f32⟩ : BufTy).Contents (Elt F) → (⟨S32, .f32⟩ : BufTy).Contents (Elt F) → (⟨S32, .f32⟩ : BufTy).Contents (Elt F)),
    unary main_v93 main_v94 (Host.rsqrt : (⟨S32, .f32⟩ : BufTy).Contents (Elt F) → (⟨S32, .f32⟩ : BufTy).Contents (Elt F)),
    unary main_v94 main_v95 (broadcastInDim S1x32 ![1] bcast_S32_S1x32_1 : (⟨S32, .f32⟩ : BufTy).Contents (Elt F) → (⟨S1x32, .f32⟩ : BufTy).Contents (Elt F)),
    unary main_v95 main_v96 (broadcastInDim S100000x32 ![0, 1] bcast_S1x32_S100000x32_0_1 : (⟨S1x32, .f32⟩ : BufTy).Contents (Elt F) → (⟨S100000x32, .f32⟩ : BufTy).Contents (Elt F)),
    binary main_v91 main_v96 main_v97 (mulf : (⟨S100000x32, .f32⟩ : BufTy).Contents (Elt F) → (⟨S100000x32, .f32⟩ : BufTy).Contents (Elt F) → (⟨S100000x32, .f32⟩ : BufTy).Contents (Elt F)),
    unary main_v59 main_v98 (broadcastInDim S1x32 ![1] bcast_S32_S1x32_1 : (⟨S32, .f32⟩ : BufTy).Contents (Elt F) → (⟨S1x32, .f32⟩ : BufTy).Contents (Elt F)),
    unary main_v98 main_v99 (broadcastInDim S100000x32 ![0, 1] bcast_S1x32_S100000x32_0_1 : (⟨S1x32, .f32⟩ : BufTy).Contents (Elt F) → (⟨S100000x32, .f32⟩ : BufTy).Contents (Elt F)),
    binary main_v97 main_v99 main_v100 (mulf : (⟨S100000x32, .f32⟩ : BufTy).Contents (Elt F) → (⟨S100000x32, .f32⟩ : BufTy).Contents (Elt F) → (⟨S100000x32, .f32⟩ : BufTy).Contents (Elt F)),
    unary main_v61 main_v101 (broadcastInDim S1x32 ![1] bcast_S32_S1x32_1 : (⟨S32, .f32⟩ : BufTy).Contents (Elt F) → (⟨S1x32, .f32⟩ : BufTy).Contents (Elt F)),
    unary main_v101 main_v102 (broadcastInDim S100000x32 ![0, 1] bcast_S1x32_S100000x32_0_1 : (⟨S1x32, .f32⟩ : BufTy).Contents (Elt F) → (⟨S100000x32, .f32⟩ : BufTy).Contents (Elt F)),
    binary main_v100 main_v102 main_v103 (addf : (⟨S100000x32, .f32⟩ : BufTy).Contents (Elt F) → (⟨S100000x32, .f32⟩ : BufTy).Contents (Elt F) → (⟨S100000x32, .f32⟩ : BufTy).Contents (Elt F)) ]

set_option maxRecDepth 8192 in
/-- The third layer, likewise; 84 operations. -/
abbrev opsL2 : List (HloOp τ sig (Elt F)) :=
  [ unary main_arg7 main_v104 ((extractStridedSlice S1x32x32 ![1, 0, 0] · slices_S3x32x32_S1x32x32_1_0_0) : (⟨S3x32x32, .f32⟩ : BufTy).Contents (Elt F) → (⟨S1x32x32, .f32⟩ : BufTy).Contents (Elt F)),
    reshape main_v104 main_v105 rfl shapeCasts_S1x32x32_S32x32,
    unary main_arg8 main_v106 ((extractStridedSlice S1x32 ![1, 0] · slices_S3x32_S1x32_1_0) : (⟨S3x32, .f32⟩ : BufTy).Contents (Elt F) → (⟨S1x32, .f32⟩ : BufTy).Contents (Elt F)),
    reshape main_v106 main_v107 rfl shapeCasts_S1x32_S32,
    unary main_arg9 main_v108 ((extractStridedSlice S1x32x32 ![1, 0, 0] · slices_S3x32x32_S1x32x32_1_0_0) : (⟨S3x32x32, .f32⟩ : BufTy).Contents (Elt F) → (⟨S1x32x32, .f32⟩ : BufTy).Contents (Elt F)),
    reshape main_v108 main_v109 rfl shapeCasts_S1x32x32_S32x32,
    unary main_arg10 main_v110 ((extractStridedSlice S1x32 ![1, 0] · slices_S3x32_S1x32_1_0) : (⟨S3x32, .f32⟩ : BufTy).Contents (Elt F) → (⟨S1x32, .f32⟩ : BufTy).Contents (Elt F)),
    reshape main_v110 main_v111 rfl shapeCasts_S1x32_S32,
    unary main_arg11 main_v112 ((extractStridedSlice S1x32 ![2, 0] · slices_S4x32_S1x32_2_0) : (⟨S4x32, .f32⟩ : BufTy).Contents (Elt F) → (⟨S1x32, .f32⟩ : BufTy).Contents (Elt F)),
    reshape main_v112 main_v113 rfl shapeCasts_S1x32_S32,
    unary main_arg12 main_v114 ((extractStridedSlice S1x32 ![2, 0] · slices_S4x32_S1x32_2_0) : (⟨S4x32, .f32⟩ : BufTy).Contents (Elt F) → (⟨S1x32, .f32⟩ : BufTy).Contents (Elt F)),
    reshape main_v114 main_v115 rfl shapeCasts_S1x32_S32,
    nullary main_c_16 (constantI S_ 32 0#32),
    unary main_c_16 main_v116 (broadcastInDim S1600000 ![] bcast_S_S1600000 : (⟨S_, .i32⟩ : BufTy).Contents (Elt F) → (⟨S1600000, .i32⟩ : BufTy).Contents (Elt F)),
    binary main_v1 main_v116 main_v117 (cmpi .slt : (⟨S1600000, .i32⟩ : BufTy).Contents (Elt F) → (⟨S1600000, .i32⟩ : BufTy).Contents (Elt F) → (⟨S1600000, .i1⟩ : BufTy).Contents (Elt F)),
    nullary main_c_17 (constantI S_ 32 100000#32),
    unary main_c_17 main_v118 (broadcastInDim S1600000 ![] bcast_S_S1600000 : (⟨S_, .i32⟩ : BufTy).Contents (Elt F) → (⟨S1600000, .i32⟩ : BufTy).Contents (Elt F)),
    binary main_v1 main_v118 main_v119 (addi : (⟨S1600000, .i32⟩ : BufTy).Contents (Elt F) → (⟨S1600000, .i32⟩ : BufTy).Contents (Elt F) → (⟨S1600000, .i32⟩ : BufTy).Contents (Elt F)),
    ternary main_v117 main_v119 main_v1 main_v120 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v120 main_v121 (broadcastInDim S1600000x1 ![0] bcast_S1600000_S1600000x1_0 : (⟨S1600000, .i32⟩ : BufTy).Contents (Elt F) → (⟨S1600000x1, .i32⟩ : BufTy).Contents (Elt F)),
    binary main_v103 main_v121 main_v122 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst_18 (constant S_ .f32 0x00000000#32),
    unary main_cst_18 main_v123 (broadcastInDim S100000x32 ![] bcast_S_S100000x32 : (⟨S_, .f32⟩ : BufTy).Contents (Elt F) → (⟨S100000x32, .f32⟩ : BufTy).Contents (Elt F)),
    unary main_v3 main_v124 (broadcastInDim S1600000x1 ![0] bcast_S1600000_S1600000x1_0 : (⟨S1600000, .i32⟩ : BufTy).Contents (Elt F) → (⟨S1600000x1, .i32⟩ : BufTy).Contents (Elt F)),
    ternary main_v123 main_v124 main_v122 main_v125 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    binary main_v125 main_v103 main_v126 (addf : (⟨S100000x32, .f32⟩ : BufTy).Contents (Elt F) → (⟨S100000x32, .f32⟩ : BufTy).Contents (Elt F) → (⟨S100000x32, .f32⟩ : BufTy).Contents (Elt F)),
    binary main_v126 main_v105 main_v127 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    unary main_v107 main_v128 (broadcastInDim S1x32 ![1] bcast_S32_S1x32_1 : (⟨S32, .f32⟩ : BufTy).Contents (Elt F) → (⟨S1x32, .f32⟩ : BufTy).Contents (Elt F)),
    unary main_v128 main_v129 (broadcastInDim S100000x32 ![0, 1] bcast_S1x32_S100000x32_0_1 : (⟨S1x32, .f32⟩ : BufTy).Contents (Elt F) → (⟨S100000x32, .f32⟩ : BufTy).Contents (Elt F)),
    binary main_v127 main_v129 main_v130 (addf : (⟨S100000x32, .f32⟩ : BufTy).Contents (Elt F) → (⟨S100000x32, .f32⟩ : BufTy).Contents (Elt F) → (⟨S100000x32, .f32⟩ : BufTy).Contents (Elt F)),
    nullary main_cst_19 (constant S_ .f32 0x00000000#32),
    unary main_cst_19 main_v131 (broadcastInDim S100000x32 ![] bcast_S_S100000x32 : (⟨S_, .f32⟩ : BufTy).Contents (Elt F) → (⟨S100000x32, .f32⟩ : BufTy).Contents (Elt F)),
    binary main_v130 main_v131 main_v132 (maximumf : (⟨S100000x32, .f32⟩ : BufTy).Contents (Elt F) → (⟨S100000x32, .f32⟩ : BufTy).Contents (Elt F) → (⟨S100000x32, .f32⟩ : BufTy).Contents (Elt F)),
    binary main_v132 main_v109 main_v133 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    unary main_v111 main_v134 (broadcastInDim S1x32 ![1] bcast_S32_S1x32_1 : (⟨S32, .f32⟩ : BufTy).Contents (Elt F) → (⟨S1x32, .f32⟩ : BufTy).Contents (Elt F)),
    unary main_v134 main_v135 (broadcastInDim S100000x32 ![0, 1] bcast_S1x32_S100000x32_0_1 : (⟨S1x32, .f32⟩ : BufTy).Contents (Elt F) → (⟨S100000x32, .f32⟩ : BufTy).Contents (Elt F)),
    binary main_v133 main_v135 main_v136 (addf : (⟨S100000x32, .f32⟩ : BufTy).Contents (Elt F) → (⟨S100000x32, .f32⟩ : BufTy).Contents (Elt F) → (⟨S100000x32, .f32⟩ : BufTy).Contents (Elt F)),
    nullary main_cst_20 (constant S_ .f32 0x00000000#32),
    unary main_cst_20 main_v137 (broadcastInDim S100000x32 ![] bcast_S_S100000x32 : (⟨S_, .f32⟩ : BufTy).Contents (Elt F) → (⟨S100000x32, .f32⟩ : BufTy).Contents (Elt F)),
    binary main_v136 main_v137 main_v138 (maximumf : (⟨S100000x32, .f32⟩ : BufTy).Contents (Elt F) → (⟨S100000x32, .f32⟩ : BufTy).Contents (Elt F) → (⟨S100000x32, .f32⟩ : BufTy).Contents (Elt F)),
    nullary main_cst_21 (constant S_ .f32 0x00000000#32),
    binary main_v138 main_cst_21 main_v139 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    nullary main_cst_22 (constant S_ .f32 0x47C35000#32),
    unary main_cst_22 main_v140 (broadcastInDim S32 ![] bcast_S_S32 : (⟨S_, .f32⟩ : BufTy).Contents (Elt F) → (⟨S32, .f32⟩ : BufTy).Contents (Elt F)),
    binary main_v139 main_v140 main_v141 (Host.divf : (⟨S32, .f32⟩ : BufTy).Contents (Elt F) → (⟨S32, .f32⟩ : BufTy).Contents (Elt F) → (⟨S32, .f32⟩ : BufTy).Contents (Elt F)),
    nullary main_c_23 (constantI S_ 32 0#32),
    TRef.nullary main_call2.cst (constant S_ .f32 0x00000000#32),
    TRef.binary (.of main_v138 : TRef sig ⟨S100000x32, .f32⟩) main_call2.cst main_call2.v0 (fun x v => Host.reduceAdd x v reducesTo_S100000x32_S32_d0 h_S_),
    TRef.unary main_call2.v0 main_call2.v1 (broadcastInDim S1x32 ![1] bcast_S32_S1x32_1),
    TRef.nullary main_call2.cst_0 (constant S_ .f32 0x47C35000#32),
    TRef.unary main_call2.cst_0 main_call2.v2 (broadcastInDim S1x32 ![] bcast_S_S1x32),
    TRef.binary main_call2.v1 main_call2.v2 main_call2.v3 Host.divf,
    TRef.unary main_call2.v3 main_call2.v4 (broadcastInDim S100000x32 ![0, 1] bcast_S1x32_S100000x32_0_1),
    TRef.binary (.of main_v138 : TRef sig ⟨S100000x32, .f32⟩) main_call2.v4 main_call2.v5 subf,
    TRef.binary main_call2.v5 main_call2.v5 main_call2.v6 mulf,
    TRef.unary (.of main_c_23 : TRef sig ⟨S_, .i32⟩) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x32_S32_d0 h_S_),
    TRef.unary main_call2.v8 main_call2.v10 (broadcastInDim S32 ![] bcast_S_S32),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S32 ![] bcast_S_S32),
    TRef.ternary main_call2.v12 main_call2.v11 main_call2.call0.v1 main_call2.call0.v2 (fun p a b => select (broadcastInDim S32 ![] bcast_S_S32 p) a b),
    unary main_v141 main_v143 (broadcastInDim S1x32 ![1] bcast_S32_S1x32_1 : (⟨S32, .f32⟩ : BufTy).Contents (Elt F) → (⟨S1x32, .f32⟩ : BufTy).Contents (Elt F)),
    unary main_v143 main_v144 (broadcastInDim S100000x32 ![0, 1] bcast_S1x32_S100000x32_0_1 : (⟨S1x32, .f32⟩ : BufTy).Contents (Elt F) → (⟨S100000x32, .f32⟩ : BufTy).Contents (Elt F)),
    binary main_v138 main_v144 main_v145 (subf : (⟨S100000x32, .f32⟩ : BufTy).Contents (Elt F) → (⟨S100000x32, .f32⟩ : BufTy).Contents (Elt F) → (⟨S100000x32, .f32⟩ : BufTy).Contents (Elt F)),
    nullary main_cst_24 (constant S_ .f32 0x3727C5AC#32),
    unary main_cst_24 main_v146 (broadcastInDim S32 ![] bcast_S_S32 : (⟨S_, .f32⟩ : BufTy).Contents (Elt F) → (⟨S32, .f32⟩ : BufTy).Contents (Elt F)),
    binary main_v142 main_v146 main_v147 (addf : (⟨S32, .f32⟩ : BufTy).Contents (Elt F) → (⟨S32, .f32⟩ : BufTy).Contents (Elt F) → (⟨S32, .f32⟩ : BufTy).Contents (Elt F)),
    unary main_v147 main_v148 (Host.rsqrt : (⟨S32, .f32⟩ : BufTy).Contents (Elt F) → (⟨S32, .f32⟩ : BufTy).Contents (Elt F)),
    unary main_v148 main_v149 (broadcastInDim S1x32 ![1] bcast_S32_S1x32_1 : (⟨S32, .f32⟩ : BufTy).Contents (Elt F) → (⟨S1x32, .f32⟩ : BufTy).Contents (Elt F)),
    unary main_v149 main_v150 (broadcastInDim S100000x32 ![0, 1] bcast_S1x32_S100000x32_0_1 : (⟨S1x32, .f32⟩ : BufTy).Contents (Elt F) → (⟨S100000x32, .f32⟩ : BufTy).Contents (Elt F)),
    binary main_v145 main_v150 main_v151 (mulf : (⟨S100000x32, .f32⟩ : BufTy).Contents (Elt F) → (⟨S100000x32, .f32⟩ : BufTy).Contents (Elt F) → (⟨S100000x32, .f32⟩ : BufTy).Contents (Elt F)),
    unary main_v113 main_v152 (broadcastInDim S1x32 ![1] bcast_S32_S1x32_1 : (⟨S32, .f32⟩ : BufTy).Contents (Elt F) → (⟨S1x32, .f32⟩ : BufTy).Contents (Elt F)),
    unary main_v152 main_v153 (broadcastInDim S100000x32 ![0, 1] bcast_S1x32_S100000x32_0_1 : (⟨S1x32, .f32⟩ : BufTy).Contents (Elt F) → (⟨S100000x32, .f32⟩ : BufTy).Contents (Elt F)),
    binary main_v151 main_v153 main_v154 (mulf : (⟨S100000x32, .f32⟩ : BufTy).Contents (Elt F) → (⟨S100000x32, .f32⟩ : BufTy).Contents (Elt F) → (⟨S100000x32, .f32⟩ : BufTy).Contents (Elt F)),
    unary main_v115 main_v155 (broadcastInDim S1x32 ![1] bcast_S32_S1x32_1 : (⟨S32, .f32⟩ : BufTy).Contents (Elt F) → (⟨S1x32, .f32⟩ : BufTy).Contents (Elt F)),
    unary main_v155 main_v156 (broadcastInDim S100000x32 ![0, 1] bcast_S1x32_S100000x32_0_1 : (⟨S1x32, .f32⟩ : BufTy).Contents (Elt F) → (⟨S100000x32, .f32⟩ : BufTy).Contents (Elt F)),
    binary main_v154 main_v156 main_v157 (addf : (⟨S100000x32, .f32⟩ : BufTy).Contents (Elt F) → (⟨S100000x32, .f32⟩ : BufTy).Contents (Elt F) → (⟨S100000x32, .f32⟩ : BufTy).Contents (Elt F)) ]

set_option maxRecDepth 8192 in
/-- The fourth layer, likewise; 84 operations. -/
abbrev opsL3 : List (HloOp τ sig (Elt F)) :=
  [ unary main_arg7 main_v158 ((extractStridedSlice S1x32x32 ![2, 0, 0] · slices_S3x32x32_S1x32x32_2_0_0) : (⟨S3x32x32, .f32⟩ : BufTy).Contents (Elt F) → (⟨S1x32x32, .f32⟩ : BufTy).Contents (Elt F)),
    reshape main_v158 main_v159 rfl shapeCasts_S1x32x32_S32x32,
    unary main_arg8 main_v160 ((extractStridedSlice S1x32 ![2, 0] · slices_S3x32_S1x32_2_0) : (⟨S3x32, .f32⟩ : BufTy).Contents (Elt F) → (⟨S1x32, .f32⟩ : BufTy).Contents (Elt F)),
    reshape main_v160 main_v161 rfl shapeCasts_S1x32_S32,
    unary main_arg9 main_v162 ((extractStridedSlice S1x32x32 ![2, 0, 0] · slices_S3x32x32_S1x32x32_2_0_0) : (⟨S3x32x32, .f32⟩ : BufTy).Contents (Elt F) → (⟨S1x32x32, .f32⟩ : BufTy).Contents (Elt F)),
    reshape main_v162 main_v163 rfl shapeCasts_S1x32x32_S32x32,
    unary main_arg10 main_v164 ((extractStridedSlice S1x32 ![2, 0] · slices_S3x32_S1x32_2_0) : (⟨S3x32, .f32⟩ : BufTy).Contents (Elt F) → (⟨S1x32, .f32⟩ : BufTy).Contents (Elt F)),
    reshape main_v164 main_v165 rfl shapeCasts_S1x32_S32,
    unary main_arg11 main_v166 ((extractStridedSlice S1x32 ![3, 0] · slices_S4x32_S1x32_3_0) : (⟨S4x32, .f32⟩ : BufTy).Contents (Elt F) → (⟨S1x32, .f32⟩ : BufTy).Contents (Elt F)),
    reshape main_v166 main_v167 rfl shapeCasts_S1x32_S32,
    unary main_arg12 main_v168 ((extractStridedSlice S1x32 ![3, 0] · slices_S4x32_S1x32_3_0) : (⟨S4x32, .f32⟩ : BufTy).Contents (Elt F) → (⟨S1x32, .f32⟩ : BufTy).Contents (Elt F)),
    reshape main_v168 main_v169 rfl shapeCasts_S1x32_S32,
    nullary main_c_25 (constantI S_ 32 0#32),
    unary main_c_25 main_v170 (broadcastInDim S1600000 ![] bcast_S_S1600000 : (⟨S_, .i32⟩ : BufTy).Contents (Elt F) → (⟨S1600000, .i32⟩ : BufTy).Contents (Elt F)),
    binary main_v1 main_v170 main_v171 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 100000#32),
    unary main_c_26 main_v172 (broadcastInDim S1600000 ![] bcast_S_S1600000 : (⟨S_, .i32⟩ : BufTy).Contents (Elt F) → (⟨S1600000, .i32⟩ : BufTy).Contents (Elt F)),
    binary main_v1 main_v172 main_v173 (addi : (⟨S1600000, .i32⟩ : BufTy).Contents (Elt F) → (⟨S1600000, .i32⟩ : BufTy).Contents (Elt F) → (⟨S1600000, .i32⟩ : BufTy).Contents (Elt F)),
    ternary main_v171 main_v173 main_v1 main_v174 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v174 main_v175 (broadcastInDim S1600000x1 ![0] bcast_S1600000_S1600000x1_0 : (⟨S1600000, .i32⟩ : BufTy).Contents (Elt F) → (⟨S1600000x1, .i32⟩ : BufTy).Contents (Elt F)),
    binary main_v157 main_v175 main_v176 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    nullary main_cst_27 (constant S_ .f32 0x00000000#32),
    unary main_cst_27 main_v177 (broadcastInDim S100000x32 ![] bcast_S_S100000x32 : (⟨S_, .f32⟩ : BufTy).Contents (Elt F) → (⟨S100000x32, .f32⟩ : BufTy).Contents (Elt F)),
    unary main_v3 main_v178 (broadcastInDim S1600000x1 ![0] bcast_S1600000_S1600000x1_0 : (⟨S1600000, .i32⟩ : BufTy).Contents (Elt F) → (⟨S1600000x1, .i32⟩ : BufTy).Contents (Elt F)),
    ternary main_v177 main_v178 main_v176 main_v179 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    binary main_v179 main_v157 main_v180 (addf : (⟨S100000x32, .f32⟩ : BufTy).Contents (Elt F) → (⟨S100000x32, .f32⟩ : BufTy).Contents (Elt F) → (⟨S100000x32, .f32⟩ : BufTy).Contents (Elt F)),
    binary main_v180 main_v159 main_v181 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    unary main_v161 main_v182 (broadcastInDim S1x32 ![1] bcast_S32_S1x32_1 : (⟨S32, .f32⟩ : BufTy).Contents (Elt F) → (⟨S1x32, .f32⟩ : BufTy).Contents (Elt F)),
    unary main_v182 main_v183 (broadcastInDim S100000x32 ![0, 1] bcast_S1x32_S100000x32_0_1 : (⟨S1x32, .f32⟩ : BufTy).Contents (Elt F) → (⟨S100000x32, .f32⟩ : BufTy).Contents (Elt F)),
    binary main_v181 main_v183 main_v184 (addf : (⟨S100000x32, .f32⟩ : BufTy).Contents (Elt F) → (⟨S100000x32, .f32⟩ : BufTy).Contents (Elt F) → (⟨S100000x32, .f32⟩ : BufTy).Contents (Elt F)),
    nullary main_cst_28 (constant S_ .f32 0x00000000#32),
    unary main_cst_28 main_v185 (broadcastInDim S100000x32 ![] bcast_S_S100000x32 : (⟨S_, .f32⟩ : BufTy).Contents (Elt F) → (⟨S100000x32, .f32⟩ : BufTy).Contents (Elt F)),
    binary main_v184 main_v185 main_v186 (maximumf : (⟨S100000x32, .f32⟩ : BufTy).Contents (Elt F) → (⟨S100000x32, .f32⟩ : BufTy).Contents (Elt F) → (⟨S100000x32, .f32⟩ : BufTy).Contents (Elt F)),
    binary main_v186 main_v163 main_v187 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    unary main_v165 main_v188 (broadcastInDim S1x32 ![1] bcast_S32_S1x32_1 : (⟨S32, .f32⟩ : BufTy).Contents (Elt F) → (⟨S1x32, .f32⟩ : BufTy).Contents (Elt F)),
    unary main_v188 main_v189 (broadcastInDim S100000x32 ![0, 1] bcast_S1x32_S100000x32_0_1 : (⟨S1x32, .f32⟩ : BufTy).Contents (Elt F) → (⟨S100000x32, .f32⟩ : BufTy).Contents (Elt F)),
    binary main_v187 main_v189 main_v190 (addf : (⟨S100000x32, .f32⟩ : BufTy).Contents (Elt F) → (⟨S100000x32, .f32⟩ : BufTy).Contents (Elt F) → (⟨S100000x32, .f32⟩ : BufTy).Contents (Elt F)),
    nullary main_cst_29 (constant S_ .f32 0x00000000#32),
    unary main_cst_29 main_v191 (broadcastInDim S100000x32 ![] bcast_S_S100000x32 : (⟨S_, .f32⟩ : BufTy).Contents (Elt F) → (⟨S100000x32, .f32⟩ : BufTy).Contents (Elt F)),
    binary main_v190 main_v191 main_v192 (maximumf : (⟨S100000x32, .f32⟩ : BufTy).Contents (Elt F) → (⟨S100000x32, .f32⟩ : BufTy).Contents (Elt F) → (⟨S100000x32, .f32⟩ : BufTy).Contents (Elt F)),
    nullary main_cst_30 (constant S_ .f32 0x00000000#32),
    binary main_v192 main_cst_30 main_v193 ((fun x v => Host.reduceAdd x v reducesTo_S100000x32_S32_d0 h_S_) : (⟨S100000x32, .f32⟩ : BufTy).Contents (Elt F) → (⟨S_, .f32⟩ : BufTy).Contents (Elt F) → (⟨S32, .f32⟩ : BufTy).Contents (Elt F)),
    nullary main_cst_31 (constant S_ .f32 0x47C35000#32),
    unary main_cst_31 main_v194 (broadcastInDim S32 ![] bcast_S_S32 : (⟨S_, .f32⟩ : BufTy).Contents (Elt F) → (⟨S32, .f32⟩ : BufTy).Contents (Elt F)),
    binary main_v193 main_v194 main_v195 (Host.divf : (⟨S32, .f32⟩ : BufTy).Contents (Elt F) → (⟨S32, .f32⟩ : BufTy).Contents (Elt F) → (⟨S32, .f32⟩ : BufTy).Contents (Elt F)),
    nullary main_c_32 (constantI S_ 32 0#32),
    TRef.nullary main_call3.cst (constant S_ .f32 0x00000000#32),
    TRef.binary (.of main_v192 : TRef sig ⟨S100000x32, .f32⟩) main_call3.cst main_call3.v0 (fun x v => Host.reduceAdd x v reducesTo_S100000x32_S32_d0 h_S_),
    TRef.unary main_call3.v0 main_call3.v1 (broadcastInDim S1x32 ![1] bcast_S32_S1x32_1),
    TRef.nullary main_call3.cst_0 (constant S_ .f32 0x47C35000#32),
    TRef.unary main_call3.cst_0 main_call3.v2 (broadcastInDim S1x32 ![] bcast_S_S1x32),
    TRef.binary main_call3.v1 main_call3.v2 main_call3.v3 Host.divf,
    TRef.unary main_call3.v3 main_call3.v4 (broadcastInDim S100000x32 ![0, 1] bcast_S1x32_S100000x32_0_1),
    TRef.binary (.of main_v192 : TRef sig ⟨S100000x32, .f32⟩) main_call3.v4 main_call3.v5 subf,
    TRef.binary main_call3.v5 main_call3.v5 main_call3.v6 mulf,
    TRef.unary (.of main_c_32 : TRef sig ⟨S_, .i32⟩) main_call3.v7 (sitofp .f32),
    TRef.nullary main_call3.cst_1 (constant S_ .f32 0x47C35000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x32_S32_d0 h_S_),
    TRef.unary main_call3.v8 main_call3.v10 (broadcastInDim S32 ![] bcast_S_S32),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S32 ![] bcast_S_S32),
    TRef.ternary main_call3.v12 main_call3.v11 main_call3.call0.v1 main_call3.call0.v2 (fun p a b => select (broadcastInDim S32 ![] bcast_S_S32 p) a b),
    unary main_v195 main_v197 (broadcastInDim S1x32 ![1] bcast_S32_S1x32_1 : (⟨S32, .f32⟩ : BufTy).Contents (Elt F) → (⟨S1x32, .f32⟩ : BufTy).Contents (Elt F)),
    unary main_v197 main_v198 (broadcastInDim S100000x32 ![0, 1] bcast_S1x32_S100000x32_0_1 : (⟨S1x32, .f32⟩ : BufTy).Contents (Elt F) → (⟨S100000x32, .f32⟩ : BufTy).Contents (Elt F)),
    binary main_v192 main_v198 main_v199 (subf : (⟨S100000x32, .f32⟩ : BufTy).Contents (Elt F) → (⟨S100000x32, .f32⟩ : BufTy).Contents (Elt F) → (⟨S100000x32, .f32⟩ : BufTy).Contents (Elt F)),
    nullary main_cst_33 (constant S_ .f32 0x3727C5AC#32),
    unary main_cst_33 main_v200 (broadcastInDim S32 ![] bcast_S_S32 : (⟨S_, .f32⟩ : BufTy).Contents (Elt F) → (⟨S32, .f32⟩ : BufTy).Contents (Elt F)),
    binary main_v196 main_v200 main_v201 (addf : (⟨S32, .f32⟩ : BufTy).Contents (Elt F) → (⟨S32, .f32⟩ : BufTy).Contents (Elt F) → (⟨S32, .f32⟩ : BufTy).Contents (Elt F)),
    unary main_v201 main_v202 (Host.rsqrt : (⟨S32, .f32⟩ : BufTy).Contents (Elt F) → (⟨S32, .f32⟩ : BufTy).Contents (Elt F)),
    unary main_v202 main_v203 (broadcastInDim S1x32 ![1] bcast_S32_S1x32_1 : (⟨S32, .f32⟩ : BufTy).Contents (Elt F) → (⟨S1x32, .f32⟩ : BufTy).Contents (Elt F)),
    unary main_v203 main_v204 (broadcastInDim S100000x32 ![0, 1] bcast_S1x32_S100000x32_0_1 : (⟨S1x32, .f32⟩ : BufTy).Contents (Elt F) → (⟨S100000x32, .f32⟩ : BufTy).Contents (Elt F)),
    binary main_v199 main_v204 main_v205 (mulf : (⟨S100000x32, .f32⟩ : BufTy).Contents (Elt F) → (⟨S100000x32, .f32⟩ : BufTy).Contents (Elt F) → (⟨S100000x32, .f32⟩ : BufTy).Contents (Elt F)),
    unary main_v167 main_v206 (broadcastInDim S1x32 ![1] bcast_S32_S1x32_1 : (⟨S32, .f32⟩ : BufTy).Contents (Elt F) → (⟨S1x32, .f32⟩ : BufTy).Contents (Elt F)),
    unary main_v206 main_v207 (broadcastInDim S100000x32 ![0, 1] bcast_S1x32_S100000x32_0_1 : (⟨S1x32, .f32⟩ : BufTy).Contents (Elt F) → (⟨S100000x32, .f32⟩ : BufTy).Contents (Elt F)),
    binary main_v205 main_v207 main_v208 (mulf : (⟨S100000x32, .f32⟩ : BufTy).Contents (Elt F) → (⟨S100000x32, .f32⟩ : BufTy).Contents (Elt F) → (⟨S100000x32, .f32⟩ : BufTy).Contents (Elt F)),
    unary main_v169 main_v209 (broadcastInDim S1x32 ![1] bcast_S32_S1x32_1 : (⟨S32, .f32⟩ : BufTy).Contents (Elt F) → (⟨S1x32, .f32⟩ : BufTy).Contents (Elt F)),
    unary main_v209 main_v210 (broadcastInDim S100000x32 ![0, 1] bcast_S1x32_S100000x32_0_1 : (⟨S1x32, .f32⟩ : BufTy).Contents (Elt F) → (⟨S100000x32, .f32⟩ : BufTy).Contents (Elt F)),
    binary main_v208 main_v210 main_v211 (addf : (⟨S100000x32, .f32⟩ : BufTy).Contents (Elt F) → (⟨S100000x32, .f32⟩ : BufTy).Contents (Elt F) → (⟨S100000x32, .f32⟩ : BufTy).Contents (Elt F)) ]

set_option maxRecDepth 8192 in
/-- Pooling into the 256 graph rows, the two dense layers and the row-wise log-softmax (the outlined function's operations); 30 operations. -/
abbrev opsT : List (HloOp τ sig (Elt F)) :=
  [ nullary main_cst_34 (constant S_ .f32 0x00000000#32),
    unary main_cst_34 main_v212 (broadcastInDim S256x32 ![] bcast_S_S256x32 : (⟨S_, .f32⟩ : BufTy).Contents (Elt F) → (⟨S256x32, .f32⟩ : BufTy).Contents (Elt F)),
    unary main_arg2 main_v213 (broadcastInDim S100000x1 ![0] bcast_S100000_S100000x1_0 : (⟨S100000, .i32⟩ : BufTy).Contents (Elt F) → (⟨S100000x1, .i32⟩ : BufTy).Contents (Elt F)),
    ternary main_v212 main_v213 main_v211 main_v214 ((fun x i u => Host.scatterAdd scatter_S256x32_S100000x1_S100000x32_1_0_0_1 x i u) : (⟨S256x32, .f32⟩ : BufTy).Contents (Elt F) → (⟨S100000x1, .i32⟩ : BufTy).Contents (Elt F) → (⟨S100000x32, .f32⟩ : BufTy).Contents (Elt F) → (⟨S256x32, .f32⟩ : BufTy).Contents (Elt F)),
    binary main_v214 main_arg13 main_v215 ((fun l r => Host.dotGeneral dot_S256x32_S32x32_S256x32_1_0_0_1_n_n none l r) : (⟨S256x32, .f32⟩ : BufTy).Contents (Elt F) → (⟨S32x32, .f32⟩ : BufTy).Contents (Elt F) → (⟨S256x32, .f32⟩ : BufTy).Contents (Elt F)),
    unary main_arg14 main_v216 (broadcastInDim S1x32 ![1] bcast_S32_S1x32_1 : (⟨S32, .f32⟩ : BufTy).Contents (Elt F) → (⟨S1x32, .f32⟩ : BufTy).Contents (Elt F)),
    unary main_v216 main_v217 (broadcastInDim S256x32 ![0, 1] bcast_S1x32_S256x32_0_1 : (⟨S1x32, .f32⟩ : BufTy).Contents (Elt F) → (⟨S256x32, .f32⟩ : BufTy).Contents (Elt F)),
    binary main_v215 main_v217 main_v218 (addf : (⟨S256x32, .f32⟩ : BufTy).Contents (Elt F) → (⟨S256x32, .f32⟩ : BufTy).Contents (Elt F) → (⟨S256x32, .f32⟩ : BufTy).Contents (Elt F)),
    nullary main_cst_35 (constant S_ .f32 0x00000000#32),
    unary main_cst_35 main_v219 (broadcastInDim S256x32 ![] bcast_S_S256x32 : (⟨S_, .f32⟩ : BufTy).Contents (Elt F) → (⟨S256x32, .f32⟩ : BufTy).Contents (Elt F)),
    binary main_v218 main_v219 main_v220 (maximumf : (⟨S256x32, .f32⟩ : BufTy).Contents (Elt F) → (⟨S256x32, .f32⟩ : BufTy).Contents (Elt F) → (⟨S256x32, .f32⟩ : BufTy).Contents (Elt F)),
    binary main_v220 main_arg15 main_v221 ((fun l r => Host.dotGeneral dot_S256x32_S32x2_S256x2_1_0_0_1_n_n none l r) : (⟨S256x32, .f32⟩ : BufTy).Contents (Elt F) → (⟨S32x2, .f32⟩ : BufTy).Contents (Elt F) → (⟨S256x2, .f32⟩ : BufTy).Contents (Elt F)),
    unary main_arg16 main_v222 (broadcastInDim S1x2 ![1] bcast_S2_S1x2_1 : (⟨S2, .f32⟩ : BufTy).Contents (Elt F) → (⟨S1x2, .f32⟩ : BufTy).Contents (Elt F)),
    unary main_v222 main_v223 (broadcastInDim S256x2 ![0, 1] bcast_S1x2_S256x2_0_1 : (⟨S1x2, .f32⟩ : BufTy).Contents (Elt F) → (⟨S256x2, .f32⟩ : BufTy).Contents (Elt F)),
    binary main_v221 main_v223 main_v224 (addf : (⟨S256x2, .f32⟩ : BufTy).Contents (Elt F) → (⟨S256x2, .f32⟩ : BufTy).Contents (Elt F) → (⟨S256x2, .f32⟩ : BufTy).Contents (Elt F)),
    TRef.nullary main_call4.cst (constant S_ .f32 0xFF800000#32),
    TRef.binary (.of main_v224 : TRef sig ⟨S256x2, .f32⟩) main_call4.cst main_call4.v0 (fun x v => Host.reduce FloatOps.maximumf x v reducesTo_S256x2_S256_d1 h_S_),
    TRef.nullary main_call4.cst_0 (constant S_ .f32 0xFF800000#32),
    TRef.unary main_call4.cst_0 main_call4.v1 (broadcastInDim S256 ![] bcast_S_S256),
    TRef.binary main_call4.v1 main_call4.v0 main_call4.v2 maximumf,
    TRef.unary main_call4.v2 main_call4.v3 (broadcastInDim S256x1 ![0] bcast_S256_S256x1_0),
    TRef.unary main_call4.v3 main_call4.v4 (broadcastInDim S256x2 ![0, 1] bcast_S256x1_S256x2_0_1),
    TRef.binary (.of main_v224 : TRef sig ⟨S256x2, .f32⟩) main_call4.v4 main_call4.v5 subf,
    TRef.unary main_call4.v5 main_call4.v6 Host.exp,
    TRef.nullary main_call4.cst_1 (constant S_ .f32 0x00000000#32),
    TRef.binary main_call4.v6 main_call4.cst_1 main_call4.v7 (fun x v => Host.reduceAdd x v reducesTo_S256x2_S256_d1 h_S_),
    TRef.unary main_call4.v7 main_call4.v8 (broadcastInDim S256x1 ![0] bcast_S256_S256x1_0),
    TRef.unary main_call4.v8 main_call4.v9 Host.log,
    TRef.unary main_call4.v9 main_call4.v10 (broadcastInDim S256x2 ![0, 1] bcast_S256x1_S256x2_0_1),
    TRef.binary main_call4.v5 main_call4.v10 main_call4.v11 subf ]

/-- The whole line, 362 operations: the five stages in order. -/
abbrev ops : List (HloOp τ sig (Elt F)) := opsL0 ++ opsL1 ++ opsL2 ++ opsL3 ++ opsT

/-- The 80 buffers `opsL0` writes, operation by operation: each operation's result buffer. -/
abbrev wrL0 : List (Ref sig .tc) :=
  [ main_v0, main_v1, main_v2, main_v3, main_v4, main_v5, main_v6, main_v7, main_c, main_v8, main_v9, main_c_0,
    main_v10, main_v11, main_v12, main_v13, main_v14, main_cst, main_v15, main_v16, main_v17, main_v18, main_v19,
    main_v20, main_v21, main_v22, main_cst_1, main_v23, main_v24, main_v25, main_v26, main_v27, main_v28,
    main_cst_2, main_v29, main_v30, main_cst_3, main_v31, main_cst_4, main_v32, main_v33, main_c_5,
    main_call0.cst.ref, main_call0.v0.ref, main_call0.v1.ref, main_call0.cst_0.ref, main_call0.v2.ref,
    main_call0.v3.ref, main_call0.v4.ref, main_call0.v5.ref, main_call0.v6.ref, main_call0.v7.ref,
    main_call0.cst_1.ref, main_call0.v8.ref, main_call0.cst_2.ref, main_call0.v9.ref, main_call0.v10.ref,
    main_call0.v11.ref, main_call0.cst_3.ref, main_call0.v12.ref, main_call0.cst_4.ref, main_call0.call0.v0.ref,
    main_call0.call0.v1.ref, main_call0.call0.v2.ref, main_v35, main_v36, main_v37, main_cst_6, main_v38, main_v39,
    main_v40, main_v41, main_v42, main_v43, main_v44, main_v45, main_v46, main_v47, main_v48, main_v49 ]

/-- The 84 buffers `opsL1` writes, operation by operation: each operation's result buffer. -/
abbrev wrL1 : List (Ref sig .tc) :=
  [ main_v50, main_v51, main_v52, main_v53, main_v54, main_v55, main_v56, main_v57, main_v58, main_v59, main_v60,
    main_v61, main_c_7, main_v62, main_v63, main_c_8, main_v64, main_v65, main_v66, main_v67, main_v68, main_cst_9,
    main_v69, main_v70, main_v71, main_v72, main_v73, main_v74, main_v75, main_v76, main_cst_10, main_v77,
    main_v78, main_v79, main_v80, main_v81, main_v82, main_cst_11, main_v83, main_v84, main_cst_12, main_v85,
    main_cst_13, main_v86, main_v87, main_c_14, main_call1.cst.ref, main_call1.v0.ref, main_call1.v1.ref,
    main_call1.cst_0.ref, main_call1.v2.ref, main_call1.v3.ref, main_call1.v4.ref, main_call1.v5.ref,
    main_call1.v6.ref, main_call1.v7.ref, main_call1.cst_1.ref, main_call1.v8.ref, main_call1.cst_2.ref,
    main_call1.v9.ref, main_call1.v10.ref, main_call1.v11.ref, main_call1.cst_3.ref, main_call1.v12.ref,
    main_call1.cst_4.ref, main_call1.call0.v0.ref, main_call1.call0.v1.ref, main_call1.call0.v2.ref, main_v89,
    main_v90, main_v91, main_cst_15, main_v92, main_v93, main_v94, main_v95, main_v96, main_v97, main_v98,
    main_v99, main_v100, main_v101, main_v102, main_v103 ]

/-- The 84 buffers `opsL2` writes, operation by operation: each operation's result buffer. -/
abbrev wrL2 : List (Ref sig .tc) :=
  [ main_v104, main_v105, main_v106, main_v107, main_v108, main_v109, main_v110, main_v111, main_v112, main_v113,
    main_v114, main_v115, main_c_16, main_v116, main_v117, main_c_17, main_v118, main_v119, main_v120, main_v121,
    main_v122, main_cst_18, main_v123, main_v124, main_v125, main_v126, main_v127, main_v128, main_v129, main_v130,
    main_cst_19, main_v131, main_v132, main_v133, main_v134, main_v135, main_v136, main_cst_20, main_v137,
    main_v138, main_cst_21, main_v139, main_cst_22, main_v140, main_v141, main_c_23, main_call2.cst.ref,
    main_call2.v0.ref, main_call2.v1.ref, main_call2.cst_0.ref, main_call2.v2.ref, main_call2.v3.ref,
    main_call2.v4.ref, main_call2.v5.ref, main_call2.v6.ref, main_call2.v7.ref, main_call2.cst_1.ref,
    main_call2.v8.ref, main_call2.cst_2.ref, main_call2.v9.ref, main_call2.v10.ref, main_call2.v11.ref,
    main_call2.cst_3.ref, main_call2.v12.ref, main_call2.cst_4.ref, main_call2.call0.v0.ref,
    main_call2.call0.v1.ref, main_call2.call0.v2.ref, main_v143, main_v144, main_v145, main_cst_24, main_v146,
    main_v147, main_v148, main_v149, main_v150, main_v151, main_v152, main_v153, main_v154, main_v155, main_v156,
    main_v157 ]

/-- The 84 buffers `opsL3` writes, operation by operation: each operation's result buffer. -/
abbrev wrL3 : List (Ref sig .tc) :=
  [ main_v158, main_v159, main_v160, main_v161, main_v162, main_v163, main_v164, main_v165, main_v166, main_v167,
    main_v168, main_v169, main_c_25, main_v170, main_v171, main_c_26, main_v172, main_v173, main_v174, main_v175,
    main_v176, main_cst_27, main_v177, main_v178, main_v179, main_v180, main_v181, main_v182, main_v183, main_v184,
    main_cst_28, main_v185, main_v186, main_v187, main_v188, main_v189, main_v190, main_cst_29, main_v191,
    main_v192, main_cst_30, main_v193, main_cst_31, main_v194, main_v195, main_c_32, main_call3.cst.ref,
    main_call3.v0.ref, main_call3.v1.ref, main_call3.cst_0.ref, main_call3.v2.ref, main_call3.v3.ref,
    main_call3.v4.ref, main_call3.v5.ref, main_call3.v6.ref, main_call3.v7.ref, main_call3.cst_1.ref,
    main_call3.v8.ref, main_call3.cst_2.ref, main_call3.v9.ref, main_call3.v10.ref, main_call3.v11.ref,
    main_call3.cst_3.ref, main_call3.v12.ref, main_call3.cst_4.ref, main_call3.call0.v0.ref,
    main_call3.call0.v1.ref, main_call3.call0.v2.ref, main_v197, main_v198, main_v199, main_cst_33, main_v200,
    main_v201, main_v202, main_v203, main_v204, main_v205, main_v206, main_v207, main_v208, main_v209, main_v210,
    main_v211 ]

/-- The 30 buffers `opsT` writes, operation by operation: each operation's result buffer. -/
abbrev wrT : List (Ref sig .tc) :=
  [ main_cst_34, main_v212, main_v213, main_v214, main_v215, main_v216, main_v217, main_v218, main_cst_35,
    main_v219, main_v220, main_v221, main_v222, main_v223, main_v224, main_call4.cst.ref, main_call4.v0.ref,
    main_call4.cst_0.ref, main_call4.v1.ref, main_call4.v2.ref, main_call4.v3.ref, main_call4.v4.ref,
    main_call4.v5.ref, main_call4.v6.ref, main_call4.cst_1.ref, main_call4.v7.ref, main_call4.v8.ref,
    main_call4.v9.ref, main_call4.v10.ref, main_call4.v11.ref ]

end Cert.ReferenceIdeal.Run

end
-- ==== Proof.RefRun.lean ====
/-
  The reference program's run. Its main function is a straight line of host operations once the outlined functions
  (the variance, which itself calls the selection helper, and the log-softmax) are unfolded at their calls over the
  buffers each call names: `main = seq ops`, window by window of the printed text and then by concatenation. Hence,
  from any memory with all counters zero, every weakly fair execution terminates and leaves in every buffer the fold
  of the operations' results over the launch contents (`after ops`).
-/
import proofs.«115996_j33088428049205_1_alg».proof.Proof.RefOps

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-! ## The main function is the line

The printed main function is five windows run in order: 81 operations each (60 statements, one of them a call of
the variance function, whose 22 operations stand in its place), the last the remaining 38 (22 statements, the
log-softmax's 16 operations in its call's place). Window `k` is the `k`-th slice of that length of the line; each
equation holds by unfolding both sides: the callee's definition at the call, sequencing re-associated. -/

set_option maxRecDepth 8192 in
theorem main_part0_eq (c : Dev nD) : main_part0 (F := F) c = seq ((ops (F := F)).take 81) := rfl
set_option maxRecDepth 8192 in
theorem main_part1_eq (c : Dev nD) : main_part1 (F := F) c = seq (((ops (F := F)).drop 81).take 81) := rfl
set_option maxRecDepth 8192 in
theorem main_part2_eq (c : Dev nD) : main_part2 (F := F) c = seq ((((ops (F := F)).drop 81).drop 81).take 81) := rfl
set_option maxRecDepth 8192 in
theorem main_part3_eq (c : Dev nD) : main_part3 (F := F) c = seq (((((ops (F := F)).drop 81).drop 81).drop 81).take 81) := rfl
set_option maxRecDepth 8192 in
theorem main_part4_eq (c : Dev nD) : main_part4 (F := F) c = seq (((((ops (F := F)).drop 81).drop 81).drop 81).drop 81) := rfl

/-- The main function is the line of its 362 operations: the five slices in a row are the whole line
    (a list is its first `n` entries followed by the rest), and a concatenation runs as its parts in order. -/
theorem main_eq (c : Dev nD) : main (F := F) c = seq ops :=
  calc main (F := F) c
      = (main_part0 c >>= fun _ => main_part1 c >>= fun _ => main_part2 c >>= fun _ => main_part3 c >>= fun _ => main_part4 c) := rfl
    _ = seq ((ops (F := F)).take 81 ++ ((ops.drop 81).take 81 ++ (((ops.drop 81).drop 81).take 81
          ++ ((((ops.drop 81).drop 81).drop 81).take 81 ++ (((ops.drop 81).drop 81).drop 81).drop 81)))) := by
        rw [seq_append, seq_append, seq_append, seq_append, main_part0_eq, main_part1_eq, main_part2_eq, main_part3_eq,
          main_part4_eq]
    _ = seq ops := by
        rw [List.take_append_drop, List.take_append_drop, List.take_append_drop, List.take_append_drop]

/-! ## The signature scopes nothing -/

theorem scopedRefs_eq : (Finset.univ.filter fun b : Ref sig .tc => b.isScoped) = ∅ := by decide
theorem scopedSems_eq : (Finset.univ.filter fun sm : SemLoc sig => sm.isScoped .tc) = ∅ := by decide

/-! ## Every operation stays among the TensorCore's buffers and determines its result -/

set_option maxRecDepth 8192 in
theorem opsL0_sub : (opsL0 : List (HloOp τ sig (Elt F))).Forall fun op => op.bufs ⊆ tcRefs τ sig :=
  ⟨unary_bufs_sub .., reshape_bufs_sub .., unary_bufs_sub .., reshape_bufs_sub .., unary_bufs_sub ..,
    reshape_bufs_sub .., unary_bufs_sub .., reshape_bufs_sub .., nullary_bufs_sub .., unary_bufs_sub ..,
    binary_bufs_sub .., nullary_bufs_sub .., unary_bufs_sub .., binary_bufs_sub .., ternary_bufs_sub ..,
    unary_bufs_sub .., binary_bufs_sub .., nullary_bufs_sub .., unary_bufs_sub .., unary_bufs_sub ..,
    ternary_bufs_sub .., binary_bufs_sub .., binary_bufs_sub .., unary_bufs_sub .., unary_bufs_sub ..,
    binary_bufs_sub .., nullary_bufs_sub .., unary_bufs_sub .., binary_bufs_sub .., binary_bufs_sub ..,
    unary_bufs_sub .., unary_bufs_sub .., binary_bufs_sub .., nullary_bufs_sub .., unary_bufs_sub ..,
    binary_bufs_sub .., nullary_bufs_sub .., binary_bufs_sub .., nullary_bufs_sub .., unary_bufs_sub ..,
    binary_bufs_sub .., nullary_bufs_sub .., nullary_bufs_sub .., binary_bufs_sub .., unary_bufs_sub ..,
    nullary_bufs_sub .., unary_bufs_sub .., binary_bufs_sub .., unary_bufs_sub .., binary_bufs_sub ..,
    binary_bufs_sub .., unary_bufs_sub .., nullary_bufs_sub .., binary_bufs_sub .., nullary_bufs_sub ..,
    binary_bufs_sub .., unary_bufs_sub .., binary_bufs_sub .., nullary_bufs_sub .., binary_bufs_sub ..,
    nullary_bufs_sub .., unary_bufs_sub .., unary_bufs_sub .., ternary_bufs_sub .., unary_bufs_sub ..,
    unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..⟩

set_option maxRecDepth 8192 in
theorem opsL1_sub : (opsL1 : List (HloOp τ sig (Elt F))).Forall fun op => op.bufs ⊆ tcRefs τ sig :=
  ⟨unary_bufs_sub .., reshape_bufs_sub .., unary_bufs_sub .., reshape_bufs_sub .., unary_bufs_sub ..,
    reshape_bufs_sub .., unary_bufs_sub .., reshape_bufs_sub .., unary_bufs_sub .., reshape_bufs_sub ..,
    unary_bufs_sub .., reshape_bufs_sub .., nullary_bufs_sub .., unary_bufs_sub .., binary_bufs_sub ..,
    nullary_bufs_sub .., unary_bufs_sub .., binary_bufs_sub .., ternary_bufs_sub .., unary_bufs_sub ..,
    binary_bufs_sub .., nullary_bufs_sub .., unary_bufs_sub .., unary_bufs_sub .., ternary_bufs_sub ..,
    binary_bufs_sub .., binary_bufs_sub .., unary_bufs_sub .., unary_bufs_sub .., binary_bufs_sub ..,
    nullary_bufs_sub .., unary_bufs_sub .., binary_bufs_sub .., binary_bufs_sub .., unary_bufs_sub ..,
    unary_bufs_sub .., binary_bufs_sub .., nullary_bufs_sub .., unary_bufs_sub .., binary_bufs_sub ..,
    nullary_bufs_sub .., binary_bufs_sub .., nullary_bufs_sub .., unary_bufs_sub .., binary_bufs_sub ..,
    nullary_bufs_sub .., nullary_bufs_sub .., binary_bufs_sub .., unary_bufs_sub .., nullary_bufs_sub ..,
    unary_bufs_sub .., binary_bufs_sub .., unary_bufs_sub .., binary_bufs_sub .., binary_bufs_sub ..,
    unary_bufs_sub .., nullary_bufs_sub .., binary_bufs_sub .., nullary_bufs_sub .., binary_bufs_sub ..,
    unary_bufs_sub .., binary_bufs_sub .., nullary_bufs_sub .., binary_bufs_sub .., nullary_bufs_sub ..,
    unary_bufs_sub .., unary_bufs_sub .., ternary_bufs_sub .., unary_bufs_sub .., unary_bufs_sub ..,
    binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub ..⟩

set_option maxRecDepth 8192 in
theorem opsL2_sub : (opsL2 : List (HloOp τ sig (Elt F))).Forall fun op => op.bufs ⊆ tcRefs τ sig :=
  ⟨unary_bufs_sub .., reshape_bufs_sub .., unary_bufs_sub .., reshape_bufs_sub .., unary_bufs_sub ..,
    reshape_bufs_sub .., unary_bufs_sub .., reshape_bufs_sub .., unary_bufs_sub .., reshape_bufs_sub ..,
    unary_bufs_sub .., reshape_bufs_sub .., nullary_bufs_sub .., unary_bufs_sub .., binary_bufs_sub ..,
    nullary_bufs_sub .., unary_bufs_sub .., binary_bufs_sub .., ternary_bufs_sub .., unary_bufs_sub ..,
    binary_bufs_sub .., nullary_bufs_sub .., unary_bufs_sub .., unary_bufs_sub .., ternary_bufs_sub ..,
    binary_bufs_sub .., binary_bufs_sub .., unary_bufs_sub .., unary_bufs_sub .., binary_bufs_sub ..,
    nullary_bufs_sub .., unary_bufs_sub .., binary_bufs_sub .., binary_bufs_sub .., unary_bufs_sub ..,
    unary_bufs_sub .., binary_bufs_sub .., nullary_bufs_sub .., unary_bufs_sub .., binary_bufs_sub ..,
    nullary_bufs_sub .., binary_bufs_sub .., nullary_bufs_sub .., unary_bufs_sub .., binary_bufs_sub ..,
    nullary_bufs_sub .., nullary_bufs_sub .., binary_bufs_sub .., unary_bufs_sub .., nullary_bufs_sub ..,
    unary_bufs_sub .., binary_bufs_sub .., unary_bufs_sub .., binary_bufs_sub .., binary_bufs_sub ..,
    unary_bufs_sub .., nullary_bufs_sub .., binary_bufs_sub .., nullary_bufs_sub .., binary_bufs_sub ..,
    unary_bufs_sub .., binary_bufs_sub .., nullary_bufs_sub .., binary_bufs_sub .., nullary_bufs_sub ..,
    unary_bufs_sub .., unary_bufs_sub .., ternary_bufs_sub .., unary_bufs_sub .., unary_bufs_sub ..,
    binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub ..⟩

set_option maxRecDepth 8192 in
theorem opsL3_sub : (opsL3 : List (HloOp τ sig (Elt F))).Forall fun op => op.bufs ⊆ tcRefs τ sig :=
  ⟨unary_bufs_sub .., reshape_bufs_sub .., unary_bufs_sub .., reshape_bufs_sub .., unary_bufs_sub ..,
    reshape_bufs_sub .., unary_bufs_sub .., reshape_bufs_sub .., unary_bufs_sub .., reshape_bufs_sub ..,
    unary_bufs_sub .., reshape_bufs_sub .., nullary_bufs_sub .., unary_bufs_sub .., binary_bufs_sub ..,
    nullary_bufs_sub .., unary_bufs_sub .., binary_bufs_sub .., ternary_bufs_sub .., unary_bufs_sub ..,
    binary_bufs_sub .., nullary_bufs_sub .., unary_bufs_sub .., unary_bufs_sub .., ternary_bufs_sub ..,
    binary_bufs_sub .., binary_bufs_sub .., unary_bufs_sub .., unary_bufs_sub .., binary_bufs_sub ..,
    nullary_bufs_sub .., unary_bufs_sub .., binary_bufs_sub .., binary_bufs_sub .., unary_bufs_sub ..,
    unary_bufs_sub .., binary_bufs_sub .., nullary_bufs_sub .., unary_bufs_sub .., binary_bufs_sub ..,
    nullary_bufs_sub .., binary_bufs_sub .., nullary_bufs_sub .., unary_bufs_sub .., binary_bufs_sub ..,
    nullary_bufs_sub .., nullary_bufs_sub .., binary_bufs_sub .., unary_bufs_sub .., nullary_bufs_sub ..,
    unary_bufs_sub .., binary_bufs_sub .., unary_bufs_sub .., binary_bufs_sub .., binary_bufs_sub ..,
    unary_bufs_sub .., nullary_bufs_sub .., binary_bufs_sub .., nullary_bufs_sub .., binary_bufs_sub ..,
    unary_bufs_sub .., binary_bufs_sub .., nullary_bufs_sub .., binary_bufs_sub .., nullary_bufs_sub ..,
    unary_bufs_sub .., unary_bufs_sub .., ternary_bufs_sub .., unary_bufs_sub .., unary_bufs_sub ..,
    binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub ..⟩

set_option maxRecDepth 8192 in
theorem opsT_sub : (opsT : List (HloOp τ sig (Elt F))).Forall fun op => op.bufs ⊆ tcRefs τ sig :=
  ⟨nullary_bufs_sub .., unary_bufs_sub .., unary_bufs_sub .., ternary_bufs_sub .., binary_bufs_sub ..,
    unary_bufs_sub .., unary_bufs_sub .., binary_bufs_sub .., nullary_bufs_sub .., unary_bufs_sub ..,
    binary_bufs_sub .., binary_bufs_sub .., unary_bufs_sub .., unary_bufs_sub .., binary_bufs_sub ..,
    nullary_bufs_sub .., binary_bufs_sub .., nullary_bufs_sub .., unary_bufs_sub .., binary_bufs_sub ..,
    unary_bufs_sub .., unary_bufs_sub .., binary_bufs_sub .., unary_bufs_sub .., nullary_bufs_sub ..,
    binary_bufs_sub .., unary_bufs_sub .., unary_bufs_sub .., unary_bufs_sub .., binary_bufs_sub ..⟩

set_option maxRecDepth 8192 in
theorem opsL0_fresh : (opsL0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

set_option maxRecDepth 8192 in
theorem opsL1_fresh : (opsL1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
theorem opsL2_fresh : (opsL2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
theorem opsL3_fresh : (opsL3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
theorem opsT_fresh : (opsT : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl,
    rfl, rfl, rfl, rfl, rfl, rfl, rfl⟩

/-- Membership in the line is membership in one of the five stages. -/
theorem mem_ops {op : HloOp τ sig (Elt F)} (h : op ∈ (ops : List (HloOp τ sig (Elt F)))) :
    op ∈ (opsL0 : List (HloOp τ sig (Elt F))) ∨ op ∈ (opsL1 : List (HloOp τ sig (Elt F))) ∨ op ∈ (opsL2 : List (HloOp τ sig (Elt F))) ∨ op ∈ (opsL3 : List (HloOp τ sig (Elt F))) ∨ op ∈ (opsT : List (HloOp τ sig (Elt F))) := by
  rcases List.mem_append.mp h with h | h
  · rcases List.mem_append.mp h with h | h
    · rcases List.mem_append.mp h with h | h
      · rcases List.mem_append.mp h with h | h
        · exact .inl h
        · exact .inr (.inl h)
      · exact .inr (.inr (.inl h))
    · exact .inr (.inr (.inr (.inl h)))
  · exact .inr (.inr (.inr (.inr h)))

theorem ops_sub : (ops : List (HloOp τ sig (Elt F))).Forall fun op => op.bufs ⊆ tcRefs τ sig :=
  List.forall_iff_forall_mem.mpr fun op h => by
    rcases mem_ops h with h | h | h | h | h
    exacts [List.forall_iff_forall_mem.mp opsL0_sub op h, List.forall_iff_forall_mem.mp opsL1_sub op h,
      List.forall_iff_forall_mem.mp opsL2_sub op h, List.forall_iff_forall_mem.mp opsL3_sub op h,
      List.forall_iff_forall_mem.mp opsT_sub op h]

theorem ops_fresh : ∀ op ∈ (ops : List (HloOp τ sig (Elt F))), op.fresh = ∅ := fun op h => by
  rcases mem_ops h with h | h | h | h | h
  exacts [List.forall_iff_forall_mem.mp opsL0_fresh op h, List.forall_iff_forall_mem.mp opsL1_fresh op h,
    List.forall_iff_forall_mem.mp opsL2_fresh op h, List.forall_iff_forall_mem.mp opsL3_fresh op h,
    List.forall_iff_forall_mem.mp opsT_fresh op h]

/-! ## The run -/

/-- At the compiled mesh, for any float values, from any memory with zero counters: every weakly fair execution of the
    main function on the TensorCores terminates, and every final state has each TensorCore buffer at the operations'
    fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Run

end
-- ==== Proof.RefValue.lean ====
/-
  The value the reference program leaves in its result buffer, as the network of Spec.lean applied to the contents
  of the seventeen argument buffers, and the argument buffers unchanged.

  The line of 362 operations is five stages in a row, and the fold over a concatenation is the fold over the second
  part from the fold over the first. Each stage is in single-assignment form (every operation writes one buffer of
  its own), so a buffer the stage does not write holds after it what it held before: the arguments pass through all
  five stages, the two index rows (written by the first stage) through the next three. What a stage does write at its
  output buffer is, by unfolding the fold operation by operation, the corresponding layer function of Spec.lean
  applied to the contents the stage starts from: the first layer from the arguments; each further layer from the
  previous layer's output, the two index rows and its own parameter slices; the classifier from the last layer's
  output. Composing the five equations gives the network.
-/
import proofs.«115996_j33088428049205_1_alg».proof.Proof.RefRun
import proofs.«115996_j33088428049205_1_alg».proof.Proof.Spec
import proofs.«115996_j33088428049205_1_alg».proof.Proof.LibAfter

noncomputable section

namespace Cert.ReferenceIdeal.Run

open Cert.ReferenceIdeal Cert.ReferenceIdeal.Gen Idealize.ShloMosaic Idealize.ShloMosaic.TcCoe Idealize.SL.Sem Idealize.ShloMosaic.StableHlo
open Cert.LibAfter (Writes after_append after_of_not_written)

variable {F : FTy → Type} [FloatOps F]

/-! ## What each stage writes

The table lists, stage by stage, the buffer each operation writes (`wrL0` … `wrT`): each operation writes exactly its
result buffer, so a buffer outside a stage's list passes through the stage. -/

set_option maxRecDepth 8192 in
theorem writesL0 : Writes (τ := τ) (opsL0 : List (HloOp τ sig (Elt F))) wrL0 := by
  repeat (first | exact List.Forall₂.nil | refine List.Forall₂.cons rfl ?_)

/-- A buffer `opsL0` does not write keeps its contents through it. -/
theorem keepL0 {r : Ref sig .tc} (hr : r ∉ wrL0) (V : Valuation τ sig (Elt F)) :
    after opsL0 V (Proc.devRef .tc r) = V (Proc.devRef .tc r) := after_of_not_written writesL0 hr V

set_option maxRecDepth 8192 in
theorem writesL1 : Writes (τ := τ) (opsL1 : List (HloOp τ sig (Elt F))) wrL1 := by
  repeat (first | exact List.Forall₂.nil | refine List.Forall₂.cons rfl ?_)

/-- A buffer `opsL1` does not write keeps its contents through it. -/
theorem keepL1 {r : Ref sig .tc} (hr : r ∉ wrL1) (V : Valuation τ sig (Elt F)) :
    after opsL1 V (Proc.devRef .tc r) = V (Proc.devRef .tc r) := after_of_not_written writesL1 hr V

set_option maxRecDepth 8192 in
theorem writesL2 : Writes (τ := τ) (opsL2 : List (HloOp τ sig (Elt F))) wrL2 := by
  repeat (first | exact List.Forall₂.nil | refine List.Forall₂.cons rfl ?_)

/-- A buffer `opsL2` does not write keeps its contents through it. -/
theorem keepL2 {r : Ref sig .tc} (hr : r ∉ wrL2) (V : Valuation τ sig (Elt F)) :
    after opsL2 V (Proc.devRef .tc r) = V (Proc.devRef .tc r) := after_of_not_written writesL2 hr V

set_option maxRecDepth 8192 in
theorem writesL3 : Writes (τ := τ) (opsL3 : List (HloOp τ sig (Elt F))) wrL3 := by
  repeat (first | exact List.Forall₂.nil | refine List.Forall₂.cons rfl ?_)

/-- A buffer `opsL3` does not write keeps its contents through it. -/
theorem keepL3 {r : Ref sig .tc} (hr : r ∉ wrL3) (V : Valuation τ sig (Elt F)) :
    after opsL3 V (Proc.devRef .tc r) = V (Proc.devRef .tc r) := after_of_not_written writesL3 hr V

set_option maxRecDepth 8192 in
theorem writesT : Writes (τ := τ) (opsT : List (HloOp τ sig (Elt F))) wrT := by
  repeat (first | exact List.Forall₂.nil | refine List.Forall₂.cons rfl ?_)

/-- A buffer `opsT` does not write keeps its contents through it. -/
theorem keepT {r : Ref sig .tc} (hr : r ∉ wrT) (V : Valuation τ sig (Elt F)) :
    after opsT V (Proc.devRef .tc r) = V (Proc.devRef .tc r) := after_of_not_written writesT hr V

/-- A buffer no stage writes keeps its contents through the whole line. -/
theorem keep_ops {r : Ref sig .tc} (h0 : r ∉ wrL0) (h1 : r ∉ wrL1) (h2 : r ∉ wrL2) (h3 : r ∉ wrL3) (hT : r ∉ wrT)
    (V : Valuation τ sig (Elt F)) : after ops V (Proc.devRef .tc r) = V (Proc.devRef .tc r) := by
  show after (opsL0 ++ opsL1 ++ opsL2 ++ opsL3 ++ opsT) V _ = _
  rw [after_append, after_append, after_append, after_append, keepT hT, keepL3 h3, keepL2 h2, keepL1 h1, keepL0 h0]

/-! ## What each stage computes

Each equation is the fold unrolled: at the output buffer the last operation's function of its operands' contents, each
of those in turn the function of the operation that wrote it, down to buffers the stage only reads. The reductions, the
gather and the scatter-add are kept folded meanwhile: the equation never looks inside them. -/

attribute [local irreducible] Host.reduceAdd Host.reduce Host.gather Host.scatterAdd in
set_option maxRecDepth 8192 in
set_option maxHeartbeats 1000000 in
/-- The first stage leaves the first layer of the arguments in its output buffer. -/
theorem opsL0_out (V : Valuation τ sig (Elt F)) :
    after opsL0 V (main_v49 : DevRef τ sig)
      = Cert.Spec.layer0 (V (main_arg0 : DevRef τ sig)) (Cert.Spec.srcRow (V (main_arg1 : DevRef τ sig))) (Cert.Spec.dstRow (V (main_arg1 : DevRef τ sig))) (V (main_arg3 : DevRef τ sig)) (V (main_arg4 : DevRef τ sig)) (V (main_arg5 : DevRef τ sig)) (V (main_arg6 : DevRef τ sig))
          (Cert.Spec.bnParam0 (V (main_arg11 : DevRef τ sig))) (Cert.Spec.bnParam0 (V (main_arg12 : DevRef τ sig))) := by
  simp only [after_cons, after_nil]
  rfl

set_option maxRecDepth 8192 in
/-- The first stage leaves the row of edge sources in its buffer, -/
theorem opsL0_src (V : Valuation τ sig (Elt F)) :
    after opsL0 V (main_v1 : DevRef τ sig) = Cert.Spec.srcRow (V (main_arg1 : DevRef τ sig)) := by
  simp only [after_cons, after_nil]
  rfl

set_option maxRecDepth 8192 in
/-- and the row of edge destinations in its. -/
theorem opsL0_dst (V : Valuation τ sig (Elt F)) :
    after opsL0 V (main_v3 : DevRef τ sig) = Cert.Spec.dstRow (V (main_arg1 : DevRef τ sig)) := by
  simp only [after_cons, after_nil]
  rfl

attribute [local irreducible] Host.reduceAdd Host.reduce Host.gather Host.scatterAdd in
set_option maxRecDepth 8192 in
set_option maxHeartbeats 1000000 in
/-- Stage 1 leaves a layer of the previous output, the index rows and its parameter slices in its output buffer. -/
theorem opsL1_out (V : Valuation τ sig (Elt F)) :
    after opsL1 V (main_v103 : DevRef τ sig)
      = Cert.Spec.layer (V (main_v49 : DevRef τ sig)) (V (main_v1 : DevRef τ sig)) (V (main_v3 : DevRef τ sig)) (Cert.Spec.weight0 (V (main_arg7 : DevRef τ sig))) (Cert.Spec.bias0 (V (main_arg8 : DevRef τ sig)))
          (Cert.Spec.weight0 (V (main_arg9 : DevRef τ sig))) (Cert.Spec.bias0 (V (main_arg10 : DevRef τ sig))) (Cert.Spec.bnParam1 (V (main_arg11 : DevRef τ sig))) (Cert.Spec.bnParam1 (V (main_arg12 : DevRef τ sig))) := by
  simp only [after_cons, after_nil]
  rfl

attribute [local irreducible] Host.reduceAdd Host.reduce Host.gather Host.scatterAdd in
set_option maxRecDepth 8192 in
set_option maxHeartbeats 1000000 in
/-- Stage 2 leaves a layer of the previous output, the index rows and its parameter slices in its output buffer. -/
theorem opsL2_out (V : Valuation τ sig (Elt F)) :
    after opsL2 V (main_v157 : DevRef τ sig)
      = Cert.Spec.layer (V (main_v103 : DevRef τ sig)) (V (main_v1 : DevRef τ sig)) (V (main_v3 : DevRef τ sig)) (Cert.Spec.weight1 (V (main_arg7 : DevRef τ sig))) (Cert.Spec.bias1 (V (main_arg8 : DevRef τ sig)))
          (Cert.Spec.weight1 (V (main_arg9 : DevRef τ sig))) (Cert.Spec.bias1 (V (main_arg10 : DevRef τ sig))) (Cert.Spec.bnParam2 (V (main_arg11 : DevRef τ sig))) (Cert.Spec.bnParam2 (V (main_arg12 : DevRef τ sig))) := by
  simp only [after_cons, after_nil]
  rfl

attribute [local irreducible] Host.reduceAdd Host.reduce Host.gather Host.scatterAdd in
set_option maxRecDepth 8192 in
set_option maxHeartbeats 1000000 in
/-- Stage 3 leaves a layer of the previous output, the index rows and its parameter slices in its output buffer. -/
theorem opsL3_out (V : Valuation τ sig (Elt F)) :
    after opsL3 V (main_v211 : DevRef τ sig)
      = Cert.Spec.layer (V (main_v157 : DevRef τ sig)) (V (main_v1 : DevRef τ sig)) (V (main_v3 : DevRef τ sig)) (Cert.Spec.weight2 (V (main_arg7 : DevRef τ sig))) (Cert.Spec.bias2 (V (main_arg8 : DevRef τ sig)))
          (Cert.Spec.weight2 (V (main_arg9 : DevRef τ sig))) (Cert.Spec.bias2 (V (main_arg10 : DevRef τ sig))) (Cert.Spec.bnParam3 (V (main_arg11 : DevRef τ sig))) (Cert.Spec.bnParam3 (V (main_arg12 : DevRef τ sig))) := by
  simp only [after_cons, after_nil]
  rfl

attribute [local irreducible] Host.reduceAdd Host.reduce Host.gather Host.scatterAdd in
set_option maxRecDepth 8192 in
set_option maxHeartbeats 1000000 in
/-- The last stage leaves the classifier's log-probabilities of the pooled last-layer output in the result buffer. -/
theorem opsT_out (V : Valuation τ sig (Elt F)) :
    after opsT V (main_v225 : DevRef τ sig)
      = Cert.Spec.head (Cert.Spec.pool (V (main_v211 : DevRef τ sig)) (V (main_arg2 : DevRef τ sig))) (V (main_arg13 : DevRef τ sig)) (Cert.Spec.row (V (main_arg14 : DevRef τ sig))) (V (main_arg15 : DevRef τ sig))
          (Cert.Spec.row2 (V (main_arg16 : DevRef τ sig))) := by
  simp only [after_cons, after_nil]
  rfl

/-! ## The whole line -/

/-- After the whole line the result buffer holds the network of the arguments' contents. -/
theorem out_eq (V : Valuation τ sig (Elt F)) :
    after ops V (main_v225 : DevRef τ sig)
      = Cert.Spec.net (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) := by
  show after (opsL0 ++ opsL1 ++ opsL2 ++ opsL3 ++ opsT) V _ = _
  rw [after_append, after_append, after_append, after_append, opsT_out, opsL3_out, opsL2_out, opsL1_out, opsL0_out]
  -- what is left reads buffers through stages that do not write them: the last five arguments through the four layers,
  -- each layer's parameter arguments and the two index rows through the layers before it; the index rows are the
  -- first stage's
  simp only [
    keepL3 (r := main_arg2) (by decide), keepL3 (r := main_arg13) (by decide), keepL3 (r := main_arg14) (by decide),
    keepL3 (r := main_arg15) (by decide), keepL3 (r := main_arg16) (by decide), keepL2 (r := main_arg2) (by decide),
    keepL2 (r := main_arg13) (by decide), keepL2 (r := main_arg14) (by decide), keepL2 (r := main_arg15) (by decide),
    keepL2 (r := main_arg16) (by decide), keepL2 (r := main_arg7) (by decide), keepL2 (r := main_arg8) (by decide),
    keepL2 (r := main_arg9) (by decide), keepL2 (r := main_arg10) (by decide), keepL2 (r := main_arg11) (by decide),
    keepL2 (r := main_arg12) (by decide), keepL2 (r := main_v1) (by decide), keepL2 (r := main_v3) (by decide),
    keepL1 (r := main_arg2) (by decide), keepL1 (r := main_arg13) (by decide), keepL1 (r := main_arg14) (by decide),
    keepL1 (r := main_arg15) (by decide), keepL1 (r := main_arg16) (by decide), keepL1 (r := main_arg7) (by decide),
    keepL1 (r := main_arg8) (by decide), keepL1 (r := main_arg9) (by decide), keepL1 (r := main_arg10) (by decide),
    keepL1 (r := main_arg11) (by decide), keepL1 (r := main_arg12) (by decide), keepL1 (r := main_v1) (by decide),
    keepL1 (r := main_v3) (by decide), keepL0 (r := main_arg2) (by decide), keepL0 (r := main_arg13) (by decide),
    keepL0 (r := main_arg14) (by decide), keepL0 (r := main_arg15) (by decide), keepL0 (r := main_arg16) (by decide),
    keepL0 (r := main_arg7) (by decide), keepL0 (r := main_arg8) (by decide), keepL0 (r := main_arg9) (by decide),
    keepL0 (r := main_arg10) (by decide), keepL0 (r := main_arg11) (by decide), keepL0 (r := main_arg12) (by decide),
    opsL0_src, opsL0_dst]
  rfl

theorem arg0_eq (V : Valuation τ sig (Elt F)) :
    after ops V (main_arg0 : DevRef τ sig) = V (main_arg0 : DevRef τ sig) :=
  keep_ops (by decide) (by decide) (by decide) (by decide) (by decide) V

theorem arg1_eq (V : Valuation τ sig (Elt F)) :
    after ops V (main_arg1 : DevRef τ sig) = V (main_arg1 : DevRef τ sig) :=
  keep_ops (by decide) (by decide) (by decide) (by decide) (by decide) V

theorem arg2_eq (V : Valuation τ sig (Elt F)) :
    after ops V (main_arg2 : DevRef τ sig) = V (main_arg2 : DevRef τ sig) :=
  keep_ops (by decide) (by decide) (by decide) (by decide) (by decide) V

theorem arg3_eq (V : Valuation τ sig (Elt F)) :
    after ops V (main_arg3 : DevRef τ sig) = V (main_arg3 : DevRef τ sig) :=
  keep_ops (by decide) (by decide) (by decide) (by decide) (by decide) V

theorem arg4_eq (V : Valuation τ sig (Elt F)) :
    after ops V (main_arg4 : DevRef τ sig) = V (main_arg4 : DevRef τ sig) :=
  keep_ops (by decide) (by decide) (by decide) (by decide) (by decide) V

theorem arg5_eq (V : Valuation τ sig (Elt F)) :
    after ops V (main_arg5 : DevRef τ sig) = V (main_arg5 : DevRef τ sig) :=
  keep_ops (by decide) (by decide) (by decide) (by decide) (by decide) V

theorem arg6_eq (V : Valuation τ sig (Elt F)) :
    after ops V (main_arg6 : DevRef τ sig) = V (main_arg6 : DevRef τ sig) :=
  keep_ops (by decide) (by decide) (by decide) (by decide) (by decide) V

theorem arg7_eq (V : Valuation τ sig (Elt F)) :
    after ops V (main_arg7 : DevRef τ sig) = V (main_arg7 : DevRef τ sig) :=
  keep_ops (by decide) (by decide) (by decide) (by decide) (by decide) V

theorem arg8_eq (V : Valuation τ sig (Elt F)) :
    after ops V (main_arg8 : DevRef τ sig) = V (main_arg8 : DevRef τ sig) :=
  keep_ops (by decide) (by decide) (by decide) (by decide) (by decide) V

theorem arg9_eq (V : Valuation τ sig (Elt F)) :
    after ops V (main_arg9 : DevRef τ sig) = V (main_arg9 : DevRef τ sig) :=
  keep_ops (by decide) (by decide) (by decide) (by decide) (by decide) V

theorem arg10_eq (V : Valuation τ sig (Elt F)) :
    after ops V (main_arg10 : DevRef τ sig) = V (main_arg10 : DevRef τ sig) :=
  keep_ops (by decide) (by decide) (by decide) (by decide) (by decide) V

theorem arg11_eq (V : Valuation τ sig (Elt F)) :
    after ops V (main_arg11 : DevRef τ sig) = V (main_arg11 : DevRef τ sig) :=
  keep_ops (by decide) (by decide) (by decide) (by decide) (by decide) V

theorem arg12_eq (V : Valuation τ sig (Elt F)) :
    after ops V (main_arg12 : DevRef τ sig) = V (main_arg12 : DevRef τ sig) :=
  keep_ops (by decide) (by decide) (by decide) (by decide) (by decide) V

theorem arg13_eq (V : Valuation τ sig (Elt F)) :
    after ops V (main_arg13 : DevRef τ sig) = V (main_arg13 : DevRef τ sig) :=
  keep_ops (by decide) (by decide) (by decide) (by decide) (by decide) V

theorem arg14_eq (V : Valuation τ sig (Elt F)) :
    after ops V (main_arg14 : DevRef τ sig) = V (main_arg14 : DevRef τ sig) :=
  keep_ops (by decide) (by decide) (by decide) (by decide) (by decide) V

theorem arg15_eq (V : Valuation τ sig (Elt F)) :
    after ops V (main_arg15 : DevRef τ sig) = V (main_arg15 : DevRef τ sig) :=
  keep_ops (by decide) (by decide) (by decide) (by decide) (by decide) V

theorem arg16_eq (V : Valuation τ sig (Elt F)) :
    after ops V (main_arg16 : DevRef τ sig) = V (main_arg16 : DevRef τ sig) :=
  keep_ops (by decide) (by decide) (by decide) (by decide) (by decide) V

end Cert.ReferenceIdeal.Run

end
-- ==== Proof.Claims.lean ====
/-
  The certificate's five claims, from the runs and the values proved in the other modules.

  The kernel program and the reference program both end, from launch memories that agree on the seventeen argument
  arrays, with the one result array equal to the same function of those arrays: the network of module Spec (four
  graph-isomorphism layers, pooling, two dense layers and a row-wise log-softmax).  The kernel program's run leaves every
  unscoped buffer at the last segment boundary's contents, where the result array is that function and each argument
  array is what the launch memory held; the reference program's run leaves every buffer at the fold of its host
  operations over the launch contents, where the result is that function and no operation writes an argument.  The
  three frame claims keep, of the same runs, only the arguments.
-/
import proofs.«115996_j33088428049205_1_alg».proof.Defs
import proofs.«115996_j33088428049205_1_alg».proof.Proof.Gen.Kernel.Frame
import proofs.«115996_j33088428049205_1_alg».proof.Proof.Gen.KernelIdeal.Frame
import proofs.«115996_j33088428049205_1_alg».proof.Proof.Gen.ReferenceIdeal
import proofs.«115996_j33088428049205_1_alg».proof.Proof.Gen.Pre_finite_inputs
import proofs.«115996_j33088428049205_1_alg».proof.Proof.Spec
import proofs.«115996_j33088428049205_1_alg».proof.Proof.KernelRun
import proofs.«115996_j33088428049205_1_alg».proof.Proof.KernelValue
import proofs.«115996_j33088428049205_1_alg».proof.Proof.RefRun
import proofs.«115996_j33088428049205_1_alg».proof.Proof.RefValue

noncomputable section

namespace Cert.Proof.Claims

open Idealize.ShloMosaic Idealize.ShloMosaic.TcCoe Idealize.SL.Sem

/-- The kernel program as printed runs and keeps its arguments. -/
theorem frame_k : Cert.frame_Kernel := fun m ρ _ => Cert.Kernel.Gen.frame m ρ

/-- The kernel program at the ideal values runs and keeps its arguments. -/
theorem frame_ki : Cert.frame_KernelIdeal := fun m ρ _ => Cert.KernelIdeal.Gen.frame m ρ

/-- The reference program runs, and no host operation of it writes an argument array: each ends at the launch contents. -/
theorem frame_ri : Cert.frame_ReferenceIdeal := fun m ρ _ =>
  (θ_run Cert.ReferenceIdeal.defs _ _).mono (fun r h c =>
      ⟨(h c Cert.ReferenceIdeal.main_arg0).trans (Cert.ReferenceIdeal.Run.arg0_eq _),
       (h c Cert.ReferenceIdeal.main_arg1).trans (Cert.ReferenceIdeal.Run.arg1_eq _),
       (h c Cert.ReferenceIdeal.main_arg2).trans (Cert.ReferenceIdeal.Run.arg2_eq _),
       (h c Cert.ReferenceIdeal.main_arg3).trans (Cert.ReferenceIdeal.Run.arg3_eq _),
       (h c Cert.ReferenceIdeal.main_arg4).trans (Cert.ReferenceIdeal.Run.arg4_eq _),
       (h c Cert.ReferenceIdeal.main_arg5).trans (Cert.ReferenceIdeal.Run.arg5_eq _),
       (h c Cert.ReferenceIdeal.main_arg6).trans (Cert.ReferenceIdeal.Run.arg6_eq _),
       (h c Cert.ReferenceIdeal.main_arg7).trans (Cert.ReferenceIdeal.Run.arg7_eq _),
       (h c Cert.ReferenceIdeal.main_arg8).trans (Cert.ReferenceIdeal.Run.arg8_eq _),
       (h c Cert.ReferenceIdeal.main_arg9).trans (Cert.ReferenceIdeal.Run.arg9_eq _),
       (h c Cert.ReferenceIdeal.main_arg10).trans (Cert.ReferenceIdeal.Run.arg10_eq _),
       (h c Cert.ReferenceIdeal.main_arg11).trans (Cert.ReferenceIdeal.Run.arg11_eq _),
       (h c Cert.ReferenceIdeal.main_arg12).trans (Cert.ReferenceIdeal.Run.arg12_eq _),
       (h c Cert.ReferenceIdeal.main_arg13).trans (Cert.ReferenceIdeal.Run.arg13_eq _),
       (h c Cert.ReferenceIdeal.main_arg14).trans (Cert.ReferenceIdeal.Run.arg14_eq _),
       (h c Cert.ReferenceIdeal.main_arg15).trans (Cert.ReferenceIdeal.Run.arg15_eq _),
       (h c Cert.ReferenceIdeal.main_arg16).trans (Cert.ReferenceIdeal.Run.arg16_eq _)⟩)
    (Cert.ReferenceIdeal.Run.run_after (F := Ideal) m ρ)

/-- The ideal pass rewrote no operation of the kernel program: nothing to preserve. -/
theorem preserves : Cert.preserves_Kernel_KernelIdeal := trivial

/-- Both programs end with the network's function of the argument arrays in their result array. -/
theorem algebraic : Cert.algebraic_KernelIdeal_ReferenceIdeal := by
  intro m ρ m' ρ' _ hagree
  refine ⟨fun c => Cert.Spec.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono (fun r h c =>
      ⟨(h c _ (Cert.KernelIdeal.Gen.mem_uc Cert.KernelIdeal.main_v133 (by decide))).trans (Cert.KernelIdeal.Net.result m ρ c),
       (h c _ (Cert.KernelIdeal.Gen.mem_uc Cert.KernelIdeal.main_arg0 (by decide))).trans (Cert.KernelIdeal.Gen.W26_main_arg0 m ρ c),
       (h c _ (Cert.KernelIdeal.Gen.mem_uc Cert.KernelIdeal.main_arg1 (by decide))).trans (Cert.KernelIdeal.Gen.W26_main_arg1 m ρ c),
       (h c _ (Cert.KernelIdeal.Gen.mem_uc Cert.KernelIdeal.main_arg2 (by decide))).trans (Cert.KernelIdeal.Gen.W26_main_arg2 m ρ c),
       (h c _ (Cert.KernelIdeal.Gen.mem_uc Cert.KernelIdeal.main_arg3 (by decide))).trans (Cert.KernelIdeal.Gen.W26_main_arg3 m ρ c),
       (h c _ (Cert.KernelIdeal.Gen.mem_uc Cert.KernelIdeal.main_arg4 (by decide))).trans (Cert.KernelIdeal.Gen.W26_main_arg4 m ρ c),
       (h c _ (Cert.KernelIdeal.Gen.mem_uc Cert.KernelIdeal.main_arg5 (by decide))).trans (Cert.KernelIdeal.Gen.W26_main_arg5 m ρ c),
       (h c _ (Cert.KernelIdeal.Gen.mem_uc Cert.KernelIdeal.main_arg6 (by decide))).trans (Cert.KernelIdeal.Gen.W26_main_arg6 m ρ c),
       (h c _ (Cert.KernelIdeal.Gen.mem_uc Cert.KernelIdeal.main_arg7 (by decide))).trans (Cert.KernelIdeal.Gen.W26_main_arg7 m ρ c),
       (h c _ (Cert.KernelIdeal.Gen.mem_uc Cert.KernelIdeal.main_arg8 (by decide))).trans (Cert.KernelIdeal.Gen.W26_main_arg8 m ρ c),
       (h c _ (Cert.KernelIdeal.Gen.mem_uc Cert.KernelIdeal.main_arg9 (by decide))).trans (Cert.KernelIdeal.Gen.W26_main_arg9 m ρ c),
       (h c _ (Cert.KernelIdeal.Gen.mem_uc Cert.KernelIdeal.main_arg10 (by decide))).trans (Cert.KernelIdeal.Gen.W26_main_arg10 m ρ c),
       (h c _ (Cert.KernelIdeal.Gen.mem_uc Cert.KernelIdeal.main_arg11 (by decide))).trans (Cert.KernelIdeal.Gen.W26_main_arg11 m ρ c),
       (h c _ (Cert.KernelIdeal.Gen.mem_uc Cert.KernelIdeal.main_arg12 (by decide))).trans (Cert.KernelIdeal.Gen.W26_main_arg12 m ρ c),
       (h c _ (Cert.KernelIdeal.Gen.mem_uc Cert.KernelIdeal.main_arg13 (by decide))).trans (Cert.KernelIdeal.Gen.W26_main_arg13 m ρ c),
       (h c _ (Cert.KernelIdeal.Gen.mem_uc Cert.KernelIdeal.main_arg14 (by decide))).trans (Cert.KernelIdeal.Gen.W26_main_arg14 m ρ c),
       (h c _ (Cert.KernelIdeal.Gen.mem_uc Cert.KernelIdeal.main_arg15 (by decide))).trans (Cert.KernelIdeal.Gen.W26_main_arg15 m ρ c),
       (h c _ (Cert.KernelIdeal.Gen.mem_uc Cert.KernelIdeal.main_arg16 (by decide))).trans (Cert.KernelIdeal.Gen.W26_main_arg16 m ρ c)⟩)
      (Cert.KernelIdeal.Run.run_all (F := Ideal) m ρ)
  · refine (θ_run Cert.ReferenceIdeal.defs _ _).mono (fun r h c =>
      ⟨(h c Cert.ReferenceIdeal.main_v225).trans ((Cert.ReferenceIdeal.Run.out_eq _).trans ?_),
       (h c Cert.ReferenceIdeal.main_arg0).trans (Cert.ReferenceIdeal.Run.arg0_eq _),
       (h c Cert.ReferenceIdeal.main_arg1).trans (Cert.ReferenceIdeal.Run.arg1_eq _),
       (h c Cert.ReferenceIdeal.main_arg2).trans (Cert.ReferenceIdeal.Run.arg2_eq _),
       (h c Cert.ReferenceIdeal.main_arg3).trans (Cert.ReferenceIdeal.Run.arg3_eq _),
       (h c Cert.ReferenceIdeal.main_arg4).trans (Cert.ReferenceIdeal.Run.arg4_eq _),
       (h c Cert.ReferenceIdeal.main_arg5).trans (Cert.ReferenceIdeal.Run.arg5_eq _),
       (h c Cert.ReferenceIdeal.main_arg6).trans (Cert.ReferenceIdeal.Run.arg6_eq _),
       (h c Cert.ReferenceIdeal.main_arg7).trans (Cert.ReferenceIdeal.Run.arg7_eq _),
       (h c Cert.ReferenceIdeal.main_arg8).trans (Cert.ReferenceIdeal.Run.arg8_eq _),
       (h c Cert.ReferenceIdeal.main_arg9).trans (Cert.ReferenceIdeal.Run.arg9_eq _),
       (h c Cert.ReferenceIdeal.main_arg10).trans (Cert.ReferenceIdeal.Run.arg10_eq _),
       (h c Cert.ReferenceIdeal.main_arg11).trans (Cert.ReferenceIdeal.Run.arg11_eq _),
       (h c Cert.ReferenceIdeal.main_arg12).trans (Cert.ReferenceIdeal.Run.arg12_eq _),
       (h c Cert.ReferenceIdeal.main_arg13).trans (Cert.ReferenceIdeal.Run.arg13_eq _),
       (h c Cert.ReferenceIdeal.main_arg14).trans (Cert.ReferenceIdeal.Run.arg14_eq _),
       (h c Cert.ReferenceIdeal.main_arg15).trans (Cert.ReferenceIdeal.Run.arg15_eq _),
       (h c Cert.ReferenceIdeal.main_arg16).trans (Cert.ReferenceIdeal.Run.arg16_eq _)⟩)
      (Cert.ReferenceIdeal.Run.run_after (F := Ideal) m' ρ')
    obtain ⟨e0, e1, e2, e3, e4, e5, e6, e7, e8, e9, e10, e11, e12, e13, e14, e15, e16⟩ := hagree c
    show Cert.Spec.net (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = _
    rw [e0, e1, e2, e3, e4, e5, e6, e7, e8, e9, e10, e11, e12, e13, e14, e15, e16]

end Cert.Proof.Claims

end
-- ==== Proof.lean ====
/-
  Four graph-isomorphism layers, a pooling of the node rows into graph rows, two dense layers and a row-wise log-softmax:
  the kernel program (nine pipelined regions among host operations) and the reference program (one line of host
  operations) both end, at the ideal values, with that one function of the seventeen argument arrays in their result,
  and all three programs keep their arguments.  The claims are proved in module Claims from the two runs and the two values.
-/
import proofs.«115996_j33088428049205_1_alg».proof.Defs
import proofs.«115996_j33088428049205_1_alg».proof.Proof.Gen.Kernel
import proofs.«115996_j33088428049205_1_alg».proof.Proof.Gen.Kernel.Skeleton
import proofs.«115996_j33088428049205_1_alg».proof.Proof.Gen.Kernel.Launch
import proofs.«115996_j33088428049205_1_alg».proof.Proof.Gen.Kernel.Points
import proofs.«115996_j33088428049205_1_alg».proof.Proof.Gen.Kernel.Frame
import proofs.«115996_j33088428049205_1_alg».proof.Proof.Gen.KernelIdeal
import proofs.«115996_j33088428049205_1_alg».proof.Proof.Gen.KernelIdeal.Skeleton
import proofs.«115996_j33088428049205_1_alg».proof.Proof.Gen.KernelIdeal.Launch
import proofs.«115996_j33088428049205_1_alg».proof.Proof.Gen.KernelIdeal.Points
import proofs.«115996_j33088428049205_1_alg».proof.Proof.Gen.KernelIdeal.Frame
import proofs.«115996_j33088428049205_1_alg».proof.Proof.Gen.ReferenceIdeal
import proofs.«115996_j33088428049205_1_alg».proof.Proof.Gen.Pre_finite_inputs
import proofs.«115996_j33088428049205_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
